-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S4096x8192 : Shape := ⟨2, ![4096, 8192]⟩
abbrev S_ : Shape := ⟨0, ![]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel

variable [Facts]

def fn {F : FTy → Type} [FloatOps F] (main_arg0 : FVec F S12288x64 .f32) (main_arg1 : IVec S4096x8192 32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  main_v3
-- ==== Kernel.lean ====
abbrev S12288x64 : Shape := ⟨2, ![12288, 64]⟩
abbrev S4096x8192 : Shape := ⟨2, ![4096, 8192]⟩
abbrev S4096x1 : Shape := ⟨2, ![4096, 1]⟩
abbrev S2x1x8192 : Shape := ⟨3, ![2, 1, 8192]⟩
abbrev S2048x1024 : Shape := ⟨2, ![2048, 1024]⟩
abbrev S2048x1 : Shape := ⟨2, ![2048, 1]⟩
abbrev S1x1x1024 : Shape := ⟨3, ![1, 1, 1024]⟩
abbrev S2048 : Shape := ⟨1, ![2048]⟩
abbrev S1024 : Shape := ⟨1, ![1024]⟩
abbrev S1x1024 : Shape := ⟨2, ![1, 1024]⟩
abbrev S1x1x8192 : Shape := ⟨3, ![1, 1, 8192]⟩
abbrev S1x8192 : Shape := ⟨2, ![1, 8192]⟩
abbrev S1024x2048 : Shape := ⟨2, ![1024, 2048]⟩
abbrev S1024x1 : Shape := ⟨2, ![1024, 1]⟩
abbrev S1x2048 : Shape := ⟨2, ![1, 2048]⟩
abbrev S_ : Shape := ⟨0, ![]⟩
abbrev S4096x64 : Shape := ⟨2, ![4096, 64]⟩
abbrev S8192x64 : Shape := ⟨2, ![8192, 64]⟩
abbrev S2x4096x64 : Shape := ⟨3, ![2, 4096, 64]⟩
abbrev S2048x2048 : Shape := ⟨2, ![2048, 2048]⟩
abbrev S2048x64 : Shape := ⟨2, ![2048, 64]⟩
abbrev S1x4096x64 : Shape := ⟨3, ![1, 4096, 64]⟩

abbrev nBuf : Space → Nat
  | .hbm => 48
  | .vmem => 50
  | .smem => 0
  | _ => 0

abbrev bufTy : (tb : Table) → Fin (tcTables nBuf tb) → BufTy
  | .hbm, ⟨0, _⟩ => ⟨S12288x64, .f32⟩
  | .hbm, ⟨1, _⟩ => ⟨S4096x8192, .i32⟩
  | .hbm, ⟨2, _⟩ => ⟨S4096x1, .f32⟩
  | .hbm, ⟨3, _⟩ => ⟨S2x1x8192, .f32⟩
  | .hbm, ⟨4, _⟩ => ⟨S1x1x8192, .f32⟩
  | .hbm, ⟨5, _⟩ => ⟨S1x8192, .f32⟩
  | .hbm, ⟨6, _⟩ => ⟨S1x1x8192, .f32⟩
  | .hbm, ⟨7, _⟩ => ⟨S1x8192, .f32⟩
  | .hbm, ⟨8, _⟩ => ⟨S1x8192, .f32⟩
  | .hbm, ⟨9, _⟩ => ⟨S4096x8192, .bf16⟩
  | .hbm, ⟨10, _⟩ => ⟨S_, .f32⟩
  | .hbm, ⟨11, _⟩ => ⟨S12288x64, .f32⟩
  | .hbm, ⟨12, _⟩ => ⟨S4096x64, .f32⟩
  | .hbm, ⟨13, _⟩ => ⟨S8192x64, .f32⟩
  | .hbm, ⟨14, _⟩ => ⟨S8192x64, .f32⟩
  | .hbm, ⟨15, _⟩ => ⟨S2x4096x64, .f32⟩
  | .hbm, ⟨16, _⟩ => ⟨S1x4096x64, .f32⟩
  | .hbm, ⟨17, _⟩ => ⟨S4096x64, .f32⟩
  | .hbm, ⟨18, _⟩ => ⟨S1x4096x64, .f32⟩
  | .hbm, ⟨19, _⟩ => ⟨S4096x64, .f32⟩
  | .hbm, ⟨20, _⟩ => ⟨S4096x64, .f32⟩
  | .hbm, ⟨21, _⟩ => ⟨S12288x64, .f32⟩
  | .hbm, ⟨22, _⟩ => ⟨S12288x64, .f32⟩
  | .hbm, ⟨23, _⟩ => ⟨S4096x64, .f32⟩
  | .hbm, ⟨24, _⟩ => ⟨S8192x64, .f32⟩
  | .hbm, ⟨25, _⟩ => ⟨S8192x64, .f32⟩
  | .hbm, ⟨26, _⟩ => ⟨S2x4096x64, .f32⟩
  | .hbm, ⟨27, _⟩ => ⟨S1x4096x64, .f32⟩
  | .hbm, ⟨28, _⟩ => ⟨S4096x64, .f32⟩
  | .hbm, ⟨29, _⟩ => ⟨S1x4096x64, .f32⟩
  | .hbm, ⟨30, _⟩ => ⟨S4096x64, .f32⟩
  | .hbm, ⟨31, _⟩ => ⟨S4096x64, .f32⟩
  | .hbm, ⟨32, _⟩ => ⟨S12288x64, .f32⟩
  | .hbm, ⟨33, _⟩ => ⟨S12288x64, .f32⟩
  | .hbm, ⟨34, _⟩ => ⟨S4096x64, .f32⟩
  | .hbm, ⟨35, _⟩ => ⟨S8192x64, .f32⟩
  | .hbm, ⟨36, _⟩ => ⟨S8192x64, .f32⟩
  | .hbm, ⟨37, _⟩ => ⟨S2x4096x64, .f32⟩
  | .hbm, ⟨38, _⟩ => ⟨S1x4096x64, .f32⟩
  | .hbm, ⟨39, _⟩ => ⟨S4096x64, .f32⟩
  | .hbm, ⟨40, _⟩ => ⟨S1x4096x64, .f32⟩
  | .hbm, ⟨41, _⟩ => ⟨S4096x64, .f32⟩
  | .hbm, ⟨42, _⟩ => ⟨S4096x64, .f32⟩
  | .hbm, ⟨43, _⟩ => ⟨S12288x64, .f32⟩
  | .hbm, ⟨44, _⟩ => ⟨S12288x64, .f32⟩
  | .hbm, ⟨45, _⟩ => ⟨S_, .f32⟩
  | .hbm, ⟨46, _⟩ => ⟨S12288x64, .f32⟩
  | .hbm, ⟨47, _⟩ => ⟨S12288x64, .f32⟩
  | .local _ .vmem, ⟨0, _⟩ => ⟨S2048x1024, .i32⟩
  | .local _ .vmem, ⟨1, _⟩ => ⟨S2048x1024, .i32⟩
  | .local _ .vmem, ⟨2, _⟩ => ⟨S2048x1, .f32⟩
  | .local _ .vmem, ⟨3, _⟩ => ⟨S2048x1, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .i32⟩
  | .local _ .vmem, ⟨7, _⟩ => ⟨S1024x2048, .i32⟩
  | .local _ .vmem, ⟨8, _⟩ => ⟨S1024x1, .f32⟩
  | .local _ .vmem, ⟨9, _⟩ => ⟨S1024x1, .f32⟩
  | .local _ .vmem, ⟨10, _⟩ => ⟨S1x2048, .f32⟩
  | .local _ .vmem, ⟨11, _⟩ => ⟨S1x2048, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S2048x2048, .bf16⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S4096x64, .f32⟩
  | .local _ .vmem, ⟨21, _⟩ => ⟨S4096x64, .f32⟩
  | .local _ .vmem, ⟨22, _⟩ => ⟨S1x4096x64, .f32⟩
  | .local _ .vmem, ⟨23, _⟩ => ⟨S1x4096x64, .f32⟩
  | .local _ .vmem, ⟨24, _⟩ => ⟨S4096x64, .f32⟩
  | .local _ .vmem, ⟨25, _⟩ => ⟨S4096x64, .f32⟩
  | .local _ .vmem, ⟨26, _⟩ => ⟨S2048x2048, .bf16⟩
  | .local _ .vmem, ⟨27, _⟩ => ⟨S2048x2048, .bf16⟩
  | .local _ .vmem, ⟨28, _⟩ => ⟨S2048x64, .f32⟩
  | .local _ .vmem, ⟨29, _⟩ => ⟨S2048x64, .f32⟩
  | .local _ .vmem, ⟨30, _⟩ => ⟨S2048x64, .f32⟩
  | .local _ .vmem, ⟨31, _⟩ => ⟨S2048x64, .f32⟩
  | .local _ .vmem, ⟨32, _⟩ => ⟨S4096x64, .f32⟩
  | .local _ .vmem, ⟨33, _⟩ => ⟨S4096x64, .f32⟩
  | .local _ .vmem, ⟨34, _⟩ => ⟨S1x4096x64, .f32⟩
  | .local _ .vmem, ⟨35, _⟩ => ⟨S1x4096x64, .f32⟩
  | .local _ .vmem, ⟨36, _⟩ => ⟨S4096x64, .f32⟩
  | .local _ .vmem, ⟨37, _⟩ => ⟨S4096x64, .f32⟩
  | .local _ .vmem, ⟨38, _⟩ => ⟨S2048x2048, .bf16⟩
  | .local _ .vmem, ⟨39, _⟩ => ⟨S2048x2048, .bf16⟩
  | .local _ .vmem, ⟨40, _⟩ => ⟨S2048x64, .f32⟩
  | .local _ .vmem, ⟨41, _⟩ => ⟨S2048x64, .f32⟩
  | .local _ .vmem, ⟨42, _⟩ => ⟨S2048x64, .f32⟩
  | .local _ .vmem, ⟨43, _⟩ => ⟨S2048x64, .f32⟩
  | .local _ .vmem, ⟨44, _⟩ => ⟨S4096x64, .f32⟩
  | .local _ .vmem, ⟨45, _⟩ => ⟨S4096x64, .f32⟩
  | .local _ .vmem, ⟨46, _⟩ => ⟨S1x4096x64, .f32⟩
  | .local _ .vmem, ⟨47, _⟩ => ⟨S1x4096x64, .f32⟩
  | .local _ .vmem, ⟨48, _⟩ => ⟨S4096x64, .f32⟩
  | .local _ .vmem, ⟨49, _⟩ => ⟨S4096x64, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30_0 : Ref sig .tc := ⟨.hbm, 36, rfl⟩
abbrev main_v30_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_0 : Ref sig .tc := ⟨.hbm, 45, rfl⟩
abbrev main_v38 : Ref sig .tc := ⟨.hbm, 46, rfl⟩
abbrev main_v39 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_scratch0 : Ref sig .tc := ⟨.vmem, 24, rfl⟩
abbrev cc2_scratch1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_scratch0 : Ref sig .tc := ⟨.vmem, 36, rfl⟩
abbrev cc3_scratch1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc4_scratch0 : Ref sig .tc := ⟨.vmem, 48, rfl⟩
abbrev cc4_scratch1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![2, 2, 2], ![false, false, false]⟩

def k2_mult1 (i : grid2.Coords) : BitVec 32 :=
  let arg1 : BitVec 32 := BitVec.ofNat 32 (i 1).val
  let c2048_i32 : BitVec 32 := 2048#32
  let v13 : BitVec 32 := Scalar.muli arg1 c2048_i32
  v13
def k2_off1 (i : grid2.Coords) : Fin 2 → Nat :=
  let arg1 : BitVec 32 := BitVec.ofNat 32 (i 1).val
  let c2048_i32 : BitVec 32 := 2048#32
  let v13 : BitVec 32 := Scalar.muli arg1 c2048_i32
  let v14 : BitVec 32 := v13
  let v16 : Index := Scalar.indexCast v14
  let c0_7 : Index := 0#32
  ![v16.toNat, 0]
def k2_mult2 (i : grid2.Coords) : BitVec 32 :=
  let arg2 : BitVec 32 := BitVec.ofNat 32 (i 2).val
  let c2048_i32_9 : BitVec 32 := 2048#32
  let v23 : BitVec 32 := Scalar.muli arg2 c2048_i32_9
  v23
def k2_off2 (i : grid2.Coords) : Fin 2 → Nat :=
  let arg2 : BitVec 32 := BitVec.ofNat 32 (i 2).val
  let c2048_i32_9 : BitVec 32 := 2048#32
  let v23 : BitVec 32 := Scalar.muli arg2 c2048_i32_9
  let v24 : BitVec 32 := v23
  let v26 : Index := Scalar.indexCast v24
  let c0_11 : Index := 0#32
  ![v26.toNat, 0]
def k2_cond2 (i : grid2.Coords) : BitVec 1 :=
  let arg1 : BitVec 32 := BitVec.ofNat 32 (i 1).val
  let c1_i32 : BitVec 32 := 1#32
  let v33 : BitVec 1 := Scalar.cmpi .eq arg1 c1_i32
  let arg2 : BitVec 32 := BitVec.ofNat 32 (i 2).val
  let c1_i32_13 : BitVec 32 := 1#32
  let v34 : BitVec 1 := Scalar.cmpi .eq arg2 c1_i32_13
  let v35 : BitVec 1 := Scalar.andi v33 v34
  let v36 : BitVec 32 := Scalar.extui v35
  let c0_i32_14 : BitVec 32 := 0#32
  let v37 : BitVec 1 := Scalar.cmpi .ne v36 c0_i32_14
  v37

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S4096x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1x4096x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev grid3 : Pipeline.Grid := ⟨3, ![2, 2, 2], ![false, false, false]⟩

def k3_mult1 (i : grid3.Coords) : BitVec 32 :=
  let arg1 : BitVec 32 := BitVec.ofNat 32 (i 1).val
  let c2048_i32 : BitVec 32 := 2048#32
  let v13 : BitVec 32 := Scalar.muli arg1 c2048_i32
  v13
def k3_off1 (i : grid3.Coords) : Fin 2 → Nat :=
  let arg1 : BitVec 32 := BitVec.ofNat 32 (i 1).val
  let c2048_i32 : BitVec 32 := 2048#32
  let v13 : BitVec 32 := Scalar.muli arg1 c2048_i32
  let v14 : BitVec 32 := v13
  let v16 : Index := Scalar.indexCast v14
  let c0_7 : Index := 0#32
  ![v16.toNat, 0]
def k3_mult2 (i : grid3.Coords) : BitVec 32 :=
  let arg2 : BitVec 32 := BitVec.ofNat 32 (i 2).val
  let c2048_i32_9 : BitVec 32 := 2048#32
  let v23 : BitVec 32 := Scalar.muli arg2 c2048_i32_9
  v23
def k3_off2 (i : grid3.Coords) : Fin 2 → Nat :=
  let arg2 : BitVec 32 := BitVec.ofNat 32 (i 2).val
  let c2048_i32_9 : BitVec 32 := 2048#32
  let v23 : BitVec 32 := Scalar.muli arg2 c2048_i32_9
  let v24 : BitVec 32 := v23
  let v26 : Index := Scalar.indexCast v24
  let c0_11 : Index := 0#32
  ![v26.toNat, 0]
def k3_cond2 (i : grid3.Coords) : BitVec 1 :=
  let arg1 : BitVec 32 := BitVec.ofNat 32 (i 1).val
  let c1_i32 : BitVec 32 := 1#32
  let v33 : BitVec 1 := Scalar.cmpi .eq arg1 c1_i32
  let arg2 : BitVec 32 := BitVec.ofNat 32 (i 2).val
  let c1_i32_13 : BitVec 32 := 1#32
  let v34 : BitVec 1 := Scalar.cmpi .eq arg2 c1_i32_13
  let v35 : BitVec 1 := Scalar.andi v33 v34
  let v36 : BitVec 32 := Scalar.extui v35
  let c0_i32_14 : BitVec 32 := 0#32
  let v37 : BitVec 1 := Scalar.cmpi .ne v36 c0_i32_14
  v37

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S4096x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, false]

abbrev stage3_4 : Fin 2 → Memref sig .tc .vmem S1x4096x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false, false]

abbrev grid4 : Pipeline.Grid := ⟨3, ![2, 2, 2], ![false, false, false]⟩

def k4_mult1 (i : grid4.Coords) : BitVec 32 :=
  let arg1 : BitVec 32 := BitVec.ofNat 32 (i 1).val
  let c2048_i32 : BitVec 32 := 2048#32
  let v13 : BitVec 32 := Scalar.muli arg1 c2048_i32
  v13
def k4_off1 (i : grid4.Coords) : Fin 2 → Nat :=
  let arg1 : BitVec 32 := BitVec.ofNat 32 (i 1).val
  let c2048_i32 : BitVec 32 := 2048#32
  let v13 : BitVec 32 := Scalar.muli arg1 c2048_i32
  let v14 : BitVec 32 := v13
  let v16 : Index := Scalar.indexCast v14
  let c0_7 : Index := 0#32
  ![v16.toNat, 0]
def k4_mult2 (i : grid4.Coords) : BitVec 32 :=
  let arg2 : BitVec 32 := BitVec.ofNat 32 (i 2).val
  let c2048_i32_9 : BitVec 32 := 2048#32
  let v23 : BitVec 32 := Scalar.muli arg2 c2048_i32_9
  v23
def k4_off2 (i : grid4.Coords) : Fin 2 → Nat :=
  let arg2 : BitVec 32 := BitVec.ofNat 32 (i 2).val
  let c2048_i32_9 : BitVec 32 := 2048#32
  let v23 : BitVec 32 := Scalar.muli arg2 c2048_i32_9
  let v24 : BitVec 32 := v23
  let v26 : Index := Scalar.indexCast v24
  let c0_11 : Index := 0#32
  ![v26.toNat, 0]
def k4_cond2 (i : grid4.Coords) : BitVec 1 :=
  let arg1 : BitVec 32 := BitVec.ofNat 32 (i 1).val
  let c1_i32 : BitVec 32 := 1#32
  let v33 : BitVec 1 := Scalar.cmpi .eq arg1 c1_i32
  let arg2 : BitVec 32 := BitVec.ofNat 32 (i 2).val
  let c1_i32_13 : BitVec 32 := 1#32
  let v34 : BitVec 1 := Scalar.cmpi .eq arg2 c1_i32_13
  let v35 : BitVec 1 := Scalar.andi v33 v34
  let v36 : BitVec 32 := Scalar.extui v35
  let c0_i32_14 : BitVec 32 := 0#32
  let v37 : BitVec 1 := Scalar.cmpi .ne v36 c0_i32_14
  v37

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc4_transform_4 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false, true]

abbrev stage4_3 : Fin 2 → Memref sig .tc .vmem S4096x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false, false]

abbrev stage4_4 : Fin 2 → Memref sig .tc .vmem S1x4096x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false, false]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  reduces_S2048x1024_S1024 : S2048x1024.Reduces [0] S1024
  shapeCasts_S1024_S1x1024 : S1024.ShapeCasts S1x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  slices_S2x1x8192_S1x1x8192_0_0_0 : S2x1x8192.Slices ![0, 0, 0] S1x1x8192
  shapeCasts_S1x1x8192_S1x8192 : S1x1x8192.ShapeCasts S1x8192
  slices_S2x1x8192_S1x1x8192_1_0_0 : S2x1x8192.Slices ![1, 0, 0] S1x1x8192
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  bcast_S_S12288x64 : S_.BroadcastsInDim S12288x64 (![] : Fin 0 → Fin S12288x64.rank)
  slices_S12288x64_S4096x64_0_0 : S12288x64.Slices ![0, 0] S4096x64
  slices_S12288x64_S8192x64_4096_0 : S12288x64.Slices ![4096, 0] S8192x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  slices_S2x4096x64_S1x4096x64_0_0_0 : S2x4096x64.Slices ![0, 0, 0] S1x4096x64
  slices_S2x4096x64_S1x4096x64_1_0_0 : S2x4096x64.Slices ![1, 0, 0] S1x4096x64
  concatenates_S8192x64_S4096x64_S12288x64_d0 : Shape.Concatenates [S8192x64, S4096x64] S12288x64 0
  dot_S2048x2048_S2048x64_S2048x64_1_0_0_1_n_n_wf : DotDims.WF S2048x2048 S2048x64 S2048x64 [1] [0] [0] [1] [] []
  dot_S2048x2048_S2048x64_S2048x64_0_0_1_1_n_n_wf : DotDims.WF S2048x2048 S2048x64 S2048x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x8192.size a
  hwx0_0 : ∀ i : grid0.Coords, EltTy.bits .i32 = 32 ∨ (Rect.block (s := S4096x8192) S2048x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S4096x1.size a
  hwx0_1 : ∀ i : grid0.Coords, EltTy.bits .f32 = 32 ∨ (Rect.block (s := S4096x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S2x1x8192.size a
  hwx0_2 : ∀ i : grid0.Coords, EltTy.bits .f32 = 32 ∨ (Rect.block (s := S2x1x8192) S1x1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x8192.size a
  hwx1_0 : ∀ i : grid1.Coords, EltTy.bits .i32 = 32 ∨ (Rect.block (s := S4096x8192) S1024x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .f32 = 32 ∨ (Rect.block (s := S4096x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x8192.size a
  hwx1_3 : ∀ i : grid1.Coords, EltTy.bits .bf16 = 32 ∨ (Rect.block (s := S4096x8192) S1024x2048.size (cc1_transform_3 i) (hinb1_3 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x64.size a ≤ S4096x64.size a
  k2_mult2_dvd : ∀ i : grid2.Coords, 2048 ∣ (k2_mult2 i).toNat
  k2_off2_inb : ∀ i : grid2.Coords, ∀ a, (k2_off2 i) a + S2048x64.size a ≤ S4096x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S4096x8192.size a
  hwx2_0 : ∀ i : grid2.Coords, EltTy.bits .bf16 = 32 ∨ (Rect.block (s := S4096x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S4096x64.size a
  hwx2_1 : ∀ i : grid2.Coords, EltTy.bits .f32 = 32 ∨ (Rect.block (s := S4096x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S8192x64.size a
  hwx2_2 : ∀ i : grid2.Coords, EltTy.bits .f32 = 32 ∨ (Rect.block (s := S8192x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x64.size a ≤ S8192x64.size a
  hwx2_3 : ∀ i : grid2.Coords, EltTy.bits .f32 = 32 ∨ (Rect.block (s := S8192x64) S4096x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x4096x64.size a ≤ S2x4096x64.size a
  hwx2_4 : ∀ i : grid2.Coords, EltTy.bits .f32 = 32 ∨ (Rect.block (s := S2x4096x64) S1x4096x64.size (cc2_transform_4 i) (hinb2_4 i)).WholeWords (EltTy.packing .f32)
  hrank3 : 0 < grid3.rank
  k3_mult1_dvd : ∀ i : grid3.Coords, 2048 ∣ (k3_mult1 i).toNat
  k3_off1_inb : ∀ i : grid3.Coords, ∀ a, (k3_off1 i) a + S2048x64.size a ≤ S4096x64.size a
  k3_mult2_dvd : ∀ i : grid3.Coords, 2048 ∣ (k3_mult2 i).toNat
  k3_off2_inb : ∀ i : grid3.Coords, ∀ a, (k3_off2 i) a + S2048x64.size a ≤ S4096x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S4096x8192.size a
  hwx3_0 : ∀ i : grid3.Coords, EltTy.bits .bf16 = 32 ∨ (Rect.block (s := S4096x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S4096x64.size a
  hwx3_1 : ∀ i : grid3.Coords, EltTy.bits .f32 = 32 ∨ (Rect.block (s := S4096x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S8192x64.size a
  hwx3_2 : ∀ i : grid3.Coords, EltTy.bits .f32 = 32 ∨ (Rect.block (s := S8192x64) S2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x64.size a ≤ S8192x64.size a
  hwx3_3 : ∀ i : grid3.Coords, EltTy.bits .f32 = 32 ∨ (Rect.block (s := S8192x64) S4096x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x4096x64.size a ≤ S2x4096x64.size a
  hwx3_4 : ∀ i : grid3.Coords, EltTy.bits .f32 = 32 ∨ (Rect.block (s := S2x4096x64) S1x4096x64.size (cc3_transform_4 i) (hinb3_4 i)).WholeWords (EltTy.packing .f32)
  hrank4 : 0 < grid4.rank
  k4_mult1_dvd : ∀ i : grid4.Coords, 2048 ∣ (k4_mult1 i).toNat
  k4_off1_inb : ∀ i : grid4.Coords, ∀ a, (k4_off1 i) a + S2048x64.size a ≤ S4096x64.size a
  k4_mult2_dvd : ∀ i : grid4.Coords, 2048 ∣ (k4_mult2 i).toNat
  k4_off2_inb : ∀ i : grid4.Coords, ∀ a, (k4_off2 i) a + S2048x64.size a ≤ S4096x64.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S4096x8192.size a
  hwx4_0 : ∀ i : grid4.Coords, EltTy.bits .bf16 = 32 ∨ (Rect.block (s := S4096x8192) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S4096x64.size a
  hwx4_1 : ∀ i : grid4.Coords, EltTy.bits .f32 = 32 ∨ (Rect.block (s := S4096x64) S2048x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S8192x64.size a
  hwx4_2 : ∀ i : grid4.Coords, EltTy.bits .f32 = 32 ∨ (Rect.block (s := S8192x64) S2048x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x64.size a ≤ S8192x64.size a
  hwx4_3 : ∀ i : grid4.Coords, EltTy.bits .f32 = 32 ∨ (Rect.block (s := S8192x64) S4096x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x4096x64.size a ≤ S2x4096x64.size a
  hwx4_4 : ∀ i : grid4.Coords, EltTy.bits .f32 = 32 ∨ (Rect.block (s := S2x4096x64) S1x4096x64.size (cc4_transform_4 i) (hinb4_4 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10_0) S4096x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10_1) S1x4096x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v6) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20_0) S4096x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v20_1) S1x4096x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v6) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S2048x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30_0) S4096x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v30_1) S1x4096x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

class Facts : Prop extends Facts₀ where

variable [Facts]
-- ==== ReferenceIdeal.lean ====
abbrev S12288x64 : Shape := ⟨2, ![12288, 64]⟩
abbrev S4096x8192 : Shape := ⟨2, ![4096, 8192]⟩
abbrev S_ : Shape := ⟨0, ![]⟩
abbrev S4096 : Shape := ⟨1, ![4096]⟩
abbrev S8192 : Shape := ⟨1, ![8192]⟩
abbrev S4096x1 : Shape := ⟨2, ![4096, 1]⟩
abbrev S1x8192 : Shape := ⟨2, ![1, 8192]⟩
abbrev S8192x4096 : Shape := ⟨2, ![8192, 4096]⟩
abbrev S4096x64 : Shape := ⟨2, ![4096, 64]⟩
abbrev S8192x64 : Shape := ⟨2, ![8192, 64]⟩

abbrev nBuf : Space → Nat
  | .hbm => 54
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S4096x8192, .i32⟩
  | .hbm, ⟨2, _⟩ => ⟨S4096x8192, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S8192, .f32⟩
  | .hbm, ⟨7, _⟩ => ⟨S4096x1, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .i1⟩
  | .hbm, ⟨16, _⟩ => ⟨S_, .f32⟩
  | .hbm, ⟨17, _⟩ => ⟨S4096x8192, .f32⟩
  | .hbm, ⟨18, _⟩ => ⟨S4096x8192, .i1⟩
  | .hbm, ⟨19, _⟩ => ⟨S_, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S12288x64, .f32⟩
  | .hbm, ⟨30, _⟩ => ⟨S8192x4096, .f32⟩
  | .hbm, ⟨31, _⟩ => ⟨S4096x64, .f32⟩
  | .hbm, ⟨32, _⟩ => ⟨S8192x64, .f32⟩
  | .hbm, ⟨33, _⟩ => ⟨S8192x64, .f32⟩
  | .hbm, ⟨34, _⟩ => ⟨S4096x64, .f32⟩
  | .hbm, ⟨35, _⟩ => ⟨S12288x64, .f32⟩
  | .hbm, ⟨36, _⟩ => ⟨S12288x64, .f32⟩
  | .hbm, ⟨37, _⟩ => ⟨S8192x4096, .f32⟩
  | .hbm, ⟨38, _⟩ => ⟨S4096x64, .f32⟩
  | .hbm, ⟨39, _⟩ => ⟨S8192x64, .f32⟩
  | .hbm, ⟨40, _⟩ => ⟨S8192x64, .f32⟩
  | .hbm, ⟨41, _⟩ => ⟨S4096x64, .f32⟩
  | .hbm, ⟨42, _⟩ => ⟨S12288x64, .f32⟩
  | .hbm, ⟨43, _⟩ => ⟨S12288x64, .f32⟩
  | .hbm, ⟨44, _⟩ => ⟨S8192x4096, .f32⟩
  | .hbm, ⟨45, _⟩ => ⟨S4096x64, .f32⟩
  | .hbm, ⟨46, _⟩ => ⟨S8192x64, .f32⟩
  | .hbm, ⟨47, _⟩ => ⟨S8192x64, .f32⟩
  | .hbm, ⟨48, _⟩ => ⟨S4096x64, .f32⟩
  | .hbm, ⟨49, _⟩ => ⟨S12288x64, .f32⟩
  | .hbm, ⟨50, _⟩ => ⟨S12288x64, .f32⟩
  | .hbm, ⟨51, _⟩ => ⟨S_, .f32⟩
  | .hbm, ⟨52, _⟩ => ⟨S12288x64, .f32⟩
  | .hbm, ⟨53, _⟩ => ⟨S12288x64, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  reducesTo_S4096x8192_S8192_d0 : S4096x8192.ReducesTo [0] S8192
  bcast_S4096_S4096x1_0 : S4096.BroadcastsInDim S4096x1 (![0] : Fin 1 → Fin S4096x1.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  bcast_S_S12288x64 : S_.BroadcastsInDim S12288x64 (![] : Fin 0 → Fin S12288x64.rank)
  transposes_S4096x8192_S8192x4096_1_0 : S4096x8192.Transposes [1, 0] S8192x4096
  slices_S12288x64_S4096x64_0_0 : S12288x64.Slices ![0, 0] S4096x64
  slices_S12288x64_S8192x64_4096_0 : S12288x64.Slices ![4096, 0] S8192x64
  concatenates_S8192x64_S4096x64_S12288x64_d0 : Shape.Concatenates [S8192x64, S4096x64] S12288x64 0
  dot_S8192x4096_S4096x64_S8192x64_1_0_0_1_n_n_wf : DotDims.WF S8192x4096 S4096x64 S8192x64 [1] [0] [0] [1] [] []
  dot_S4096x8192_S8192x64_S4096x64_1_0_0_1_n_n_wf : DotDims.WF S4096x8192 S8192x64 S4096x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf

class Facts : Prop extends Facts₀ where

variable [Facts]
-- ==== Proof.K0Runs.lean ====
/-
  The first pallas_call (row sums of a half of the matrix, accumulated over eight column tiles, beside the
  column sums of each tile): the body's two runs. The grid is 2 x 8 (row half c, column tile j). When j = 0 the
  row-sum block is zeroed before the tile's row sums are added to it; at the other points they are added to what
  the point before left there. The column-sum block is stored whole at every point.
-/
import proofs.«142347_j15487652069895_2_alg».proof.Proof.Gen.KernelIdeal.Launch
import proofs.«142347_j15487652069895_2_alg».proof.Proof.Gen.KernelIdeal.Skeleton
import proofs.«142347_j15487652069895_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-- The branch's condition (j = 0), from the grid coordinates. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev VO0_1 : View sig .tc .vmem S2048x1 .f32 := (Memref.whole cc0_stg1_0 : Memref sig .tc .vmem S2048x1 .f32).view
abbrev VO0_2 : View sig .tc .vmem S1x1x1024 .f32 := (Memref.whole cc0_stg2_0 : Memref sig .tc .vmem S1x1x1024 .f32).view
abbrev ms0_0 (t : Fin cfg0.N) : Memref sig .tc .vmem S2048x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)

set_option maxHeartbeats 4000000 in
/-- The body where j = 0: the pieces its stores leave in the two output blocks, with its triple. -/
noncomputable def kernelRun0_A (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i)
    (x0 : Vec F S2048x1024 .i32) :
    Σ' (L1 : List (View.Piece (Elt F) S2048x1 .f32)), { L2 : List (View.Piece (Elt F) S1x1x1024 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

set_option maxHeartbeats 4000000 in
/-- The body where j is not 0: the row-sum block is read at what the point before left (`xo1`). -/
noncomputable def kernelRun0_B (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i)
    (x0 : Vec F S2048x1024 .i32) (xo1 : Vec F S2048x1 .f32) :
    Σ' (L1 : List (View.Piece (Elt F) S2048x1 .f32)), { L2 : List (View.Piece (Elt F) S1x1x1024 .f32) //
      ∀ (E : Set ℕ) (K : PUnit → sProp 𝕄),
        iprop(owns (c : Thread nD τ) arg2 fullShare x0 ∗ owns (c : Thread nD τ) arg3 fullShare xo1 ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; iexact H1
    iexists _; iexact H2

end Cert.KernelIdeal.Hand

end
-- ==== Proof.K0Frame.lean ====
/-
  The first pallas_call as one region: what its two output blocks hold after every grid point (the row-sum block
  an accumulation over the eight column tiles of a row half, the column-sum block each tile's own), the proof
  data over those contents, and the body obligation.
-/
import proofs.«142347_j15487652069895_2_alg».proof.Proof.K0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover0_A_1 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) (y : S2048x1.Idx) : ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S2048x1.size (by sl_kernel_rfl) y
theorem cover0_A_2 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) (y : S1x1x1024.Idx) : ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x1x1024.size (by sl_kernel_rfl) y
def out0_A_1 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) : Vec F S2048x1 .f32 := VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) : Vec F S1x1x1024 .f32 := VO0_2.read (Elt F) (VO0_2.writes (Elt F) VO0_2.junk (kernelRun0_A c i arg2 harg2 arg3 harg3 arg4 harg4 hc0 x0).2.1)
theorem cover0_B_1 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) (y : S2048x1.Idx) : ∃ pc ∈ (kernelRun0_B c i arg2 harg2 arg3 harg3 arg4 harg4 hc0 x0 xo1).1, y ∈ pc.1.set :=
  View.cover_of_tiledL (kernelRun0_B c i arg2 harg2 arg3 harg3 arg4 harg4 hc0 x0 xo1).1 S2048x1.size (by sl_kernel_rfl) y
theorem cover0_B_2 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) (y : S1x1x1024.Idx) : ∃ pc ∈ (kernelRun0_B c i arg2 harg2 arg3 harg3 arg4 harg4 hc0 x0 xo1).2.1, y ∈ pc.1.set :=
  View.cover_of_tiledL (kernelRun0_B c i arg2 harg2 arg3 harg3 arg4 harg4 hc0 x0 xo1).2.1 S1x1x1024.size (by sl_kernel_rfl) y
def out0_B_1 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) : Vec F S2048x1 .f32 := VO0_1.read (Elt F) (VO0_1.writes (Elt F) VO0_1.junk (kernelRun0_B c i arg2 harg2 arg3 harg3 arg4 harg4 hc0 x0 xo1).1)
def out0_B_2 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) : Vec F S1x1x1024 .f32 := VO0_2.read (Elt F) (VO0_2.writes (Elt F) VO0_2.junk (kernelRun0_B c i arg2 harg2 arg3 harg3 arg4 harg4 hc0 x0 xo1).2.1)

section
variable (V : (c : Dev nD) → (b : Ref sig .tc) → Buf (Elt F) ((c : Thread nD τ).loc b))

/-- What the two output blocks' staging buffers hold after the body at position `n`, by recursion on the position:
    the row-sum block accumulates from the position before unless the position starts a row half. -/
def outsAt0 (c : Dev nD) : (n : ℕ) → n < cfg0.N → Vec F S2048x1 .f32 × Vec F S1x1x1024 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1)

theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t), out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1, out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
/-- Where the row-sum block is not reset, its staging buffer holds what the body left at the point before: the
    block was not written back in between. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 8 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

theorem body_obligation0 (c : Dev nD) : BodyObligation (dat0 (F := F) V c) (defs₀ (F := F)) Variants.none () Set.univ := fun t => by
  rw [bigSep_W0, bigSep_W0]
  exact sound_body0 V c t
end

end Cert.KernelIdeal.Hand

end
-- ==== Proof.K1Frame.lean ====
/-
  The second pallas_call (the degree-normalised weights, one 1024 x 2048 tile per grid point of a 4 x 4 grid) as
  one region: its body stores the output tile whole at every point, a pointwise function of the three input
  blocks; the proof data and the body obligation.
-/
import proofs.«142347_j15487652069895_2_alg».proof.Proof.Gen.KernelIdeal.Launch
import proofs.«142347_j15487652069895_2_alg».proof.Proof.Gen.KernelIdeal.Skeleton
import proofs.«142347_j15487652069895_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

abbrev VO1_3 : View sig .tc .vmem S1024x2048 .bf16 := (Memref.whole cc1_stg3_0 : Memref sig .tc .vmem S1024x2048 .bf16).view
abbrev ms1_0 (t : Fin cfg1.N) : Memref sig .tc .vmem S1024x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)

set_option maxHeartbeats 4000000 in
/-- The body's one run: the pieces its store leaves in the output block, with its triple. -/
noncomputable def kernelRun1 (c : Dev nD) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1024x2048 .bf16) (harg5 : arg5.IsWhole) (x0 : Vec F S1024x2048 .i32) (x1 : Vec F S1024x1 .f32) (x2 : Vec F S1x2048 .f32) :
    { L3 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__weight_kernel i arg2 harg2 arg3 harg3 arg4 harg4 arg5 harg5) K } := by
  refine ⟨?_, fun E K => ?run⟩
  case run =>
    simp only [cc1__weight_kernel_eq_skeleton]; unfold cc1__weight_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

theorem cover1_3 (c : Dev nD) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1024x2048 .bf16) (harg5 : arg5.IsWhole) (x0 : Vec F S1024x2048 .i32) (x1 : Vec F S1024x1 .f32) (x2 : Vec F S1x2048 .f32) (y : S1024x2048.Idx) : ∃ pc ∈ (kernelRun1 c i arg2 harg2 arg3 harg3 arg4 harg4 arg5 harg5 x0 x1 x2).1, y ∈ pc.1.set :=
  View.cover_of_tiledL (kernelRun1 c i arg2 harg2 arg3 harg3 arg4 harg4 arg5 harg5 x0 x1 x2).1 S1024x2048.size (by sl_kernel_rfl) y
def out1_3 (c : Dev nD) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1024x2048 .bf16) (harg5 : arg5.IsWhole) (x0 : Vec F S1024x2048 .i32) (x1 : Vec F S1024x1 .f32) (x2 : Vec F S1x2048 .f32) : Vec F S1024x2048 .bf16 := VO1_3.read (Elt F) (VO1_3.writes (Elt F) VO1_3.junk (kernelRun1 c i arg2 harg2 arg3 harg3 arg4 harg4 arg5 harg5 x0 x1 x2).1)

section
variable (V : (c : Dev nD) → (b : Ref sig .tc) → Buf (Elt F) ((c : Thread nD τ).loc b))

def outAt1 (c : Dev nD) (t : Fin cfg1.N) : Vec F S1024x2048 .bf16 :=
  out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt1 out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t
end

end Cert.KernelIdeal.Hand

end
-- ==== Proof.K2Runs.lean ====
/-
  The third pallas_call (one propagation layer): what its body's runs share.
  The grid is 2 x 2 x 2 (column half c, row tile i, column tile j of the half). The body zeroes its two
  scratch accumulators when i = 0 and j = 0, adds one tile product into a 2048-row band of each, and when
  i = 1 and j = 1 copies both accumulators into the two output blocks. So a point is in one of three
  cases, decided by the point's position modulo 4: 0 (zero, then add), 1 or 2 (add), 3 (add, then copy out).
-/
import proofs.«142347_j15487652069895_2_alg».proof.Proof.Gen.KernelIdeal.Launch
import proofs.«142347_j15487652069895_2_alg».proof.Proof.Gen.KernelIdeal.Skeleton
import proofs.«142347_j15487652069895_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end

/-- The first branch's condition (i = 0 and j = 0), from the grid coordinates. -/
abbrev cond2_0 (i : grid2.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The second branch's condition (i = 1 and j = 1). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev VO2_3 : View sig .tc .vmem S4096x64 .f32 := (Memref.whole cc2_stg3_0 : Memref sig .tc .vmem S4096x64 .f32).view
abbrev VO2_4 : View sig .tc .vmem S1x4096x64 .f32 := (Memref.whole cc2_stg4_0 : Memref sig .tc .vmem S1x4096x64 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x4096x64 .f32 := win2_4.stage (cfg2.slots t 4)
abbrev hs2_4 (t : Fin cfg2.N) : (ms2_4 t).IsWhole := hstage2_4 ((cfg2.slots t 4).cast nbuf2_4)
/-- The two scratch accumulators: whole scoped buffers of the kernel's own. -/
abbrev scM2_0 : Memref sig .tc .vmem S4096x64 .f32 := Memref.whole cc2_scratch0
abbrev scM2_1 : Memref sig .tc .vmem S4096x64 .f32 := Memref.whole cc2_scratch1
abbrev hsc2_0 : (scM2_0).IsWhole := Memref.isWhole_whole _
abbrev hsc2_1 : (scM2_1).IsWhole := Memref.isWhole_whole _

/-- The class invariant with the two scratch operands split out as memrefs owned at some contents; the other
    scoped buffers stay unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.K2RunA.lean ====
/-
  The third pallas_call's body at a point with i = 0 and j = 0: both accumulators are zeroed whole, then one
  tile product is added into a band of each; nothing is stored into the output blocks, which are handed back
  as they were.
-/
import proofs.«142347_j15487652069895_2_alg».proof.Proof.K2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the stores leave in the two accumulators (last first), with the body's triple: inputs kept,
    idle outputs handed back untouched, each accumulator at its pieces written over whatever it held. -/
noncomputable def kernelRun2_A (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i)
    (x0 : Vec F S2048x2048 .bf16) (x1 : Vec F S2048x64 .f32) (x2 : Vec F S2048x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__fused_prop_kernel i arg3 harg3 arg4 harg4 arg5 harg5 arg6 harg6 arg7 harg7 arg8 harg8 arg9 harg9) K } := by
  refine ⟨?_, ?_, fun xi3 xi4 E K => ?run⟩
  case run =>
    simp only [cc2__fused_prop_kernel_eq_skeleton]; unfold cc2__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    iexists _; iexact HS1

end Cert.KernelIdeal.Hand

end
-- ==== Proof.K2RunB.lean ====
/-
  The third pallas_call's body at a point where neither branch is taken: one tile product is added into a band
  of each accumulator, over what the point before left there; the output blocks are handed back as they were.
-/
import proofs.«142347_j15487652069895_2_alg».proof.Proof.K2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i)
    (x0 : Vec F S2048x2048 .bf16) (x1 : Vec F S2048x64 .f32) (x2 : Vec F S2048x64 .f32) (xs0 : Vec F S4096x64 .f32) (xs1 : Vec F S4096x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc2__fused_prop_kernel i arg3 harg3 arg4 harg4 arg5 harg5 arg6 harg6 arg7 harg7 arg8 harg8 arg9 harg9) K } := by
  refine ⟨?_, ?_, fun xi3 xi4 E K => ?run⟩
  case run =>
    simp only [cc2__fused_prop_kernel_eq_skeleton]; unfold cc2__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexact HS0
    iexact HS1

end Cert.KernelIdeal.Hand

end
-- ==== Proof.K2RunC.lean ====
/-
  The third pallas_call's body at a point with i = 1 and j = 1: one tile product is added into a band of each
  accumulator, over what the point before left there, and then both accumulators are copied whole into the two
  output blocks.
-/
import proofs.«142347_j15487652069895_2_alg».proof.Proof.K2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i)
    (x0 : Vec F S2048x2048 .bf16) (x1 : Vec F S2048x64 .f32) (x2 : Vec F S2048x64 .f32) (xs0 : Vec F S4096x64 .f32) (xs1 : Vec F S4096x64 .f32) :
    Σ' (L3 : List (View.Piece (Elt F) S4096x64 .f32)) (L4 : List (View.Piece (Elt F) S1x4096x64 .f32)) (LS0 : List (View.Piece (Elt F) S4096x64 .f32)), { LS1 : List (View.Piece (Elt F) S4096x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc2__fused_prop_kernel i arg3 harg3 arg4 harg4 arg5 harg5 arg6 harg6 arg7 harg7 arg8 harg8 arg9 harg9) K } := by
  refine ⟨?_, ?_, ?_, ?_, fun E K => ?run⟩
  case run =>
    simp only [cc2__fused_prop_kernel_eq_skeleton]; unfold cc2__fused_prop_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [HS0]
    · iexact HS0
    iexact HS1

end Cert.KernelIdeal.Hand

end
-- ==== Proof.K2Frame.lean ====
/-
  The third pallas_call (one propagation layer) as one region: what its two output blocks and its two scratch
  accumulators hold after every grid point, the proof data over those contents, and the body obligation.
  The accumulators are carried from point to point: zeroed and first added to at positions 0 and 4, added to
  at positions 1, 2, 5, 6 over what the point before left, and at positions 3 and 7 added to once more and copied
  whole into the output blocks, which are written back only there.
-/
import proofs.«142347_j15487652069895_2_alg».proof.Proof.K2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An output block at a point that stores nothing into it: a placeholder nothing consults (the block is neither
    written back there nor read at the next point). -/
def out2_I_3 : Vec F S4096x64 .f32 := VO2_3.read (Elt F) VO2_3.junk
def out2_I_4 : Vec F S1x4096x64 .f32 := VO2_4.read (Elt F) VO2_4.junk

/-! ## Positions 0 and 4: both accumulators zeroed whole, so their pieces cover them -/

theorem scover2_A_0 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec F S2048x2048 .bf16) (x1 : Vec F S2048x64 .f32) (x2 : Vec F S2048x64 .f32) (y : S4096x64.Idx) : ∃ pc ∈ (kernelRun2_A c i arg3 harg3 arg4 harg4 arg5 harg5 arg6 harg6 arg7 harg7 arg8 harg8 arg9 harg9 hc0 hc1 x0 x1 x2).1, y ∈ pc.1.set :=
  View.cover_of_wholeMem (kernelRun2_A c i arg3 harg3 arg4 harg4 arg5 harg5 arg6 harg6 arg7 harg7 arg8 harg8 arg9 harg9 hc0 hc1 x0 x1 x2).1 (by sl_whole_mem) y
theorem scover2_A_1 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec F S2048x2048 .bf16) (x1 : Vec F S2048x64 .f32) (x2 : Vec F S2048x64 .f32) (y : S4096x64.Idx) : ∃ pc ∈ (kernelRun2_A c i arg3 harg3 arg4 harg4 arg5 harg5 arg6 harg6 arg7 harg7 arg8 harg8 arg9 harg9 hc0 hc1 x0 x1 x2).2.1, y ∈ pc.1.set :=
  View.cover_of_wholeMem (kernelRun2_A c i arg3 harg3 arg4 harg4 arg5 harg5 arg6 harg6 arg7 harg7 arg8 harg8 arg9 harg9 hc0 hc1 x0 x1 x2).2.1 (by sl_whole_mem) y
def sout2_A_0 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec F S2048x2048 .bf16) (x1 : Vec F S2048x64 .f32) (x2 : Vec F S2048x64 .f32) : Vec F S4096x64 .f32 :=
  scM2_0.view.read (Elt F) (scM2_0.view.writes (Elt F) scM2_0.view.junk (kernelRun2_A c i arg3 harg3 arg4 harg4 arg5 harg5 arg6 harg6 arg7 harg7 arg8 harg8 arg9 harg9 hc0 hc1 x0 x1 x2).1)
def sout2_A_1 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec F S2048x2048 .bf16) (x1 : Vec F S2048x64 .f32) (x2 : Vec F S2048x64 .f32) : Vec F S4096x64 .f32 :=
  scM2_1.view.read (Elt F) (scM2_1.view.writes (Elt F) scM2_1.view.junk (kernelRun2_A c i arg3 harg3 arg4 harg4 arg5 harg5 arg6 harg6 arg7 harg7 arg8 harg8 arg9 harg9 hc0 hc1 x0 x1 x2).2.1)

/-! ## Positions 1, 2, 5, 6: one band of each accumulator rewritten over what the point before left -/

def sout2_B_0 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun2_B c i arg3 harg3 arg4 harg4 arg5 harg5 arg6 harg6 arg7 harg7 arg8 harg8 arg9 harg9 hc0 hc1 x0 x1 x2 xs0 xs1).1)
def sout2_B_1 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun2_B c i arg3 harg3 arg4 harg4 arg5 harg5 arg6 harg6 arg7 harg7 arg8 harg8 arg9 harg9 hc0 hc1 x0 x1 x2 xs0 xs1).2.1)

/-! ## Positions 3 and 7: the same, then both accumulators copied whole into the output blocks -/

theorem cover2_C_3 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) (y : S4096x64.Idx) : ∃ pc ∈ (kernelRun2_C c i arg3 harg3 arg4 harg4 arg5 harg5 arg6 harg6 arg7 harg7 arg8 harg8 arg9 harg9 hc0 hc1 x0 x1 x2 xs0 xs1).1, y ∈ pc.1.set :=
  View.cover_of_tiledL (kernelRun2_C c i arg3 harg3 arg4 harg4 arg5 harg5 arg6 harg6 arg7 harg7 arg8 harg8 arg9 harg9 hc0 hc1 x0 x1 x2 xs0 xs1).1 S4096x64.size (by sl_kernel_rfl) y
theorem cover2_C_4 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) (y : S1x4096x64.Idx) : ∃ pc ∈ (kernelRun2_C c i arg3 harg3 arg4 harg4 arg5 harg5 arg6 harg6 arg7 harg7 arg8 harg8 arg9 harg9 hc0 hc1 x0 x1 x2 xs0 xs1).2.1, y ∈ pc.1.set :=
  View.cover_of_tiledL (kernelRun2_C c i arg3 harg3 arg4 harg4 arg5 harg5 arg6 harg6 arg7 harg7 arg8 harg8 arg9 harg9 hc0 hc1 x0 x1 x2 xs0 xs1).2.1 S1x4096x64.size (by sl_kernel_rfl) y
def out2_C_3 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  VO2_3.read (Elt F) (VO2_3.writes (Elt F) VO2_3.junk (kernelRun2_C c i arg3 harg3 arg4 harg4 arg5 harg5 arg6 harg6 arg7 harg7 arg8 harg8 arg9 harg9 hc0 hc1 x0 x1 x2 xs0 xs1).1)
def out2_C_4 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) : Vec F S1x4096x64 .f32 :=
  VO2_4.read (Elt F) (VO2_4.writes (Elt F) VO2_4.junk (kernelRun2_C c i arg3 harg3 arg4 harg4 arg5 harg5 arg6 harg6 arg7 harg7 arg8 harg8 arg9 harg9 hc0 hc1 x0 x1 x2 xs0 xs1).2.1)
def sout2_C_0 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun2_C c i arg3 harg3 arg4 harg4 arg5 harg5 arg6 harg6 arg7 harg7 arg8 harg8 arg9 harg9 hc0 hc1 x0 x1 x2 xs0 xs1).2.2.1)
def sout2_C_1 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun2_C c i arg3 harg3 arg4 harg4 arg5 harg5 arg6 harg6 arg7 harg7 arg8 harg8 arg9 harg9 hc0 hc1 x0 x1 x2 xs0 xs1).2.2.2.1)

section
variable (V : (c : Dev nD) → (b : Ref sig .tc) → Buf (Elt F) ((c : Thread nD τ).loc b))

/-- What the two output blocks' staging buffers and the two accumulators hold after the body at position `n`
    (in that order), by recursion on the position. -/
def outsAt2 (c : Dev nD) : (n : ℕ) → n < cfg2.N → Vec F S4096x64 .f32 × Vec F S1x4096x64 .f32 × Vec F S4096x64 .f32 × Vec F S4096x64 .f32
  | 0, hn => (out2_I_3 (F := F), out2_I_4 (F := F), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 hsc2_0 scM2_1 hsc2_1 ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 hsc2_0 scM2_1 hsc2_1 ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_I_3 (F := F), out2_I_4 (F := F), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2)
      else
        (out2_I_3 (F := F), out2_I_4 (F := F), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2)

theorem outsAt2_A (c : Dev nD) (t : Fin cfg2.N) (h0 : t.val % 4 = 0) (h1 : ¬t.val % 4 = 3) :
    outsAt2 V c t.val t.isLt = (out2_I_3 (F := F), out2_I_4 (F := F), sout2_A_0 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_I_3 (F := F), out2_I_4 (F := F), sout2_B_0 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_4 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's own (every scoped buffer at anything);
    afterwards the two accumulators at what the point before left, the other scoped buffers unopened, and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2))
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of this pipeline on core `c`, at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the position modulo 4 says which of the three cases the point is in; the invariant
    hands the body the accumulators at what the point before left (at anything at the first point) and takes
    them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A_0 sout2_A_1; (try dsimp only)
      by_cases hz : t.val = 0
      · rw [PhiS2_castSucc V c t, PhiS2_zero V c _ _ hz, PhiA2_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover2_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover2_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

      · rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover2_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover2_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_3 out2_C_4 sout2_C_0 sout2_C_1; (try dsimp only)
      have hz : t.val ≠ 0 := by omega
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0 sout2_B_1; (try dsimp only)
      have hz : t.val ≠ 0 := by omega
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 8 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end

end Cert.KernelIdeal.Hand

end
-- ==== Proof.K3Runs.lean ====
/-
  The fourth pallas_call (one propagation layer): what its body's runs share.
  The grid is 2 x 2 x 2 (column half c, row tile i, column tile j of the half). The body zeroes its two
  scratch accumulators when i = 0 and j = 0, adds one tile product into a 2048-row band of each, and when
  i = 1 and j = 1 copies both accumulators into the two output blocks. So a point is in one of three
  cases, decided by the point's position modulo 4: 0 (zero, then add), 1 or 2 (add), 3 (add, then copy out).
-/
import proofs.«142347_j15487652069895_2_alg».proof.Proof.Gen.KernelIdeal.Launch
import proofs.«142347_j15487652069895_2_alg».proof.Proof.Gen.KernelIdeal.Skeleton
import proofs.«142347_j15487652069895_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
end

/-- The first branch's condition (i = 0 and j = 0), from the grid coordinates. -/
abbrev cond3_0 (i : grid3.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- The second branch's condition (i = 1 and j = 1). -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev VO3_3 : View sig .tc .vmem S4096x64 .f32 := (Memref.whole cc3_stg3_0 : Memref sig .tc .vmem S4096x64 .f32).view
abbrev VO3_4 : View sig .tc .vmem S1x4096x64 .f32 := (Memref.whole cc3_stg4_0 : Memref sig .tc .vmem S1x4096x64 .f32).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S4096x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x4096x64 .f32 := win3_4.stage (cfg3.slots t 4)
abbrev hs3_4 (t : Fin cfg3.N) : (ms3_4 t).IsWhole := hstage3_4 ((cfg3.slots t 4).cast nbuf3_4)
/-- The two scratch accumulators: whole scoped buffers of the kernel's own. -/
abbrev scM3_0 : Memref sig .tc .vmem S4096x64 .f32 := Memref.whole cc3_scratch0
abbrev scM3_1 : Memref sig .tc .vmem S4096x64 .f32 := Memref.whole cc3_scratch1
abbrev hsc3_0 : (scM3_0).IsWhole := Memref.isWhole_whole _
abbrev hsc3_1 : (scM3_1).IsWhole := Memref.isWhole_whole _

/-- The class invariant with the two scratch operands split out as memrefs owned at some contents; the other
    scoped buffers stay unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Hand

end
-- ==== Proof.K3RunA.lean ====
/-
  The fourth pallas_call's body at a point with i = 0 and j = 0: both accumulators are zeroed whole, then one
  tile product is added into a band of each; nothing is stored into the output blocks, which are handed back
  as they were.
-/
import proofs.«142347_j15487652069895_2_alg».proof.Proof.K3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the stores leave in the two accumulators (last first), with the body's triple: inputs kept,
    idle outputs handed back untouched, each accumulator at its pieces written over whatever it held. -/
noncomputable def kernelRun3_A (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i)
    (x0 : Vec F S2048x2048 .bf16) (x1 : Vec F S2048x64 .f32) (x2 : Vec F S2048x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc3__fused_prop_kernel i arg3 harg3 arg4 harg4 arg5 harg5 arg6 harg6 arg7 harg7 arg8 harg8 arg9 harg9) K } := by
  refine ⟨?_, ?_, fun xi3 xi4 E K => ?run⟩
  case run =>
    simp only [cc3__fused_prop_kernel_eq_skeleton]; unfold cc3__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    iexists _; iexact HS1

end Cert.KernelIdeal.Hand

end
-- ==== Proof.K3RunB.lean ====
/-
  The fourth pallas_call's body at a point where neither branch is taken: one tile product is added into a band
  of each accumulator, over what the point before left there; the output blocks are handed back as they were.
-/
import proofs.«142347_j15487652069895_2_alg».proof.Proof.K3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i)
    (x0 : Vec F S2048x2048 .bf16) (x1 : Vec F S2048x64 .f32) (x2 : Vec F S2048x64 .f32) (xs0 : Vec F S4096x64 .f32) (xs1 : Vec F S4096x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc3__fused_prop_kernel i arg3 harg3 arg4 harg4 arg5 harg5 arg6 harg6 arg7 harg7 arg8 harg8 arg9 harg9) K } := by
  refine ⟨?_, ?_, fun xi3 xi4 E K => ?run⟩
  case run =>
    simp only [cc3__fused_prop_kernel_eq_skeleton]; unfold cc3__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexact HS0
    iexact HS1

end Cert.KernelIdeal.Hand

end
-- ==== Proof.K3RunC.lean ====
/-
  The fourth pallas_call's body at a point with i = 1 and j = 1: one tile product is added into a band of each
  accumulator, over what the point before left there, and then both accumulators are copied whole into the two
  output blocks.
-/
import proofs.«142347_j15487652069895_2_alg».proof.Proof.K3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i)
    (x0 : Vec F S2048x2048 .bf16) (x1 : Vec F S2048x64 .f32) (x2 : Vec F S2048x64 .f32) (xs0 : Vec F S4096x64 .f32) (xs1 : Vec F S4096x64 .f32) :
    Σ' (L3 : List (View.Piece (Elt F) S4096x64 .f32)) (L4 : List (View.Piece (Elt F) S1x4096x64 .f32)) (LS0 : List (View.Piece (Elt F) S4096x64 .f32)), { LS1 : List (View.Piece (Elt F) S4096x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc3__fused_prop_kernel i arg3 harg3 arg4 harg4 arg5 harg5 arg6 harg6 arg7 harg7 arg8 harg8 arg9 harg9) K } := by
  refine ⟨?_, ?_, ?_, ?_, fun E K => ?run⟩
  case run =>
    simp only [cc3__fused_prop_kernel_eq_skeleton]; unfold cc3__fused_prop_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [HS0]
    · iexact HS0
    iexact HS1

end Cert.KernelIdeal.Hand

end
-- ==== Proof.K3Frame.lean ====
/-
  The fourth pallas_call (one propagation layer) as one region: what its two output blocks and its two scratch
  accumulators hold after every grid point, the proof data over those contents, and the body obligation.
  The accumulators are carried from point to point: zeroed and first added to at positions 0 and 4, added to
  at positions 1, 2, 5, 6 over what the point before left, and at positions 3 and 7 added to once more and copied
  whole into the output blocks, which are written back only there.
-/
import proofs.«142347_j15487652069895_2_alg».proof.Proof.K3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An output block at a point that stores nothing into it: a placeholder nothing consults (the block is neither
    written back there nor read at the next point). -/
def out3_I_3 : Vec F S4096x64 .f32 := VO3_3.read (Elt F) VO3_3.junk
def out3_I_4 : Vec F S1x4096x64 .f32 := VO3_4.read (Elt F) VO3_4.junk

/-! ## Positions 0 and 4: both accumulators zeroed whole, so their pieces cover them -/

theorem scover3_A_0 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec F S2048x2048 .bf16) (x1 : Vec F S2048x64 .f32) (x2 : Vec F S2048x64 .f32) (y : S4096x64.Idx) : ∃ pc ∈ (kernelRun3_A c i arg3 harg3 arg4 harg4 arg5 harg5 arg6 harg6 arg7 harg7 arg8 harg8 arg9 harg9 hc0 hc1 x0 x1 x2).1, y ∈ pc.1.set :=
  View.cover_of_wholeMem (kernelRun3_A c i arg3 harg3 arg4 harg4 arg5 harg5 arg6 harg6 arg7 harg7 arg8 harg8 arg9 harg9 hc0 hc1 x0 x1 x2).1 (by sl_whole_mem) y
theorem scover3_A_1 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec F S2048x2048 .bf16) (x1 : Vec F S2048x64 .f32) (x2 : Vec F S2048x64 .f32) (y : S4096x64.Idx) : ∃ pc ∈ (kernelRun3_A c i arg3 harg3 arg4 harg4 arg5 harg5 arg6 harg6 arg7 harg7 arg8 harg8 arg9 harg9 hc0 hc1 x0 x1 x2).2.1, y ∈ pc.1.set :=
  View.cover_of_wholeMem (kernelRun3_A c i arg3 harg3 arg4 harg4 arg5 harg5 arg6 harg6 arg7 harg7 arg8 harg8 arg9 harg9 hc0 hc1 x0 x1 x2).2.1 (by sl_whole_mem) y
def sout3_A_0 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec F S2048x2048 .bf16) (x1 : Vec F S2048x64 .f32) (x2 : Vec F S2048x64 .f32) : Vec F S4096x64 .f32 :=
  scM3_0.view.read (Elt F) (scM3_0.view.writes (Elt F) scM3_0.view.junk (kernelRun3_A c i arg3 harg3 arg4 harg4 arg5 harg5 arg6 harg6 arg7 harg7 arg8 harg8 arg9 harg9 hc0 hc1 x0 x1 x2).1)
def sout3_A_1 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec F S2048x2048 .bf16) (x1 : Vec F S2048x64 .f32) (x2 : Vec F S2048x64 .f32) : Vec F S4096x64 .f32 :=
  scM3_1.view.read (Elt F) (scM3_1.view.writes (Elt F) scM3_1.view.junk (kernelRun3_A c i arg3 harg3 arg4 harg4 arg5 harg5 arg6 harg6 arg7 harg7 arg8 harg8 arg9 harg9 hc0 hc1 x0 x1 x2).2.1)

/-! ## Positions 1, 2, 5, 6: one band of each accumulator rewritten over what the point before left -/

def sout3_B_0 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun3_B c i arg3 harg3 arg4 harg4 arg5 harg5 arg6 harg6 arg7 harg7 arg8 harg8 arg9 harg9 hc0 hc1 x0 x1 x2 xs0 xs1).1)
def sout3_B_1 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun3_B c i arg3 harg3 arg4 harg4 arg5 harg5 arg6 harg6 arg7 harg7 arg8 harg8 arg9 harg9 hc0 hc1 x0 x1 x2 xs0 xs1).2.1)

/-! ## Positions 3 and 7: the same, then both accumulators copied whole into the output blocks -/

theorem cover3_C_3 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) (y : S4096x64.Idx) : ∃ pc ∈ (kernelRun3_C c i arg3 harg3 arg4 harg4 arg5 harg5 arg6 harg6 arg7 harg7 arg8 harg8 arg9 harg9 hc0 hc1 x0 x1 x2 xs0 xs1).1, y ∈ pc.1.set :=
  View.cover_of_tiledL (kernelRun3_C c i arg3 harg3 arg4 harg4 arg5 harg5 arg6 harg6 arg7 harg7 arg8 harg8 arg9 harg9 hc0 hc1 x0 x1 x2 xs0 xs1).1 S4096x64.size (by sl_kernel_rfl) y
theorem cover3_C_4 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) (y : S1x4096x64.Idx) : ∃ pc ∈ (kernelRun3_C c i arg3 harg3 arg4 harg4 arg5 harg5 arg6 harg6 arg7 harg7 arg8 harg8 arg9 harg9 hc0 hc1 x0 x1 x2 xs0 xs1).2.1, y ∈ pc.1.set :=
  View.cover_of_tiledL (kernelRun3_C c i arg3 harg3 arg4 harg4 arg5 harg5 arg6 harg6 arg7 harg7 arg8 harg8 arg9 harg9 hc0 hc1 x0 x1 x2 xs0 xs1).2.1 S1x4096x64.size (by sl_kernel_rfl) y
def out3_C_3 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  VO3_3.read (Elt F) (VO3_3.writes (Elt F) VO3_3.junk (kernelRun3_C c i arg3 harg3 arg4 harg4 arg5 harg5 arg6 harg6 arg7 harg7 arg8 harg8 arg9 harg9 hc0 hc1 x0 x1 x2 xs0 xs1).1)
def out3_C_4 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) : Vec F S1x4096x64 .f32 :=
  VO3_4.read (Elt F) (VO3_4.writes (Elt F) VO3_4.junk (kernelRun3_C c i arg3 harg3 arg4 harg4 arg5 harg5 arg6 harg6 arg7 harg7 arg8 harg8 arg9 harg9 hc0 hc1 x0 x1 x2 xs0 xs1).2.1)
def sout3_C_0 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun3_C c i arg3 harg3 arg4 harg4 arg5 harg5 arg6 harg6 arg7 harg7 arg8 harg8 arg9 harg9 hc0 hc1 x0 x1 x2 xs0 xs1).2.2.1)
def sout3_C_1 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun3_C c i arg3 harg3 arg4 harg4 arg5 harg5 arg6 harg6 arg7 harg7 arg8 harg8 arg9 harg9 hc0 hc1 x0 x1 x2 xs0 xs1).2.2.2.1)

section
variable (V : (c : Dev nD) → (b : Ref sig .tc) → Buf (Elt F) ((c : Thread nD τ).loc b))

/-- What the two output blocks' staging buffers and the two accumulators hold after the body at position `n`
    (in that order), by recursion on the position. -/
def outsAt3 (c : Dev nD) : (n : ℕ) → n < cfg3.N → Vec F S4096x64 .f32 × Vec F S1x4096x64 .f32 × Vec F S4096x64 .f32 × Vec F S4096x64 .f32
  | 0, hn => (out3_I_3 (F := F), out3_I_4 (F := F), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 hsc3_0 scM3_1 hsc3_1 ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 hsc3_0 scM3_1 hsc3_1 ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_I_3 (F := F), out3_I_4 (F := F), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2)
      else
        (out3_I_3 (F := F), out3_I_4 (F := F), sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2)

theorem outsAt3_A (c : Dev nD) (t : Fin cfg3.N) (h0 : t.val % 4 = 0) (h1 : ¬t.val % 4 = 3) :
    outsAt3 V c t.val t.isLt = (out3_I_3 (F := F), out3_I_4 (F := F), sout3_A_0 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 ((hcond3_0 t).mpr h0) (fun h => h1 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_I_3 (F := F), out3_I_4 (F := F), sout3_B_0 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2, out3_C_4 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's own (every scoped buffer at anything);
    afterwards the two accumulators at what the point before left, the other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.1) ∗ owns (c : Thread nD τ) scM3_1 fullShare ((outsAt3 V c n hn).2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2.2.1) ∗ owns (c : Thread nD τ) scM3_1 fullShare ((outsAt3 V c n hn).2.2.2))
      ∗ Pipeline.scopedRestBut (Ix := Unit) (Name := ℕ) (U := UR sig nD τ) (Lvl := ℕ) (Val := Elt F) spec3 c [cc3_scratch0, cc3_scratch1]) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.1) ∗ owns (c : Thread nD τ) scM3_1 fullShare ((outsAt3 V c (n - 1) (by omega)).2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-- The proof data of this pipeline on core `c`, at the entry contents `V`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the position modulo 4 says which of the three cases the point is in; the invariant
    hands the body the accumulators at what the point before left (at anything at the first point) and takes
    them back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [Dat.leavesExact_idle (dat3 V c) 4 t (idleAt3_4 t (fun h => h1 ((hcond3_1 t).mp h))) (noFlush3_4 t (fun h => h1 ((hcond3_1 t).mp h)))]
      rw [outsAt3_A V c t h0 h1]
      unfold sout3_A_0 sout3_A_1; (try dsimp only)
      by_cases hz : t.val = 0
      · rw [PhiS3_castSucc V c t, PhiS3_zero V c _ _ hz, PhiA3_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover3_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover3_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

      · rw [PhiS3_castSucc V c t, PhiS3_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover3_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover3_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

  · by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_C V c t h0 h1]
      unfold out3_C_3 out3_C_4 sout3_C_0 sout3_C_1; (try dsimp only)
      have hz : t.val ≠ 0 := by omega
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C_3 c _ _ _ _ _ _ _ _ _ _ _ _ _ _ _ _ _ _ _ _ _ _)
      unfold owns; iexists _; isplitr
      swap; · iexact H4
      ipureintro; exact View.read_writes_of_cover _ _ _ _ _ (cover3_C_4 c _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [Dat.leavesExact_idle (dat3 V c) 4 t (idleAt3_4 t (fun h => h1 ((hcond3_1 t).mp h))) (noFlush3_4 t (fun h => h1 ((hcond3_1 t).mp h)))]
      rw [outsAt3_B V c t h0 h1]
      unfold sout3_B_0 sout3_B_1; (try dsimp only)
      have hz : t.val ≠ 0 := by omega
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  have ht : (Fin.last cfg3.N).val ≠ 0 := by rw [Fin.val_last]; have : cfg3.N = 8 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end

end Cert.KernelIdeal.Hand

end
-- ==== Proof.K4Runs.lean ====
/-
  The fifth pallas_call (one propagation layer): what its body's runs share.
  The grid is 2 x 2 x 2 (column half c, row tile i, column tile j of the half). The body zeroes its two
  scratch accumulators when i = 0 and j = 0, adds one tile product into a 2048-row band of each, and when
  i = 1 and j = 1 copies both accumulators into the two output blocks. So a point is in one of three
  cases, decided by the point's position modulo 4: 0 (zero, then add), 1 or 2 (add), 3 (add, then copy out).
-/
import proofs.«142347_j15487652069895_2_alg».proof.Proof.Gen.KernelIdeal.Launch
import proofs.«142347_j15487652069895_2_alg».proof.Proof.Gen.KernelIdeal.Skeleton
import proofs.«142347_j15487652069895_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
end

/-- The first branch's condition (i = 0 and j = 0), from the grid coordinates. -/
abbrev cond4_0 (i : grid4.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- The second branch's condition (i = 1 and j = 1). -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev VO4_3 : View sig .tc .vmem S4096x64 .f32 := (Memref.whole cc4_stg3_0 : Memref sig .tc .vmem S4096x64 .f32).view
abbrev VO4_4 : View sig .tc .vmem S1x4096x64 .f32 := (Memref.whole cc4_stg4_0 : Memref sig .tc .vmem S1x4096x64 .f32).view
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x4096x64 .f32 := win4_4.stage (cfg4.slots t 4)
abbrev hs4_4 (t : Fin cfg4.N) : (ms4_4 t).IsWhole := hstage4_4 ((cfg4.slots t 4).cast nbuf4_4)
/-- The two scratch accumulators: whole scoped buffers of the kernel's own. -/
abbrev scM4_0 : Memref sig .tc .vmem S4096x64 .f32 := Memref.whole cc4_scratch0
abbrev scM4_1 : Memref sig .tc .vmem S4096x64 .f32 := Memref.whole cc4_scratch1
abbrev hsc4_0 : (scM4_0).IsWhole := Memref.isWhole_whole _
abbrev hsc4_1 : (scM4_1).IsWhole := Memref.isWhole_whole _

/-- The class invariant with the two scratch operands split out as memrefs owned at some contents; the other
    scoped buffers stay unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.K4RunA.lean ====
/-
  The fifth pallas_call's body at a point with i = 0 and j = 0: both accumulators are zeroed whole, then one
  tile product is added into a band of each; nothing is stored into the output blocks, which are handed back
  as they were.
-/
import proofs.«142347_j15487652069895_2_alg».proof.Proof.K4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the stores leave in the two accumulators (last first), with the body's triple: inputs kept,
    idle outputs handed back untouched, each accumulator at its pieces written over whatever it held. -/
noncomputable def kernelRun4_A (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i)
    (x0 : Vec F S2048x2048 .bf16) (x1 : Vec F S2048x64 .f32) (x2 : Vec F S2048x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc4__fused_prop_kernel i arg3 harg3 arg4 harg4 arg5 harg5 arg6 harg6 arg7 harg7 arg8 harg8 arg9 harg9) K } := by
  refine ⟨?_, ?_, fun xi3 xi4 E K => ?run⟩
  case run =>
    simp only [cc4__fused_prop_kernel_eq_skeleton]; unfold cc4__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    iexists _; iexact HS1

end Cert.KernelIdeal.Hand

end
-- ==== Proof.K4RunB.lean ====
/-
  The fifth pallas_call's body at a point where neither branch is taken: one tile product is added into a band
  of each accumulator, over what the point before left there; the output blocks are handed back as they were.
-/
import proofs.«142347_j15487652069895_2_alg».proof.Proof.K4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i)
    (x0 : Vec F S2048x2048 .bf16) (x1 : Vec F S2048x64 .f32) (x2 : Vec F S2048x64 .f32) (xs0 : Vec F S4096x64 .f32) (xs1 : Vec F S4096x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc4__fused_prop_kernel i arg3 harg3 arg4 harg4 arg5 harg5 arg6 harg6 arg7 harg7 arg8 harg8 arg9 harg9) K } := by
  refine ⟨?_, ?_, fun xi3 xi4 E K => ?run⟩
  case run =>
    simp only [cc4__fused_prop_kernel_eq_skeleton]; unfold cc4__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexact HS0
    iexact HS1

end Cert.KernelIdeal.Hand

end
-- ==== Proof.K4RunC.lean ====
/-
  The fifth pallas_call's body at a point with i = 1 and j = 1: one tile product is added into a band of each
  accumulator, over what the point before left there, and then both accumulators are copied whole into the two
  output blocks.
-/
import proofs.«142347_j15487652069895_2_alg».proof.Proof.K4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i)
    (x0 : Vec F S2048x2048 .bf16) (x1 : Vec F S2048x64 .f32) (x2 : Vec F S2048x64 .f32) (xs0 : Vec F S4096x64 .f32) (xs1 : Vec F S4096x64 .f32) :
    Σ' (L3 : List (View.Piece (Elt F) S4096x64 .f32)) (L4 : List (View.Piece (Elt F) S1x4096x64 .f32)) (LS0 : List (View.Piece (Elt F) S4096x64 .f32)), { LS1 : List (View.Piece (Elt F) S4096x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc4__fused_prop_kernel i arg3 harg3 arg4 harg4 arg5 harg5 arg6 harg6 arg7 harg7 arg8 harg8 arg9 harg9) K } := by
  refine ⟨?_, ?_, ?_, ?_, fun E K => ?run⟩
  case run =>
    simp only [cc4__fused_prop_kernel_eq_skeleton]; unfold cc4__fused_prop_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [HS0]
    · iexact HS0
    iexact HS1

end Cert.KernelIdeal.Hand

end
-- ==== Proof.K4Frame.lean ====
/-
  The fifth pallas_call (one propagation layer) as one region: what its two output blocks and its two scratch
  accumulators hold after every grid point, the proof data over those contents, and the body obligation.
  The accumulators are carried from point to point: zeroed and first added to at positions 0 and 4, added to
  at positions 1, 2, 5, 6 over what the point before left, and at positions 3 and 7 added to once more and copied
  whole into the output blocks, which are written back only there.
-/
import proofs.«142347_j15487652069895_2_alg».proof.Proof.K4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An output block at a point that stores nothing into it: a placeholder nothing consults (the block is neither
    written back there nor read at the next point). -/
def out4_I_3 : Vec F S4096x64 .f32 := VO4_3.read (Elt F) VO4_3.junk
def out4_I_4 : Vec F S1x4096x64 .f32 := VO4_4.read (Elt F) VO4_4.junk

/-! ## Positions 0 and 4: both accumulators zeroed whole, so their pieces cover them -/

theorem scover4_A_0 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec F S2048x2048 .bf16) (x1 : Vec F S2048x64 .f32) (x2 : Vec F S2048x64 .f32) (y : S4096x64.Idx) : ∃ pc ∈ (kernelRun4_A c i arg3 harg3 arg4 harg4 arg5 harg5 arg6 harg6 arg7 harg7 arg8 harg8 arg9 harg9 hc0 hc1 x0 x1 x2).1, y ∈ pc.1.set :=
  View.cover_of_wholeMem (kernelRun4_A c i arg3 harg3 arg4 harg4 arg5 harg5 arg6 harg6 arg7 harg7 arg8 harg8 arg9 harg9 hc0 hc1 x0 x1 x2).1 (by sl_whole_mem) y
theorem scover4_A_1 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec F S2048x2048 .bf16) (x1 : Vec F S2048x64 .f32) (x2 : Vec F S2048x64 .f32) (y : S4096x64.Idx) : ∃ pc ∈ (kernelRun4_A c i arg3 harg3 arg4 harg4 arg5 harg5 arg6 harg6 arg7 harg7 arg8 harg8 arg9 harg9 hc0 hc1 x0 x1 x2).2.1, y ∈ pc.1.set :=
  View.cover_of_wholeMem (kernelRun4_A c i arg3 harg3 arg4 harg4 arg5 harg5 arg6 harg6 arg7 harg7 arg8 harg8 arg9 harg9 hc0 hc1 x0 x1 x2).2.1 (by sl_whole_mem) y
def sout4_A_0 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec F S2048x2048 .bf16) (x1 : Vec F S2048x64 .f32) (x2 : Vec F S2048x64 .f32) : Vec F S4096x64 .f32 :=
  scM4_0.view.read (Elt F) (scM4_0.view.writes (Elt F) scM4_0.view.junk (kernelRun4_A c i arg3 harg3 arg4 harg4 arg5 harg5 arg6 harg6 arg7 harg7 arg8 harg8 arg9 harg9 hc0 hc1 x0 x1 x2).1)
def sout4_A_1 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec F S2048x2048 .bf16) (x1 : Vec F S2048x64 .f32) (x2 : Vec F S2048x64 .f32) : Vec F S4096x64 .f32 :=
  scM4_1.view.read (Elt F) (scM4_1.view.writes (Elt F) scM4_1.view.junk (kernelRun4_A c i arg3 harg3 arg4 harg4 arg5 harg5 arg6 harg6 arg7 harg7 arg8 harg8 arg9 harg9 hc0 hc1 x0 x1 x2).2.1)

/-! ## Positions 1, 2, 5, 6: one band of each accumulator rewritten over what the point before left -/

def sout4_B_0 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun4_B c i arg3 harg3 arg4 harg4 arg5 harg5 arg6 harg6 arg7 harg7 arg8 harg8 arg9 harg9 hc0 hc1 x0 x1 x2 xs0 xs1).1)
def sout4_B_1 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun4_B c i arg3 harg3 arg4 harg4 arg5 harg5 arg6 harg6 arg7 harg7 arg8 harg8 arg9 harg9 hc0 hc1 x0 x1 x2 xs0 xs1).2.1)

/-! ## Positions 3 and 7: the same, then both accumulators copied whole into the output blocks -/

theorem cover4_C_3 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) (y : S4096x64.Idx) : ∃ pc ∈ (kernelRun4_C c i arg3 harg3 arg4 harg4 arg5 harg5 arg6 harg6 arg7 harg7 arg8 harg8 arg9 harg9 hc0 hc1 x0 x1 x2 xs0 xs1).1, y ∈ pc.1.set :=
  View.cover_of_tiledL (kernelRun4_C c i arg3 harg3 arg4 harg4 arg5 harg5 arg6 harg6 arg7 harg7 arg8 harg8 arg9 harg9 hc0 hc1 x0 x1 x2 xs0 xs1).1 S4096x64.size (by sl_kernel_rfl) y
theorem cover4_C_4 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) (y : S1x4096x64.Idx) : ∃ pc ∈ (kernelRun4_C c i arg3 harg3 arg4 harg4 arg5 harg5 arg6 harg6 arg7 harg7 arg8 harg8 arg9 harg9 hc0 hc1 x0 x1 x2 xs0 xs1).2.1, y ∈ pc.1.set :=
  View.cover_of_tiledL (kernelRun4_C c i arg3 harg3 arg4 harg4 arg5 harg5 arg6 harg6 arg7 harg7 arg8 harg8 arg9 harg9 hc0 hc1 x0 x1 x2 xs0 xs1).2.1 S1x4096x64.size (by sl_kernel_rfl) y
def out4_C_3 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  VO4_3.read (Elt F) (VO4_3.writes (Elt F) VO4_3.junk (kernelRun4_C c i arg3 harg3 arg4 harg4 arg5 harg5 arg6 harg6 arg7 harg7 arg8 harg8 arg9 harg9 hc0 hc1 x0 x1 x2 xs0 xs1).1)
def out4_C_4 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) : Vec F S1x4096x64 .f32 :=
  VO4_4.read (Elt F) (VO4_4.writes (Elt F) VO4_4.junk (kernelRun4_C c i arg3 harg3 arg4 harg4 arg5 harg5 arg6 harg6 arg7 harg7 arg8 harg8 arg9 harg9 hc0 hc1 x0 x1 x2 xs0 xs1).2.1)
def sout4_C_0 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun4_C c i arg3 harg3 arg4 harg4 arg5 harg5 arg6 harg6 arg7 harg7 arg8 harg8 arg9 harg9 hc0 hc1 x0 x1 x2 xs0 xs1).2.2.1)
def sout4_C_1 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun4_C c i arg3 harg3 arg4 harg4 arg5 harg5 arg6 harg6 arg7 harg7 arg8 harg8 arg9 harg9 hc0 hc1 x0 x1 x2 xs0 xs1).2.2.2.1)

section
variable (V : (c : Dev nD) → (b : Ref sig .tc) → Buf (Elt F) ((c : Thread nD τ).loc b))

/-- What the two output blocks' staging buffers and the two accumulators hold after the body at position `n`
    (in that order), by recursion on the position. -/
def outsAt4 (c : Dev nD) : (n : ℕ) → n < cfg4.N → Vec F S4096x64 .f32 × Vec F S1x4096x64 .f32 × Vec F S4096x64 .f32 × Vec F S4096x64 .f32
  | 0, hn => (out4_I_3 (F := F), out4_I_4 (F := F), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 hsc4_0 scM4_1 hsc4_1 ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 hsc4_0 scM4_1 hsc4_1 ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 4 = 0 then
      if h1 : (n + 1) % 4 = 3 then
        False.elim (by omega)
      else
        (out4_I_3 (F := F), out4_I_4 (F := F), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 4 = 3 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2)
      else
        (out4_I_3 (F := F), out4_I_4 (F := F), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2)

theorem outsAt4_A (c : Dev nD) (t : Fin cfg4.N) (h0 : t.val % 4 = 0) (h1 : ¬t.val % 4 = 3) :
    outsAt4 V c t.val t.isLt = (out4_I_3 (F := F), out4_I_4 (F := F), sout4_A_0 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_I_3 (F := F), out4_I_4 (F := F), sout4_B_0 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_4 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's own (every scoped buffer at anything);
    afterwards the two accumulators at what the point before left, the other scoped buffers unopened, and the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The proof data of this pipeline on core `c`, at the entry contents `V`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The body at any point: the position modulo 4 says which of the three cases the point is in; the invariant
    hands the body the accumulators at what the point before left (at anything at the first point) and takes
    them back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 8 := lt_of_lt_of_eq t.isLt (show cfg4.N = 8 from N_4)
  by_cases h0 : t.val % 4 = 0
  · by_cases h1 : t.val % 4 = 3
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [Dat.leavesExact_idle (dat4 V c) 4 t (idleAt4_4 t (fun h => h1 ((hcond4_1 t).mp h))) (noFlush4_4 t (fun h => h1 ((hcond4_1 t).mp h)))]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover4_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover4_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

      · rw [PhiS4_castSucc V c t, PhiS4_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover4_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover4_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

  · by_cases h1 : t.val % 4 = 3
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C_3 out4_C_4 sout4_C_0 sout4_C_1; (try dsimp only)
      have hz : t.val ≠ 0 := by omega
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_C_3 c _ _ _ _ _ _ _ _ _ _ _ _ _ _ _ _ _ _ _ _ _ _)
      unfold owns; iexists _; isplitr
      swap; · iexact H4
      ipureintro; exact View.read_writes_of_cover _ _ _ _ _ (cover4_C_4 c _ _ _ _ _ _ _ _ _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold sout4_B_0 sout4_B_1; (try dsimp only)
      have hz : t.val ≠ 0 := by omega
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  have ht : (Fin.last cfg4.N).val ≠ 0 := by rw [Fin.val_last]; have : cfg4.N = 8 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end

end Cert.KernelIdeal.Hand

end
-- ==== Proof.KRun.lean ====
/-
  The whole program as ten segments — five pallas_calls, each followed by a stretch of host operations — run from
  the launch memory: the buffers' contents at every segment boundary as a fold from the launch memory, each
  pipeline's proof data at its region's entry contents, and the run itself, whose final state holds every unscoped
  buffer at the last boundary's contents.
-/
import proofs.«142347_j15487652069895_2_alg».proof.Proof.K0Frame
import proofs.«142347_j15487652069895_2_alg».proof.Proof.K1Frame
import proofs.«142347_j15487652069895_2_alg».proof.Proof.K2Frame
import proofs.«142347_j15487652069895_2_alg».proof.Proof.K3Frame
import proofs.«142347_j15487652069895_2_alg».proof.Proof.K4Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After pipeline 0: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations `hostOps1`. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After pipeline 1: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host operations `hostOps2`. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After pipeline 2: its arrays at what its write-backs leave, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host operations `hostOps3`. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b

/-- After pipeline 3: its arrays at what its write-backs leave, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- After the host operations `hostOps4`. -/
abbrev W8 : Dev nD → Valuation τ sig (Elt F) := fun c => StableHlo.after hostOps4 (W7 m c)
abbrev V8 : (c : Dev nD) → (b : Ref sig .tc) → Buf (Elt F) ((c : Thread nD τ).loc b) := fun c b => W8 m c b

/-- After pipeline 4: its arrays at what its write-backs leave, every other buffer as entered. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)

/-- After the host operations `hostOps5`. -/
abbrev W10 : Dev nD → Valuation τ sig (Elt F) := fun c => StableHlo.after hostOps5 (W9 m c)
abbrev V10 : (c : Dev nD) → (b : Ref sig .tc) → Buf (Elt F) ((c : Thread nD τ).loc b) := fun c b => W10 m c b

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
  | ⟨3, _⟩ => fun c => dat3 (V6 m) c
  | ⟨4, _⟩ => fun c => dat4 (V8 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W10 m c) ∗ ∃ r, prngReg c r)

set_option backward.isDefEq.respectTransparency.types false in
/-- Pipeline 0 as a segment: entered from every unscoped buffer at `W0`, left at `W1`. Its arrays are split
    out of the unscoped buffers and put back at what the write-backs leave; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment: entered from every unscoped buffer at `W2`, left at `W3`. Its arrays are split
    out of the unscoped buffers and put back at what the write-backs leave; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment: entered from every unscoped buffer at `W4`, left at `W5`. Its arrays are split
    out of the unscoped buffers and put back at what the write-backs leave; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V4 m) c).Φ 0 from rfl]
    have h := hin2 (V4 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V4 m) c).Φ (Fin.last cfg2.N) from rfl]
    have h := hout2 (V4 m) c
    unfold Pipeline.ΦA at h
    iintro HΦ
    ihave HA := h $$ [HΦ]
    · iexact HΦ
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 as a segment: entered from every unscoped buffer at `W6`, left at `W7`. Its arrays are split
    out of the unscoped buffers and put back at what the write-backs leave; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V6 m) c).Φ 0 from rfl]
    have h := hin3 (V6 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (V6 m) c).Φ (Fin.last cfg3.N) from rfl]
    have h := hout3 (V6 m) c
    unfold Pipeline.ΦA at h
    iintro HΦ
    ihave HA := h $$ [HΦ]
    · iexact HΦ
    icases HA with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 as a segment: entered from every unscoped buffer at `W8`, left at `W9`. Its arrays are split
    out of the unscoped buffers and put back at what the write-backs leave; the generator register goes into the
    pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V8 m) c).Φ 0 from rfl]
    have h := hin4 (V8 m) c
    unfold Pipeline.ΦA at h
    iintro ⟨Hp, -, Hr⟩
    iapply h
    isplitl [Hr]; · iexact Hr
    iexact Hp
  hout c := by
    rw [Pipeline.ownSems0_none, show (pdats m 4 c).Φ (Fin.last _) = (dat4 (V8 m) c).Φ (Fin.last cfg4.N) from rfl]
    have h := hout4 (V8 m) c
    unfold Pipeline.ΦA at h
    iintro HΦ
    ihave HA := h $$ [HΦ]
    · iexact HΦ
    icases HA with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m),
    .host (hseg hostOps4 hostOps4_sub hostOps4_fresh (W7 m)),
    .region (reg4 m),
    .host (hseg hostOps5 hostOps5_sub hostOps5_fresh (W9 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer at the last boundary's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KArgs.lean ====
/-
  The two argument arrays end as launched: no host operation writes one, and a pallas_call only reads them (the
  integer matrix through an input window of the first two calls, the table not at all).
-/
import proofs.«142347_j15487652069895_2_alg».proof.Proof.KRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

theorem keep1_arg0 (W : Valuation τ sig (Elt F)) : StableHlo.after hostOps1 W (main_arg0 : DevRef τ sig) = W (main_arg0 : DevRef τ sig) := by
  after_results
theorem keep1_arg1 (W : Valuation τ sig (Elt F)) : StableHlo.after hostOps1 W (main_arg1 : DevRef τ sig) = W (main_arg1 : DevRef τ sig) := by
  after_results
theorem keep2_arg0 (W : Valuation τ sig (Elt F)) : StableHlo.after hostOps2 W (main_arg0 : DevRef τ sig) = W (main_arg0 : DevRef τ sig) := by
  after_results
theorem keep2_arg1 (W : Valuation τ sig (Elt F)) : StableHlo.after hostOps2 W (main_arg1 : DevRef τ sig) = W (main_arg1 : DevRef τ sig) := by
  after_results
theorem keep3_arg0 (W : Valuation τ sig (Elt F)) : StableHlo.after hostOps3 W (main_arg0 : DevRef τ sig) = W (main_arg0 : DevRef τ sig) := by
  after_results
theorem keep3_arg1 (W : Valuation τ sig (Elt F)) : StableHlo.after hostOps3 W (main_arg1 : DevRef τ sig) = W (main_arg1 : DevRef τ sig) := by
  after_results
theorem keep4_arg0 (W : Valuation τ sig (Elt F)) : StableHlo.after hostOps4 W (main_arg0 : DevRef τ sig) = W (main_arg0 : DevRef τ sig) := by
  after_results
theorem keep4_arg1 (W : Valuation τ sig (Elt F)) : StableHlo.after hostOps4 W (main_arg1 : DevRef τ sig) = W (main_arg1 : DevRef τ sig) := by
  after_results
theorem keep5_arg0 (W : Valuation τ sig (Elt F)) : StableHlo.after hostOps5 W (main_arg0 : DevRef τ sig) = W (main_arg0 : DevRef τ sig) := by
  after_results
theorem keep5_arg1 (W : Valuation τ sig (Elt F)) : StableHlo.after hostOps5 W (main_arg1 : DevRef τ sig) = W (main_arg1 : DevRef τ sig) := by
  after_results

variable (m : (ℓ : Loc nD τ sig) → Buf (Elt F) ℓ)

theorem W10_main_arg0 (c : Dev nD) : W10 m c (Proc.devRef .tc main_arg0) = m ((c : Thread nD τ).loc main_arg0) :=
  calc W10 m c (Proc.devRef .tc main_arg0)
    _ = W9 m c (Proc.devRef .tc main_arg0) := keep5_arg0 _
    _ = W8 m c (Proc.devRef .tc main_arg0) := W9_of_ne m c main_arg0 (by decide)
    _ = W7 m c (Proc.devRef .tc main_arg0) := keep4_arg0 _
    _ = W6 m c (Proc.devRef .tc main_arg0) := W7_of_ne m c main_arg0 (by decide)
    _ = W5 m c (Proc.devRef .tc main_arg0) := keep3_arg0 _
    _ = W4 m c (Proc.devRef .tc main_arg0) := W5_of_ne m c main_arg0 (by decide)
    _ = W3 m c (Proc.devRef .tc main_arg0) := keep2_arg0 _
    _ = W2 m c (Proc.devRef .tc main_arg0) := W3_of_ne m c main_arg0 (by decide)
    _ = W1 m c (Proc.devRef .tc main_arg0) := keep1_arg0 _
    _ = W0 m c (Proc.devRef .tc main_arg0) := W1_of_ne m c main_arg0 (by decide)
    _ = m ((c : Thread nD τ).loc main_arg0) := rfl

theorem W1_main_arg1 (c : Dev nD) : W1 m c (Proc.devRef .tc main_arg1) = W0 m c (Proc.devRef .tc main_arg1) :=
  (W1_arr m c 0).trans (((dat0 (V0 m) c).arrAt_in 0 rfl _).trans (A_eq0 (V0 m) c 0))
theorem W3_main_arg1 (c : Dev nD) : W3 m c (Proc.devRef .tc main_arg1) = W2 m c (Proc.devRef .tc main_arg1) :=
  (W3_arr m c 0).trans (((dat1 (V2 m) c).arrAt_in 0 rfl _).trans (A_eq1 (V2 m) c 0))

theorem W10_main_arg1 (c : Dev nD) : W10 m c (Proc.devRef .tc main_arg1) = m ((c : Thread nD τ).loc main_arg1) :=
  calc W10 m c (Proc.devRef .tc main_arg1)
    _ = W9 m c (Proc.devRef .tc main_arg1) := keep5_arg1 _
    _ = W8 m c (Proc.devRef .tc main_arg1) := W9_of_ne m c main_arg1 (by decide)
    _ = W7 m c (Proc.devRef .tc main_arg1) := keep4_arg1 _
    _ = W6 m c (Proc.devRef .tc main_arg1) := W7_of_ne m c main_arg1 (by decide)
    _ = W5 m c (Proc.devRef .tc main_arg1) := keep3_arg1 _
    _ = W4 m c (Proc.devRef .tc main_arg1) := W5_of_ne m c main_arg1 (by decide)
    _ = W3 m c (Proc.devRef .tc main_arg1) := keep2_arg1 _
    _ = W2 m c (Proc.devRef .tc main_arg1) := W3_main_arg1 m c
    _ = W1 m c (Proc.devRef .tc main_arg1) := keep1_arg1 _
    _ = W0 m c (Proc.devRef .tc main_arg1) := W1_main_arg1 m c
    _ = m ((c : Thread nD τ).loc main_arg1) := rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, nothing faulting, with both argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W10_main_arg0 m c),
     (h c _ (mem_uc main_arg1 (by decide))).trans (W10_main_arg1 m c)⟩) (run_all m ρ)

end Cert.KernelIdeal.Hand

end
-- ==== Proof.Glue.lean ====
/-
  The host operations between the pallas_calls, read at an index. After the first call the two halves' partial
  column sums are added; every later stretch adds the two halves' partial products, concatenates the two results
  of the layer, adds the concatenation to the running total, and slices it into the next layer's two tables; the
  last one divides the total by four.
-/
import proofs.«142347_j15487652069895_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

/-- A buffer's contents read as a function of a literal shape's index into the extended reals. -/
abbrev rd (S : Shape) (f : S.Idx → EReal) : S.Idx → EReal := f
/-- The same for an integer buffer. -/
abbrev rdI (S : Shape) (f : S.Idx → BitVec 32) : S.Idx → BitVec 32 := f

variable (W : Valuation τ sig (Elt Ideal))

/-! ## The stretch after pallas_call 0 -/

/-- The column degrees' buffer: the two halves' partial column sums added. -/
theorem glue1_v5 (i : Fin 8192) :
    rd S1x8192 (StableHlo.after hostOps1 W (main_v5 : DevRef τ sig)) (ix2 0 i)
      = rd S2x1x8192 (W (main_v0_1 : DevRef τ sig)) (ix3 0 0 i) + rd S2x1x8192 (W (main_v0_1 : DevRef τ sig)) (ix3 1 0 i) := by
  dsimp only [rd]
  after_results
  show (shapeCast S1x8192 (extractStridedSlice S1x1x8192 ![0, 0, 0] (rd S2x1x8192 (W (main_v0_1 : DevRef τ sig))) slices_S2x1x8192_S1x1x8192_0_0_0) shapeCasts_S1x1x8192_S1x8192) (ix2 0 i)
      + (shapeCast S1x8192 (extractStridedSlice S1x1x8192 ![1, 0, 0] (rd S2x1x8192 (W (main_v0_1 : DevRef τ sig))) slices_S2x1x8192_S1x1x8192_1_0_0) shapeCasts_S1x1x8192_S1x8192) (ix2 0 i) = _
  rw [shapeCast_dropUnit_apply, shapeCast_dropUnit_apply]
  rw [extractStridedSlice_apply _ _ _ _ (ix3 0 0 i) (by intro a; fin_cases a <;> first | rfl | exact (Nat.zero_add _).symm)]
  rw [extractStridedSlice_apply _ _ _ _ (ix3 1 0 i) (by intro a; fin_cases a <;> first | rfl | exact (Nat.zero_add _).symm)]
theorem glue1_arg1 : StableHlo.after hostOps1 W (main_arg1 : DevRef τ sig) = W (main_arg1 : DevRef τ sig) := by
  after_results
theorem glue1_v0_0 : StableHlo.after hostOps1 W (main_v0_0 : DevRef τ sig) = W (main_v0_0 : DevRef τ sig) := by
  after_results

/-! ## The stretch after pallas_call 1 -/

theorem glue2_lo (u : Fin 4096) (d : Fin 64) :
    rd S4096x64 (StableHlo.after hostOps2 W (main_v8 : DevRef τ sig)) (ix2 u d)
      = rd S12288x64 (W (main_arg0 : DevRef τ sig)) (ix2 ⟨u.val, by have := u.isLt; omega⟩ d) := by
  dsimp only [rd]
  after_results
  (try dsimp only)
  rw [extractStridedSlice_apply _ _ _ _ (ix2 ⟨u.val, by have := u.isLt; omega⟩ d) (by intro a; fin_cases a <;> first | rfl | exact (Nat.zero_add _).symm)]
theorem glue2_hi (i : Fin 8192) (d : Fin 64) :
    rd S8192x64 (StableHlo.after hostOps2 W (main_v9 : DevRef τ sig)) (ix2 i d)
      = rd S12288x64 (W (main_arg0 : DevRef τ sig)) (ix2 ⟨4096 + i.val, by have := i.isLt; omega⟩ d) := by
  dsimp only [rd]
  after_results
  (try dsimp only)
  rw [extractStridedSlice_apply _ _ _ _ (ix2 ⟨4096 + i.val, by have := i.isLt; omega⟩ d) (by intro a; fin_cases a <;> first | rfl | exact (Nat.zero_add _).symm)]
theorem glue2_zero (p : S12288x64.Idx) :
    rd S12288x64 (StableHlo.after hostOps2 W (main_v7 : DevRef τ sig)) p = Ideal.ofBits .f32 0x00000000#32 := by
  dsimp only [rd]
  after_results
  rfl
theorem glue2_w : StableHlo.after hostOps2 W (main_v6 : DevRef τ sig) = W (main_v6 : DevRef τ sig) := by
  after_results

/-! ## The stretch after pallas_call 2 -/

/-- The concatenated table's first 8192 rows are the call's first result. -/
theorem glue3_cat_top (q : Fin 8192) (d : Fin 64) :
    rd S12288x64 (StableHlo.after hostOps3 W (main_v16 : DevRef τ sig)) (ix2 ⟨q.val, by have := q.isLt; omega⟩ d)
      = rd S8192x64 (W (main_v10_0 : DevRef τ sig)) (ix2 q d) := by
  dsimp only [rd]
  after_results
  (try dsimp only)
  rw [concatenate_pair_apply_left (t := S12288x64) (s₁ := S8192x64) (s₂ := S4096x64) 0 _ _ concatenates_S8192x64_S4096x64_S12288x64_d0 _ rfl (ix2 q d) (by intro b; fin_cases b <;> rfl)]

/-- Its last 4096 rows are the sum of the two halves' partial products. -/
theorem glue3_cat_bot (u : Fin 4096) (d : Fin 64) :
    rd S12288x64 (StableHlo.after hostOps3 W (main_v16 : DevRef τ sig)) (ix2 ⟨u.val + 8192, by have := u.isLt; omega⟩ d)
      = rd S2x4096x64 (W (main_v10_1 : DevRef τ sig)) (ix3 0 u d) + rd S2x4096x64 (W (main_v10_1 : DevRef τ sig)) (ix3 1 u d) := by
  dsimp only [rd]
  after_results
  (try dsimp only)
  rw [concatenate_pair_apply_right (t := S12288x64) (s₁ := S8192x64) (s₂ := S4096x64) 0 _ _ concatenates_S8192x64_S4096x64_S12288x64_d0 _ rfl rfl (ix2 u d) (by intro b hb; fin_cases b <;> first | rfl | exact absurd rfl hb) rfl]
  show (shapeCast S4096x64 (extractStridedSlice S1x4096x64 ![0, 0, 0] (rd S2x4096x64 (W (main_v10_1 : DevRef τ sig))) slices_S2x4096x64_S1x4096x64_0_0_0) shapeCasts_S1x4096x64_S4096x64) (ix2 u d)
      + (shapeCast S4096x64 (extractStridedSlice S1x4096x64 ![1, 0, 0] (rd S2x4096x64 (W (main_v10_1 : DevRef τ sig))) slices_S2x4096x64_S1x4096x64_1_0_0) shapeCasts_S1x4096x64_S4096x64) (ix2 u d) = _
  rw [shapeCast_dropUnit_apply, shapeCast_dropUnit_apply]
  rw [extractStridedSlice_apply _ _ _ _ (ix3 0 u d) (by intro a; fin_cases a <;> first | rfl | exact (Nat.zero_add _).symm)]
  rw [extractStridedSlice_apply _ _ _ _ (ix3 1 u d) (by intro a; fin_cases a <;> first | rfl | exact (Nat.zero_add _).symm)]

/-- The running total after this stretch. -/
theorem glue3_acc (p : S12288x64.Idx) :
    rd S12288x64 (StableHlo.after hostOps3 W (main_v17 : DevRef τ sig)) p
      = rd S12288x64 (W (main_v7 : DevRef τ sig)) p + rd S12288x64 (StableHlo.after hostOps3 W (main_v16 : DevRef τ sig)) p := by
  dsimp only [rd]
  after_results
  rfl

/-- The next call's two tables: the concatenated table's first 4096 and last 8192 rows. -/
theorem glue3_lo (u : Fin 4096) (d : Fin 64) :
    rd S4096x64 (StableHlo.after hostOps3 W (main_v18 : DevRef τ sig)) (ix2 u d)
      = rd S12288x64 (StableHlo.after hostOps3 W (main_v16 : DevRef τ sig)) (ix2 ⟨u.val, by have := u.isLt; omega⟩ d) := by
  dsimp only [rd]
  after_results
  (try dsimp only)
  rw [extractStridedSlice_apply _ _ _ _ (ix2 ⟨u.val, by have := u.isLt; omega⟩ d) (by intro a; fin_cases a <;> first | rfl | exact (Nat.zero_add _).symm)]
theorem glue3_hi (i : Fin 8192) (d : Fin 64) :
    rd S8192x64 (StableHlo.after hostOps3 W (main_v19 : DevRef τ sig)) (ix2 i d)
      = rd S12288x64 (StableHlo.after hostOps3 W (main_v16 : DevRef τ sig)) (ix2 ⟨4096 + i.val, by have := i.isLt; omega⟩ d) := by
  dsimp only [rd]
  after_results
  (try dsimp only)
  rw [extractStridedSlice_apply _ _ _ _ (ix2 ⟨4096 + i.val, by have := i.isLt; omega⟩ d) (by intro a; fin_cases a <;> first | rfl | exact (Nat.zero_add _).symm)]
theorem glue3_w : StableHlo.after hostOps3 W (main_v6 : DevRef τ sig) = W (main_v6 : DevRef τ sig) := by
  after_results

/-! ## The stretch after pallas_call 3 -/

/-- The concatenated table's first 8192 rows are the call's first result. -/
theorem glue4_cat_top (q : Fin 8192) (d : Fin 64) :
    rd S12288x64 (StableHlo.after hostOps4 W (main_v26 : DevRef τ sig)) (ix2 ⟨q.val, by have := q.isLt; omega⟩ d)
      = rd S8192x64 (W (main_v20_0 : DevRef τ sig)) (ix2 q d) := by
  dsimp only [rd]
  after_results
  (try dsimp only)
  rw [concatenate_pair_apply_left (t := S12288x64) (s₁ := S8192x64) (s₂ := S4096x64) 0 _ _ concatenates_S8192x64_S4096x64_S12288x64_d0 _ rfl (ix2 q d) (by intro b; fin_cases b <;> rfl)]

/-- Its last 4096 rows are the sum of the two halves' partial products. -/
theorem glue4_cat_bot (u : Fin 4096) (d : Fin 64) :
    rd S12288x64 (StableHlo.after hostOps4 W (main_v26 : DevRef τ sig)) (ix2 ⟨u.val + 8192, by have := u.isLt; omega⟩ d)
      = rd S2x4096x64 (W (main_v20_1 : DevRef τ sig)) (ix3 0 u d) + rd S2x4096x64 (W (main_v20_1 : DevRef τ sig)) (ix3 1 u d) := by
  dsimp only [rd]
  after_results
  (try dsimp only)
  rw [concatenate_pair_apply_right (t := S12288x64) (s₁ := S8192x64) (s₂ := S4096x64) 0 _ _ concatenates_S8192x64_S4096x64_S12288x64_d0 _ rfl rfl (ix2 u d) (by intro b hb; fin_cases b <;> first | rfl | exact absurd rfl hb) rfl]
  show (shapeCast S4096x64 (extractStridedSlice S1x4096x64 ![0, 0, 0] (rd S2x4096x64 (W (main_v20_1 : DevRef τ sig))) slices_S2x4096x64_S1x4096x64_0_0_0) shapeCasts_S1x4096x64_S4096x64) (ix2 u d)
      + (shapeCast S4096x64 (extractStridedSlice S1x4096x64 ![1, 0, 0] (rd S2x4096x64 (W (main_v20_1 : DevRef τ sig))) slices_S2x4096x64_S1x4096x64_1_0_0) shapeCasts_S1x4096x64_S4096x64) (ix2 u d) = _
  rw [shapeCast_dropUnit_apply, shapeCast_dropUnit_apply]
  rw [extractStridedSlice_apply _ _ _ _ (ix3 0 u d) (by intro a; fin_cases a <;> first | rfl | exact (Nat.zero_add _).symm)]
  rw [extractStridedSlice_apply _ _ _ _ (ix3 1 u d) (by intro a; fin_cases a <;> first | rfl | exact (Nat.zero_add _).symm)]

/-- The running total after this stretch. -/
theorem glue4_acc (p : S12288x64.Idx) :
    rd S12288x64 (StableHlo.after hostOps4 W (main_v27 : DevRef τ sig)) p
      = rd S12288x64 (W (main_v17 : DevRef τ sig)) p + rd S12288x64 (StableHlo.after hostOps4 W (main_v26 : DevRef τ sig)) p := by
  dsimp only [rd]
  after_results
  rfl

/-- The next call's two tables: the concatenated table's first 4096 and last 8192 rows. -/
theorem glue4_lo (u : Fin 4096) (d : Fin 64) :
    rd S4096x64 (StableHlo.after hostOps4 W (main_v28 : DevRef τ sig)) (ix2 u d)
      = rd S12288x64 (StableHlo.after hostOps4 W (main_v26 : DevRef τ sig)) (ix2 ⟨u.val, by have := u.isLt; omega⟩ d) := by
  dsimp only [rd]
  after_results
  (try dsimp only)
  rw [extractStridedSlice_apply _ _ _ _ (ix2 ⟨u.val, by have := u.isLt; omega⟩ d) (by intro a; fin_cases a <;> first | rfl | exact (Nat.zero_add _).symm)]
theorem glue4_hi (i : Fin 8192) (d : Fin 64) :
    rd S8192x64 (StableHlo.after hostOps4 W (main_v29 : DevRef τ sig)) (ix2 i d)
      = rd S12288x64 (StableHlo.after hostOps4 W (main_v26 : DevRef τ sig)) (ix2 ⟨4096 + i.val, by have := i.isLt; omega⟩ d) := by
  dsimp only [rd]
  after_results
  (try dsimp only)
  rw [extractStridedSlice_apply _ _ _ _ (ix2 ⟨4096 + i.val, by have := i.isLt; omega⟩ d) (by intro a; fin_cases a <;> first | rfl | exact (Nat.zero_add _).symm)]
theorem glue4_w : StableHlo.after hostOps4 W (main_v6 : DevRef τ sig) = W (main_v6 : DevRef τ sig) := by
  after_results

/-! ## The stretch after pallas_call 4 -/

/-- The concatenated table's first 8192 rows are the call's first result. -/
theorem glue5_cat_top (q : Fin 8192) (d : Fin 64) :
    rd S12288x64 (StableHlo.after hostOps5 W (main_v36 : DevRef τ sig)) (ix2 ⟨q.val, by have := q.isLt; omega⟩ d)
      = rd S8192x64 (W (main_v30_0 : DevRef τ sig)) (ix2 q d) := by
  dsimp only [rd]
  after_results
  (try dsimp only)
  rw [concatenate_pair_apply_left (t := S12288x64) (s₁ := S8192x64) (s₂ := S4096x64) 0 _ _ concatenates_S8192x64_S4096x64_S12288x64_d0 _ rfl (ix2 q d) (by intro b; fin_cases b <;> rfl)]

/-- Its last 4096 rows are the sum of the two halves' partial products. -/
theorem glue5_cat_bot (u : Fin 4096) (d : Fin 64) :
    rd S12288x64 (StableHlo.after hostOps5 W (main_v36 : DevRef τ sig)) (ix2 ⟨u.val + 8192, by have := u.isLt; omega⟩ d)
      = rd S2x4096x64 (W (main_v30_1 : DevRef τ sig)) (ix3 0 u d) + rd S2x4096x64 (W (main_v30_1 : DevRef τ sig)) (ix3 1 u d) := by
  dsimp only [rd]
  after_results
  (try dsimp only)
  rw [concatenate_pair_apply_right (t := S12288x64) (s₁ := S8192x64) (s₂ := S4096x64) 0 _ _ concatenates_S8192x64_S4096x64_S12288x64_d0 _ rfl rfl (ix2 u d) (by intro b hb; fin_cases b <;> first | rfl | exact absurd rfl hb) rfl]
  show (shapeCast S4096x64 (extractStridedSlice S1x4096x64 ![0, 0, 0] (rd S2x4096x64 (W (main_v30_1 : DevRef τ sig))) slices_S2x4096x64_S1x4096x64_0_0_0) shapeCasts_S1x4096x64_S4096x64) (ix2 u d)
      + (shapeCast S4096x64 (extractStridedSlice S1x4096x64 ![1, 0, 0] (rd S2x4096x64 (W (main_v30_1 : DevRef τ sig))) slices_S2x4096x64_S1x4096x64_1_0_0) shapeCasts_S1x4096x64_S4096x64) (ix2 u d) = _
  rw [shapeCast_dropUnit_apply, shapeCast_dropUnit_apply]
  rw [extractStridedSlice_apply _ _ _ _ (ix3 0 u d) (by intro a; fin_cases a <;> first | rfl | exact (Nat.zero_add _).symm)]
  rw [extractStridedSlice_apply _ _ _ _ (ix3 1 u d) (by intro a; fin_cases a <;> first | rfl | exact (Nat.zero_add _).symm)]

/-- The running total after this stretch. -/
theorem glue5_acc (p : S12288x64.Idx) :
    rd S12288x64 (StableHlo.after hostOps5 W (main_v37 : DevRef τ sig)) p
      = rd S12288x64 (W (main_v27 : DevRef τ sig)) p + rd S12288x64 (StableHlo.after hostOps5 W (main_v36 : DevRef τ sig)) p := by
  dsimp only [rd]
  after_results
  rfl

/-- The result: the total divided by four. -/
theorem glue5_out (p : S12288x64.Idx) :
    rd S12288x64 (StableHlo.after hostOps5 W (main_v39 : DevRef τ sig)) p
      = Ideal.div (rd S12288x64 (StableHlo.after hostOps5 W (main_v37 : DevRef τ sig)) p) (Ideal.ofBits .f32 0x40800000#32) := by
  dsimp only [rd]
  after_results
  rfl

end Cert.KernelIdeal.Hand

end
-- ==== Proof.BridgeX.lean ====
/-
  Which buffers pass through the program unchanged between the points where they are written and read: the table
  of the first layer is the argument's two row ranges; the weights written by the second pallas_call are what each
  of the three layers reads; each layer's running total is read as the stretch before left it.
-/
import proofs.«142347_j15487652069895_2_alg».proof.Proof.KArgs
import proofs.«142347_j15487652069895_2_alg».proof.Proof.Glue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx

variable (m : (ℓ : Loc nD τ sig) → Buf (Elt Ideal) ℓ) (c : Dev nD)

/-- The table argument, as the third pallas_call's stretch of host operations finds it. -/
theorem W3_main_arg0 : W3 m c (Proc.devRef .tc main_arg0) = W0 m c (Proc.devRef .tc main_arg0) :=
  calc W3 m c (Proc.devRef .tc main_arg0)
    _ = W2 m c (Proc.devRef .tc main_arg0) := W3_of_ne m c main_arg0 (by decide)
    _ = W1 m c (Proc.devRef .tc main_arg0) := keep1_arg0 _
    _ = W0 m c (Proc.devRef .tc main_arg0) := W1_of_ne m c main_arg0 (by decide)

/-- The integer matrix, as the second pallas_call finds it. -/
theorem W2_main_arg1 : W2 m c (Proc.devRef .tc main_arg1) = W0 m c (Proc.devRef .tc main_arg1) :=
  (keep1_arg1 _).trans (W1_main_arg1 m c)

/-- The weights as each layer's pallas_call finds them: what the second pallas_call left. -/
theorem W4_main_v6 : W4 m c (Proc.devRef .tc main_v6) = W3 m c (Proc.devRef .tc main_v6) := glue2_w _
theorem W5_main_v6 : W5 m c (Proc.devRef .tc main_v6) = W4 m c (Proc.devRef .tc main_v6) :=
  (W5_arr m c 0).trans (((dat2 (V4 m) c).arrAt_in 0 rfl _).trans (A_eq2 (V4 m) c 0))
theorem W6_main_v6 : W6 m c (Proc.devRef .tc main_v6) = W3 m c (Proc.devRef .tc main_v6) :=
  (glue3_w _).trans ((W5_main_v6 m c).trans (W4_main_v6 m c))
theorem W7_main_v6 : W7 m c (Proc.devRef .tc main_v6) = W6 m c (Proc.devRef .tc main_v6) :=
  (W7_arr m c 0).trans (((dat3 (V6 m) c).arrAt_in 0 rfl _).trans (A_eq3 (V6 m) c 0))
theorem W8_main_v6 : W8 m c (Proc.devRef .tc main_v6) = W3 m c (Proc.devRef .tc main_v6) :=
  (glue4_w _).trans ((W7_main_v6 m c).trans (W6_main_v6 m c))

/-- The running totals pass through the pallas_calls. -/
theorem W5_main_v7 : W5 m c (Proc.devRef .tc main_v7) = W4 m c (Proc.devRef .tc main_v7) := W5_of_ne m c main_v7 (by decide)
theorem W7_main_v17 : W7 m c (Proc.devRef .tc main_v17) = W6 m c (Proc.devRef .tc main_v17) := W7_of_ne m c main_v17 (by decide)
theorem W9_main_v27 : W9 m c (Proc.devRef .tc main_v27) = W8 m c (Proc.devRef .tc main_v27) := W9_of_ne m c main_v27 (by decide)

/-- The three layers' results, each the concatenation its stretch of host operations builds. -/
def cat1 : S12288x64.Idx → EReal := rd S12288x64 (W6 m c (Proc.devRef .tc main_v16))
def cat2 : S12288x64.Idx → EReal := rd S12288x64 (W8 m c (Proc.devRef .tc main_v26))
def cat3 : S12288x64.Idx → EReal := rd S12288x64 (W10 m c (Proc.devRef .tc main_v36))

/-- The program's result in terms of the three layers' results. -/
theorem out_eq (p : S12288x64.Idx) :
    rd S12288x64 (W10 m c (Proc.devRef .tc main_v39)) p
      = Ideal.div (((Ideal.ofBits .f32 0x00000000#32 + cat1 m c p) + cat2 m c p) + cat3 m c p) (Ideal.ofBits .f32 0x40800000#32) := by
  have h5 := glue5_out (W9 m c) p
  have a5 := glue5_acc (W9 m c) p
  have a4 := glue4_acc (W7 m c) p
  have a3 := glue3_acc (W5 m c) p
  have z := glue2_zero (W3 m c) p
  unfold cat1 cat2 cat3
  dsimp only [rd] at h5 a5 a4 a3 z ⊢
  show StableHlo.after hostOps5 (W9 m c) (Proc.devRef .tc main_v39) p
      = Ideal.div (((Ideal.ofBits .f32 0x00000000#32 + StableHlo.after hostOps3 (W5 m c) (Proc.devRef .tc main_v16) p)
          + StableHlo.after hostOps4 (W7 m c) (Proc.devRef .tc main_v26) p)
          + StableHlo.after hostOps5 (W9 m c) (Proc.devRef .tc main_v36) p) (Ideal.ofBits .f32 0x40800000#32)
  rw [h5, a5, W9_main_v27 m c]
  show Ideal.div (rd S12288x64 (StableHlo.after hostOps4 (W7 m c) (Proc.devRef .tc main_v27)) p + _) _ = _
  dsimp only [rd]
  rw [a4, W7_main_v17 m c]
  show Ideal.div ((rd S12288x64 (StableHlo.after hostOps3 (W5 m c) (Proc.devRef .tc main_v17)) p + _) + _) _ = _
  dsimp only [rd]
  rw [a3, W5_main_v7 m c]
  show Ideal.div (((rd S12288x64 (StableHlo.after hostOps2 (W3 m c) (Proc.devRef .tc main_v7)) p + _) + _) + _) _ = _
  dsimp only [rd]
  rw [z]

end Cert.KernelIdeal.Hand

end
-- ==== Proof.Spec.lean ====
/-
  The specification. LightGCN propagation over a bipartite user-item graph with symmetric degree
  normalisation, stated as ONE function of the two argument arrays at the ideal float values (an
  extended real per float, every operation exact).

  With a(u,i) the interaction matrix's entry read as a float,
    degU u = sum over i of a(u,i),   degI i = sum over u of a(u,i),
    w(u,i) = a(u,i) / sqrt(degU u * degI i)  where that root is positive, else 0,
  one layer maps a table cur of 12288 rows (the first 4096 and the last 8192 read as two blocks) to
    rows 0..8191:      (i,d) |-> sum over u of w(u,i) * cur(u,d)
    rows 8192..12287:  (u,d) |-> sum over i of w(u,i) * cur(4096+i,d)
  (the item-side block first), and the result is the mean of the three iterates with the zero table:
    (((0 + L x) + L (L x)) + L (L (L x))) / 4.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The embedding table's shape: 12288 rows of 64 columns. -/
abbrev SX : Shape := ⟨2, ![12288, 64]⟩
/-- The interaction matrix's shape: 4096 users by 8192 items. -/
abbrev SE : Shape := ⟨2, ![4096, 8192]⟩

/-- Row `u` among the first 4096 rows of a 12288-row table. -/
abbrev rowLo (u : Fin 4096) : Fin 12288 := ⟨u.val, by have := u.isLt; omega⟩
/-- Row `4096 + i`: the `i`-th of the last 8192 rows of a 12288-row table. -/
abbrev rowHi (i : Fin 8192) : Fin 12288 := ⟨4096 + i.val, by have := i.isLt; omega⟩

/-- The interaction matrix's entry as a float: the signed integer, exactly. -/
def adj (e : SE.Idx → BitVec 32) (u : Fin 4096) (i : Fin 8192) : EReal :=
  FloatOps.sitofp (F := Ideal) .f32 (e (ix2 u i))

/-- A user's degree: the sum of its row. -/
def degU (e : SE.Idx → BitVec 32) (u : Fin 4096) : EReal := ∑ i : Fin 8192, adj e u i

/-- An item's degree: the sum of its column. -/
def degI (e : SE.Idx → BitVec 32) (i : Fin 8192) : EReal := ∑ u : Fin 4096, adj e u i

/-- The normaliser: the square root of the product of the two degrees. -/
def den (du di : EReal) : EReal := Ideal.sqrt (du * di)

/-- The weight as a function of the two degrees and the entry: the entry over the normaliser where
    the normaliser is positive (the inner choice puts 1 under the entry elsewhere), and 0 elsewhere. -/
def wfun (du di a : EReal) : EReal :=
  Scalar.select (Ideal.cmp .ogt (den du di) (Ideal.ofBits .f32 0x00000000#32))
    (Ideal.div a
      (Scalar.select (Ideal.cmp .ogt (den du di) (Ideal.ofBits .f32 0x00000000#32)) (den du di)
        (Ideal.ofBits .f32 0x3F800000#32)))
    (Ideal.ofBits .f32 0x00000000#32)

/-- The normalised weight of the pair (u, i). -/
def wgt (e : SE.Idx → BitVec 32) (u : Fin 4096) (i : Fin 8192) : EReal :=
  wfun (degU e u) (degI e i) (adj e u i)

/-- The item-side block of a layer: the weights' transpose times the table's first 4096 rows. -/
def layerTop (e : SE.Idx → BitVec 32) (cur : SX.Idx → EReal) (i : Fin 8192) (d : Fin 64) : EReal :=
  ∑ u : Fin 4096, wgt e u i * cur (ix2 (rowLo u) d)

/-- The user-side block of a layer: the weights times the table's last 8192 rows. -/
def layerBot (e : SE.Idx → BitVec 32) (cur : SX.Idx → EReal) (u : Fin 4096) (d : Fin 64) : EReal :=
  ∑ i : Fin 8192, wgt e u i * cur (ix2 (rowHi i) d)

/-- A layer at row `r`, column `d`: the item-side block on rows below 8192, the user-side block on the rest. -/
def layerAt (e : SE.Idx → BitVec 32) (cur : SX.Idx → EReal) (r : Fin 12288) (d : Fin 64) : EReal :=
  if h : r.val < 8192 then layerTop e cur ⟨r.val, h⟩ d
  else layerBot e cur ⟨r.val - 8192, by have := r.isLt; omega⟩ d

/-- One layer, as a table. -/
def layer (e : SE.Idx → BitVec 32) (cur : SX.Idx → EReal) : SX.Idx → EReal :=
  fun p => layerAt e cur (p 0) (p 1)

/-- THE RESULT: the zero table plus the three iterates of the layer, over four. -/
def G (x : SX.Idx → EReal) (e : SE.Idx → BitVec 32) : SX.Idx → EReal :=
  fun p =>
    Ideal.div
      (((Ideal.ofBits .f32 0x00000000#32 + layer e x p) + layer e (layer e x) p)
        + layer e (layer e (layer e x)) p)
      (Ideal.ofBits .f32 0x40800000#32)

/-! ## The named functions as the printed operations spell them (all by computation) -/

/-- The entry is the exact signed integer. -/
theorem adj_eq_coe (e : SE.Idx → BitVec 32) (u : Fin 4096) (i : Fin 8192) :
    adj e u i = (((e (ix2 u i)).toInt : ℝ) : EReal) := rfl

/-- The weight, spelt with a kernel's operations: `math.sqrt`, `arith.cmpf ogt`, `arith.divf`,
    `arith.select` and scalar constants. -/
theorem wfun_kernel (du di a : Ideal .f32) :
    Scalar.select (FloatOps.cmpf .ogt (FloatOps.sqrt (FloatOps.mulf du di)) (Scalar.ofBits .f32 0x00000000#32))
        (FloatOps.divf a
          (Scalar.select (FloatOps.cmpf .ogt (FloatOps.sqrt (FloatOps.mulf du di)) (Scalar.ofBits .f32 0x00000000#32))
            (FloatOps.sqrt (FloatOps.mulf du di)) (Scalar.ofBits .f32 0x3F800000#32)))
        (Scalar.ofBits .f32 0x00000000#32)
      = wfun du di a := rfl

/-- The weight, spelt with the host's operations: `stablehlo.sqrt`, `compare GT`, `divide`, `select`
    and tensor constants. -/
theorem wfun_host (du di a : Ideal .f32) :
    Scalar.select (FloatOps.cmpf .ogt (FloatOps.hostUnary .sqrt (FloatOps.mulf du di)) (FloatOps.ofBits .f32 0x00000000#32))
        (FloatOps.hostDivf a
          (Scalar.select (FloatOps.cmpf .ogt (FloatOps.hostUnary .sqrt (FloatOps.mulf du di)) (FloatOps.ofBits .f32 0x00000000#32))
            (FloatOps.hostUnary .sqrt (FloatOps.mulf du di)) (FloatOps.ofBits .f32 0x3F800000#32)))
        (FloatOps.ofBits .f32 0x00000000#32)
      = wfun du di a := rfl

/-- A layer at an index built from its coordinates. -/
theorem layer_ix2 (e : SE.Idx → BitVec 32) (cur : SX.Idx → EReal) (r : Fin 12288) (d : Fin 64) :
    layer e cur (ix2 r d) = layerAt e cur r d := rfl

/-- Below row 8192 a layer is its item-side block. -/
theorem layerAt_lt (e : SE.Idx → BitVec 32) (cur : SX.Idx → EReal) (r : Fin 12288) (d : Fin 64)
    (h : r.val < 8192) : layerAt e cur r d = layerTop e cur ⟨r.val, h⟩ d := dif_pos h

/-- From row 8192 on a layer is its user-side block. -/
theorem layerAt_ge (e : SE.Idx → BitVec 32) (cur : SX.Idx → EReal) (r : Fin 12288) (d : Fin 64)
    (h : ¬ r.val < 8192) :
    layerAt e cur r d = layerBot e cur ⟨r.val - 8192, by have := r.isLt; omega⟩ d := dif_neg h

/-- The result at an index. -/
theorem G_apply (x : SX.Idx → EReal) (e : SE.Idx → BitVec 32) (p : SX.Idx) :
    G x e p =
      Ideal.div
        (((Ideal.ofBits .f32 0x00000000#32 + layer e x p) + layer e (layer e x) p)
          + layer e (layer e (layer e x)) p)
        (Ideal.ofBits .f32 0x40800000#32) := rfl

end Cert.Spec

end
-- ==== Proof.LibTileSum.lean ====
/-
  A finite sum over `Fin (T * B)` regrouped as `T` tiles of `B` consecutive indices, in any additive commutative monoid
  (in particular the extended reals, where addition is commutative and associative although it is not cancellative):
  only the order and grouping of the terms change, so no finiteness of the terms is needed.
-/
import Mathlib.Algebra.BigOperators.Fin
import Mathlib.Logic.Equiv.Fin.Basic
import Mathlib.Algebra.BigOperators.Group.Finset.Basic

open scoped BigOperators

namespace Cert.HyperLib

/-- The sum over `Fin (T * B)` is the sum over the tiles of the sums inside each tile; tile `t`, offset `r` is the index
    `r + B * t` (`finProdFinEquiv`). -/
theorem sum_tiles (T B : ℕ) {M : Type} [AddCommMonoid M] (f : Fin (T * B) → M) :
    ∑ n : Fin (T * B), f n = ∑ t : Fin T, ∑ r : Fin B, f (finProdFinEquiv (t, r)) := by
  rw [← Equiv.sum_comp finProdFinEquiv f, Fintype.sum_prod_type]

/-- The index of tile `t`, offset `r`. -/
theorem tile_index_val (T B : ℕ) (t : Fin T) (r : Fin B) : (finProdFinEquiv (t, r) : Fin (T * B)).val = r.val + B * t.val := rfl

/-- 4096 indices as 8 tiles of 512: index `512 · t + r`. -/
theorem sum_fin4096_tiles {M : Type} [AddCommMonoid M] (f : Fin 4096 → M) :
    ∑ n : Fin 4096, f n
      = ∑ t : Fin 8, ∑ r : Fin 512, f ⟨t.val * 512 + r.val, by have := t.isLt; have := r.isLt; omega⟩ := by
  have h := sum_tiles 8 512 (M := M) f
  refine h.trans (Finset.sum_congr rfl fun t _ => Finset.sum_congr rfl fun r _ => congrArg f (Fin.ext ?_))
  show r.val + 512 * t.val = t.val * 512 + r.val
  omega

/-- The tiles taken one after the other: the sum over the first `n + 1` tiles is the sum over the first `n` plus tile `n`
    (the step of an accumulator that adds one tile's partial sum per grid point). -/
theorem sum_tiles_succ {M : Type} [AddCommMonoid M] (g : ℕ → M) (n : ℕ) :
    ∑ t ∈ Finset.range (n + 1), g t = (∑ t ∈ Finset.range n, g t) + g n := Finset.sum_range_succ g n

/-- All eight tiles, as a sum over a range (what the accumulator holds after the last point of a sweep). -/
theorem sum_fin8_eq_range {M : Type} [AddCommMonoid M] (g : ℕ → M) : ∑ t : Fin 8, g t.val = ∑ t ∈ Finset.range 8, g t :=
  Fin.sum_univ_eq_sum_range g 8

end Cert.HyperLib
-- ==== Proof.SumLaws.lean ====
/-
  Regrouping laws for finite sums over consecutive tiles of indices, in an arbitrary additive
  commutative monoid. Only the order and the grouping of the terms change, so the laws hold on the
  extended reals with no finiteness of the terms: a sum over 8192 indices as eight tiles of 1024
  accumulated one after the other from zero; a sum over 4096 indices as two halves of 2048, added or
  accumulated from zero; a sum over 8192 indices as two accumulations of two tiles of 2048 each.

  Each law takes the map from (tile, offset) to the index as a parameter `idx`, with the one fact it
  needs: the index's value is tile * width + offset.
-/
import proofs.«142347_j15487652069895_2_alg».proof.Proof.LibTileSum
import Mathlib.Algebra.BigOperators.Fin

open scoped BigOperators

namespace Cert.Spec

variable {M : Type} [AddCommMonoid M]

/-- A sum over `N = T * B` indices is the sum over `T` tiles of the sums over the `B` offsets inside each,
    for any map `idx` that sends tile `t`, offset `r` to the index `t * B + r`. -/
theorem sum_tiles_idx (T B : ℕ) {N : ℕ} (hN : N = T * B) (f : Fin N → M) (idx : Fin T → Fin B → Fin N)
    (hidx : ∀ t r, (idx t r).val = t.val * B + r.val) :
    ∑ n : Fin N, f n = ∑ t : Fin T, ∑ r : Fin B, f (idx t r) := by
  subst hN
  rw [Cert.HyperLib.sum_tiles T B f]
  refine Finset.sum_congr rfl fun t _ => Finset.sum_congr rfl fun r _ => congrArg f (Fin.ext ?_)
  rw [Cert.HyperLib.tile_index_val, hidx, Nat.add_comm, Nat.mul_comm]

/-- 8192 indices as eight consecutive tiles of 1024, the tile sums accumulated left to right from zero. -/
theorem sum8192_acc8 (f : Fin 8192 → M) (idx : Fin 8 → Fin 1024 → Fin 8192)
    (hidx : ∀ t r, (idx t r).val = t.val * 1024 + r.val) :
    ∑ n : Fin 8192, f n =
      ((((((((0 + ∑ r : Fin 1024, f (idx 0 r)) + ∑ r : Fin 1024, f (idx 1 r)) + ∑ r : Fin 1024, f (idx 2 r))
        + ∑ r : Fin 1024, f (idx 3 r)) + ∑ r : Fin 1024, f (idx 4 r)) + ∑ r : Fin 1024, f (idx 5 r))
        + ∑ r : Fin 1024, f (idx 6 r)) + ∑ r : Fin 1024, f (idx 7 r)) := by
  rw [sum_tiles_idx 8 1024 rfl f idx hidx, Fin.sum_univ_eight, zero_add]

/-- 4096 indices as two halves of 2048: the sum of the two half sums. -/
theorem sum4096_halves (f : Fin 4096 → M) (idx : Fin 2 → Fin 2048 → Fin 4096)
    (hidx : ∀ t r, (idx t r).val = t.val * 2048 + r.val) :
    ∑ n : Fin 4096, f n = (∑ r : Fin 2048, f (idx 0 r)) + ∑ r : Fin 2048, f (idx 1 r) := by
  rw [sum_tiles_idx 2 2048 rfl f idx hidx, Fin.sum_univ_two]

/-- 4096 indices as two tiles of 2048, the tile sums accumulated from zero. -/
theorem sum4096_acc2 (f : Fin 4096 → M) (idx : Fin 2 → Fin 2048 → Fin 4096)
    (hidx : ∀ t r, (idx t r).val = t.val * 2048 + r.val) :
    ∑ n : Fin 4096, f n = (0 + ∑ r : Fin 2048, f (idx 0 r)) + ∑ r : Fin 2048, f (idx 1 r) := by
  rw [sum4096_halves f idx hidx, zero_add]

/-- 8192 indices as four tiles of 2048, tile (c, j) at offset (2c + j) * 2048: for each `c` the two tile
    sums accumulated from zero, and the two accumulations added. -/
theorem sum8192_acc2x2 (f : Fin 8192 → M) (idx : Fin 2 → Fin 2 → Fin 2048 → Fin 8192)
    (hidx : ∀ c j r, (idx c j r).val = (2 * c.val + j.val) * 2048 + r.val) :
    ∑ n : Fin 8192, f n =
      ((0 + ∑ r : Fin 2048, f (idx 0 0 r)) + ∑ r : Fin 2048, f (idx 0 1 r))
        + ((0 + ∑ r : Fin 2048, f (idx 1 0 r)) + ∑ r : Fin 2048, f (idx 1 1 r)) := by
  -- first the two halves of 4096 …
  have h1 : ∑ n : Fin 8192, f n
      = ∑ c : Fin 2, ∑ q : Fin 4096,
          f ⟨c.val * 4096 + q.val, by have := c.isLt; have := q.isLt; omega⟩ :=
    sum_tiles_idx 2 4096 rfl f
      (fun c q => ⟨c.val * 4096 + q.val, by have := c.isLt; have := q.isLt; omega⟩) (fun _ _ => rfl)
  -- … then each half as two tiles of 2048
  have h2 : ∀ c : Fin 2,
      ∑ q : Fin 4096, f ⟨c.val * 4096 + q.val, by have := c.isLt; have := q.isLt; omega⟩
        = ∑ j : Fin 2, ∑ r : Fin 2048, f (idx c j r) := fun c => by
    rw [sum_tiles_idx 2 2048 rfl
      (fun q : Fin 4096 => f ⟨c.val * 4096 + q.val, by have := c.isLt; have := q.isLt; omega⟩)
      (fun j r => ⟨j.val * 2048 + r.val, by have := j.isLt; have := r.isLt; omega⟩) (fun _ _ => rfl)]
    refine Finset.sum_congr rfl fun j _ => Finset.sum_congr rfl fun r _ => congrArg f (Fin.ext ?_)
    rw [hidx]
    show c.val * 4096 + (j.val * 2048 + r.val) = (2 * c.val + j.val) * 2048 + r.val
    omega
  rw [h1, Fin.sum_univ_two, h2 0, h2 1, Fin.sum_univ_two, Fin.sum_univ_two, zero_add, zero_add]

end Cert.Spec
-- ==== Proof.BridgeMath.lean ====
/-
  Three bridges of pure mathematics between the specification's named functions and the forms in which the
  program's stages deliver them, all over the extended reals, where only the order and the grouping of the
  terms of a finite sum change:
  (1) an item's degree is the sum of the two partial column sums over the upper and the lower 2048 users;
  (2) one layer of the propagation, assembled from its pieces: the weight matrix, the two row blocks of the
      current table, the item-side product, the user-side product delivered as two partial products over the
      two halves of the 8192 items, and their concatenation with the item-side block first;
  (3) the result, from the three iterates of the layer.
-/
import proofs.«142347_j15487652069895_2_alg».proof.Proof.Spec
import proofs.«142347_j15487652069895_2_alg».proof.Proof.SumLaws

noncomputable section

namespace Cert.Spec

open Idealize.ShloMosaic Idealize.ShloMosaic.ValueIdx
open scoped BigOperators

/-! ## (1) An item's degree from the two halves of the users -/

/-- The column sum over the users 0 .. 2047 plus the column sum over the users 2048 .. 4095 is the item's degree. -/
theorem degI_of_halves (e : SE.Idx → BitVec 32) (i : Fin 8192) :
    (∑ r : Fin 2048, adj e ⟨(0 : Fin 2).val * 2048 + r.val, by have := r.isLt; omega⟩ i)
      + (∑ r : Fin 2048, adj e ⟨(1 : Fin 2).val * 2048 + r.val, by have := r.isLt; omega⟩ i) = degI e i := by
  unfold degI
  exact (sum4096_halves (fun u => adj e u i)
    (fun h r => ⟨h.val * 2048 + r.val, by have := h.isLt; have := r.isLt; omega⟩) (fun _ _ => rfl)).symm

/-! ## (2) One layer from its pieces -/

/-- A layer on a row below 8192 is its item-side block. -/
theorem layer_top (e : SE.Idx → BitVec 32) (cur : SX.Idx → EReal) (q : Fin 8192) (d : Fin 64) :
    layer e cur (ix2 ⟨q.val, by have := q.isLt; omega⟩ d) = layerTop e cur q d := by
  rw [layer_ix2, layerAt_lt e cur _ d (show (⟨q.val, _⟩ : Fin 12288).val < 8192 from q.isLt)]

/-- A layer on row 8192 + u is its user-side block at u. -/
theorem layer_bot (e : SE.Idx → BitVec 32) (cur : SX.Idx → EReal) (u : Fin 4096) (d : Fin 64) :
    layer e cur (ix2 ⟨u.val + 8192, by have := u.isLt; omega⟩ d) = layerBot e cur u d := by
  rw [layer_ix2, layerAt_ge e cur _ d (show ¬ (⟨u.val + 8192, _⟩ : Fin 12288).val < 8192 from by
    show ¬ u.val + 8192 < 8192; omega)]
  exact congrArg (fun v => layerBot e cur v d) (Fin.ext (by show u.val + 8192 - 8192 = u.val; omega))

/-- One layer from its pieces. With `wv` the weight matrix, `a` the first 4096 rows of the table and `b` its
    last 8192 rows, `top` the product of the weights' transpose with `a`, `bot` the two partial products of the
    weights with `b` over the items 0 .. 4095 and 4096 .. 8191, and `cat` the table whose rows 0 .. 8191 are
    `top` and whose rows 8192 .. 12287 are the sum of the two partial products: `cat` is the layer of the table. -/
theorem layer_of_parts (e : SE.Idx → BitVec 32) (cur : SX.Idx → EReal)
    (wv : (⟨2, ![4096, 8192]⟩ : Shape).Idx → EReal) (a : (⟨2, ![4096, 64]⟩ : Shape).Idx → EReal)
    (b : (⟨2, ![8192, 64]⟩ : Shape).Idx → EReal) (top : (⟨2, ![8192, 64]⟩ : Shape).Idx → EReal)
    (bot : (⟨3, ![2, 4096, 64]⟩ : Shape).Idx → EReal) (cat : SX.Idx → EReal)
    (hw : ∀ u i, wv (ix2 u i) = wgt e u i)
    (ha : ∀ (u : Fin 4096) (d : Fin 64), a (ix2 u d) = cur (ix2 ⟨u.val, by have := u.isLt; omega⟩ d))
    (hb : ∀ (i : Fin 8192) (d : Fin 64), b (ix2 i d) = cur (ix2 ⟨4096 + i.val, by have := i.isLt; omega⟩ d))
    (htop : ∀ (q : Fin 8192) (d : Fin 64), top (ix2 q d) = ∑ u : Fin 4096, wv (ix2 u q) * a (ix2 u d))
    (hbot : ∀ (h : Fin 2) (u : Fin 4096) (d : Fin 64), bot (ix3 h u d)
      = ∑ k : Fin 4096, wv (ix2 u ⟨h.val * 4096 + k.val, by have := h.isLt; have := k.isLt; omega⟩)
          * b (ix2 ⟨h.val * 4096 + k.val, by have := h.isLt; have := k.isLt; omega⟩ d))
    (hct : ∀ (q : Fin 8192) (d : Fin 64), cat (ix2 ⟨q.val, by have := q.isLt; omega⟩ d) = top (ix2 q d))
    (hcb : ∀ (u : Fin 4096) (d : Fin 64), cat (ix2 ⟨u.val + 8192, by have := u.isLt; omega⟩ d) = bot (ix3 0 u d) + bot (ix3 1 u d)) :
    cat = layer e cur := by
  -- a row of the item-side block
  have top_rows : ∀ (q : Fin 8192) (d : Fin 64),
      cat (ix2 ⟨q.val, by have := q.isLt; omega⟩ d) = layer e cur (ix2 ⟨q.val, by have := q.isLt; omega⟩ d) := fun q d => by
    rw [layer_top, hct, htop]
    unfold layerTop
    refine Finset.sum_congr rfl fun u _ => ?_
    rw [hw, ha]
  -- a row of the user-side block: the sum over the 8192 items as its two halves
  have bot_rows : ∀ (u : Fin 4096) (d : Fin 64),
      cat (ix2 ⟨u.val + 8192, by have := u.isLt; omega⟩ d) = layer e cur (ix2 ⟨u.val + 8192, by have := u.isLt; omega⟩ d) := fun u d => by
    rw [layer_bot, hcb, hbot, hbot]
    unfold layerBot
    rw [sum_tiles_idx 2 4096 rfl (fun i : Fin 8192 => wgt e u i * cur (ix2 (rowHi i) d))
      (fun h k => ⟨h.val * 4096 + k.val, by have := h.isLt; have := k.isLt; omega⟩) (fun _ _ => rfl),
      Fin.sum_univ_two]
    refine congrArg₂ (· + ·) ?_ ?_ <;> refine Finset.sum_congr rfl fun k _ => ?_ <;> rw [hw, hb]
  funext p
  obtain ⟨r, d, rfl⟩ : ∃ (r : Fin 12288) (d : Fin 64), p = ix2 r d := ⟨p 0, p 1, eq_ix2 p⟩
  by_cases h : r.val < 8192
  · exact top_rows ⟨r.val, h⟩ d
  · have hr := r.isLt
    have er : r = ⟨(⟨r.val - 8192, by omega⟩ : Fin 4096).val + 8192, by show r.val - 8192 + 8192 < 12288; omega⟩ :=
      Fin.ext (by show r.val = r.val - 8192 + 8192; omega)
    rw [er]
    exact bot_rows ⟨r.val - 8192, by omega⟩ d

/-! ## (3) The result from the three iterates -/

/-- The result from the three iterates of the layer: the zero table plus the three, over four. -/
theorem G_of_layers (x : SX.Idx → EReal) (e : SE.Idx → BitVec 32) (c1 c2 c3 out : SX.Idx → EReal)
    (h1 : c1 = layer e x) (h2 : c2 = layer e c1) (h3 : c3 = layer e c2)
    (hout : ∀ p, out p = Ideal.div (((Ideal.ofBits .f32 0x00000000#32 + c1 p) + c2 p) + c3 p) (Ideal.ofBits .f32 0x40800000#32)) :
    out = G x e := by
  subst h1 h2 h3
  funext p
  rw [hout, G_apply]

end Cert.Spec

end
-- ==== Proof.BridgeL.lean ====
/-
  The three layers, and the program's result as the specification's: each pallas_call of the last three computes
  the two matrix products of one layer from the weights and the two row ranges of the table before it, its stretch
  of host operations adds the two halves of the second product and concatenates; so each concatenation is one
  layer of the specification applied to the one before, and the result is their sum from zero, divided by four.
-/
import proofs.«142347_j15487652069895_2_alg».proof.Proof.BridgeX
import proofs.«142347_j15487652069895_2_alg».proof.Proof.BridgeMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx

open scoped BigOperators

variable (m : (ℓ : Loc nD τ sig) → Buf (Elt Ideal) ℓ) (c : Dev nD)

/-- The two argument arrays as launched, as functions of a literal index. -/
def eArr : S4096x8192.Idx → BitVec 32 := rdI S4096x8192 (W0 m c (Proc.devRef .tc main_arg1))
def xArr : S12288x64.Idx → EReal := rd S12288x64 (W0 m c (Proc.devRef .tc main_arg0))

section
/- What the pallas_calls are shown elsewhere to leave in their output arrays, taken here as given: the weights
   of the second call, and for each of the last three calls the two products, for any entry contents. -/
variable (hwts : ∀ (u : Fin 4096) (i : Fin 8192), rd S4096x8192 (W3 m c (Proc.devRef .tc main_v6)) (ix2 u i) = Cert.Spec.wgt (eArr m c) u i)
variable (htop2 : ∀ (V : (c : Dev nD) → (b : Ref sig .tc) → Buf (Elt Ideal) ((c : Thread nD τ).loc b)) (q : Fin 8192) (d : Fin 64),
    rd S8192x64 ((dat2 (F := Ideal) V c).arrAt 3 cfg2.N) (ix2 q d)
      = ∑ u : Fin 4096, rd S4096x8192 (V c main_v6) (ix2 u q) * rd S4096x64 (V c main_v8) (ix2 u d))
variable (hbot2 : ∀ (V : (c : Dev nD) → (b : Ref sig .tc) → Buf (Elt Ideal) ((c : Thread nD τ).loc b)) (h : Fin 2) (u : Fin 4096) (d : Fin 64),
    rd S2x4096x64 ((dat2 (F := Ideal) V c).arrAt 4 cfg2.N) (ix3 h u d)
      = ∑ k : Fin 4096, rd S4096x8192 (V c main_v6) (ix2 u ⟨h.val * 4096 + k.val, by have := h.isLt; have := k.isLt; omega⟩)
          * rd S8192x64 (V c main_v9) (ix2 ⟨h.val * 4096 + k.val, by have := h.isLt; have := k.isLt; omega⟩ d))
variable (htop3 : ∀ (V : (c : Dev nD) → (b : Ref sig .tc) → Buf (Elt Ideal) ((c : Thread nD τ).loc b)) (q : Fin 8192) (d : Fin 64),
    rd S8192x64 ((dat3 (F := Ideal) V c).arrAt 3 cfg3.N) (ix2 q d)
      = ∑ u : Fin 4096, rd S4096x8192 (V c main_v6) (ix2 u q) * rd S4096x64 (V c main_v18) (ix2 u d))
variable (hbot3 : ∀ (V : (c : Dev nD) → (b : Ref sig .tc) → Buf (Elt Ideal) ((c : Thread nD τ).loc b)) (h : Fin 2) (u : Fin 4096) (d : Fin 64),
    rd S2x4096x64 ((dat3 (F := Ideal) V c).arrAt 4 cfg3.N) (ix3 h u d)
      = ∑ k : Fin 4096, rd S4096x8192 (V c main_v6) (ix2 u ⟨h.val * 4096 + k.val, by have := h.isLt; have := k.isLt; omega⟩)
          * rd S8192x64 (V c main_v19) (ix2 ⟨h.val * 4096 + k.val, by have := h.isLt; have := k.isLt; omega⟩ d))
variable (htop4 : ∀ (V : (c : Dev nD) → (b : Ref sig .tc) → Buf (Elt Ideal) ((c : Thread nD τ).loc b)) (q : Fin 8192) (d : Fin 64),
    rd S8192x64 ((dat4 (F := Ideal) V c).arrAt 3 cfg4.N) (ix2 q d)
      = ∑ u : Fin 4096, rd S4096x8192 (V c main_v6) (ix2 u q) * rd S4096x64 (V c main_v28) (ix2 u d))
variable (hbot4 : ∀ (V : (c : Dev nD) → (b : Ref sig .tc) → Buf (Elt Ideal) ((c : Thread nD τ).loc b)) (h : Fin 2) (u : Fin 4096) (d : Fin 64),
    rd S2x4096x64 ((dat4 (F := Ideal) V c).arrAt 4 cfg4.N) (ix3 h u d)
      = ∑ k : Fin 4096, rd S4096x8192 (V c main_v6) (ix2 u ⟨h.val * 4096 + k.val, by have := h.isLt; have := k.isLt; omega⟩)
          * rd S8192x64 (V c main_v29) (ix2 ⟨h.val * 4096 + k.val, by have := h.isLt; have := k.isLt; omega⟩ d))

include hwts htop2 hbot2 in

/-- Layer 1: the concatenation its stretch builds is one layer of the specification applied to the argument table. -/
theorem cat1_eq : cat1 m c = Cert.Spec.layer (eArr m c) (xArr m c) := by
  refine Cert.Spec.layer_of_parts (eArr m c) (xArr m c)
    (rd S4096x8192 (W4 m c (Proc.devRef .tc main_v6))) (rd S4096x64 (W4 m c (Proc.devRef .tc main_v8))) (rd S8192x64 (W4 m c (Proc.devRef .tc main_v9)))
    (rd S8192x64 (W5 m c (Proc.devRef .tc main_v10_0))) (rd S2x4096x64 (W5 m c (Proc.devRef .tc main_v10_1))) (cat1 m c) ?_ ?_ ?_ ?_ ?_ ?_ ?_
  · intro u i
    have h := hwts u i
    dsimp only [rd] at h ⊢
    rw [W4_main_v6 m c]; exact h
  · intro u d
    have h := glue2_lo (W3 m c) u d
    dsimp only [rd] at h ⊢
    rw [W3_main_arg0 m c] at h; exact h
  · intro i d
    have h := glue2_hi (W3 m c) i d
    dsimp only [rd] at h ⊢
    rw [W3_main_arg0 m c] at h; exact h
  · intro q d
    have h := htop2 (V4 m) q d
    dsimp only [rd] at h ⊢
    rw [← W5_arr m c 3] at h; exact h
  · intro h u d
    have h' := hbot2 (V4 m) h u d
    dsimp only [rd] at h' ⊢
    rw [← W5_arr m c 4] at h'; exact h'
  · intro q d; exact glue3_cat_top (W5 m c) q d
  · intro u d; exact glue3_cat_bot (W5 m c) u d

include hwts htop3 hbot3 in

/-- Layer 2: the concatenation its stretch builds is one layer of the specification applied to the layer before. -/
theorem cat2_eq : cat2 m c = Cert.Spec.layer (eArr m c) (cat1 m c) := by
  refine Cert.Spec.layer_of_parts (eArr m c) (cat1 m c)
    (rd S4096x8192 (W6 m c (Proc.devRef .tc main_v6))) (rd S4096x64 (W6 m c (Proc.devRef .tc main_v18))) (rd S8192x64 (W6 m c (Proc.devRef .tc main_v19)))
    (rd S8192x64 (W7 m c (Proc.devRef .tc main_v20_0))) (rd S2x4096x64 (W7 m c (Proc.devRef .tc main_v20_1))) (cat2 m c) ?_ ?_ ?_ ?_ ?_ ?_ ?_
  · intro u i
    have h := hwts u i
    dsimp only [rd] at h ⊢
    rw [W6_main_v6 m c]; exact h
  · intro u d
    exact glue3_lo (W5 m c) u d
  · intro i d
    exact glue3_hi (W5 m c) i d
  · intro q d
    have h := htop3 (V6 m) q d
    dsimp only [rd] at h ⊢
    rw [← W7_arr m c 3] at h; exact h
  · intro h u d
    have h' := hbot3 (V6 m) h u d
    dsimp only [rd] at h' ⊢
    rw [← W7_arr m c 4] at h'; exact h'
  · intro q d; exact glue4_cat_top (W7 m c) q d
  · intro u d; exact glue4_cat_bot (W7 m c) u d

include hwts htop4 hbot4 in

/-- Layer 3: the concatenation its stretch builds is one layer of the specification applied to the layer before. -/
theorem cat3_eq : cat3 m c = Cert.Spec.layer (eArr m c) (cat2 m c) := by
  refine Cert.Spec.layer_of_parts (eArr m c) (cat2 m c)
    (rd S4096x8192 (W8 m c (Proc.devRef .tc main_v6))) (rd S4096x64 (W8 m c (Proc.devRef .tc main_v28))) (rd S8192x64 (W8 m c (Proc.devRef .tc main_v29)))
    (rd S8192x64 (W9 m c (Proc.devRef .tc main_v30_0))) (rd S2x4096x64 (W9 m c (Proc.devRef .tc main_v30_1))) (cat3 m c) ?_ ?_ ?_ ?_ ?_ ?_ ?_
  · intro u i
    have h := hwts u i
    dsimp only [rd] at h ⊢
    rw [W8_main_v6 m c]; exact h
  · intro u d
    exact glue4_lo (W7 m c) u d
  · intro i d
    exact glue4_hi (W7 m c) i d
  · intro q d
    have h := htop4 (V8 m) q d
    dsimp only [rd] at h ⊢
    rw [← W9_arr m c 3] at h; exact h
  · intro h u d
    have h' := hbot4 (V8 m) h u d
    dsimp only [rd] at h' ⊢
    rw [← W9_arr m c 4] at h'; exact h'
  · intro q d; exact glue5_cat_top (W9 m c) q d
  · intro u d; exact glue5_cat_bot (W9 m c) u d

include hwts htop2 hbot2 htop3 hbot3 htop4 hbot4 in
/-- The program's result buffer holds the specification's value of the two argument arrays. -/
theorem result_eq : rd S12288x64 (W10 m c (Proc.devRef .tc main_v39)) = Cert.Spec.G (xArr m c) (eArr m c) :=
  Cert.Spec.G_of_layers (xArr m c) (eArr m c) (cat1 m c) (cat2 m c) (cat3 m c) _
    (cat1_eq m c hwts htop2 hbot2) (cat2_eq m c hwts htop3 hbot3) (cat3_eq m c hwts htop4 hbot4) (out_eq m c)
end

end Cert.KernelIdeal.Hand

end
-- ==== Proof.Val1a.lean ====
/-
  The second pallas_call's body, read as a value: the one store of the output tile leaves the payload of the
  three loaded input tiles, and that payload at row p, column q of the tile is the weight function of the
  user-degree column's entry at row p, the item-degree row's entry at column q, and the tile's own entry.
-/
import proofs.«142347_j15487652069895_2_alg».proof.Proof.K1Frame
import proofs.«142347_j15487652069895_2_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The body's block: the one store's payload -/

section
variable {F : FTy → Type} [FloatOps F]

/-- The zero offsets of a rank-2 rectangle, as the constant function. -/
theorem hz1 : (![0, 0] : Fin 2 → Nat) = fun _ => 0 := funext fun a => by fin_cases a <;> rfl

/-- The body stores its output tile once, whole: what the tile holds afterwards is the payload of the three
    loaded input tiles, each load reading its whole buffer. -/
theorem out1_3_eq (c : Dev nD) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1024x2048 .bf16) (harg5 : arg5.IsWhole) (x0 : Vec F S1024x2048 .i32) (x1 : Vec F S1024x1 .f32) (x2 : Vec F S1x2048 .f32) :
    out1_3 c i arg2 harg2 arg3 harg3 arg4 harg4 arg5 harg5 x0 x1 x2 = k1_pay1 x0 x1 x2 := by
  unfold out1_3
  rw [View.read_writes_eq_canon _ _ _ (cover1_3 c i arg2 harg2 arg3 harg3 arg4 harg4 arg5 harg5 x0 x1 x2)]
  unfold kernelRun1
  dsimp only
  try sl_unfold_words
  rw [View.canon_unit_zero hz1]
  simp only [View.readAt_eq_ld, harg2.read_unread, harg3.read_unread, harg4.read_unread,
    View.ld_unit_zero (S := S1024x2048) hz1, View.ld_unit_zero (S := S1024x1) hz1, View.ld_unit_zero (S := S1x2048) hz1]
end

/-! ## The payload at an index -/

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The payload at row `p`, column `q` of the tile: the weight function of the row's entry of the column of
    user degrees, the column's entry of the row of item degrees, and the tile's own entry read as a float. The
    two shape casts are identities, the two broadcasts read one coordinate each, every other operation is
    pointwise, and rounding to the narrower format is the identity on the extended reals. -/
theorem k1_pay1_apply (x0 : Vec Ideal S1024x2048 .i32) (x1 : Vec Ideal S1024x1 .f32) (x2 : Vec Ideal S1x2048 .f32)
    (p : Fin 1024) (q : Fin 2048) :
    (k1_pay1 (F := Ideal) x0 x1 x2 : S1024x2048.Idx → EReal) (ix2 p q)
      = Cert.Spec.wfun ((x1 : S1024x1.Idx → EReal) (ix2 p 0)) ((x2 : S1x2048.Idx → EReal) (ix2 0 q))
          (FloatOps.sitofp (F := Ideal) .f32 (x0 (ix2 p q))) := by
  have e1 : broadcastTo S1024x2048 (shapeCast S1024x1 x1 shapeCasts_S1024x1_S1024x1) broadcasts_S1024x1_S1024x2048 (ix2 p q)
      = (x1 : S1024x1.Idx → EReal) (ix2 p 0) := by
    rw [shapeCast_self]; exact broadcastTo_a1_ab_apply x1 _ p q
  have e2 : broadcastTo S1024x2048 (shapeCast S1x2048 x2 shapeCasts_S1x2048_S1x2048) broadcasts_S1x2048_S1024x2048 (ix2 p q)
      = (x2 : S1x2048.Idx → EReal) (ix2 0 q) := by
    rw [shapeCast_self]; exact broadcastTo_1b_ab_apply x2 _ p q
  rw [← Cert.Spec.wfun_kernel, ← e1, ← e2]
  rfl

end Cert.KernelIdeal.Hand

end
-- ==== Proof.Val1.lean ====
/-
  The second pallas_call, read as a value. Its 4 x 4 grid tiles the 4096 x 8192 matrix by 1024 x 2048 blocks;
  at the point of block (a, b) the body reads block (a, b) of the entries, rows 1024 a .. 1024 a + 1023 of the
  user-degree column and columns 2048 b .. 2048 b + 2047 of the item-degree row, and writes back block (a, b)
  of the output. What it writes back is the block of ONE function of the region's entry arrays,
    (u, i) |-> wfun (user degree u) (item degree i) (entry (u, i) read as a float),
  and the sixteen blocks cover the matrix, so the output array ends holding that function.
-/
import proofs.«142347_j15487652069895_2_alg».proof.Proof.Val1a
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The printed index maps, decided over the grid -/

/-- At every point the entry tile and the output tile are the same block of the 4096 x 8192 matrix, the
    user-degree tile is the block of rows of that block in the one column, the item-degree tile is the block of
    columns of that block in the one row; and the output's block indices are below 4 on both axes. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 3 ∧ win1_3.index t (1 : Fin 2) ≤ 3 :=
  (by decide +kernel : ∀ t : Fin grid1.N, _)

/-- Every one of the 4 x 4 blocks of the matrix is some point's output block. -/
theorem idx_onto1 : ∀ (q0 : Fin 4) (q1 : Fin 4), ∃ t : Fin cfg1.N, win1_3.index t = ![q0.val, q1.val] :=
  (by decide +kernel : ∀ (q0 : Fin 4) (q1 : Fin 4), ∃ t : Fin grid1.N, win1_3.index t = ![q0.val, q1.val])

section
variable (V : (c : Dev nD) → (b : Ref sig .tc) → Buf (Elt Ideal) ((c : Thread nD τ).loc b))

/-! ## Each input tile as entries of its array -/

/-- The entry tile at point `t`: row `x 0`, column `x 1` of the tile is the matrix's entry at the block's
    row offset plus `x 0`, column offset plus `x 1`. -/
theorem iblk1_0_apply (c : Dev nD) (t : Fin cfg1.N) (x : S1024x2048.Idx) (k : S4096x8192.Idx)
    (hk0 : (k 0).val = win1_0.index t (0 : Fin 2) * 1024 + (x 0).val)
    (hk1 : (k 1).val = win1_0.index t (1 : Fin 2) * 2048 + (x 1).val) :
    (iblk1 V c 0 t : Vec Ideal S1024x2048 .i32) x = (V c main_arg1 : S4096x8192.Idx → BitVec 32) k := by
  unfold iblk1
  rw [View.read_apply]
  show V c main_arg1 _ = V c main_arg1 _
  congr 1
  funext a
  apply Fin.ext
  match a with
  | ⟨0, _⟩ => show win1_0.index t (0 : Fin 2) * 1024 + 1 * (x 0).val = (k 0).val; rw [hk0]; omega
  | ⟨1, _⟩ => show win1_0.index t (1 : Fin 2) * 2048 + 1 * (x 1).val = (k 1).val; rw [hk1]; omega

/-- The user-degree tile at point `t`, likewise, in the 4096 x 1 column. -/
theorem iblk1_1_apply (c : Dev nD) (t : Fin cfg1.N) (x : S1024x1.Idx) (k : S4096x1.Idx)
    (hk0 : (k 0).val = win1_1.index t (0 : Fin 2) * 1024 + (x 0).val)
    (hk1 : (k 1).val = win1_1.index t (1 : Fin 2) * 1 + (x 1).val) :
    (iblk1 V c 1 t : Vec Ideal S1024x1 .f32) x = (V c main_v0_0 : S4096x1.Idx → EReal) k := by
  unfold iblk1
  rw [View.read_apply]
  show V c main_v0_0 _ = V c main_v0_0 _
  congr 1
  funext a
  apply Fin.ext
  match a with
  | ⟨0, _⟩ => show win1_1.index t (0 : Fin 2) * 1024 + 1 * (x 0).val = (k 0).val; rw [hk0]; omega
  | ⟨1, _⟩ => show win1_1.index t (1 : Fin 2) * 1 + 1 * (x 1).val = (k 1).val; rw [hk1]; omega

/-- The item-degree tile at point `t`, likewise, in the 1 x 8192 row. -/
theorem iblk1_2_apply (c : Dev nD) (t : Fin cfg1.N) (x : S1x2048.Idx) (k : S1x8192.Idx)
    (hk0 : (k 0).val = win1_2.index t (0 : Fin 2) * 1 + (x 0).val)
    (hk1 : (k 1).val = win1_2.index t (1 : Fin 2) * 2048 + (x 1).val) :
    (iblk1 V c 2 t : Vec Ideal S1x2048 .f32) x = (V c main_v5 : S1x8192.Idx → EReal) k := by
  unfold iblk1
  rw [View.read_apply]
  show V c main_v5 _ = V c main_v5 _
  congr 1
  funext a
  apply Fin.ext
  match a with
  | ⟨0, _⟩ => show win1_2.index t (0 : Fin 2) * 1 + 1 * (x 0).val = (k 0).val; rw [hk0]; omega
  | ⟨1, _⟩ => show win1_2.index t (1 : Fin 2) * 2048 + 1 * (x 1).val = (k 1).val; rw [hk1]; omega

/-! ## The weights as one function of the region's entry arrays -/

/-- The weight matrix: at (u, i), the weight function of user u's degree, item i's degree and the entry. -/
def wArr1 (c : Dev nD) : S4096x8192.Idx → EReal :=
  fun j => Cert.Spec.wfun ((V c main_v0_0 : S4096x1.Idx → EReal) (ix2 (j 0) 0)) ((V c main_v5 : S1x8192.Idx → EReal) (ix2 0 (j 1)))
    (Cert.Spec.adj (V c main_arg1) (j 0) (j 1))

/-- The weight matrix at an index whose coordinates are `u` and `i`. -/
theorem wArr1_at (c : Dev nD) (j : S4096x8192.Idx) (u : Fin 4096) (i : Fin 8192) (h0 : (j 0).val = u.val) (h1 : (j 1).val = i.val) :
    wArr1 V c j = Cert.Spec.wfun ((V c main_v0_0 : S4096x1.Idx → EReal) (ix2 u 0)) ((V c main_v5 : S1x8192.Idx → EReal) (ix2 0 i))
      (Cert.Spec.adj (V c main_arg1) u i) := by
  obtain rfl : j = ix2 u i := funext fun a => match a with | ⟨0, _⟩ => Fin.ext h0 | ⟨1, _⟩ => Fin.ext h1
  rfl

/-! ## What a point writes back, the cover, the array -/

/-- What point `t` writes back is its block of the weight matrix. -/
theorem flushed1_3_eq (c : Dev nD) (t : Fin cfg1.N) :
    (dat1 V c).flushed 3 t = ((cfg1.win 3).blk t).view.read (Elt Ideal) (wArr1 V c) := by
  show (cfg1.win 3).cut (grid1.coords t) ((dat1 V c).after 3 t) = _
  rw [after1_3]
  unfold outAt1
  rw [out1_3_eq]
  obtain ⟨e00, e01, e10, e11, e20, e21, b0, b1⟩ := idx_facts1 t
  funext y
  show (k1_pay1 (F := Ideal) (iblk1 V c 0 t) (iblk1 V c 1 t) (iblk1 V c 2 t) : S1024x2048.Idx → EReal) y = wArr1 V c (((cfg1.win 3).blk t).view.emb y)
  obtain ⟨p, q, rfl⟩ : ∃ (p : Fin 1024) (q : Fin 2048), y = ix2 p q := ⟨y 0, y 1, eq_ix2 y⟩
  have hp : p.val < 1024 := p.isLt
  have hq : q.val < 2048 := q.isLt
  obtain ⟨u, hu⟩ : ∃ u : Fin 4096, u.val = win1_3.index t (0 : Fin 2) * 1024 + p.val := ⟨⟨_, by omega⟩, rfl⟩
  obtain ⟨i, hi⟩ : ∃ i : Fin 8192, i.val = win1_3.index t (1 : Fin 2) * 2048 + q.val := ⟨⟨_, by omega⟩, rfl⟩
  have h0 : (iblk1 V c 0 t : Vec Ideal S1024x2048 .i32) (ix2 p q) = (V c main_arg1 : S4096x8192.Idx → BitVec 32) (ix2 u i) :=
    iblk1_0_apply V c t (ix2 p q) (ix2 u i) (by show u.val = _ + p.val; rw [hu, e00]) (by show i.val = _ + q.val; rw [hi, e01])
  have h1 : (iblk1 V c 1 t : Vec Ideal S1024x1 .f32) (ix2 p 0) = (V c main_v0_0 : S4096x1.Idx → EReal) (ix2 u 0) :=
    iblk1_1_apply V c t (ix2 p 0) (ix2 u 0) (by show u.val = _ + p.val; rw [hu, e10]) (by show (0 : Fin 1).val = _ * 1 + (0 : Fin 1).val; rw [e11]; rfl)
  have h2 : (iblk1 V c 2 t : Vec Ideal S1x2048 .f32) (ix2 0 q) = (V c main_v5 : S1x8192.Idx → EReal) (ix2 0 i) :=
    iblk1_2_apply V c t (ix2 0 q) (ix2 0 i) (by show (0 : Fin 1).val = _ * 1 + (0 : Fin 1).val; rw [e20]; rfl) (by show i.val = _ + q.val; rw [hi, e21])
  rw [k1_pay1_apply]
  refine Eq.trans ?_ (wArr1_at V c _ u i ?_ ?_).symm
  · exact congr (congr (congrArg Cert.Spec.wfun h1) h2) (congrArg (FloatOps.sitofp (F := Ideal) .f32) h0)
  · show win1_3.index t (0 : Fin 2) * 1024 + 1 * p.val = u.val; omega
  · show win1_3.index t (1 : Fin 2) * 2048 + 1 * q.val = i.val; omega

/-- An index of the matrix is in point `t`'s output block iff each coordinate is in the block's range. -/
theorem mem_blk1_3 (t : Fin cfg1.N) (j : S4096x8192.Idx) :
    j ∈ ((cfg1.win 3).blk t).view.set ↔ ∀ a : Fin 2, win1_3.index t a * S1024x2048.size a ≤ (j a).val ∧ (j a).val < win1_3.index t a * S1024x2048.size a + S1024x2048.size a := by
  show j ∈ ((View.whole main_v6).slice (win1_3.rect t)).set ↔ _
  rw [View.set_slice_whole, Rect.mem_set_unit]
  exact Iff.rfl

/-- Every index of the matrix is in the output block of the point whose block indices are the row over 1024
    and the column over 2048; every point writes back. -/
theorem cover1_arr (j : S4096x8192.Idx) : ∃ t : Fin cfg1.N, (cfg1.win 3).flush t = true ∧ j ∈ ((cfg1.win 3).blk t).view.set := by
  have hj0 : (j 0).val < 4096 := (j 0).isLt
  have hj1 : (j 1).val < 8192 := (j 1).isLt
  obtain ⟨t, ht⟩ := idx_onto1 ⟨(j 0).val / 1024, by omega⟩ ⟨(j 1).val / 2048, by omega⟩
  have q0 : win1_3.index t (0 : Fin 2) = (j 0).val / 1024 := congrFun ht 0
  have q1 : win1_3.index t (1 : Fin 2) = (j 1).val / 2048 := congrFun ht 1
  refine ⟨t, flush1_3 t, ?_⟩
  rw [mem_blk1_3]
  intro a
  match a with
  | ⟨0, _⟩ => show win1_3.index t (0 : Fin 2) * 1024 ≤ (j 0).val ∧ (j 0).val < win1_3.index t (0 : Fin 2) * 1024 + 1024; omega
  | ⟨1, _⟩ => show win1_3.index t (1 : Fin 2) * 2048 ≤ (j 1).val ∧ (j 1).val < win1_3.index t (1 : Fin 2) * 2048 + 2048; omega

/-- THE ARRAY after the region: the weight matrix of the region's entry arrays. -/
theorem k1_arr (c : Dev nD) : (dat1 (F := Ideal) V c).arrAt 3 cfg1.N = wArr1 V c :=
  (dat1 (F := Ideal) V c).arrAt_eq_of_cover 3 (wArr1 V c) (fun t _ => flushed1_3_eq V c t) cover1_arr

/-- The array after the region at (u, i): the weight function of the entry contents of the user-degree column at
    u, of the item-degree row at i, and of the matrix's entry read as a float. -/
theorem k1_value (c : Dev nD) (u : Fin 4096) (i : Fin 8192) :
    ((dat1 (F := Ideal) V c).arrAt 3 cfg1.N : S4096x8192.Idx → EReal) (ix2 u i)
      = Cert.Spec.wfun ((V c main_v0_0 : S4096x1.Idx → EReal) (ix2 u 0)) ((V c main_v5 : S1x8192.Idx → EReal) (ix2 0 i))
          (Cert.Spec.adj (V c main_arg1) u i) := by
  rw [k1_arr]
  rfl
end

end Cert.KernelIdeal.Hand

end
-- ==== Proof.BridgeW.lean ====
/-
  The weights the second pallas_call leaves are the specification's normalised weights of the launched matrix.
  The call's output at (u, i) is the weight function of the user-degree column at u, the item-degree row at i and
  the matrix's entry, all as the call finds them. The column it finds is what the first call left: the row sums
  of the launched matrix. The row it finds is the sum, made between the two calls, of the two partial column sums
  the first call left over the upper and the lower 2048 users: the column sums of the launched matrix. The matrix
  it finds is the launched one.
-/
import proofs.«142347_j15487652069895_2_alg».proof.Proof.BridgeX
import proofs.«142347_j15487652069895_2_alg».proof.Proof.Val1
import proofs.«142347_j15487652069895_2_alg».proof.Proof.BridgeMath

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx
open scoped BigOperators

section
variable (m : (ℓ : Loc nD τ sig) → Buf (Elt Ideal) ℓ) (c : Dev nD)
/-- The matrix as the second call finds it: the launched one. -/
theorem k1_in_arg1 : V2 m c main_arg1 = V0 m c main_arg1 := W2_main_arg1 m c

/- What the first pallas_call leaves, taken here as hypotheses at the launch contents: the user-degree column
   holds the row sums, the two rows of partial column sums hold the sums over each half of the users. -/
variable (hdeg : ∀ (u : Fin 4096), ((dat0 (F := Ideal) (V0 m) c).arrAt 1 cfg0.N : S4096x1.Idx → EReal) (ix2 u (0 : Fin 1))
    = Cert.Spec.degU (V0 m c main_arg1) u)
variable (hcol : ∀ (h : Fin 2) (i : Fin 8192), ((dat0 (F := Ideal) (V0 m) c).arrAt 2 cfg0.N : S2x1x8192.Idx → EReal) (ix3 h (0 : Fin 1) i)
    = ∑ r : Fin 2048, Cert.Spec.adj (V0 m c main_arg1) ⟨h.val * 2048 + r.val, by have := h.isLt; have := r.isLt; omega⟩ i)
include hdeg hcol

/-- The user-degree column as the second call finds it: the row sums of the launched matrix. -/
theorem k1_in_degU (u : Fin 4096) :
    (V2 m c main_v0_0 : S4096x1.Idx → EReal) (ix2 u (0 : Fin 1)) = Cert.Spec.degU (V0 m c main_arg1) u := by
  have a : (V2 m c main_v0_0 : S4096x1.Idx → EReal) = (dat0 (F := Ideal) (V0 m) c).arrAt 1 cfg0.N :=
    (glue1_v0_0 (W1 m c)).trans (W1_arr m c 1)
  exact (congrFun a (ix2 u (0 : Fin 1))).trans (hdeg u)

/-- The item-degree row as the second call finds it: the column sums of the launched matrix, the two halves'
    partial sums having been added between the calls. -/
theorem k1_in_degI (i : Fin 8192) :
    (V2 m c main_v5 : S1x8192.Idx → EReal) (ix2 (0 : Fin 1) i) = Cert.Spec.degI (V0 m c main_arg1) i := by
  have a : (W1 m c (Proc.devRef .tc main_v0_1) : S2x1x8192.Idx → EReal) = (dat0 (F := Ideal) (V0 m) c).arrAt 2 cfg0.N :=
    W1_arr m c 2
  have s0 := (congrFun a (ix3 (0 : Fin 2) (0 : Fin 1) i)).trans (hcol 0 i)
  have s1 := (congrFun a (ix3 (1 : Fin 2) (0 : Fin 1) i)).trans (hcol 1 i)
  exact ((glue1_v5 (W1 m c) i).trans (congrArg₂ (· + ·) s0 s1)).trans (Cert.Spec.degI_of_halves _ i)

/-- THE WEIGHTS: what the second pallas_call leaves at (u, i) is the normalised weight of the launched matrix. -/
theorem weights_eq (u : Fin 4096) (i : Fin 8192) :
    rd S4096x8192 (W3 m c (Proc.devRef .tc main_v6)) (ix2 u i)
      = Cert.Spec.wgt (rdI S4096x8192 (W0 m c (Proc.devRef .tc main_arg1))) u i := by
  have k := k1_value (V2 m) c u i
  rw [k1_in_degU m c hdeg hcol u, k1_in_degI m c hdeg hcol i, k1_in_arg1 m c] at k
  exact (congrFun (W3_arr m c 3) (ix2 u i)).trans k
end

end Cert.KernelIdeal.Hand

end
-- ==== Proof.Val0b.lean ====
/-
  The first pallas_call's arithmetic, read at an index at the ideal values: the zero block is zero; the row-sum
  payload at a row is what the block held there plus the sum of that row of the tile; the column-sum payload at a
  column is the sum of that column of the tile; the matrix entries enter as the floats of the signed integers.
-/
import proofs.«142347_j15487652069895_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-- The zero block reads the extended real zero everywhere. -/
theorem k0_pay2_apply (j : S2048x1.Idx) : k0_pay2 (F := Ideal) j = 0 := by
  show Ideal.ofBits .f32 0x00000000#32 = 0
  exact Ideal.ofBits_zero_f32

/-- A lane sum over the tile's columns, read at row `r`. -/
theorem rowsum_apply (y : FVec Ideal S2048x1024 .f32) (hφ : FKind.Formats .f32)
    (hacc : (0x00000000#32 : BitVec 32) = 0x00000000#32) (r : Fin 2048) :
    multiReduction (F := Ideal) .add [1] S2048 y 0x00000000#32 reduces_S2048x1024_S2048 hφ hacc (ix1 r)
      = ∑ k : Fin 1024, y (ix2 r k) := by
  refine (Ideal.multiReduction_add_single y 0x00000000#32 reduces_S2048x1024_S2048 hφ hacc (ix1 r)).trans ?_
  show ∑ k : Fin 1024, y (reduces_S2048x1024_S2048.lift (ix1 r) k) = _
  refine Finset.sum_congr rfl fun k _ => congrArg y ?_
  funext a
  match a with
  | ⟨0, _⟩ => rfl
  | ⟨1, _⟩ => rfl

/-- A sum over the tile's rows, read at column `k`. -/
theorem colsum_apply (y : FVec Ideal S2048x1024 .f32) (hφ : FKind.Formats .f32)
    (hacc : (0x00000000#32 : BitVec 32) = 0x00000000#32) (k : Fin 1024) :
    multiReduction (F := Ideal) .add [0] S1024 y 0x00000000#32 reduces_S2048x1024_S1024 hφ hacc (ix1 k)
      = ∑ r : Fin 2048, y (ix2 r k) := by
  refine (Ideal.multiReduction_add_single y 0x00000000#32 reduces_S2048x1024_S1024 hφ hacc (ix1 k)).trans ?_
  show ∑ r : Fin 2048, y (reduces_S2048x1024_S1024.lift (ix1 k) r) = _
  refine Finset.sum_congr rfl fun r _ => congrArg y ?_
  funext a
  match a with
  | ⟨0, _⟩ => rfl
  | ⟨1, _⟩ => rfl

/-- The row-sum payload at row `r`: what the block held there plus the sum of the tile's row `r`, its entries read
    as floats. -/
theorem k0_pay3_apply (x0 : Vec Ideal S2048x1024 .i32) (v9 : Vec Ideal S2048x1 .f32) (r : Fin 2048) :
    k0_pay3 (F := Ideal) x0 v9 (ix2 r (0 : Fin 1))
      = v9 (ix2 r (0 : Fin 1)) + ∑ k : Fin 1024, FloatOps.sitofp (F := Ideal) .f32 (x0 (ix2 r k)) := by
  unfold k0_pay3 k0_pay1
  refine (addf_apply _ _ _).trans ?_
  refine congrArg₂ (· + ·) (congrFun (shapeCast_self v9 _) _) ?_
  refine (shapeCast_apply _ shapeCasts_S2048_S2048x1 (ix2 r (0 : Fin 1)) (ix1 r) ?_).trans ?_
  · rw [Shape.rowMajor_val_one, Shape.rowMajor_val_two]
    show r.val = r.val * 1 + 0
    omega
  · exact rowsum_apply _ _ _ r

/-- The column-sum payload at column `k`: the sum of the tile's column `k`, its entries read as floats. -/
theorem k0_pay4_apply (x0 : Vec Ideal S2048x1024 .i32) (k : Fin 1024) :
    k0_pay4 (F := Ideal) x0 (ix3 (0 : Fin 1) (0 : Fin 1) k)
      = ∑ r : Fin 2048, FloatOps.sitofp (F := Ideal) .f32 (x0 (ix2 r k)) := by
  unfold k0_pay4 k0_pay1
  refine (shapeCast_apply _ shapeCasts_S1x1024_S1x1x1024 (ix3 (0 : Fin 1) (0 : Fin 1) k) (ix2 (0 : Fin 1) k) ?_).trans ?_
  · rw [Shape.rowMajor_val_two, Shape.rowMajor_val_three]
    show 0 * 1024 + k.val = (0 * 1 + 0) * 1024 + k.val
    omega
  refine (shapeCast_apply _ shapeCasts_S1024_S1x1024 (ix2 (0 : Fin 1) k) (ix1 k) ?_).trans ?_
  · rw [Shape.rowMajor_val_one, Shape.rowMajor_val_two]
    show k.val = 0 * 1024 + k.val
    omega
  · exact colsum_apply _ _ _ k

end Cert.KernelIdeal.Hand

end
-- ==== Proof.Val0a.lean ====
/-
  The first pallas_call's body, read back: in each of its two control cases the row-sum block ends holding the
  row-sum payload of the point's tile and of what the block held before (the zero block where the point starts a row
  half), and the column-sum block ends holding the column-sum payload of the tile.
-/
import proofs.«142347_j15487652069895_2_alg».proof.Proof.K0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Where the point starts a row half, the row-sum block ends at the zero block plus the tile's row sums. -/
theorem out0_A_1_eq (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) :
    out0_A_1 c i arg2 harg2 arg3 harg3 arg4 harg4 hc0 x0 = k0_pay3 x0 (k0_pay2 (F := F)) := by
  unfold out0_A_1
  rw [View.read_writes_eq_canon _ _ _ (cover0_A_1 c i arg2 harg2 arg3 harg3 arg4 harg4 hc0 x0)]
  unfold kernelRun0_A
  dsimp only
  sl_unfold_words
  rw [View.canon_cons_unit_zero (S := S2048x1) zeros2, View.readCov_unit_zero (S := S2048x1) _ zeros2]
  simp only [View.readAt_eq_ld, harg2.read_unread, View.ld_unit_zero (S := S2048x1024) zeros2]

/-- There the column-sum block ends at the tile's column sums. -/
theorem out0_A_2_eq (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) :
    out0_A_2 c i arg2 harg2 arg3 harg3 arg4 harg4 hc0 x0 = k0_pay4 x0 := by
  unfold out0_A_2
  rw [View.read_writes_eq_canon _ _ _ (cover0_A_2 c i arg2 harg2 arg3 harg3 arg4 harg4 hc0 x0)]
  unfold kernelRun0_A
  dsimp only
  sl_unfold_words
  rw [View.canon_unit_zero (S := S1x1x1024) zeros3]
  simp only [View.readAt_eq_ld, harg2.read_unread, View.ld_unit_zero (S := S2048x1024) zeros2]

/-- At the other points the row-sum block ends at what it held plus the tile's row sums. -/
theorem out0_B_1_eq (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) :
    out0_B_1 c i arg2 harg2 arg3 harg3 arg4 harg4 hc0 x0 xo1 = k0_pay3 x0 xo1 := by
  unfold out0_B_1
  rw [View.read_writes_eq_canon _ _ _ (cover0_B_1 c i arg2 harg2 arg3 harg3 arg4 harg4 hc0 x0 xo1)]
  unfold kernelRun0_B
  dsimp only
  try sl_unfold_words
  rw [View.canon_unit_zero (S := S2048x1) zeros2]
  simp only [View.readAt_eq_ld, harg2.read_unread, harg3.read_unread, View.ld_unit_zero (S := S2048x1024) zeros2,
    View.ld_unit_zero (S := S2048x1) zeros2]

/-- There too the column-sum block ends at the tile's column sums. -/
theorem out0_B_2_eq (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) :
    out0_B_2 c i arg2 harg2 arg3 harg3 arg4 harg4 hc0 x0 xo1 = k0_pay4 x0 := by
  unfold out0_B_2
  rw [View.read_writes_eq_canon _ _ _ (cover0_B_2 c i arg2 harg2 arg3 harg3 arg4 harg4 hc0 x0 xo1)]
  unfold kernelRun0_B
  dsimp only
  try sl_unfold_words
  rw [View.canon_unit_zero (S := S1x1x1024) zeros3]
  simp only [View.readAt_eq_ld, harg2.read_unread, View.ld_unit_zero (S := S2048x1024) zeros2]

end Cert.KernelIdeal.Hand

end
-- ==== Proof.Val0c.lean ====
/-
  The first pallas_call, position by position: where each window's block sits (the printed index maps decided over
  the grid), the matrix's block at a position as entries of the matrix, and what the two output blocks hold after a
  position as the payloads of that position's tile — the row-sum block by recursion on the position.
-/
import proofs.«142347_j15487652069895_2_alg».proof.Proof.Val0a
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

/-- The printed index maps over the grid: at position `t` = 8·(row half) + (column tile), the matrix's block is
    (t / 8, t % 8), the row-sum block (t / 8, 0), the column-sum block (t / 8, 0, t % 8). -/
theorem index0_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 3) = t.val / 8 ∧ win0_2.index t (1 : Fin 3) = 0 ∧ win0_2.index t (2 : Fin 3) = t.val % 8 :=
  (by decide +kernel : ∀ t : Fin grid0.N, _)

section
variable (V : (c : Dev nD) → (b : Ref sig .tc) → Buf (Elt F) ((c : Thread nD τ).loc b))

/-- The matrix's block at position `t`, at row `r` and column `k` of the tile, is the matrix's entry at row
    (t / 8)·2048 + r and column (t % 8)·1024 + k. -/
theorem iblk0_apply (c : Dev nD) (t : Fin cfg0.N) (r : Fin 2048) (k : Fin 1024) (u : Fin 4096) (i : Fin 8192)
    (hu : u.val = t.val / 8 * 2048 + r.val) (hi : i.val = t.val % 8 * 1024 + k.val) :
    (iblk0 V c 0 t : Vec F S2048x1024 .i32) (ix2 r k) = (V c main_arg1 : S4096x8192.Idx → Elt F .i32) (ix2 u i) := by
  obtain ⟨e0, e1, -⟩ := index0_facts t
  unfold iblk0
  rw [View.read_apply]
  show V c main_arg1 _ = V c main_arg1 _
  refine congrArg (V c main_arg1) ?_
  funext a
  apply Fin.ext
  match a with
  | ⟨0, _⟩ => show win0_0.index t (0 : Fin 2) * 2048 + 1 * r.val = u.val; rw [e0, hu]; omega
  | ⟨1, _⟩ => show win0_0.index t (1 : Fin 2) * 1024 + 1 * k.val = i.val; rw [e1, hi]; omega

/-- Where a position starts a row half, the row-sum block after it holds the zero block plus the tile's row sums. -/
theorem outsAt0_fst_A (c : Dev nD) (t : Fin cfg0.N) (h0 : t.val % 8 = 0) :
    (outsAt0 V c t.val t.isLt).1 = k0_pay3 (iblk0 V c 0 t) (k0_pay2 (F := F)) := by
  rw [outsAt0_A V c t h0]
  dsimp only
  rw [out0_A_1_eq]

/-- At the other positions it holds what it held after the position before plus the tile's row sums. -/
theorem outsAt0_fst_B (c : Dev nD) (t : Fin cfg0.N) (h0 : ¬t.val % 8 = 0) :
    (outsAt0 V c t.val t.isLt).1
      = k0_pay3 (iblk0 V c 0 t) (outsAt0 V c (t.val - 1) (Nat.lt_of_le_of_lt (Nat.sub_le _ _) t.isLt)).1 := by
  rw [outsAt0_B V c t h0]
  dsimp only
  rw [out0_B_1_eq]

/-- After every position the column-sum block holds the tile's column sums. -/
theorem outsAt0_snd (c : Dev nD) (t : Fin cfg0.N) :
    (outsAt0 V c t.val t.isLt).2 = k0_pay4 (iblk0 V c 0 t) := by
  by_cases h0 : t.val % 8 = 0
  · rw [outsAt0_A V c t h0]
    dsimp only
    rw [out0_A_2_eq]
  · rw [outsAt0_B V c t h0]
    dsimp only
    rw [out0_B_2_eq]
end

end Cert.KernelIdeal.Hand

end
-- ==== Proof.Val0Top.lean ====
/-
  The first pallas_call's row-sum result (4096 rows of one column) is covered by the blocks its pipeline writes back:
  the grid's sixteen points are (row half h, column tile j) at position 8h + j, the row-sum block of half h is rows
  h*2048.. of the result, and it is written back at the half's last position 8h + 7. So row u lies in the block
  written back at position 8 * (u / 2048) + 7.
-/
import proofs.«142347_j15487652069895_2_alg».proof.Proof.K0Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The row-sum window's block index at a position: (position / 8, 0). -/
theorem degT0_idx1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

/-- An index of the result is in a point's block iff each coordinate is in the block's range on its axis. -/
theorem degT0_mem_blk (t : Fin cfg0.N) (i : S4096x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0_0).slice (win0_1.rect t)).set ↔ _
  rw [View.set_slice_whole, Rect.mem_set_unit]
  exact Iff.rfl

/-- Row u of the result is in the block of half u / 2048, written back at that half's last position. -/
theorem degT0_cover (i : S4096x1.Idx) : ∃ t : Fin cfg0.N, (cfg0.win 1).flush t = true ∧ i ∈ ((cfg0.win 1).blk t).view.set := by
  have hN : cfg0.N = 16 := N_0
  have h0 : (i 0).val < 4096 := idx2_lt0 i
  have h1 : (i 1).val < 1 := idx2_lt1 i
  obtain ⟨t, ht⟩ : ∃ t : Fin cfg0.N, t.val = 8 * ((i 0).val / 2048) + 7 := ⟨⟨8 * ((i 0).val / 2048) + 7, by omega⟩, rfl⟩
  have hi := degT0_idx1 t
  refine ⟨t, (flush0_1 t).mpr (by omega), ?_⟩
  rw [degT0_mem_blk]
  intro a
  match a with
  | ⟨0, _⟩ =>
    show win0_1.index t (0 : Fin 2) * 2048 ≤ (i 0).val ∧ (i 0).val < win0_1.index t (0 : Fin 2) * 2048 + 2048
    rw [hi.1]; omega
  | ⟨1, _⟩ =>
    show win0_1.index t (1 : Fin 2) * 1 ≤ (i 1).val ∧ (i 1).val < win0_1.index t (1 : Fin 2) * 1 + 1
    rw [hi.2]; omega

end Cert.KernelIdeal.Hand

end
-- ==== Proof.Val0.lean ====
/-
  The first pallas_call's row-degree output as a function of the matrix: after the run, row u of the [4096,1] array
  holds the sum of row u of the 0/1 matrix read as floats. The row-sum block is an accumulation over the eight column
  tiles of a row half, written back after the eighth; over the extended reals the eight partial sums added in order are
  the row's sum regrouped.
-/
import proofs.«142347_j15487652069895_2_alg».proof.Proof.Val0b
import proofs.«142347_j15487652069895_2_alg».proof.Proof.Val0c
import proofs.«142347_j15487652069895_2_alg».proof.Proof.Val0Top
import proofs.«142347_j15487652069895_2_alg».proof.Proof.Spec
import proofs.«142347_j15487652069895_2_alg».proof.Proof.SumLaws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable (V : (c : Dev nD) → (b : Ref sig .tc) → Buf (Elt Ideal) ((c : Thread nD τ).loc b))

/-- The sum of row `r` of the matrix's tile at position `m`, its entries read as floats (zero past the grid). -/
def tileRow (c : Dev nD) (m : ℕ) (r : Fin 2048) : EReal :=
  if h : m < cfg0.N then
    ∑ k : Fin 1024, FloatOps.sitofp (F := Ideal) .f32 ((iblk0 V c 0 ⟨m, h⟩ : Vec Ideal S2048x1024 .i32) (ix2 r k))
  else 0

theorem tileRow_lt (c : Dev nD) (m : ℕ) (h : m < cfg0.N) (r : Fin 2048) :
    tileRow V c m r
      = ∑ k : Fin 1024, FloatOps.sitofp (F := Ideal) .f32 ((iblk0 V c 0 ⟨m, h⟩ : Vec Ideal S2048x1024 .i32) (ix2 r k)) := by
  unfold tileRow
  exact dif_pos h

/-- THE RUNNING ROW SUMS. After position `n` the row-sum block holds, at row `r`, the sum of row `r` of the tiles of
    the positions from the start of `n`'s row half (position 8·(n / 8)) up to `n`: the block is zeroed where a row half
    starts and each position adds its tile's row sums. By induction on the position. -/
theorem rowAcc (c : Dev nD) : ∀ (n : ℕ) (hn : n < cfg0.N) (r : Fin 2048),
    ((outsAt0 V c n hn).1 : Vec Ideal S2048x1 .f32) (ix2 r (0 : Fin 1))
      = ∑ s ∈ Finset.range (n % 8 + 1), tileRow V c (8 * (n / 8) + s) r
  | 0, hn, r => by
    refine (congrFun (outsAt0_fst_A V c ⟨0, hn⟩ rfl) (ix2 r (0 : Fin 1))).trans ?_
    refine (k0_pay3_apply (iblk0 V c 0 ⟨0, hn⟩) (k0_pay2 (F := Ideal)) r).trans ?_
    rw [k0_pay2_apply, zero_add]
    show _ = ∑ s ∈ Finset.range 1, _
    rw [Finset.sum_range_one]
    exact (tileRow_lt V c 0 hn r).symm
  | n + 1, hn, r => by
    have hN : cfg0.N = 16 := N_0
    by_cases h0 : (n + 1) % 8 = 0
    · refine (congrFun (outsAt0_fst_A V c ⟨n + 1, hn⟩ h0) (ix2 r (0 : Fin 1))).trans ?_
      refine (k0_pay3_apply (iblk0 V c 0 ⟨n + 1, hn⟩) (k0_pay2 (F := Ideal)) r).trans ?_
      rw [k0_pay2_apply, zero_add, h0, Finset.sum_range_one]
      have e : 8 * ((n + 1) / 8) + 0 = n + 1 := by omega
      rw [e]
      exact (tileRow_lt V c (n + 1) hn r).symm
    · refine (congrFun (outsAt0_fst_B V c ⟨n + 1, hn⟩ h0) (ix2 r (0 : Fin 1))).trans ?_
      refine (k0_pay3_apply (iblk0 V c 0 ⟨n + 1, hn⟩) _ r).trans ?_
      refine (congrArg (· + _) (rowAcc c n (Nat.lt_of_succ_lt hn) r)).trans ?_
      have e1 : (n + 1) % 8 = n % 8 + 1 := by omega
      have e2 : (n + 1) / 8 = n / 8 := by omega
      rw [e1, e2, Finset.sum_range_succ _ (n % 8 + 1)]
      have e3 : 8 * (n / 8) + (n % 8 + 1) = n + 1 := by omega
      rw [e3]
      exact congrArg (_ + ·) (tileRow_lt V c (n + 1) hn r).symm

/-- AT THE LAST POSITION OF A ROW HALF the row-sum block holds, at row `r`, the degree of the matrix's row
    (t / 8)·2048 + r: the eight tiles' row sums are the row's sum regrouped into eight runs of 1024 columns. -/
theorem rowAcc_last (c : Dev nD) (t : Fin cfg0.N) (ht : t.val % 8 = 7) (r : Fin 2048) (u : Fin 4096)
    (hu : u.val = t.val / 8 * 2048 + r.val) :
    ((outsAt0 V c t.val t.isLt).1 : Vec Ideal S2048x1 .f32) (ix2 r (0 : Fin 1)) = Cert.Spec.degU (V c main_arg1) u := by
  have hN : cfg0.N = 16 := N_0
  have htN : t.val < 16 := lt_of_lt_of_eq t.isLt hN
  have e8 : t.val % 8 + 1 = 8 := by omega
  rw [rowAcc V c t.val t.isLt r, e8, Finset.sum_range]
  unfold Cert.Spec.degU
  rw [Cert.Spec.sum_tiles_idx 8 1024 rfl (Cert.Spec.adj (V c main_arg1) u)
    (fun s k => ⟨s.val * 1024 + k.val, by have := s.isLt; have := k.isLt; omega⟩) (fun _ _ => rfl)]
  refine Finset.sum_congr rfl fun s _ => ?_
  have hs16 : 8 * (t.val / 8) + s.val < 16 := by have := s.isLt; omega
  have hs : 8 * (t.val / 8) + s.val < cfg0.N := lt_of_lt_of_eq hs16 hN.symm
  rw [tileRow_lt V c _ hs r]
  refine Finset.sum_congr rfl fun k _ => ?_
  show FloatOps.sitofp (F := Ideal) .f32 _ = FloatOps.sitofp (F := Ideal) .f32 _
  refine congrArg (FloatOps.sitofp (F := Ideal) .f32) ?_
  refine iblk0_apply V c ⟨8 * (t.val / 8) + s.val, hs⟩ r k u _ ?_ ?_
  · show u.val = (8 * (t.val / 8) + s.val) / 8 * 2048 + r.val
    have := s.isLt
    rw [hu]; omega
  · show s.val * 1024 + k.val = (8 * (t.val / 8) + s.val) % 8 * 1024 + k.val
    have := s.isLt
    omega

/-- The row-degree array: at row `u` (its one column) the degree of the matrix's row `u`. -/
def degArr (e : S4096x8192.Idx → BitVec 32) : S4096x1.Idx → EReal :=
  fun p => Cert.Spec.degU e ⟨(p 0).val, idx2_lt0 p⟩

/-- What a position that writes the row-sum block back writes is its block of the row-degree array. -/
theorem deg_flushed_eq (c : Dev nD) (t : Fin cfg0.N) (hf : (cfg0.win 1).flush t = true) :
    (dat0 V c).flushed 1 t = ((cfg0.win 1).blk t).view.read (Elt Ideal) (degArr (V c main_arg1)) := by
  have ht : t.val % 8 = 7 := (flush0_1 t).mp hf
  obtain ⟨-, -, e0, -⟩ := index0_facts t
  show (cfg0.win 1).cut (grid0.coords t) ((dat0 V c).after 1 t) = _
  rw [after0_1]
  refine funext fun (j : S2048x1.Idx) => ?_
  obtain ⟨r, z, rfl⟩ : ∃ (r : Fin 2048) (z : Fin 1), j = ix2 r z := ⟨j 0, j 1, eq_ix2 j⟩
  obtain rfl : z = 0 := Subsingleton.elim _ _
  show ((outsAt0 V c t.val t.isLt).1 : Vec Ideal S2048x1 .f32) (ix2 r (0 : Fin 1))
    = degArr (V c main_arg1) (((cfg0.win 1).blk t).view.emb (ix2 r (0 : Fin 1)))
  refine rowAcc_last V c t ht r _ ?_
  show win0_1.index t (0 : Fin 2) * 2048 + 1 * r.val = t.val / 8 * 2048 + r.val
  rw [e0]; omega

/-- THE ROW-DEGREE ARRAY after the first pallas_call. -/
theorem degArr_final (c : Dev nD) : (dat0 V c).arrAt 1 cfg0.N = degArr (V c main_arg1) :=
  (dat0 V c).arrAt_eq_of_cover 1 (degArr (V c main_arg1)) (deg_flushed_eq V c) degT0_cover

/-- Row `u` of it is the degree of the matrix's row `u`. -/
theorem degU_arr (c : Dev nD) (u : Fin 4096) :
    ((dat0 (F := Ideal) V c).arrAt 1 cfg0.N : S4096x1.Idx → EReal) (ix2 u (0 : Fin 1)) = Cert.Spec.degU (V c main_arg1) u :=
  congrFun (degArr_final V c) (ix2 u (0 : Fin 1))
end

end Cert.KernelIdeal.Hand

end
-- ==== Proof.Val0Col.lean ====
/-
  The first pallas_call's second output, read as a value. Its 2 x 8 grid tiles the 4096 x 8192 matrix by
  2048 x 1024 blocks; at the point of block (h, j) the body leaves, in its 1 x 1 x 1024 column-sum block, the sums
  of the block's columns over its 2048 rows, and writes it back as block (h, 0, j) of the 2 x 1 x 8192 output. What
  it writes back is the block of ONE function of the region's entry matrix,
    (h, 0, i) |-> the sum over r < 2048 of the entry (2048 h + r, i) read as a float,
  and the sixteen blocks cover the output, so the output array ends holding that function.
-/
import proofs.«142347_j15487652069895_2_alg».proof.Proof.Val0a
import proofs.«142347_j15487652069895_2_alg».proof.Proof.Val0b
import proofs.«142347_j15487652069895_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## The printed index maps, decided over the grid -/

/-- At every point the matrix tile is block (h, j) and the column-sum block is block (h, 0, j), with h below 2
    and j below 8. -/
theorem col_idx_facts0 : ∀ t : Fin cfg0.N, win0_0.index t (0 : Fin 2) = win0_2.index t (0 : Fin 3)
    ∧ win0_0.index t (1 : Fin 2) = win0_2.index t (2 : Fin 3)
    ∧ win0_2.index t (1 : Fin 3) = 0
    ∧ win0_2.index t (0 : Fin 3) ≤ 1 ∧ win0_2.index t (2 : Fin 3) ≤ 7 :=
  (by decide +kernel : ∀ t : Fin grid0.N, _)

/-- Every block (h, 0, j) of the output is some point's. -/
theorem col_idx_onto0 : ∀ (q0 : Fin 2) (q2 : Fin 8), ∃ t : Fin cfg0.N, win0_2.index t = ![q0.val, 0, q2.val] :=
  (by decide +kernel : ∀ (q0 : Fin 2) (q2 : Fin 8), ∃ t : Fin grid0.N, win0_2.index t = ![q0.val, 0, q2.val])

section
variable (V : (c : Dev nD) → (b : Ref sig .tc) → Buf (Elt Ideal) ((c : Thread nD τ).loc b))

/-! ## The column-sum block after a point, and the matrix tile as entries of the matrix -/

/-- After every point the column-sum block holds the column-sum payload of the point's tile, whichever of the
    body's two cases the point is in. -/
theorem col_block_eq (c : Dev nD) (t : Fin cfg0.N) : (outsAt0 V c t.val t.isLt).2 = k0_pay4 (iblk0 V c 0 t) := by
  by_cases h0 : t.val % 8 = 0
  · rw [outsAt0_A V c t h0]
    dsimp only
    rw [out0_A_2_eq]
  · rw [outsAt0_B V c t h0]
    dsimp only
    rw [out0_B_2_eq]

/-- The matrix tile at point `t`: row `x 0`, column `x 1` of the tile is the matrix's entry at the block's row
    offset plus `x 0`, column offset plus `x 1`. -/
theorem col_iblk0_apply (c : Dev nD) (t : Fin cfg0.N) (x : S2048x1024.Idx) (k : S4096x8192.Idx)
    (hk0 : (k 0).val = win0_0.index t (0 : Fin 2) * 2048 + (x 0).val)
    (hk1 : (k 1).val = win0_0.index t (1 : Fin 2) * 1024 + (x 1).val) :
    (iblk0 V c 0 t : Vec Ideal S2048x1024 .i32) x = (V c main_arg1 : S4096x8192.Idx → BitVec 32) k := by
  unfold iblk0
  rw [View.read_apply]
  show V c main_arg1 _ = V c main_arg1 _
  congr 1
  funext a
  apply Fin.ext
  match a with
  | ⟨0, _⟩ => show win0_0.index t (0 : Fin 2) * 2048 + 1 * (x 0).val = (k 0).val; rw [hk0]; omega
  | ⟨1, _⟩ => show win0_0.index t (1 : Fin 2) * 1024 + 1 * (x 1).val = (k 1).val; rw [hk1]; omega

/-! ## The partial column sums as one function of the region's entry matrix -/

/-- The sum of column `i` over the rows 2048 h .. 2048 h + 2047, the entries read as floats. -/
def colHalf (c : Dev nD) (h : Fin 2) (i : Fin 8192) : EReal :=
  ∑ r : Fin 2048, Cert.Spec.adj (V c main_arg1) ⟨h.val * 2048 + r.val, by have := h.isLt; have := r.isLt; omega⟩ i

/-- The two rows of partial column sums, as an array. -/
def colArr0 (c : Dev nD) : S2x1x8192.Idx → EReal := fun p => colHalf V c (p 0) (p 2)

/-- That array at an index whose first and last coordinates are `h` and `i`. -/
theorem colArr0_at (c : Dev nD) (p : S2x1x8192.Idx) (h : Fin 2) (i : Fin 8192) (h0 : (p 0).val = h.val) (h2 : (p 2).val = i.val) :
    colArr0 V c p = colHalf V c h i := by
  show colHalf V c (p 0) (p 2) = colHalf V c h i
  rw [show (p 0 : Fin 2) = h from Fin.ext h0, show (p 2 : Fin 8192) = i from Fin.ext h2]

/-! ## What a point writes back, the cover, the array -/

/-- What point `t` writes back is its block of the array of partial column sums. -/
theorem col_flushed_eq (c : Dev nD) (t : Fin cfg0.N) :
    (dat0 V c).flushed 2 t = ((cfg0.win 2).blk t).view.read (Elt Ideal) (colArr0 V c) := by
  show (cfg0.win 2).cut (grid0.coords t) ((dat0 V c).after 2 t) = _
  rw [after0_2, col_block_eq]
  obtain ⟨e0, e1, z1, b0, b2⟩ := col_idx_facts0 t
  funext y
  show (k0_pay4 (F := Ideal) (iblk0 V c 0 t) : S1x1x1024.Idx → EReal) y = colArr0 V c (((cfg0.win 2).blk t).view.emb y)
  obtain ⟨a, b, k, rfl⟩ : ∃ (a : Fin 1) (b : Fin 1) (k : Fin 1024), y = ix3 a b k := ⟨y 0, y 1, y 2, eq_ix3 y⟩
  obtain rfl : a = 0 := Subsingleton.elim _ _
  obtain rfl : b = 0 := Subsingleton.elim _ _
  have hk : k.val < 1024 := k.isLt
  obtain ⟨h, hh⟩ : ∃ h : Fin 2, h.val = win0_2.index t (0 : Fin 3) := ⟨⟨win0_2.index t (0 : Fin 3), by omega⟩, rfl⟩
  obtain ⟨i, hi⟩ : ∃ i : Fin 8192, i.val = win0_2.index t (2 : Fin 3) * 1024 + k.val := ⟨⟨win0_2.index t (2 : Fin 3) * 1024 + k.val, by omega⟩, rfl⟩
  rw [k0_pay4_apply]
  refine Eq.trans ?_ (colArr0_at V c _ h i ?_ ?_).symm
  · unfold colHalf
    refine Finset.sum_congr rfl fun r _ => ?_
    exact congrArg (FloatOps.sitofp (F := Ideal) .f32)
      (col_iblk0_apply V c t (ix2 r k) (ix2 ⟨h.val * 2048 + r.val, by have := h.isLt; have := r.isLt; omega⟩ i)
        (by show h.val * 2048 + r.val = _ + r.val; rw [hh, e0]) (by show i.val = _ + k.val; rw [hi, e1]))
  · show win0_2.index t (0 : Fin 3) * 1 + 1 * (0 : Fin 1).val = h.val; rw [hh]; show _ * 1 + 1 * 0 = _; omega
  · show win0_2.index t (2 : Fin 3) * 1024 + 1 * k.val = i.val; omega

/-- An index of the output is in point `t`'s block iff each coordinate is in the block's range. -/
theorem col_mem_blk (t : Fin cfg0.N) (p : S2x1x8192.Idx) :
    p ∈ ((cfg0.win 2).blk t).view.set ↔ ∀ a : Fin 3, win0_2.index t a * S1x1x1024.size a ≤ (p a).val ∧ (p a).val < win0_2.index t a * S1x1x1024.size a + S1x1x1024.size a := by
  show p ∈ ((View.whole main_v0_1).slice (win0_2.rect t)).set ↔ _
  rw [View.set_slice_whole, Rect.mem_set_unit]
  exact Iff.rfl

/-- Every index (h, 0, i) of the output is in the block of the point of block (h, i / 1024); every point writes back. -/
theorem col_cover (p : S2x1x8192.Idx) : ∃ t : Fin cfg0.N, (cfg0.win 2).flush t = true ∧ p ∈ ((cfg0.win 2).blk t).view.set := by
  have hp0 : (p 0).val < 2 := (p 0).isLt
  have hp1 : (p 1).val < 1 := (p 1).isLt
  have hp2 : (p 2).val < 8192 := (p 2).isLt
  obtain ⟨t, ht⟩ := col_idx_onto0 ⟨(p 0).val, hp0⟩ ⟨(p 2).val / 1024, by omega⟩
  have q0 : win0_2.index t (0 : Fin 3) = (p 0).val := congrFun ht 0
  have q1 : win0_2.index t (1 : Fin 3) = 0 := congrFun ht 1
  have q2 : win0_2.index t (2 : Fin 3) = (p 2).val / 1024 := congrFun ht 2
  refine ⟨t, flush0_2 t, ?_⟩
  rw [col_mem_blk]
  intro a
  match a with
  | ⟨0, _⟩ => show win0_2.index t (0 : Fin 3) * 1 ≤ (p 0).val ∧ (p 0).val < win0_2.index t (0 : Fin 3) * 1 + 1; omega
  | ⟨1, _⟩ => show win0_2.index t (1 : Fin 3) * 1 ≤ (p 1).val ∧ (p 1).val < win0_2.index t (1 : Fin 3) * 1 + 1; omega
  | ⟨2, _⟩ => show win0_2.index t (2 : Fin 3) * 1024 ≤ (p 2).val ∧ (p 2).val < win0_2.index t (2 : Fin 3) * 1024 + 1024; omega

/-- THE ARRAY of partial column sums after the region. -/
theorem colsum_arr_eq (c : Dev nD) : (dat0 (F := Ideal) V c).arrAt 2 cfg0.N = colArr0 V c :=
  (dat0 (F := Ideal) V c).arrAt_eq_of_cover 2 (colArr0 V c) (fun t _ => col_flushed_eq V c t) col_cover

/-- The array after the region at (h, 0, i): the sum of column i of the entry matrix over the rows of half h. -/
theorem colsum_arr (c : Dev nD) (h : Fin 2) (i : Fin 8192) :
    ((dat0 (F := Ideal) V c).arrAt 2 cfg0.N : S2x1x8192.Idx → EReal) (ix3 h (0 : Fin 1) i)
      = ∑ r : Fin 2048, Cert.Spec.adj (V c main_arg1) ⟨h.val * 2048 + r.val, by have := h.isLt; have := r.isLt; omega⟩ i := by
  rw [colsum_arr_eq]
  rfl
end

end Cert.KernelIdeal.Hand

end
-- ==== Proof.BK0Runs.lean ====
/-
  The first pallas_call (row sums of a half of the matrix, accumulated over eight column tiles, beside the
  column sums of each tile): the body's two runs. The grid is 2 x 8 (row half c, column tile j). When j = 0 the
  row-sum block is zeroed before the tile's row sums are added to it; at the other points they are added to what
  the point before left there. The column-sum block is stored whole at every point.
-/
import proofs.«142347_j15487652069895_2_alg».proof.Proof.Gen.Kernel.Launch
import proofs.«142347_j15487652069895_2_alg».proof.Proof.Gen.Kernel.Skeleton
import proofs.«142347_j15487652069895_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-- The branch's condition (j = 0), from the grid coordinates. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev VO0_1 : View sig .tc .vmem S2048x1 .f32 := (Memref.whole cc0_stg1_0 : Memref sig .tc .vmem S2048x1 .f32).view
abbrev VO0_2 : View sig .tc .vmem S1x1x1024 .f32 := (Memref.whole cc0_stg2_0 : Memref sig .tc .vmem S1x1x1024 .f32).view
abbrev ms0_0 (t : Fin cfg0.N) : Memref sig .tc .vmem S2048x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)

set_option maxHeartbeats 4000000 in
/-- The body where j = 0: the pieces its stores leave in the two output blocks, with its triple. -/
noncomputable def kernelRun0_A (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i)
    (x0 : Vec F S2048x1024 .i32) :
    Σ' (L1 : List (View.Piece (Elt F) S2048x1 .f32)), { L2 : List (View.Piece (Elt F) S1x1x1024 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

set_option maxHeartbeats 4000000 in
/-- The body where j is not 0: the row-sum block is read at what the point before left (`xo1`). -/
noncomputable def kernelRun0_B (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i)
    (x0 : Vec F S2048x1024 .i32) (xo1 : Vec F S2048x1 .f32) :
    Σ' (L1 : List (View.Piece (Elt F) S2048x1 .f32)), { L2 : List (View.Piece (Elt F) S1x1x1024 .f32) //
      ∀ (E : Set ℕ) (K : PUnit → sProp 𝕄),
        iprop(owns (c : Thread nD τ) arg2 fullShare x0 ∗ owns (c : Thread nD τ) arg3 fullShare xo1 ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; iexact H1
    iexists _; iexact H2

end Cert.Kernel.Hand

end
-- ==== Proof.BK0Frame.lean ====
/-
  The first pallas_call as one region: what its two output blocks hold after every grid point (the row-sum block
  an accumulation over the eight column tiles of a row half, the column-sum block each tile's own), the proof
  data over those contents, and the body obligation.
-/
import proofs.«142347_j15487652069895_2_alg».proof.Proof.BK0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover0_A_1 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) (y : S2048x1.Idx) : ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S2048x1.size (by sl_kernel_rfl) y
theorem cover0_A_2 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) (y : S1x1x1024.Idx) : ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x1x1024.size (by sl_kernel_rfl) y
def out0_A_1 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) : Vec F S2048x1 .f32 := VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : cond0_0 i) (x0 : Vec F S2048x1024 .i32) : Vec F S1x1x1024 .f32 := VO0_2.read (Elt F) (VO0_2.writes (Elt F) VO0_2.junk (kernelRun0_A c i arg2 harg2 arg3 harg3 arg4 harg4 hc0 x0).2.1)
theorem cover0_B_1 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) (y : S2048x1.Idx) : ∃ pc ∈ (kernelRun0_B c i arg2 harg2 arg3 harg3 arg4 harg4 hc0 x0 xo1).1, y ∈ pc.1.set :=
  View.cover_of_tiledL (kernelRun0_B c i arg2 harg2 arg3 harg3 arg4 harg4 hc0 x0 xo1).1 S2048x1.size (by sl_kernel_rfl) y
theorem cover0_B_2 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) (y : S1x1x1024.Idx) : ∃ pc ∈ (kernelRun0_B c i arg2 harg2 arg3 harg3 arg4 harg4 hc0 x0 xo1).2.1, y ∈ pc.1.set :=
  View.cover_of_tiledL (kernelRun0_B c i arg2 harg2 arg3 harg3 arg4 harg4 hc0 x0 xo1).2.1 S1x1x1024.size (by sl_kernel_rfl) y
def out0_B_1 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) : Vec F S2048x1 .f32 := VO0_1.read (Elt F) (VO0_1.writes (Elt F) VO0_1.junk (kernelRun0_B c i arg2 harg2 arg3 harg3 arg4 harg4 hc0 x0 xo1).1)
def out0_B_2 (c : Dev nD) (i : grid0.Coords) (arg2 : Memref sig .tc .vmem S2048x1024 .i32) (harg2 : arg2.IsWhole) (arg3 : Memref sig .tc .vmem S2048x1 .f32) (harg3 : arg3.IsWhole) (arg4 : Memref sig .tc .vmem S1x1x1024 .f32) (harg4 : arg4.IsWhole) (hc0 : ¬cond0_0 i) (x0 : Vec F S2048x1024 .i32) (xo1 : Vec F S2048x1 .f32) : Vec F S1x1x1024 .f32 := VO0_2.read (Elt F) (VO0_2.writes (Elt F) VO0_2.junk (kernelRun0_B c i arg2 harg2 arg3 harg3 arg4 harg4 hc0 x0 xo1).2.1)

section
variable (V : (c : Dev nD) → (b : Ref sig .tc) → Buf (Elt F) ((c : Thread nD τ).loc b))

/-- What the two output blocks' staging buffers hold after the body at position `n`, by recursion on the position:
    the row-sum block accumulates from the position before unless the position starts a row half. -/
def outsAt0 (c : Dev nD) : (n : ℕ) → n < cfg0.N → Vec F S2048x1 .f32 × Vec F S1x1x1024 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1)

theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t), out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1, out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
/-- Where the row-sum block is not reset, its staging buffer holds what the body left at the point before: the
    block was not written back in between. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 8 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

theorem body_obligation0 (c : Dev nD) : BodyObligation (dat0 (F := F) V c) (defs₀ (F := F)) Variants.none () Set.univ := fun t => by
  rw [bigSep_W0, bigSep_W0]
  exact sound_body0 V c t
end

end Cert.Kernel.Hand

end
-- ==== Proof.BK1Frame.lean ====
/-
  The second pallas_call (the degree-normalised weights, one 1024 x 2048 tile per grid point of a 4 x 4 grid) as
  one region: its body stores the output tile whole at every point, a pointwise function of the three input
  blocks; the proof data and the body obligation.
-/
import proofs.«142347_j15487652069895_2_alg».proof.Proof.Gen.Kernel.Launch
import proofs.«142347_j15487652069895_2_alg».proof.Proof.Gen.Kernel.Skeleton
import proofs.«142347_j15487652069895_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

abbrev VO1_3 : View sig .tc .vmem S1024x2048 .bf16 := (Memref.whole cc1_stg3_0 : Memref sig .tc .vmem S1024x2048 .bf16).view
abbrev ms1_0 (t : Fin cfg1.N) : Memref sig .tc .vmem S1024x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)

set_option maxHeartbeats 4000000 in
/-- The body's one run: the pieces its store leaves in the output block, with its triple. -/
noncomputable def kernelRun1 (c : Dev nD) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1024x2048 .bf16) (harg5 : arg5.IsWhole) (x0 : Vec F S1024x2048 .i32) (x1 : Vec F S1024x1 .f32) (x2 : Vec F S1x2048 .f32) :
    { L3 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__weight_kernel i arg2 harg2 arg3 harg3 arg4 harg4 arg5 harg5) K } := by
  refine ⟨?_, fun E K => ?run⟩
  case run =>
    simp only [cc1__weight_kernel_eq_skeleton]; unfold cc1__weight_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

theorem cover1_3 (c : Dev nD) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1024x2048 .bf16) (harg5 : arg5.IsWhole) (x0 : Vec F S1024x2048 .i32) (x1 : Vec F S1024x1 .f32) (x2 : Vec F S1x2048 .f32) (y : S1024x2048.Idx) : ∃ pc ∈ (kernelRun1 c i arg2 harg2 arg3 harg3 arg4 harg4 arg5 harg5 x0 x1 x2).1, y ∈ pc.1.set :=
  View.cover_of_tiledL (kernelRun1 c i arg2 harg2 arg3 harg3 arg4 harg4 arg5 harg5 x0 x1 x2).1 S1024x2048.size (by sl_kernel_rfl) y
def out1_3 (c : Dev nD) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1024x2048 .bf16) (harg5 : arg5.IsWhole) (x0 : Vec F S1024x2048 .i32) (x1 : Vec F S1024x1 .f32) (x2 : Vec F S1x2048 .f32) : Vec F S1024x2048 .bf16 := VO1_3.read (Elt F) (VO1_3.writes (Elt F) VO1_3.junk (kernelRun1 c i arg2 harg2 arg3 harg3 arg4 harg4 arg5 harg5 x0 x1 x2).1)

section
variable (V : (c : Dev nD) → (b : Ref sig .tc) → Buf (Elt F) ((c : Thread nD τ).loc b))

def outAt1 (c : Dev nD) (t : Fin cfg1.N) : Vec F S1024x2048 .bf16 :=
  out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt1 out1_3
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t
end

end Cert.Kernel.Hand

end
-- ==== Proof.BK2Runs.lean ====
/-
  The third pallas_call (one propagation layer): what its body's runs share.
  The grid is 2 x 2 x 2 (column half c, row tile i, column tile j of the half). The body zeroes its two
  scratch accumulators when i = 0 and j = 0, adds one tile product into a 2048-row band of each, and when
  i = 1 and j = 1 copies both accumulators into the two output blocks. So a point is in one of three
  cases, decided by the point's position modulo 4: 0 (zero, then add), 1 or 2 (add), 3 (add, then copy out).
-/
import proofs.«142347_j15487652069895_2_alg».proof.Proof.Gen.Kernel.Launch
import proofs.«142347_j15487652069895_2_alg».proof.Proof.Gen.Kernel.Skeleton
import proofs.«142347_j15487652069895_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end

/-- The first branch's condition (i = 0 and j = 0), from the grid coordinates. -/
abbrev cond2_0 (i : grid2.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The second branch's condition (i = 1 and j = 1). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev VO2_3 : View sig .tc .vmem S4096x64 .f32 := (Memref.whole cc2_stg3_0 : Memref sig .tc .vmem S4096x64 .f32).view
abbrev VO2_4 : View sig .tc .vmem S1x4096x64 .f32 := (Memref.whole cc2_stg4_0 : Memref sig .tc .vmem S1x4096x64 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x4096x64 .f32 := win2_4.stage (cfg2.slots t 4)
abbrev hs2_4 (t : Fin cfg2.N) : (ms2_4 t).IsWhole := hstage2_4 ((cfg2.slots t 4).cast nbuf2_4)
/-- The two scratch accumulators: whole scoped buffers of the kernel's own. -/
abbrev scM2_0 : Memref sig .tc .vmem S4096x64 .f32 := Memref.whole cc2_scratch0
abbrev scM2_1 : Memref sig .tc .vmem S4096x64 .f32 := Memref.whole cc2_scratch1
abbrev hsc2_0 : (scM2_0).IsWhole := Memref.isWhole_whole _
abbrev hsc2_1 : (scM2_1).IsWhole := Memref.isWhole_whole _

/-- The class invariant with the two scratch operands split out as memrefs owned at some contents; the other
    scoped buffers stay unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.BK2RunA.lean ====
/-
  The third pallas_call's body at a point with i = 0 and j = 0: both accumulators are zeroed whole, then one
  tile product is added into a band of each; nothing is stored into the output blocks, which are handed back
  as they were.
-/
import proofs.«142347_j15487652069895_2_alg».proof.Proof.BK2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the stores leave in the two accumulators (last first), with the body's triple: inputs kept,
    idle outputs handed back untouched, each accumulator at its pieces written over whatever it held. -/
noncomputable def kernelRun2_A (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i)
    (x0 : Vec F S2048x2048 .bf16) (x1 : Vec F S2048x64 .f32) (x2 : Vec F S2048x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__fused_prop_kernel i arg3 harg3 arg4 harg4 arg5 harg5 arg6 harg6 arg7 harg7 arg8 harg8 arg9 harg9) K } := by
  refine ⟨?_, ?_, fun xi3 xi4 E K => ?run⟩
  case run =>
    simp only [cc2__fused_prop_kernel_eq_skeleton]; unfold cc2__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    iexists _; iexact HS1

end Cert.Kernel.Hand

end
-- ==== Proof.BK2RunB.lean ====
/-
  The third pallas_call's body at a point where neither branch is taken: one tile product is added into a band
  of each accumulator, over what the point before left there; the output blocks are handed back as they were.
-/
import proofs.«142347_j15487652069895_2_alg».proof.Proof.BK2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i)
    (x0 : Vec F S2048x2048 .bf16) (x1 : Vec F S2048x64 .f32) (x2 : Vec F S2048x64 .f32) (xs0 : Vec F S4096x64 .f32) (xs1 : Vec F S4096x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc2__fused_prop_kernel i arg3 harg3 arg4 harg4 arg5 harg5 arg6 harg6 arg7 harg7 arg8 harg8 arg9 harg9) K } := by
  refine ⟨?_, ?_, fun xi3 xi4 E K => ?run⟩
  case run =>
    simp only [cc2__fused_prop_kernel_eq_skeleton]; unfold cc2__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexact HS0
    iexact HS1

end Cert.Kernel.Hand

end
-- ==== Proof.BK2RunC.lean ====
/-
  The third pallas_call's body at a point with i = 1 and j = 1: one tile product is added into a band of each
  accumulator, over what the point before left there, and then both accumulators are copied whole into the two
  output blocks.
-/
import proofs.«142347_j15487652069895_2_alg».proof.Proof.BK2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i)
    (x0 : Vec F S2048x2048 .bf16) (x1 : Vec F S2048x64 .f32) (x2 : Vec F S2048x64 .f32) (xs0 : Vec F S4096x64 .f32) (xs1 : Vec F S4096x64 .f32) :
    Σ' (L3 : List (View.Piece (Elt F) S4096x64 .f32)) (L4 : List (View.Piece (Elt F) S1x4096x64 .f32)) (LS0 : List (View.Piece (Elt F) S4096x64 .f32)), { LS1 : List (View.Piece (Elt F) S4096x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc2__fused_prop_kernel i arg3 harg3 arg4 harg4 arg5 harg5 arg6 harg6 arg7 harg7 arg8 harg8 arg9 harg9) K } := by
  refine ⟨?_, ?_, ?_, ?_, fun E K => ?run⟩
  case run =>
    simp only [cc2__fused_prop_kernel_eq_skeleton]; unfold cc2__fused_prop_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [HS0]
    · iexact HS0
    iexact HS1

end Cert.Kernel.Hand

end
-- ==== Proof.BK2Frame.lean ====
/-
  The third pallas_call (one propagation layer) as one region: what its two output blocks and its two scratch
  accumulators hold after every grid point, the proof data over those contents, and the body obligation.
  The accumulators are carried from point to point: zeroed and first added to at positions 0 and 4, added to
  at positions 1, 2, 5, 6 over what the point before left, and at positions 3 and 7 added to once more and copied
  whole into the output blocks, which are written back only there.
-/
import proofs.«142347_j15487652069895_2_alg».proof.Proof.BK2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An output block at a point that stores nothing into it: a placeholder nothing consults (the block is neither
    written back there nor read at the next point). -/
def out2_I_3 : Vec F S4096x64 .f32 := VO2_3.read (Elt F) VO2_3.junk
def out2_I_4 : Vec F S1x4096x64 .f32 := VO2_4.read (Elt F) VO2_4.junk

/-! ## Positions 0 and 4: both accumulators zeroed whole, so their pieces cover them -/

theorem scover2_A_0 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec F S2048x2048 .bf16) (x1 : Vec F S2048x64 .f32) (x2 : Vec F S2048x64 .f32) (y : S4096x64.Idx) : ∃ pc ∈ (kernelRun2_A c i arg3 harg3 arg4 harg4 arg5 harg5 arg6 harg6 arg7 harg7 arg8 harg8 arg9 harg9 hc0 hc1 x0 x1 x2).1, y ∈ pc.1.set :=
  View.cover_of_wholeMem (kernelRun2_A c i arg3 harg3 arg4 harg4 arg5 harg5 arg6 harg6 arg7 harg7 arg8 harg8 arg9 harg9 hc0 hc1 x0 x1 x2).1 (by sl_whole_mem) y
theorem scover2_A_1 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec F S2048x2048 .bf16) (x1 : Vec F S2048x64 .f32) (x2 : Vec F S2048x64 .f32) (y : S4096x64.Idx) : ∃ pc ∈ (kernelRun2_A c i arg3 harg3 arg4 harg4 arg5 harg5 arg6 harg6 arg7 harg7 arg8 harg8 arg9 harg9 hc0 hc1 x0 x1 x2).2.1, y ∈ pc.1.set :=
  View.cover_of_wholeMem (kernelRun2_A c i arg3 harg3 arg4 harg4 arg5 harg5 arg6 harg6 arg7 harg7 arg8 harg8 arg9 harg9 hc0 hc1 x0 x1 x2).2.1 (by sl_whole_mem) y
def sout2_A_0 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec F S2048x2048 .bf16) (x1 : Vec F S2048x64 .f32) (x2 : Vec F S2048x64 .f32) : Vec F S4096x64 .f32 :=
  scM2_0.view.read (Elt F) (scM2_0.view.writes (Elt F) scM2_0.view.junk (kernelRun2_A c i arg3 harg3 arg4 harg4 arg5 harg5 arg6 harg6 arg7 harg7 arg8 harg8 arg9 harg9 hc0 hc1 x0 x1 x2).1)
def sout2_A_1 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec F S2048x2048 .bf16) (x1 : Vec F S2048x64 .f32) (x2 : Vec F S2048x64 .f32) : Vec F S4096x64 .f32 :=
  scM2_1.view.read (Elt F) (scM2_1.view.writes (Elt F) scM2_1.view.junk (kernelRun2_A c i arg3 harg3 arg4 harg4 arg5 harg5 arg6 harg6 arg7 harg7 arg8 harg8 arg9 harg9 hc0 hc1 x0 x1 x2).2.1)

/-! ## Positions 1, 2, 5, 6: one band of each accumulator rewritten over what the point before left -/

def sout2_B_0 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun2_B c i arg3 harg3 arg4 harg4 arg5 harg5 arg6 harg6 arg7 harg7 arg8 harg8 arg9 harg9 hc0 hc1 x0 x1 x2 xs0 xs1).1)
def sout2_B_1 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun2_B c i arg3 harg3 arg4 harg4 arg5 harg5 arg6 harg6 arg7 harg7 arg8 harg8 arg9 harg9 hc0 hc1 x0 x1 x2 xs0 xs1).2.1)

/-! ## Positions 3 and 7: the same, then both accumulators copied whole into the output blocks -/

theorem cover2_C_3 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) (y : S4096x64.Idx) : ∃ pc ∈ (kernelRun2_C c i arg3 harg3 arg4 harg4 arg5 harg5 arg6 harg6 arg7 harg7 arg8 harg8 arg9 harg9 hc0 hc1 x0 x1 x2 xs0 xs1).1, y ∈ pc.1.set :=
  View.cover_of_tiledL (kernelRun2_C c i arg3 harg3 arg4 harg4 arg5 harg5 arg6 harg6 arg7 harg7 arg8 harg8 arg9 harg9 hc0 hc1 x0 x1 x2 xs0 xs1).1 S4096x64.size (by sl_kernel_rfl) y
theorem cover2_C_4 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) (y : S1x4096x64.Idx) : ∃ pc ∈ (kernelRun2_C c i arg3 harg3 arg4 harg4 arg5 harg5 arg6 harg6 arg7 harg7 arg8 harg8 arg9 harg9 hc0 hc1 x0 x1 x2 xs0 xs1).2.1, y ∈ pc.1.set :=
  View.cover_of_tiledL (kernelRun2_C c i arg3 harg3 arg4 harg4 arg5 harg5 arg6 harg6 arg7 harg7 arg8 harg8 arg9 harg9 hc0 hc1 x0 x1 x2 xs0 xs1).2.1 S1x4096x64.size (by sl_kernel_rfl) y
def out2_C_3 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  VO2_3.read (Elt F) (VO2_3.writes (Elt F) VO2_3.junk (kernelRun2_C c i arg3 harg3 arg4 harg4 arg5 harg5 arg6 harg6 arg7 harg7 arg8 harg8 arg9 harg9 hc0 hc1 x0 x1 x2 xs0 xs1).1)
def out2_C_4 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) : Vec F S1x4096x64 .f32 :=
  VO2_4.read (Elt F) (VO2_4.writes (Elt F) VO2_4.junk (kernelRun2_C c i arg3 harg3 arg4 harg4 arg5 harg5 arg6 harg6 arg7 harg7 arg8 harg8 arg9 harg9 hc0 hc1 x0 x1 x2 xs0 xs1).2.1)
def sout2_C_0 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun2_C c i arg3 harg3 arg4 harg4 arg5 harg5 arg6 harg6 arg7 harg7 arg8 harg8 arg9 harg9 hc0 hc1 x0 x1 x2 xs0 xs1).2.2.1)
def sout2_C_1 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun2_C c i arg3 harg3 arg4 harg4 arg5 harg5 arg6 harg6 arg7 harg7 arg8 harg8 arg9 harg9 hc0 hc1 x0 x1 x2 xs0 xs1).2.2.2.1)

section
variable (V : (c : Dev nD) → (b : Ref sig .tc) → Buf (Elt F) ((c : Thread nD τ).loc b))

/-- What the two output blocks' staging buffers and the two accumulators hold after the body at position `n`
    (in that order), by recursion on the position. -/
def outsAt2 (c : Dev nD) : (n : ℕ) → n < cfg2.N → Vec F S4096x64 .f32 × Vec F S1x4096x64 .f32 × Vec F S4096x64 .f32 × Vec F S4096x64 .f32
  | 0, hn => (out2_I_3 (F := F), out2_I_4 (F := F), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 hsc2_0 scM2_1 hsc2_1 ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 hsc2_0 scM2_1 hsc2_1 ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_I_3 (F := F), out2_I_4 (F := F), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2)
      else
        (out2_I_3 (F := F), out2_I_4 (F := F), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 hsc2_0 scM2_1 hsc2_1 (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2)

theorem outsAt2_A (c : Dev nD) (t : Fin cfg2.N) (h0 : t.val % 4 = 0) (h1 : ¬t.val % 4 = 3) :
    outsAt2 V c t.val t.isLt = (out2_I_3 (F := F), out2_I_4 (F := F), sout2_A_0 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_I_3 (F := F), out2_I_4 (F := F), sout2_B_0 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_4 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's own (every scoped buffer at anything);
    afterwards the two accumulators at what the point before left, the other scoped buffers unopened, and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2))
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of this pipeline on core `c`, at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the position modulo 4 says which of the three cases the point is in; the invariant
    hands the body the accumulators at what the point before left (at anything at the first point) and takes
    them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A_0 sout2_A_1; (try dsimp only)
      by_cases hz : t.val = 0
      · rw [PhiS2_castSucc V c t, PhiS2_zero V c _ _ hz, PhiA2_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover2_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover2_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

      · rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover2_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover2_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_3 out2_C_4 sout2_C_0 sout2_C_1; (try dsimp only)
      have hz : t.val ≠ 0 := by omega
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _)
      unfold owns; iexists _; isplitr
      swap; · iexact H4
      ipureintro; exact View.read_writes_of_cover _ _ _ _ _ (cover2_C_4 c _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0 sout2_B_1; (try dsimp only)
      have hz : t.val ≠ 0 := by omega
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 8 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end

end Cert.Kernel.Hand

end
-- ==== Proof.BK3Runs.lean ====
/-
  The fourth pallas_call (one propagation layer): what its body's runs share.
  The grid is 2 x 2 x 2 (column half c, row tile i, column tile j of the half). The body zeroes its two
  scratch accumulators when i = 0 and j = 0, adds one tile product into a 2048-row band of each, and when
  i = 1 and j = 1 copies both accumulators into the two output blocks. So a point is in one of three
  cases, decided by the point's position modulo 4: 0 (zero, then add), 1 or 2 (add), 3 (add, then copy out).
-/
import proofs.«142347_j15487652069895_2_alg».proof.Proof.Gen.Kernel.Launch
import proofs.«142347_j15487652069895_2_alg».proof.Proof.Gen.Kernel.Skeleton
import proofs.«142347_j15487652069895_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
end

/-- The first branch's condition (i = 0 and j = 0), from the grid coordinates. -/
abbrev cond3_0 (i : grid3.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- The second branch's condition (i = 1 and j = 1). -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev VO3_3 : View sig .tc .vmem S4096x64 .f32 := (Memref.whole cc3_stg3_0 : Memref sig .tc .vmem S4096x64 .f32).view
abbrev VO3_4 : View sig .tc .vmem S1x4096x64 .f32 := (Memref.whole cc3_stg4_0 : Memref sig .tc .vmem S1x4096x64 .f32).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S4096x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x4096x64 .f32 := win3_4.stage (cfg3.slots t 4)
abbrev hs3_4 (t : Fin cfg3.N) : (ms3_4 t).IsWhole := hstage3_4 ((cfg3.slots t 4).cast nbuf3_4)
/-- The two scratch accumulators: whole scoped buffers of the kernel's own. -/
abbrev scM3_0 : Memref sig .tc .vmem S4096x64 .f32 := Memref.whole cc3_scratch0
abbrev scM3_1 : Memref sig .tc .vmem S4096x64 .f32 := Memref.whole cc3_scratch1
abbrev hsc3_0 : (scM3_0).IsWhole := Memref.isWhole_whole _
abbrev hsc3_1 : (scM3_1).IsWhole := Memref.isWhole_whole _

/-- The class invariant with the two scratch operands split out as memrefs owned at some contents; the other
    scoped buffers stay unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Hand

end
-- ==== Proof.BK3RunA.lean ====
/-
  The fourth pallas_call's body at a point with i = 0 and j = 0: both accumulators are zeroed whole, then one
  tile product is added into a band of each; nothing is stored into the output blocks, which are handed back
  as they were.
-/
import proofs.«142347_j15487652069895_2_alg».proof.Proof.BK3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the stores leave in the two accumulators (last first), with the body's triple: inputs kept,
    idle outputs handed back untouched, each accumulator at its pieces written over whatever it held. -/
noncomputable def kernelRun3_A (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i)
    (x0 : Vec F S2048x2048 .bf16) (x1 : Vec F S2048x64 .f32) (x2 : Vec F S2048x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc3__fused_prop_kernel i arg3 harg3 arg4 harg4 arg5 harg5 arg6 harg6 arg7 harg7 arg8 harg8 arg9 harg9) K } := by
  refine ⟨?_, ?_, fun xi3 xi4 E K => ?run⟩
  case run =>
    simp only [cc3__fused_prop_kernel_eq_skeleton]; unfold cc3__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    iexists _; iexact HS1

end Cert.Kernel.Hand

end
-- ==== Proof.BK3RunB.lean ====
/-
  The fourth pallas_call's body at a point where neither branch is taken: one tile product is added into a band
  of each accumulator, over what the point before left there; the output blocks are handed back as they were.
-/
import proofs.«142347_j15487652069895_2_alg».proof.Proof.BK3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i)
    (x0 : Vec F S2048x2048 .bf16) (x1 : Vec F S2048x64 .f32) (x2 : Vec F S2048x64 .f32) (xs0 : Vec F S4096x64 .f32) (xs1 : Vec F S4096x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc3__fused_prop_kernel i arg3 harg3 arg4 harg4 arg5 harg5 arg6 harg6 arg7 harg7 arg8 harg8 arg9 harg9) K } := by
  refine ⟨?_, ?_, fun xi3 xi4 E K => ?run⟩
  case run =>
    simp only [cc3__fused_prop_kernel_eq_skeleton]; unfold cc3__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexact HS0
    iexact HS1

end Cert.Kernel.Hand

end
-- ==== Proof.BK3RunC.lean ====
/-
  The fourth pallas_call's body at a point with i = 1 and j = 1: one tile product is added into a band of each
  accumulator, over what the point before left there, and then both accumulators are copied whole into the two
  output blocks.
-/
import proofs.«142347_j15487652069895_2_alg».proof.Proof.BK3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i)
    (x0 : Vec F S2048x2048 .bf16) (x1 : Vec F S2048x64 .f32) (x2 : Vec F S2048x64 .f32) (xs0 : Vec F S4096x64 .f32) (xs1 : Vec F S4096x64 .f32) :
    Σ' (L3 : List (View.Piece (Elt F) S4096x64 .f32)) (L4 : List (View.Piece (Elt F) S1x4096x64 .f32)) (LS0 : List (View.Piece (Elt F) S4096x64 .f32)), { LS1 : List (View.Piece (Elt F) S4096x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc3__fused_prop_kernel i arg3 harg3 arg4 harg4 arg5 harg5 arg6 harg6 arg7 harg7 arg8 harg8 arg9 harg9) K } := by
  refine ⟨?_, ?_, ?_, ?_, fun E K => ?run⟩
  case run =>
    simp only [cc3__fused_prop_kernel_eq_skeleton]; unfold cc3__fused_prop_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [HS0]
    · iexact HS0
    iexact HS1

end Cert.Kernel.Hand

end
-- ==== Proof.BK3Frame.lean ====
/-
  The fourth pallas_call (one propagation layer) as one region: what its two output blocks and its two scratch
  accumulators hold after every grid point, the proof data over those contents, and the body obligation.
  The accumulators are carried from point to point: zeroed and first added to at positions 0 and 4, added to
  at positions 1, 2, 5, 6 over what the point before left, and at positions 3 and 7 added to once more and copied
  whole into the output blocks, which are written back only there.
-/
import proofs.«142347_j15487652069895_2_alg».proof.Proof.BK3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An output block at a point that stores nothing into it: a placeholder nothing consults (the block is neither
    written back there nor read at the next point). -/
def out3_I_3 : Vec F S4096x64 .f32 := VO3_3.read (Elt F) VO3_3.junk
def out3_I_4 : Vec F S1x4096x64 .f32 := VO3_4.read (Elt F) VO3_4.junk

/-! ## Positions 0 and 4: both accumulators zeroed whole, so their pieces cover them -/

theorem scover3_A_0 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec F S2048x2048 .bf16) (x1 : Vec F S2048x64 .f32) (x2 : Vec F S2048x64 .f32) (y : S4096x64.Idx) : ∃ pc ∈ (kernelRun3_A c i arg3 harg3 arg4 harg4 arg5 harg5 arg6 harg6 arg7 harg7 arg8 harg8 arg9 harg9 hc0 hc1 x0 x1 x2).1, y ∈ pc.1.set :=
  View.cover_of_wholeMem (kernelRun3_A c i arg3 harg3 arg4 harg4 arg5 harg5 arg6 harg6 arg7 harg7 arg8 harg8 arg9 harg9 hc0 hc1 x0 x1 x2).1 (by sl_whole_mem) y
theorem scover3_A_1 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec F S2048x2048 .bf16) (x1 : Vec F S2048x64 .f32) (x2 : Vec F S2048x64 .f32) (y : S4096x64.Idx) : ∃ pc ∈ (kernelRun3_A c i arg3 harg3 arg4 harg4 arg5 harg5 arg6 harg6 arg7 harg7 arg8 harg8 arg9 harg9 hc0 hc1 x0 x1 x2).2.1, y ∈ pc.1.set :=
  View.cover_of_wholeMem (kernelRun3_A c i arg3 harg3 arg4 harg4 arg5 harg5 arg6 harg6 arg7 harg7 arg8 harg8 arg9 harg9 hc0 hc1 x0 x1 x2).2.1 (by sl_whole_mem) y
def sout3_A_0 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec F S2048x2048 .bf16) (x1 : Vec F S2048x64 .f32) (x2 : Vec F S2048x64 .f32) : Vec F S4096x64 .f32 :=
  scM3_0.view.read (Elt F) (scM3_0.view.writes (Elt F) scM3_0.view.junk (kernelRun3_A c i arg3 harg3 arg4 harg4 arg5 harg5 arg6 harg6 arg7 harg7 arg8 harg8 arg9 harg9 hc0 hc1 x0 x1 x2).1)
def sout3_A_1 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec F S2048x2048 .bf16) (x1 : Vec F S2048x64 .f32) (x2 : Vec F S2048x64 .f32) : Vec F S4096x64 .f32 :=
  scM3_1.view.read (Elt F) (scM3_1.view.writes (Elt F) scM3_1.view.junk (kernelRun3_A c i arg3 harg3 arg4 harg4 arg5 harg5 arg6 harg6 arg7 harg7 arg8 harg8 arg9 harg9 hc0 hc1 x0 x1 x2).2.1)

/-! ## Positions 1, 2, 5, 6: one band of each accumulator rewritten over what the point before left -/

def sout3_B_0 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun3_B c i arg3 harg3 arg4 harg4 arg5 harg5 arg6 harg6 arg7 harg7 arg8 harg8 arg9 harg9 hc0 hc1 x0 x1 x2 xs0 xs1).1)
def sout3_B_1 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun3_B c i arg3 harg3 arg4 harg4 arg5 harg5 arg6 harg6 arg7 harg7 arg8 harg8 arg9 harg9 hc0 hc1 x0 x1 x2 xs0 xs1).2.1)

/-! ## Positions 3 and 7: the same, then both accumulators copied whole into the output blocks -/

theorem cover3_C_3 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) (y : S4096x64.Idx) : ∃ pc ∈ (kernelRun3_C c i arg3 harg3 arg4 harg4 arg5 harg5 arg6 harg6 arg7 harg7 arg8 harg8 arg9 harg9 hc0 hc1 x0 x1 x2 xs0 xs1).1, y ∈ pc.1.set :=
  View.cover_of_tiledL (kernelRun3_C c i arg3 harg3 arg4 harg4 arg5 harg5 arg6 harg6 arg7 harg7 arg8 harg8 arg9 harg9 hc0 hc1 x0 x1 x2 xs0 xs1).1 S4096x64.size (by sl_kernel_rfl) y
theorem cover3_C_4 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) (y : S1x4096x64.Idx) : ∃ pc ∈ (kernelRun3_C c i arg3 harg3 arg4 harg4 arg5 harg5 arg6 harg6 arg7 harg7 arg8 harg8 arg9 harg9 hc0 hc1 x0 x1 x2 xs0 xs1).2.1, y ∈ pc.1.set :=
  View.cover_of_tiledL (kernelRun3_C c i arg3 harg3 arg4 harg4 arg5 harg5 arg6 harg6 arg7 harg7 arg8 harg8 arg9 harg9 hc0 hc1 x0 x1 x2 xs0 xs1).2.1 S1x4096x64.size (by sl_kernel_rfl) y
def out3_C_3 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  VO3_3.read (Elt F) (VO3_3.writes (Elt F) VO3_3.junk (kernelRun3_C c i arg3 harg3 arg4 harg4 arg5 harg5 arg6 harg6 arg7 harg7 arg8 harg8 arg9 harg9 hc0 hc1 x0 x1 x2 xs0 xs1).1)
def out3_C_4 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) : Vec F S1x4096x64 .f32 :=
  VO3_4.read (Elt F) (VO3_4.writes (Elt F) VO3_4.junk (kernelRun3_C c i arg3 harg3 arg4 harg4 arg5 harg5 arg6 harg6 arg7 harg7 arg8 harg8 arg9 harg9 hc0 hc1 x0 x1 x2 xs0 xs1).2.1)
def sout3_C_0 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun3_C c i arg3 harg3 arg4 harg4 arg5 harg5 arg6 harg6 arg7 harg7 arg8 harg8 arg9 harg9 hc0 hc1 x0 x1 x2 xs0 xs1).2.2.1)
def sout3_C_1 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun3_C c i arg3 harg3 arg4 harg4 arg5 harg5 arg6 harg6 arg7 harg7 arg8 harg8 arg9 harg9 hc0 hc1 x0 x1 x2 xs0 xs1).2.2.2.1)

section
variable (V : (c : Dev nD) → (b : Ref sig .tc) → Buf (Elt F) ((c : Thread nD τ).loc b))

/-- What the two output blocks' staging buffers and the two accumulators hold after the body at position `n`
    (in that order), by recursion on the position. -/
def outsAt3 (c : Dev nD) : (n : ℕ) → n < cfg3.N → Vec F S4096x64 .f32 × Vec F S1x4096x64 .f32 × Vec F S4096x64 .f32 × Vec F S4096x64 .f32
  | 0, hn => (out3_I_3 (F := F), out3_I_4 (F := F), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 hsc3_0 scM3_1 hsc3_1 ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 hsc3_0 scM3_1 hsc3_1 ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_I_3 (F := F), out3_I_4 (F := F), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2)
      else
        (out3_I_3 (F := F), out3_I_4 (F := F), sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 hsc3_0 scM3_1 hsc3_1 (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.1 (outsAt3 c n (Nat.lt_of_succ_lt hn)).2.2.2)

theorem outsAt3_A (c : Dev nD) (t : Fin cfg3.N) (h0 : t.val % 4 = 0) (h1 : ¬t.val % 4 = 3) :
    outsAt3 V c t.val t.isLt = (out3_I_3 (F := F), out3_I_4 (F := F), sout3_A_0 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 ((hcond3_0 t).mpr h0) (fun h => h1 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_I_3 (F := F), out3_I_4 (F := F), sout3_B_0 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2, out3_C_4 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2, sout3_C_0 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2, sout3_C_1 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's own (every scoped buffer at anything);
    afterwards the two accumulators at what the point before left, the other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.1) ∗ owns (c : Thread nD τ) scM3_1 fullShare ((outsAt3 V c n hn).2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2.2.1) ∗ owns (c : Thread nD τ) scM3_1 fullShare ((outsAt3 V c n hn).2.2.2))
      ∗ Pipeline.scopedRestBut (Ix := Unit) (Name := ℕ) (U := UR sig nD τ) (Lvl := ℕ) (Val := Elt F) spec3 c [cc3_scratch0, cc3_scratch1]) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.1) ∗ owns (c : Thread nD τ) scM3_1 fullShare ((outsAt3 V c (n - 1) (by omega)).2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-- The proof data of this pipeline on core `c`, at the entry contents `V`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the position modulo 4 says which of the three cases the point is in; the invariant
    hands the body the accumulators at what the point before left (at anything at the first point) and takes
    them back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [Dat.leavesExact_idle (dat3 V c) 4 t (idleAt3_4 t (fun h => h1 ((hcond3_1 t).mp h))) (noFlush3_4 t (fun h => h1 ((hcond3_1 t).mp h)))]
      rw [outsAt3_A V c t h0 h1]
      unfold sout3_A_0 sout3_A_1; (try dsimp only)
      by_cases hz : t.val = 0
      · rw [PhiS3_castSucc V c t, PhiS3_zero V c _ _ hz, PhiA3_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover3_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover3_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

      · rw [PhiS3_castSucc V c t, PhiS3_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover3_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover3_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

  · by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_C V c t h0 h1]
      unfold out3_C_3 out3_C_4 sout3_C_0 sout3_C_1; (try dsimp only)
      have hz : t.val ≠ 0 := by omega
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C_3 c _ _ _ _ _ _ _ _ _ _ _ _ _ _ _ _ _ _ _ _ _ _)
      unfold owns; iexists _; isplitr
      swap; · iexact H4
      ipureintro; exact View.read_writes_of_cover _ _ _ _ _ (cover3_C_4 c _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [Dat.leavesExact_idle (dat3 V c) 4 t (idleAt3_4 t (fun h => h1 ((hcond3_1 t).mp h))) (noFlush3_4 t (fun h => h1 ((hcond3_1 t).mp h)))]
      rw [outsAt3_B V c t h0 h1]
      unfold sout3_B_0 sout3_B_1; (try dsimp only)
      have hz : t.val ≠ 0 := by omega
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  have ht : (Fin.last cfg3.N).val ≠ 0 := by rw [Fin.val_last]; have : cfg3.N = 8 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end

end Cert.Kernel.Hand

end
-- ==== Proof.BK4Runs.lean ====
/-
  The fifth pallas_call (one propagation layer): what its body's runs share.
  The grid is 2 x 2 x 2 (column half c, row tile i, column tile j of the half). The body zeroes its two
  scratch accumulators when i = 0 and j = 0, adds one tile product into a 2048-row band of each, and when
  i = 1 and j = 1 copies both accumulators into the two output blocks. So a point is in one of three
  cases, decided by the point's position modulo 4: 0 (zero, then add), 1 or 2 (add), 3 (add, then copy out).
-/
import proofs.«142347_j15487652069895_2_alg».proof.Proof.Gen.Kernel.Launch
import proofs.«142347_j15487652069895_2_alg».proof.Proof.Gen.Kernel.Skeleton
import proofs.«142347_j15487652069895_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
end

/-- The first branch's condition (i = 0 and j = 0), from the grid coordinates. -/
abbrev cond4_0 (i : grid4.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- The second branch's condition (i = 1 and j = 1). -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

abbrev VO4_3 : View sig .tc .vmem S4096x64 .f32 := (Memref.whole cc4_stg3_0 : Memref sig .tc .vmem S4096x64 .f32).view
abbrev VO4_4 : View sig .tc .vmem S1x4096x64 .f32 := (Memref.whole cc4_stg4_0 : Memref sig .tc .vmem S1x4096x64 .f32).view
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x4096x64 .f32 := win4_4.stage (cfg4.slots t 4)
abbrev hs4_4 (t : Fin cfg4.N) : (ms4_4 t).IsWhole := hstage4_4 ((cfg4.slots t 4).cast nbuf4_4)
/-- The two scratch accumulators: whole scoped buffers of the kernel's own. -/
abbrev scM4_0 : Memref sig .tc .vmem S4096x64 .f32 := Memref.whole cc4_scratch0
abbrev scM4_1 : Memref sig .tc .vmem S4096x64 .f32 := Memref.whole cc4_scratch1
abbrev hsc4_0 : (scM4_0).IsWhole := Memref.isWhole_whole _
abbrev hsc4_1 : (scM4_1).IsWhole := Memref.isWhole_whole _

/-- The class invariant with the two scratch operands split out as memrefs owned at some contents; the other
    scoped buffers stay unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.BK4RunA.lean ====
/-
  The fifth pallas_call's body at a point with i = 0 and j = 0: both accumulators are zeroed whole, then one
  tile product is added into a band of each; nothing is stored into the output blocks, which are handed back
  as they were.
-/
import proofs.«142347_j15487652069895_2_alg».proof.Proof.BK4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the stores leave in the two accumulators (last first), with the body's triple: inputs kept,
    idle outputs handed back untouched, each accumulator at its pieces written over whatever it held. -/
noncomputable def kernelRun4_A (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i)
    (x0 : Vec F S2048x2048 .bf16) (x1 : Vec F S2048x64 .f32) (x2 : Vec F S2048x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc4__fused_prop_kernel i arg3 harg3 arg4 harg4 arg5 harg5 arg6 harg6 arg7 harg7 arg8 harg8 arg9 harg9) K } := by
  refine ⟨?_, ?_, fun xi3 xi4 E K => ?run⟩
  case run =>
    simp only [cc4__fused_prop_kernel_eq_skeleton]; unfold cc4__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    iexists _; iexact HS1

end Cert.Kernel.Hand

end
-- ==== Proof.BK4RunB.lean ====
/-
  The fifth pallas_call's body at a point where neither branch is taken: one tile product is added into a band
  of each accumulator, over what the point before left there; the output blocks are handed back as they were.
-/
import proofs.«142347_j15487652069895_2_alg».proof.Proof.BK4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i)
    (x0 : Vec F S2048x2048 .bf16) (x1 : Vec F S2048x64 .f32) (x2 : Vec F S2048x64 .f32) (xs0 : Vec F S4096x64 .f32) (xs1 : Vec F S4096x64 .f32) :
    Σ' (LS0 : List (View.Piece (Elt F) S4096x64 .f32)), { LS1 : List (View.Piece (Elt F) S4096x64 .f32) //
      ∀ (xi3 : Vec F S4096x64 .f32) (xi4 : Vec F S1x4096x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xi4
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ owns (c : Thread nD τ) arg7 fullShare xi4
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc4__fused_prop_kernel i arg3 harg3 arg4 harg4 arg5 harg5 arg6 harg6 arg7 harg7 arg8 harg8 arg9 harg9) K } := by
  refine ⟨?_, ?_, fun xi3 xi4 E K => ?run⟩
  case run =>
    simp only [cc4__fused_prop_kernel_eq_skeleton]; unfold cc4__fused_prop_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexact HS0
    iexact HS1

end Cert.Kernel.Hand

end
-- ==== Proof.BK4RunC.lean ====
/-
  The fifth pallas_call's body at a point with i = 1 and j = 1: one tile product is added into a band of each
  accumulator, over what the point before left there, and then both accumulators are copied whole into the two
  output blocks.
-/
import proofs.«142347_j15487652069895_2_alg».proof.Proof.BK4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i)
    (x0 : Vec F S2048x2048 .bf16) (x1 : Vec F S2048x64 .f32) (x2 : Vec F S2048x64 .f32) (xs0 : Vec F S4096x64 .f32) (xs1 : Vec F S4096x64 .f32) :
    Σ' (L3 : List (View.Piece (Elt F) S4096x64 .f32)) (L4 : List (View.Piece (Elt F) S1x4096x64 .f32)) (LS0 : List (View.Piece (Elt F) S4096x64 .f32)), { LS1 : List (View.Piece (Elt F) S4096x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc4__fused_prop_kernel i arg3 harg3 arg4 harg4 arg5 harg5 arg6 harg6 arg7 harg7 arg8 harg8 arg9 harg9) K } := by
  refine ⟨?_, ?_, ?_, ?_, fun E K => ?run⟩
  case run =>
    simp only [cc4__fused_prop_kernel_eq_skeleton]; unfold cc4__fused_prop_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [HS0]
    · iexact HS0
    iexact HS1

end Cert.Kernel.Hand

end
-- ==== Proof.BK4Frame.lean ====
/-
  The fifth pallas_call (one propagation layer) as one region: what its two output blocks and its two scratch
  accumulators hold after every grid point, the proof data over those contents, and the body obligation.
  The accumulators are carried from point to point: zeroed and first added to at positions 0 and 4, added to
  at positions 1, 2, 5, 6 over what the point before left, and at positions 3 and 7 added to once more and copied
  whole into the output blocks, which are written back only there.
-/
import proofs.«142347_j15487652069895_2_alg».proof.Proof.BK4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An output block at a point that stores nothing into it: a placeholder nothing consults (the block is neither
    written back there nor read at the next point). -/
def out4_I_3 : Vec F S4096x64 .f32 := VO4_3.read (Elt F) VO4_3.junk
def out4_I_4 : Vec F S1x4096x64 .f32 := VO4_4.read (Elt F) VO4_4.junk

/-! ## Positions 0 and 4: both accumulators zeroed whole, so their pieces cover them -/

theorem scover4_A_0 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec F S2048x2048 .bf16) (x1 : Vec F S2048x64 .f32) (x2 : Vec F S2048x64 .f32) (y : S4096x64.Idx) : ∃ pc ∈ (kernelRun4_A c i arg3 harg3 arg4 harg4 arg5 harg5 arg6 harg6 arg7 harg7 arg8 harg8 arg9 harg9 hc0 hc1 x0 x1 x2).1, y ∈ pc.1.set :=
  View.cover_of_wholeMem (kernelRun4_A c i arg3 harg3 arg4 harg4 arg5 harg5 arg6 harg6 arg7 harg7 arg8 harg8 arg9 harg9 hc0 hc1 x0 x1 x2).1 (by sl_whole_mem) y
theorem scover4_A_1 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec F S2048x2048 .bf16) (x1 : Vec F S2048x64 .f32) (x2 : Vec F S2048x64 .f32) (y : S4096x64.Idx) : ∃ pc ∈ (kernelRun4_A c i arg3 harg3 arg4 harg4 arg5 harg5 arg6 harg6 arg7 harg7 arg8 harg8 arg9 harg9 hc0 hc1 x0 x1 x2).2.1, y ∈ pc.1.set :=
  View.cover_of_wholeMem (kernelRun4_A c i arg3 harg3 arg4 harg4 arg5 harg5 arg6 harg6 arg7 harg7 arg8 harg8 arg9 harg9 hc0 hc1 x0 x1 x2).2.1 (by sl_whole_mem) y
def sout4_A_0 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec F S2048x2048 .bf16) (x1 : Vec F S2048x64 .f32) (x2 : Vec F S2048x64 .f32) : Vec F S4096x64 .f32 :=
  scM4_0.view.read (Elt F) (scM4_0.view.writes (Elt F) scM4_0.view.junk (kernelRun4_A c i arg3 harg3 arg4 harg4 arg5 harg5 arg6 harg6 arg7 harg7 arg8 harg8 arg9 harg9 hc0 hc1 x0 x1 x2).1)
def sout4_A_1 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec F S2048x2048 .bf16) (x1 : Vec F S2048x64 .f32) (x2 : Vec F S2048x64 .f32) : Vec F S4096x64 .f32 :=
  scM4_1.view.read (Elt F) (scM4_1.view.writes (Elt F) scM4_1.view.junk (kernelRun4_A c i arg3 harg3 arg4 harg4 arg5 harg5 arg6 harg6 arg7 harg7 arg8 harg8 arg9 harg9 hc0 hc1 x0 x1 x2).2.1)

/-! ## Positions 1, 2, 5, 6: one band of each accumulator rewritten over what the point before left -/

def sout4_B_0 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun4_B c i arg3 harg3 arg4 harg4 arg5 harg5 arg6 harg6 arg7 harg7 arg8 harg8 arg9 harg9 hc0 hc1 x0 x1 x2 xs0 xs1).1)
def sout4_B_1 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun4_B c i arg3 harg3 arg4 harg4 arg5 harg5 arg6 harg6 arg7 harg7 arg8 harg8 arg9 harg9 hc0 hc1 x0 x1 x2 xs0 xs1).2.1)

/-! ## Positions 3 and 7: the same, then both accumulators copied whole into the output blocks -/

theorem cover4_C_3 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) (y : S4096x64.Idx) : ∃ pc ∈ (kernelRun4_C c i arg3 harg3 arg4 harg4 arg5 harg5 arg6 harg6 arg7 harg7 arg8 harg8 arg9 harg9 hc0 hc1 x0 x1 x2 xs0 xs1).1, y ∈ pc.1.set :=
  View.cover_of_tiledL (kernelRun4_C c i arg3 harg3 arg4 harg4 arg5 harg5 arg6 harg6 arg7 harg7 arg8 harg8 arg9 harg9 hc0 hc1 x0 x1 x2 xs0 xs1).1 S4096x64.size (by sl_kernel_rfl) y
theorem cover4_C_4 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) (y : S1x4096x64.Idx) : ∃ pc ∈ (kernelRun4_C c i arg3 harg3 arg4 harg4 arg5 harg5 arg6 harg6 arg7 harg7 arg8 harg8 arg9 harg9 hc0 hc1 x0 x1 x2 xs0 xs1).2.1, y ∈ pc.1.set :=
  View.cover_of_tiledL (kernelRun4_C c i arg3 harg3 arg4 harg4 arg5 harg5 arg6 harg6 arg7 harg7 arg8 harg8 arg9 harg9 hc0 hc1 x0 x1 x2 xs0 xs1).2.1 S1x4096x64.size (by sl_kernel_rfl) y
def out4_C_3 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  VO4_3.read (Elt F) (VO4_3.writes (Elt F) VO4_3.junk (kernelRun4_C c i arg3 harg3 arg4 harg4 arg5 harg5 arg6 harg6 arg7 harg7 arg8 harg8 arg9 harg9 hc0 hc1 x0 x1 x2 xs0 xs1).1)
def out4_C_4 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) : Vec F S1x4096x64 .f32 :=
  VO4_4.read (Elt F) (VO4_4.writes (Elt F) VO4_4.junk (kernelRun4_C c i arg3 harg3 arg4 harg4 arg5 harg5 arg6 harg6 arg7 harg7 arg8 harg8 arg9 harg9 hc0 hc1 x0 x1 x2 xs0 xs1).2.1)
def sout4_C_0 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg8.view.read (Elt F) (arg8.view.writes (Elt F) (harg8.unread xs0) (kernelRun4_C c i arg3 harg3 arg4 harg4 arg5 harg5 arg6 harg6 arg7 harg7 arg8 harg8 arg9 harg9 hc0 hc1 x0 x1 x2 xs0 xs1).2.2.1)
def sout4_C_1 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec F S2048x2048 .bf16) (x1 : Vec F S2048x64 .f32) (x2 : Vec F S2048x64 .f32) (xs0 : Vec F S4096x64 .f32) (xs1 : Vec F S4096x64 .f32) : Vec F S4096x64 .f32 :=
  arg9.view.read (Elt F) (arg9.view.writes (Elt F) (harg9.unread xs1) (kernelRun4_C c i arg3 harg3 arg4 harg4 arg5 harg5 arg6 harg6 arg7 harg7 arg8 harg8 arg9 harg9 hc0 hc1 x0 x1 x2 xs0 xs1).2.2.2.1)

section
variable (V : (c : Dev nD) → (b : Ref sig .tc) → Buf (Elt F) ((c : Thread nD τ).loc b))

/-- What the two output blocks' staging buffers and the two accumulators hold after the body at position `n`
    (in that order), by recursion on the position. -/
def outsAt4 (c : Dev nD) : (n : ℕ) → n < cfg4.N → Vec F S4096x64 .f32 × Vec F S1x4096x64 .f32 × Vec F S4096x64 .f32 × Vec F S4096x64 .f32
  | 0, hn => (out4_I_3 (F := F), out4_I_4 (F := F), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 hsc4_0 scM4_1 hsc4_1 ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 hsc4_0 scM4_1 hsc4_1 ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 4 = 0 then
      if h1 : (n + 1) % 4 = 3 then
        False.elim (by omega)
      else
        (out4_I_3 (F := F), out4_I_4 (F := F), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 4 = 3 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2)
      else
        (out4_I_3 (F := F), out4_I_4 (F := F), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 hsc4_0 scM4_1 hsc4_1 (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2)

theorem outsAt4_A (c : Dev nD) (t : Fin cfg4.N) (h0 : t.val % 4 = 0) (h1 : ¬t.val % 4 = 3) :
    outsAt4 V c t.val t.isLt = (out4_I_3 (F := F), out4_I_4 (F := F), sout4_A_0 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_I_3 (F := F), out4_I_4 (F := F), sout4_B_0 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_4 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the class's own (every scoped buffer at anything);
    afterwards the two accumulators at what the point before left, the other scoped buffers unopened, and the
    generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The proof data of this pipeline on core `c`, at the entry contents `V`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The body at any point: the position modulo 4 says which of the three cases the point is in; the invariant
    hands the body the accumulators at what the point before left (at anything at the first point) and takes
    them back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 8 := lt_of_lt_of_eq t.isLt (show cfg4.N = 8 from N_4)
  by_cases h0 : t.val % 4 = 0
  · by_cases h1 : t.val % 4 = 3
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [Dat.leavesExact_idle (dat4 V c) 4 t (idleAt4_4 t (fun h => h1 ((hcond4_1 t).mp h))) (noFlush4_4 t (fun h => h1 ((hcond4_1 t).mp h)))]
      rw [outsAt4_A V c t h0 h1]
      unfold sout4_A_0 sout4_A_1; (try dsimp only)
      by_cases hz : t.val = 0
      · rw [PhiS4_castSucc V c t, PhiS4_zero V c _ _ hz, PhiA4_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover4_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover4_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

      · rw [PhiS4_castSucc V c t, PhiS4_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, HS0, HS1⟩
        isplitl [HS0 HS1 Hrest Hg]
        · isplitl [HS0 HS1 Hrest]
          · isplitl [HS0 HS1]
            · isplitl [HS0]
              · icases HS0 with ⟨%es, HS0⟩
                unfold owns; iexists _; isplitr
                swap; · iexact HS0
                ipureintro; exact View.read_writes_of_cover _ _ _ _ _ (scover4_A_0 c _ _ _ _ _ _ _ _ _ _ _ _ _ _ _ _ _ _ _ _)
              icases HS1 with ⟨%es, HS1⟩
              unfold owns; iexists _; isplitr
              swap; · iexact HS1
              ipureintro; exact View.read_writes_of_cover _ _ _ _ _ (scover4_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4

  · by_cases h1 : t.val % 4 = 3
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C_3 out4_C_4 sout4_C_0 sout4_C_1; (try dsimp only)
      have hz : t.val ≠ 0 := by omega
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_C_3 c _ _ _ _ _ _ _ _ _ _ _ _ _ _ _ _ _ _ _ _ _ _)
      unfold owns; iexists _; isplitr
      swap; · iexact H4
      ipureintro; exact View.read_writes_of_cover _ _ _ _ _ (cover4_C_4 c _ _ _ _ _ _ _ _ _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold sout4_B_0 sout4_B_1; (try dsimp only)
      have hz : t.val ≠ 0 := by omega
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]
            · unfold owns; iexists _; isplitr
              swap; · iexact HS0
              ipureintro; rfl
            unfold owns; iexists _; isplitr
            swap; · iexact HS1
            ipureintro; rfl
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  have ht : (Fin.last cfg4.N).val ≠ 0 := by rw [Fin.val_last]; have : cfg4.N = 8 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg
end

end Cert.Kernel.Hand

end
-- ==== Proof.BKRun.lean ====
/-
  The whole program as ten segments — five pallas_calls, each followed by a stretch of host operations — run from
  the launch memory: the buffers' contents at every segment boundary as a fold from the launch memory, each
  pipeline's proof data at its region's entry contents, and the run itself, whose final state holds every unscoped
  buffer at the last boundary's contents.
-/
import proofs.«142347_j15487652069895_2_alg».proof.Proof.BK0Frame
import proofs.«142347_j15487652069895_2_alg».proof.Proof.BK1Frame
import proofs.«142347_j15487652069895_2_alg».proof.Proof.BK2Frame
import proofs.«142347_j15487652069895_2_alg».proof.Proof.BK3Frame
import proofs.«142347_j15487652069895_2_alg».proof.Proof.BK4Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After pipeline 0: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations `hostOps1`. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After pipeline 1: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host operations `hostOps2`. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After pipeline 2: its arrays at what its write-backs leave, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host operations `hostOps3`. -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b

/-- After pipeline 3: its arrays at what its write-backs leave, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- After the host operations `hostOps4`. -/
abbrev W8 : Dev nD → Valuation τ sig (Elt F) := fun c => StableHlo.after hostOps4 (W7 m c)
abbrev V8 : (c : Dev nD) → (b : Ref sig .tc) → Buf (Elt F) ((c : Thread nD τ).loc b) := fun c b => W8 m c b

/-- After pipeline 4: its arrays at what its write-backs leave, every other buffer as entered. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)

/-- After the host operations `hostOps5`. -/
abbrev W10 : Dev nD → Valuation τ sig (Elt F) := fun c => StableHlo.after hostOps5 (W9 m c)
abbrev V10 : (c : Dev nD) → (b : Ref sig .tc) → Buf (Elt F) ((c : Thread nD τ).loc b) := fun c b => W10 m c b

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
  | ⟨3, _⟩ => fun c => dat3 (V6 m) c
  | ⟨4, _⟩ => fun c => dat4 (V8 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W10 m c) ∗ ∃ r, prngReg c r)

set_option backward.isDefEq.respectTransparency.types false in
/-- Pipeline 0 as a segment: entered from every unscoped buffer at `W0`, left at `W1`. Its arrays are split
    out of the unscoped buffers and put back at what the write-backs leave; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment: entered from every unscoped buffer at `W2`, left at `W3`. Its arrays are split
    out of the unscoped buffers and put back at what the write-backs leave; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment: entered from every unscoped buffer at `W4`, left at `W5`. Its arrays are split
    out of the unscoped buffers and put back at what the write-backs leave; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V4 m) c).Φ 0 from rfl]
    have h := hin2 (V4 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V4 m) c).Φ (Fin.last cfg2.N) from rfl]
    have h := hout2 (V4 m) c
    unfold Pipeline.ΦA at h
    iintro HΦ
    ihave HA := h $$ [HΦ]
    · iexact HΦ
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 as a segment: entered from every unscoped buffer at `W6`, left at `W7`. Its arrays are split
    out of the unscoped buffers and put back at what the write-backs leave; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V6 m) c).Φ 0 from rfl]
    have h := hin3 (V6 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (V6 m) c).Φ (Fin.last cfg3.N) from rfl]
    have h := hout3 (V6 m) c
    unfold Pipeline.ΦA at h
    iintro HΦ
    ihave HA := h $$ [HΦ]
    · iexact HΦ
    icases HA with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 as a segment: entered from every unscoped buffer at `W8`, left at `W9`. Its arrays are split
    out of the unscoped buffers and put back at what the write-backs leave; the generator register goes into the
    pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V8 m) c).Φ 0 from rfl]
    have h := hin4 (V8 m) c
    unfold Pipeline.ΦA at h
    iintro ⟨Hp, -, Hr⟩
    iapply h
    isplitl [Hr]; · iexact Hr
    iexact Hp
  hout c := by
    rw [Pipeline.ownSems0_none, show (pdats m 4 c).Φ (Fin.last _) = (dat4 (V8 m) c).Φ (Fin.last cfg4.N) from rfl]
    have h := hout4 (V8 m) c
    unfold Pipeline.ΦA at h
    iintro HΦ
    ihave HA := h $$ [HΦ]
    · iexact HΦ
    icases HA with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m),
    .host (hseg hostOps4 hostOps4_sub hostOps4_fresh (W7 m)),
    .region (reg4 m),
    .host (hseg hostOps5 hostOps5_sub hostOps5_fresh (W9 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer at the last boundary's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.BKArgs.lean ====
/-
  The two argument arrays end as launched: no host operation writes one, and a pallas_call only reads them (the
  integer matrix through an input window of the first two calls, the table not at all).
-/
import proofs.«142347_j15487652069895_2_alg».proof.Proof.BKRun
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

theorem keep1_arg0 (W : Valuation τ sig (Elt F)) : StableHlo.after hostOps1 W (main_arg0 : DevRef τ sig) = W (main_arg0 : DevRef τ sig) := by
  after_results
theorem keep1_arg1 (W : Valuation τ sig (Elt F)) : StableHlo.after hostOps1 W (main_arg1 : DevRef τ sig) = W (main_arg1 : DevRef τ sig) := by
  after_results
theorem keep2_arg0 (W : Valuation τ sig (Elt F)) : StableHlo.after hostOps2 W (main_arg0 : DevRef τ sig) = W (main_arg0 : DevRef τ sig) := by
  after_results
theorem keep2_arg1 (W : Valuation τ sig (Elt F)) : StableHlo.after hostOps2 W (main_arg1 : DevRef τ sig) = W (main_arg1 : DevRef τ sig) := by
  after_results
theorem keep3_arg0 (W : Valuation τ sig (Elt F)) : StableHlo.after hostOps3 W (main_arg0 : DevRef τ sig) = W (main_arg0 : DevRef τ sig) := by
  after_results
theorem keep3_arg1 (W : Valuation τ sig (Elt F)) : StableHlo.after hostOps3 W (main_arg1 : DevRef τ sig) = W (main_arg1 : DevRef τ sig) := by
  after_results
theorem keep4_arg0 (W : Valuation τ sig (Elt F)) : StableHlo.after hostOps4 W (main_arg0 : DevRef τ sig) = W (main_arg0 : DevRef τ sig) := by
  after_results
theorem keep4_arg1 (W : Valuation τ sig (Elt F)) : StableHlo.after hostOps4 W (main_arg1 : DevRef τ sig) = W (main_arg1 : DevRef τ sig) := by
  after_results
theorem keep5_arg0 (W : Valuation τ sig (Elt F)) : StableHlo.after hostOps5 W (main_arg0 : DevRef τ sig) = W (main_arg0 : DevRef τ sig) := by
  after_results
theorem keep5_arg1 (W : Valuation τ sig (Elt F)) : StableHlo.after hostOps5 W (main_arg1 : DevRef τ sig) = W (main_arg1 : DevRef τ sig) := by
  after_results

variable (m : (ℓ : Loc nD τ sig) → Buf (Elt F) ℓ)

theorem W10_main_arg0 (c : Dev nD) : W10 m c (Proc.devRef .tc main_arg0) = m ((c : Thread nD τ).loc main_arg0) :=
  calc W10 m c (Proc.devRef .tc main_arg0)
    _ = W9 m c (Proc.devRef .tc main_arg0) := keep5_arg0 _
    _ = W8 m c (Proc.devRef .tc main_arg0) := W9_of_ne m c main_arg0 (by decide)
    _ = W7 m c (Proc.devRef .tc main_arg0) := keep4_arg0 _
    _ = W6 m c (Proc.devRef .tc main_arg0) := W7_of_ne m c main_arg0 (by decide)
    _ = W5 m c (Proc.devRef .tc main_arg0) := keep3_arg0 _
    _ = W4 m c (Proc.devRef .tc main_arg0) := W5_of_ne m c main_arg0 (by decide)
    _ = W3 m c (Proc.devRef .tc main_arg0) := keep2_arg0 _
    _ = W2 m c (Proc.devRef .tc main_arg0) := W3_of_ne m c main_arg0 (by decide)
    _ = W1 m c (Proc.devRef .tc main_arg0) := keep1_arg0 _
    _ = W0 m c (Proc.devRef .tc main_arg0) := W1_of_ne m c main_arg0 (by decide)
    _ = m ((c : Thread nD τ).loc main_arg0) := rfl

theorem W1_main_arg1 (c : Dev nD) : W1 m c (Proc.devRef .tc main_arg1) = W0 m c (Proc.devRef .tc main_arg1) :=
  (W1_arr m c 0).trans (((dat0 (V0 m) c).arrAt_in 0 rfl _).trans (A_eq0 (V0 m) c 0))
theorem W3_main_arg1 (c : Dev nD) : W3 m c (Proc.devRef .tc main_arg1) = W2 m c (Proc.devRef .tc main_arg1) :=
  (W3_arr m c 0).trans (((dat1 (V2 m) c).arrAt_in 0 rfl _).trans (A_eq1 (V2 m) c 0))

theorem W10_main_arg1 (c : Dev nD) : W10 m c (Proc.devRef .tc main_arg1) = m ((c : Thread nD τ).loc main_arg1) :=
  calc W10 m c (Proc.devRef .tc main_arg1)
    _ = W9 m c (Proc.devRef .tc main_arg1) := keep5_arg1 _
    _ = W8 m c (Proc.devRef .tc main_arg1) := W9_of_ne m c main_arg1 (by decide)
    _ = W7 m c (Proc.devRef .tc main_arg1) := keep4_arg1 _
    _ = W6 m c (Proc.devRef .tc main_arg1) := W7_of_ne m c main_arg1 (by decide)
    _ = W5 m c (Proc.devRef .tc main_arg1) := keep3_arg1 _
    _ = W4 m c (Proc.devRef .tc main_arg1) := W5_of_ne m c main_arg1 (by decide)
    _ = W3 m c (Proc.devRef .tc main_arg1) := keep2_arg1 _
    _ = W2 m c (Proc.devRef .tc main_arg1) := W3_main_arg1 m c
    _ = W1 m c (Proc.devRef .tc main_arg1) := keep1_arg1 _
    _ = W0 m c (Proc.devRef .tc main_arg1) := W1_main_arg1 m c
    _ = m ((c : Thread nD τ).loc main_arg1) := rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, nothing faulting, with both argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W10_main_arg0 m c),
     (h c _ (mem_uc main_arg1 (by decide))).trans (W10_main_arg1 m c)⟩) (run_all m ρ)

end Cert.Kernel.Hand

end
-- ==== Proof.RefRun.lean ====
/-
  The reference is a host program with no kernel launch: its run is read back as one term of the arguments, and
  its frame is that run with the result dropped.
-/
import proofs.«142347_j15487652069895_2_alg».proof.Defs
import proofs.«142347_j15487652069895_2_alg».proof.Proof.Gen.ReferenceIdeal
import proofs.«142347_j15487652069895_2_alg».proof.Proof.RefRunGenP

noncomputable section

namespace Cert.Proof.Ref

open Idealize.ShloMosaic Idealize.SL.Sem

theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.Ref

end
-- ==== Proof.RefIsSpec.lean ====
/-
  The reference computes the specification: the last stage of the reference program, read at the ideal
  float values as a function of its two argument arrays, is `Cert.Spec.G`.

  The degrees are the host's row and column sums from the zero word; the normaliser, the two
  comparisons, the two selects and the quotient read index by index as `wfun`; each product with the
  weights or their transpose reads as a finite sum over the contracted coordinate; a layer is the
  concatenation of its two blocks, and the second and third layers are the first layer's term applied
  to the previous layer's table.
-/
import proofs.«142347_j15487652069895_2_alg».proof.Proof.Spec
import proofs.«142347_j15487652069895_2_alg».proof.Proof.RefReadGenP

noncomputable section

namespace Cert.Spec

open Cert.ReferenceIdeal Cert.ReferenceIdeal.Gen Cert.ReferenceIdeal.ReadP Idealize.ShloMosaic
  Idealize.ShloMosaic.ValueIdx Idealize.ShloMosaic.TcCoe Idealize.SL.Sem
open scoped BigOperators

/-- The row sums of the interaction matrix, as the reference takes them, are the users' degrees. -/
theorem ref_degU (e : (⟨S4096x8192, .i32⟩ : BufTy).Contents (Elt Ideal)) (u : Fin 4096) :
    val_main_v1 (F := Ideal) e (ix1 u) = degU e u := by
  rw [val_main_v1_apply, val_main_cst_apply]
  show Ideal.ofBits .f32 0x00000000#32 + _ = _
  rw [Ideal.ofBits_zero_f32, zero_add]
  unfold degU
  refine Finset.sum_congr rfl fun k _ => ?_
  rw [val_main_v0_apply]
  have ei : idx_main_v1 (ix1 u) k = ix2 u k :=
    funext fun a => Fin.ext (by match a with | ⟨0, _⟩ => rfl | ⟨1, _⟩ => rfl)
  rw [ei]
  rfl

/-- The column sums of the interaction matrix, as the reference takes them, are the items' degrees. -/
theorem ref_degI (e : (⟨S4096x8192, .i32⟩ : BufTy).Contents (Elt Ideal)) (i : Fin 8192) :
    val_main_v2 (F := Ideal) e (ix1 i) = degI e i := by
  rw [val_main_v2_apply, val_main_cst_0_apply]
  show Ideal.ofBits .f32 0x00000000#32 + _ = _
  rw [Ideal.ofBits_zero_f32, zero_add]
  unfold degI
  refine Finset.sum_congr rfl fun k _ => ?_
  rw [val_main_v0_apply]
  have ei : idx_main_v2 (ix1 i) k = ix2 k i :=
    funext fun a => Fin.ext (by match a with | ⟨0, _⟩ => rfl | ⟨1, _⟩ => rfl)
  rw [ei]
  rfl

/-- The host's square root of a product is the normaliser of the two factors. -/
theorem den_host (a b : Ideal .f32) : FloatOps.hostUnary .sqrt (FloatOps.mulf a b) = den a b := rfl

/-- The reference's normaliser at (u, i): the root of the product of the two degrees. -/
theorem ref_den (e : (⟨S4096x8192, .i32⟩ : BufTy).Contents (Elt Ideal)) (u : Fin 4096) (i : Fin 8192) :
    val_main_v8 (F := Ideal) e (ix2 u i) = den (degU e u) (degI e i) := by
  rw [val_main_v8_apply, val_main_v7_apply, val_main_v5_apply, val_main_v3_apply, val_main_v6_apply,
    val_main_v4_apply]
  have eu : idx_main_v3 (idx_main_v5 (ix2 u i)) = ix1 u :=
    funext fun a => Fin.ext (by match a with | ⟨0, _⟩ => rfl)
  have ei : idx_main_v4 (idx_main_v6 (ix2 u i)) = ix1 i :=
    funext fun a => Fin.ext (by match a with | ⟨0, _⟩ => rfl)
  rw [eu, ei, ref_degU, ref_degI]
  exact den_host _ _

/-- The reference's weight matrix at (u, i) is the normalised weight. -/
theorem ref_wgt (e : (⟨S4096x8192, .i32⟩ : BufTy).Contents (Elt Ideal)) (u : Fin 4096) (i : Fin 8192) :
    val_main_v15 (F := Ideal) e (ix2 u i) = wgt e u i := by
  rw [val_main_v15_apply, val_main_v10_apply, val_main_v14_apply, val_main_v13_apply, val_main_v12_apply,
    val_main_v9_apply, val_main_v11_apply, val_main_call0_v1_apply, val_main_call1_v1_apply,
    val_main_call0_v0_apply, val_main_call1_v0_apply, val_main_cst_1_apply, val_main_cst_2_apply,
    val_main_cst_3_apply, val_main_cst_4_apply, val_main_v0_apply, ref_den]
  rfl

/-- The reference's item-side block of a layer over any table. -/
theorem ref_top (cur : (⟨S12288x64, .f32⟩ : BufTy).Contents (Elt Ideal))
    (e : (⟨S4096x8192, .i32⟩ : BufTy).Contents (Elt Ideal)) (i : Fin 8192) (d : Fin 64) :
    val_main_v19 (F := Ideal) cur e (ix2 i d) = layerTop e cur i d := by
  rw [val_main_v19_apply]
  unfold layerTop
  refine Finset.sum_congr rfl fun k _ => ?_
  rw [val_main_v17_apply, val_main_v18_apply]
  have e1 : idx_main_v17 (lidx_main_v19 (ix2 i d) k) = ix2 k i :=
    funext fun a => Fin.ext (by match a with | ⟨0, _⟩ => rfl | ⟨1, _⟩ => rfl)
  have e2 : idx_main_v18 (ridx_main_v19 (ix2 i d) k) = ix2 (rowLo k) d :=
    funext fun a => Fin.ext (by match a with | ⟨0, _⟩ => rfl | ⟨1, _⟩ => rfl)
  rw [e1, e2, ref_wgt]

/-- The reference's user-side block of a layer over any table. -/
theorem ref_bot (cur : (⟨S12288x64, .f32⟩ : BufTy).Contents (Elt Ideal))
    (e : (⟨S4096x8192, .i32⟩ : BufTy).Contents (Elt Ideal)) (u : Fin 4096) (d : Fin 64) :
    val_main_v21 (F := Ideal) cur e (ix2 u d) = layerBot e cur u d := by
  rw [val_main_v21_apply]
  unfold layerBot
  refine Finset.sum_congr rfl fun k _ => ?_
  rw [val_main_v20_apply]
  have e1 : lidx_main_v21 (ix2 u d) k = ix2 u k :=
    funext fun a => Fin.ext (by match a with | ⟨0, _⟩ => rfl | ⟨1, _⟩ => rfl)
  have e2 : idx_main_v20 (ridx_main_v21 (ix2 u d) k) = ix2 (rowHi k) d :=
    funext fun a => Fin.ext (by match a with | ⟨0, _⟩ => rfl | ⟨1, _⟩ => rfl)
  rw [e1, e2, ref_wgt]

/-- The reference's first layer, over any table, is the specification's layer. -/
theorem ref_layer (cur : (⟨S12288x64, .f32⟩ : BufTy).Contents (Elt Ideal))
    (e : (⟨S4096x8192, .i32⟩ : BufTy).Contents (Elt Ideal)) :
    val_main_v22 (F := Ideal) cur e = layer e cur := by
  funext p
  obtain ⟨r, d, rfl⟩ : ∃ (r : Fin 12288) (d : Fin 64), p = ix2 r d := ⟨p 0, p 1, eq_ix2 p⟩
  rw [layer_ix2]
  unfold val_main_v22
  by_cases h : r.val < 8192
  · rw [layerAt_lt e cur r d h]
    refine (concatenate_pair_apply_left (0 : Fin S12288x64.rank) _ _ concatenates_S8192x64_S4096x64_S12288x64_d0
      (ix2 r d) rfl (ix2 (⟨r.val, h⟩ : Fin 8192) d)
      (fun b => by match b with | ⟨0, _⟩ => rfl | ⟨1, _⟩ => rfl)).trans ?_
    exact ref_top cur e ⟨r.val, h⟩ d
  · rw [layerAt_ge e cur r d h]
    refine (concatenate_pair_apply_right (0 : Fin S12288x64.rank) _ _ concatenates_S8192x64_S4096x64_S12288x64_d0
      (ix2 r d) rfl rfl (ix2 (⟨r.val - 8192, by have := r.isLt; omega⟩ : Fin 4096) d)
      (fun b hb => by match b, hb with | ⟨0, _⟩, hb => exact absurd rfl hb | ⟨1, _⟩, _ => rfl)
      (by show r.val - 8192 + 8192 = r.val; omega)).trans ?_
    exact ref_bot cur e ⟨r.val - 8192, by have := r.isLt; omega⟩ d

/-- The second layer's term is the first layer's applied to the first layer's table. -/
theorem ref_layer2 (x : (⟨S12288x64, .f32⟩ : BufTy).Contents (Elt Ideal))
    (e : (⟨S4096x8192, .i32⟩ : BufTy).Contents (Elt Ideal)) :
    val_main_v29 (F := Ideal) x e = val_main_v22 (F := Ideal) (val_main_v22 (F := Ideal) x e) e := rfl

/-- The third layer's term is the first layer's applied to the second layer's table. -/
theorem ref_layer3 (x : (⟨S12288x64, .f32⟩ : BufTy).Contents (Elt Ideal))
    (e : (⟨S4096x8192, .i32⟩ : BufTy).Contents (Elt Ideal)) :
    val_main_v36 (F := Ideal) x e = val_main_v22 (F := Ideal) (val_main_v29 (F := Ideal) x e) e := rfl

/-- THE REFERENCE IS THE SPECIFICATION: its last stage, for any argument arrays, is `G`. -/
theorem ref_is_G (x : (⟨S12288x64, .f32⟩ : BufTy).Contents (Elt Ideal))
    (e : (⟨S4096x8192, .i32⟩ : BufTy).Contents (Elt Ideal)) :
    val_main_v39 (F := Ideal) x e = G x e := by
  funext p
  rw [val_main_v39_apply, val_main_v38_apply, val_main_cst_6_apply, val_main_v37_apply, val_main_v30_apply,
    val_main_v23_apply, val_main_v16_apply, val_main_cst_5_apply, ref_layer3, ref_layer2, ref_layer x e,
    ref_layer (layer e x) e, ref_layer (layer e (layer e x)) e]
  rfl

/-- THE REFERENCE'S RUN, its result stated as the specification: from any memory with zero counters every weakly
    fair execution of the reference terminates with its result array at `G` of the two argument arrays and the
    argument arrays unchanged. -/
theorem ref_run_G
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39)
            = G (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((Cert.ReferenceIdeal.ReadP.val_main_v39_eq m' c).trans (ref_is_G _ _)), (h c).2⟩)
    (Cert.ReferenceIdeal.ValueP.run (F := Ideal) m' g')

end Cert.Spec

end
-- ==== Proof.Val2Top.lean ====
/-
  One propagation layer's item-side product, piece by piece. The body adds, into one band of 2048 rows of the first
  accumulator (4096 rows of 64), the product of the transposed weight tile with the block of the table's first rows:
  at row r of the band and column d it adds the sum over the tile's 2048 rows k of tile(k, r) * block(k, d) to what the
  band held. This module reads that at an index, at the ideal float values (where narrowing to sixteen bits changes
  nothing and the product into a zero accumulator is the plain sum): inside the band the accumulator gains the sum,
  outside it keeps what it held; at a point that first zeroes the accumulator, what it held is zero; at a point that
  copies the accumulator out, the output block is the accumulator.
-/
import proofs.«142347_j15487652069895_2_alg».proof.Proof.K2Frame
import proofs.«142347_j15487652069895_2_alg».proof.Proof.SumLaws
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem top2_hz : (![0, 0] : Fin 2 → Nat) = fun _ => 0 := funext fun a => by fin_cases a <;> rfl

/-! ## The contraction: over the tile's rows, for both operands -/

theorem top2_lhs0 (j : S2048x64.Idx) (q : dot_S2048x2048_S2048x64_S2048x64_0_0_1_1_n_n.contr.Idx) :
    (dot_S2048x2048_S2048x64_S2048x64_0_0_1_1_n_n.lhsIdx j q 0).val = (q ⟨0, by decide⟩).val :=
  dot_S2048x2048_S2048x64_S2048x64_0_0_1_1_n_n.lhsIdx_val_of_single rfl j q
theorem top2_lhs1 (j : S2048x64.Idx) (q : dot_S2048x2048_S2048x64_S2048x64_0_0_1_1_n_n.contr.Idx) :
    (dot_S2048x2048_S2048x64_S2048x64_0_0_1_1_n_n.lhsIdx j q 1).val = (j 0).val := by
  unfold DotDims.lhsIdx
  rw [dif_neg (show ¬(1 : Fin S2048x2048.rank) ∈ dot_S2048x2048_S2048x64_S2048x64_0_0_1_1_n_n.lhsBatch by decide), dif_pos (show (1 : Fin S2048x2048.rank) ∈ dot_S2048x2048_S2048x64_S2048x64_0_0_1_1_n_n.lhsNonContracting by decide)]
  rfl
theorem top2_rhs0 (j : S2048x64.Idx) (q : dot_S2048x2048_S2048x64_S2048x64_0_0_1_1_n_n.contr.Idx) :
    (dot_S2048x2048_S2048x64_S2048x64_0_0_1_1_n_n.rhsIdx j q 0).val = (q ⟨0, by decide⟩).val :=
  dot_S2048x2048_S2048x64_S2048x64_0_0_1_1_n_n.rhsIdx_val_of_single rfl j q
theorem top2_rhs1 (j : S2048x64.Idx) (q : dot_S2048x2048_S2048x64_S2048x64_0_0_1_1_n_n.contr.Idx) :
    (dot_S2048x2048_S2048x64_S2048x64_0_0_1_1_n_n.rhsIdx j q 1).val = (j 1).val := by
  unfold DotDims.rhsIdx
  rw [dif_neg (show ¬(1 : Fin S2048x64.rank) ∈ dot_S2048x2048_S2048x64_S2048x64_0_0_1_1_n_n.rhsBatch by decide), dif_pos (show (1 : Fin S2048x64.rank) ∈ dot_S2048x2048_S2048x64_S2048x64_0_0_1_1_n_n.rhsNonContracting by decide)]
  rfl

/-- The band's new contents at row r, column d: what it held plus the sum over the tile's rows k of
    tile(k, r) * block(k, d). -/
theorem top2_pay6_apply (x0 : FVec Ideal S2048x2048 .bf16) (x1 : FVec Ideal S2048x64 .f32) (v27 : FVec Ideal S2048x64 .f32)
    (r : Fin 2048) (d : Fin 64) :
    k2_pay6 (F := Ideal) x0 x1 v27 (ix2 r d) = v27 (ix2 r d) + ∑ k : Fin 2048, x0 (ix2 k r) * x1 (ix2 k d) := by
  unfold k2_pay6 k2_pay4
  simp only [shapeCast_self]
  refine congrArg (v27 (ix2 r d) + ·) ?_
  refine (Ideal.matmul_constant_zero_apply dot_S2048x2048_S2048x64_S2048x64_0_0_1_1_n_n none x0 _ (ix2 r d)).trans ?_
  rw [← Equiv.sum_comp (contrEquiv1 dot_S2048x2048_S2048x64_S2048x64_0_0_1_1_n_n 2048 rfl rfl).symm]
  refine Finset.sum_congr rfl fun k _ => ?_
  have hk := contrEquiv1_symm_val dot_S2048x2048_S2048x64_S2048x64_0_0_1_1_n_n 2048 rfl rfl k
  have el : dot_S2048x2048_S2048x64_S2048x64_0_0_1_1_n_n.lhsIdx (ix2 r d) ((contrEquiv1 dot_S2048x2048_S2048x64_S2048x64_0_0_1_1_n_n 2048 rfl rfl).symm k) = ix2 k r := funext fun a => Fin.ext (by
    match a with
    | ⟨0, _⟩ => exact (top2_lhs0 _ _).trans hk
    | ⟨1, _⟩ => exact top2_lhs1 _ _)
  have er : dot_S2048x2048_S2048x64_S2048x64_0_0_1_1_n_n.rhsIdx (ix2 r d) ((contrEquiv1 dot_S2048x2048_S2048x64_S2048x64_0_0_1_1_n_n 2048 rfl rfl).symm k) = ix2 k d := funext fun a => Fin.ext (by
    match a with
    | ⟨0, _⟩ => exact (top2_rhs0 _ _).trans hk
    | ⟨1, _⟩ => exact top2_rhs1 _ _)
  rw [el, er]
  rfl

/-! ## A row of the accumulator inside or outside the band a point rewrites -/

/-- Row q of the accumulator, column d, is the band's row r, column d, when q is the band's first row plus r. -/
theorem top2_band_emb (i : grid2.Coords) (r : Fin 2048) (d : Fin 64) (q : Fin 4096) (hq : q.val = k2_off2 i 0 + r.val)
    (h1 : k2_off2 i 1 = 0) : (ix2 q d : S4096x64.Idx) = (Rect.unit (s := S4096x64) (k2_off2 i) S2048x64.size (k2_off2_inb i)).emb (ix2 r d) :=
  funext fun a => Fin.ext (by
    match a with
    | ⟨0, _⟩ => show q.val = k2_off2 i 0 + 1 * r.val; omega
    | ⟨1, _⟩ => show d.val = k2_off2 i 1 + 1 * d.val; omega)

/-- A row before the band's first or from its last on is not in the band. -/
theorem top2_band_not_mem (i : grid2.Coords) (q : Fin 4096) (d : Fin 64)
    (hq : q.val < k2_off2 i 0 ∨ k2_off2 i 0 + 2048 ≤ q.val) : (ix2 q d : S4096x64.Idx) ∉ (Rect.unit (s := S4096x64) (k2_off2 i) S2048x64.size (k2_off2_inb i)).set := by
  rw [Rect.mem_set_unit]
  intro h
  have h0 := h 0
  have e : ((ix2 q d : S4096x64.Idx) 0).val = q.val := rfl
  have s0 : S2048x64.size 0 = 2048 := rfl
  rw [e, s0] at h0
  omega

/-! ## A point that only adds (positions 1, 2, 5, 6) -/

theorem top2_soutB_in (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i) (x0 : Vec Ideal S2048x2048 .bf16) (x1 : Vec Ideal S2048x64 .f32) (x2 : Vec Ideal S2048x64 .f32)
    (xs0 xs1 : Vec Ideal S4096x64 .f32) (r : Fin 2048) (d : Fin 64) (q : Fin 4096) (hq : q.val = k2_off2 i 0 + r.val) (h1 : k2_off2 i 1 = 0) :
    sout2_B_0 c i arg3 harg3 arg4 harg4 arg5 harg5 arg6 harg6 arg7 harg7 arg8 harg8 arg9 harg9 hc0 hc1 x0 x1 x2 xs0 xs1 (ix2 q d)
      = xs0 (ix2 q d) + ∑ k : Fin 2048, x0 (ix2 k r) * x1 (ix2 k d) := by
  rw [top2_band_emb i r d q hq h1]
  unfold sout2_B_0 kernelRun2_B
  dsimp only
  rw [View.read_writes_cons_emb]
  simp only [View.readAt_eq_ld, harg3.read_unread, harg4.read_unread, harg8.read_unread, View.ld_unit_zero (S := S2048x2048) top2_hz, View.ld_unit_zero (S := S2048x64) top2_hz]
  exact top2_pay6_apply x0 x1 _ r d

theorem top2_soutB_out (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i) (x0 : Vec Ideal S2048x2048 .bf16) (x1 : Vec Ideal S2048x64 .f32) (x2 : Vec Ideal S2048x64 .f32)
    (xs0 xs1 : Vec Ideal S4096x64 .f32) (q : Fin 4096) (d : Fin 64) (hq : q.val < k2_off2 i 0 ∨ k2_off2 i 0 + 2048 ≤ q.val) :
    sout2_B_0 c i arg3 harg3 arg4 harg4 arg5 harg5 arg6 harg6 arg7 harg7 arg8 harg8 arg9 harg9 hc0 hc1 x0 x1 x2 xs0 xs1 (ix2 q d) = xs0 (ix2 q d) := by
  unfold sout2_B_0 kernelRun2_B
  dsimp only
  rw [View.read_writes_apply_of_forall_not_mem _ _ _ _ (fun p hp => by
    obtain rfl := List.mem_singleton.mp hp
    exact top2_band_not_mem i q d hq), harg8.read_unread]

/-! ## A point that adds and then copies out (positions 3, 7) -/

theorem top2_soutC_in (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec Ideal S2048x2048 .bf16) (x1 : Vec Ideal S2048x64 .f32) (x2 : Vec Ideal S2048x64 .f32)
    (xs0 xs1 : Vec Ideal S4096x64 .f32) (r : Fin 2048) (d : Fin 64) (q : Fin 4096) (hq : q.val = k2_off2 i 0 + r.val) (h1 : k2_off2 i 1 = 0) :
    sout2_C_0 c i arg3 harg3 arg4 harg4 arg5 harg5 arg6 harg6 arg7 harg7 arg8 harg8 arg9 harg9 hc0 hc1 x0 x1 x2 xs0 xs1 (ix2 q d)
      = xs0 (ix2 q d) + ∑ k : Fin 2048, x0 (ix2 k r) * x1 (ix2 k d) := by
  rw [top2_band_emb i r d q hq h1]
  unfold sout2_C_0 kernelRun2_C
  dsimp only
  sl_unfold_run_names
  rw [View.read_writes_cons_emb]
  simp only [View.readAt_eq_ld, harg3.read_unread, harg4.read_unread, harg8.read_unread, View.ld_unit_zero (S := S2048x2048) top2_hz, View.ld_unit_zero (S := S2048x64) top2_hz]
  exact top2_pay6_apply x0 x1 _ r d

theorem top2_soutC_out (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec Ideal S2048x2048 .bf16) (x1 : Vec Ideal S2048x64 .f32) (x2 : Vec Ideal S2048x64 .f32)
    (xs0 xs1 : Vec Ideal S4096x64 .f32) (q : Fin 4096) (d : Fin 64) (hq : q.val < k2_off2 i 0 ∨ k2_off2 i 0 + 2048 ≤ q.val) :
    sout2_C_0 c i arg3 harg3 arg4 harg4 arg5 harg5 arg6 harg6 arg7 harg7 arg8 harg8 arg9 harg9 hc0 hc1 x0 x1 x2 xs0 xs1 (ix2 q d) = xs0 (ix2 q d) := by
  unfold sout2_C_0 kernelRun2_C
  dsimp only
  sl_unfold_run_names
  rw [View.read_writes_apply_of_forall_not_mem _ _ _ _ (fun p hp => by
    obtain rfl := List.mem_singleton.mp hp
    exact top2_band_not_mem i q d hq), harg8.read_unread]

/-- The output block is the accumulator, copied whole. -/
theorem top2_outC_eq (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec Ideal S2048x2048 .bf16) (x1 : Vec Ideal S2048x64 .f32) (x2 : Vec Ideal S2048x64 .f32)
    (xs0 xs1 : Vec Ideal S4096x64 .f32) :
    out2_C_3 c i arg3 harg3 arg4 harg4 arg5 harg5 arg6 harg6 arg7 harg7 arg8 harg8 arg9 harg9 hc0 hc1 x0 x1 x2 xs0 xs1 = sout2_C_0 c i arg3 harg3 arg4 harg4 arg5 harg5 arg6 harg6 arg7 harg7 arg8 harg8 arg9 harg9 hc0 hc1 x0 x1 x2 xs0 xs1 := by
  unfold out2_C_3 sout2_C_0
  rw [View.read_writes_eq_canon _ _ _ (cover2_C_3 c i arg3 harg3 arg4 harg4 arg5 harg5 arg6 harg6 arg7 harg7 arg8 harg8 arg9 harg9 hc0 hc1 x0 x1 x2 xs0 xs1)]
  unfold kernelRun2_C
  dsimp only
  rw [View.canon_unit_zero top2_hz]
  simp only [View.readAt_eq_ld, View.ld_unit_zero (S := S4096x64) top2_hz]

/-! ## A point that first zeroes the accumulator (positions 0, 4) -/

/-- The zero block. -/
theorem top2_pay2_apply (y : S4096x64.Idx) : k2_pay2 (F := Ideal) y = 0 := by
  unfold k2_pay2
  simp only [shapeCast_self]
  exact Ideal.ofBits_zero_f32

/-- A read outside the last write's rectangle reads what the earlier writes left. -/
theorem top2_read_cons_not_mem {sg : RefSig} {κ : Kind} {sp : Space} {s : Shape} {e : EltTy} {Val : EltTy → Type}
    (v : View sg κ sp s e) (f : v.ty.Contents Val) (r : Rect s) (w : r.shape.Idx → Val e) (L : List (View.Piece Val s e))
    (y : s.Idx) (h : y ∉ r.set) : v.read Val (v.writes Val f (⟨r, w⟩ :: L)) y = v.read Val (v.writes Val f L) y := by
  rw [View.writes_cons, View.read_slice_write_of_not_mem r _ _ _ (by rwa [Rect.map_emb_univ])]

theorem top2_soutA_in (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec Ideal S2048x2048 .bf16) (x1 : Vec Ideal S2048x64 .f32) (x2 : Vec Ideal S2048x64 .f32)
    (r : Fin 2048) (d : Fin 64) (q : Fin 4096) (hq : q.val = k2_off2 i 0 + r.val) (h1 : k2_off2 i 1 = 0) :
    sout2_A_0 c i arg3 harg3 arg4 harg4 arg5 harg5 arg6 harg6 arg7 harg7 arg8 harg8 arg9 harg9 hc0 hc1 x0 x1 x2 (ix2 q d) = ∑ k : Fin 2048, x0 (ix2 k r) * x1 (ix2 k d) := by
  rw [top2_band_emb i r d q hq h1]
  unfold sout2_A_0 kernelRun2_A
  dsimp only
  sl_unfold_run_names
  rw [View.read_writes_cons_emb]
  simp only [View.readAt_eq_ld, harg3.read_unread, harg4.read_unread, View.ld_unit_zero (S := S2048x2048) top2_hz, View.ld_unit_zero (S := S2048x64) top2_hz]
  refine (top2_pay6_apply x0 x1 _ r d).trans ?_
  rw [View.read_writes_junk_eq_canon, View.canon_unit_zero top2_hz]
  show k2_pay2 (F := Ideal) _ + _ = _
  rw [top2_pay2_apply, zero_add]

theorem top2_soutA_out (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec Ideal S2048x2048 .bf16) (x1 : Vec Ideal S2048x64 .f32) (x2 : Vec Ideal S2048x64 .f32)
    (q : Fin 4096) (d : Fin 64) (hq : q.val < k2_off2 i 0 ∨ k2_off2 i 0 + 2048 ≤ q.val) :
    sout2_A_0 c i arg3 harg3 arg4 harg4 arg5 harg5 arg6 harg6 arg7 harg7 arg8 harg8 arg9 harg9 hc0 hc1 x0 x1 x2 (ix2 q d) = 0 := by
  unfold sout2_A_0 kernelRun2_A
  dsimp only
  sl_unfold_run_names
  rw [top2_read_cons_not_mem _ _ (Rect.unit (s := S4096x64) (k2_off2 i) S2048x64.size (k2_off2_inb i)) _ _ _ (top2_band_not_mem i q d hq), View.read_writes_junk_eq_canon, View.canon_unit_zero top2_hz]
  exact top2_pay2_apply _

end Cert.KernelIdeal.Hand

end
-- ==== Proof.Val2TopA.lean ====
/-
  One propagation layer's item-side product, over the grid. The grid's eight points are (column half h, row tile i,
  column tile j) at position 4h + 2i + j. At a point the weight tile is rows i*2048.. of columns (2h + j)*2048.., the
  table block is rows i*2048.., and band j of the accumulator gains the tile product. So after position n of half h
  = n / 4, with p = n % 4, row q of the accumulator (band b = q / 2048) holds the partial sum over the first row tile
  if b ≤ p, plus the partial sum over the second row tile if b + 2 ≤ p, of weight(u, h*4096 + q) * table(u, d); after
  the half's last position both are present and their sum is the sum over all 4096 rows u.
-/
import proofs.«142347_j15487652069895_2_alg».proof.Proof.Val2Top
import proofs.«142347_j15487652069895_2_alg».proof.Proof.SumLaws
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section
variable (V : (c : Dev nD) → (b : Ref sig .tc) → Buf (Elt Ideal) ((c : Thread nD τ).loc b))

/-- The weight at row u, column q, as the region finds it. -/
def top2_wAt (c : Dev nD) (u : Fin 4096) (q : Fin 8192) : EReal := (V c main_v6 : S4096x8192.Idx → Elt Ideal .bf16) (ix2 u q)
/-- The table's entry at row u, column d, as the region finds it. -/
def top2_xAt (c : Dev nD) (u : Fin 4096) (d : Fin 64) : EReal := (V c main_v8 : S4096x64.Idx → Elt Ideal .f32) (ix2 u d)

/-- The same two over natural-number coordinates (zero outside the arrays), so that coordinates can be compared
    by arithmetic. -/
def top2_wN (c : Dev nD) (u q : ℕ) : EReal := if h : u < 4096 ∧ q < 8192 then top2_wAt V c ⟨u, h.1⟩ ⟨q, h.2⟩ else 0
def top2_xN (c : Dev nD) (u d : ℕ) : EReal := if h : u < 4096 ∧ d < 64 then top2_xAt V c ⟨u, h.1⟩ ⟨d, h.2⟩ else 0

/-- The partial sum over row tile i of weight(u, h*4096 + q) * table(u, d). -/
def top2_P (c : Dev nD) (h i q d : ℕ) : EReal :=
  ∑ k : Fin 2048, top2_wN V c (i * 2048 + k.val) (h * 4096 + q) * top2_xN V c (i * 2048 + k.val) d

/-! ## The grid: the band a point rewrites and the blocks it reads -/

theorem top2_off : ∀ t : Fin cfg2.N, k2_off2 (grid2.coords t) 0 = t.val % 2 * 2048 ∧ k2_off2 (grid2.coords t) 1 = 0 :=
  (by decide +kernel : ∀ t : Fin grid2.N, k2_off2 (grid2.coords t) 0 = t.val % 2 * 2048 ∧ k2_off2 (grid2.coords t) 1 = 0)
theorem top2_idx0 : ∀ t : Fin cfg2.N, win2_0.index t (0 : Fin 2) = t.val / 2 % 2 ∧ win2_0.index t (1 : Fin 2) = 2 * (t.val / 4) + t.val % 2 :=
  (by decide +kernel : ∀ t : Fin grid2.N, win2_0.index t (0 : Fin 2) = t.val / 2 % 2 ∧ win2_0.index t (1 : Fin 2) = 2 * (t.val / 4) + t.val % 2)
theorem top2_idx1 : ∀ t : Fin cfg2.N, win2_1.index t (0 : Fin 2) = t.val / 2 % 2 ∧ win2_1.index t (1 : Fin 2) = 0 :=
  (by decide +kernel : ∀ t : Fin grid2.N, win2_1.index t (0 : Fin 2) = t.val / 2 % 2 ∧ win2_1.index t (1 : Fin 2) = 0)

/-- The weight tile at a point: row k, column r of it is the weight at row i*2048 + k, column (2h + j)*2048 + r. -/
theorem top2_iblk0 (c : Dev nD) (t : Fin cfg2.N) (k r : Fin 2048) :
    (iblk2 V c 0 t : Vec Ideal S2048x2048 .bf16) (ix2 k r)
      = top2_wN V c (t.val / 2 % 2 * 2048 + k.val) ((2 * (t.val / 4) + t.val % 2) * 2048 + r.val) := by
  have hN : t.val < 8 := lt_of_lt_of_eq t.isLt (show cfg2.N = 8 from N_2)
  have hi := top2_idx0 t
  unfold top2_wN
  rw [dif_pos ⟨by omega, by omega⟩]
  unfold top2_wAt iblk2
  rw [View.read_apply]
  show V c main_v6 _ = V c main_v6 _
  congr 1
  funext a
  apply Fin.ext
  match a with
  | ⟨0, _⟩ => show win2_0.index t (0 : Fin 2) * 2048 + 1 * k.val = t.val / 2 % 2 * 2048 + k.val; rw [hi.1]; omega
  | ⟨1, _⟩ => show win2_0.index t (1 : Fin 2) * 2048 + 1 * r.val = (2 * (t.val / 4) + t.val % 2) * 2048 + r.val; rw [hi.2]; omega

/-- The table block at a point: row k, column d of it is the table at row i*2048 + k, column d. -/
theorem top2_iblk1 (c : Dev nD) (t : Fin cfg2.N) (k : Fin 2048) (d : Fin 64) :
    (iblk2 V c 1 t : Vec Ideal S2048x64 .f32) (ix2 k d) = top2_xN V c (t.val / 2 % 2 * 2048 + k.val) d.val := by
  have hN : t.val < 8 := lt_of_lt_of_eq t.isLt (show cfg2.N = 8 from N_2)
  have hi := top2_idx1 t
  unfold top2_xN
  rw [dif_pos ⟨by omega, d.isLt⟩]
  unfold top2_xAt iblk2
  rw [View.read_apply]
  show V c main_v8 _ = V c main_v8 _
  congr 1
  funext a
  apply Fin.ext
  match a with
  | ⟨0, _⟩ => show win2_1.index t (0 : Fin 2) * 2048 + 1 * k.val = t.val / 2 % 2 * 2048 + k.val; rw [hi.1]; omega
  | ⟨1, _⟩ => show win2_1.index t (1 : Fin 2) * 64 + 1 * d.val = d.val; rw [hi.2]; omega

/-- The tile product at a point, at row r of the band and column d, is the partial sum over the point's row tile at
    the accumulator's row j*2048 + r. -/
theorem top2_tile (c : Dev nD) (t : Fin cfg2.N) (r : Fin 2048) (d : Fin 64)
    (x0 : Vec Ideal S2048x2048 .bf16) (x1 : Vec Ideal S2048x64 .f32) (e0 : x0 = iblk2 V c 0 t) (e1 : x1 = iblk2 V c 1 t) :
    ∑ k : Fin 2048, x0 (ix2 k r) * x1 (ix2 k d)
      = top2_P V c (t.val / 4) (t.val / 2 % 2) (t.val % 2 * 2048 + r.val) d.val := by
  subst e0 e1
  unfold top2_P
  refine Finset.sum_congr rfl fun k _ => ?_
  rw [top2_iblk0, top2_iblk1]
  have e : (2 * (t.val / 4) + t.val % 2) * 2048 + r.val = t.val / 4 * 4096 + (t.val % 2 * 2048 + r.val) := by omega
  rw [e]

/-! ## The accumulator after each position -/

/-- The first accumulator after position n. -/
abbrev top2_scr (c : Dev nD) (n : ℕ) (hn : n < cfg2.N) : Vec Ideal S4096x64 .f32 := (outsAt2 V c n hn).2.2.1

/-- A half's first position: band 0 holds the first row tile's partial sum, the rest is zero. -/
theorem top2_stepA (c : Dev nD) (t : Fin cfg2.N) (h0 : t.val % 4 = 0) (q : Fin 4096) (d : Fin 64) :
    top2_scr V c t.val t.isLt (ix2 q d) = if q.val / 2048 = 0 then top2_P V c (t.val / 4) 0 q.val d.val else 0 := by
  have h1 : ¬t.val % 4 = 3 := by omega
  have ho := top2_off t
  have hq4 : q.val < 4096 := q.isLt
  unfold top2_scr
  rw [outsAt2_A V c t h0 h1]
  dsimp only
  by_cases hb : q.val / 2048 = 0
  · rw [if_pos hb]
    have hq : q.val < 2048 := by omega
    refine (top2_soutA_in c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 ((hcond2_0 t).mpr h0) (fun h => h1 ((hcond2_1 t).mp h)) (iblk2 V c 0 t) (iblk2 V c 1 t) (iblk2 V c 2 t) ⟨q.val, hq⟩ d q (by rw [ho.1]; show q.val = t.val % 2 * 2048 + q.val; omega) ho.2).trans ?_
    refine (top2_tile V c t ⟨q.val, hq⟩ d (iblk2 V c 0 t) (iblk2 V c 1 t) rfl rfl).trans ?_
    show top2_P V c (t.val / 4) (t.val / 2 % 2) (t.val % 2 * 2048 + q.val) d.val = _
    have e1 : t.val / 2 % 2 = 0 := by omega
    have e2 : t.val % 2 * 2048 + q.val = q.val := by omega
    rw [e1, e2]
  · rw [if_neg hb]
    exact top2_soutA_out c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 ((hcond2_0 t).mpr h0) (fun h => h1 ((hcond2_1 t).mp h)) (iblk2 V c 0 t) (iblk2 V c 1 t) (iblk2 V c 2 t) q d (by rw [ho.1]; omega)

/-- Any other position: band j gains the point's partial sum over what the position before left; the other band keeps it. -/
theorem top2_stepBC (c : Dev nD) (t : Fin cfg2.N) (h0 : ¬t.val % 4 = 0) (q : Fin 4096) (d : Fin 64) :
    top2_scr V c t.val t.isLt (ix2 q d)
      = if q.val / 2048 = t.val % 2 then
          top2_scr V c (t.val - 1) (Nat.lt_of_le_of_lt (Nat.sub_le _ _) t.isLt) (ix2 q d) + top2_P V c (t.val / 4) (t.val / 2 % 2) q.val d.val
        else top2_scr V c (t.val - 1) (Nat.lt_of_le_of_lt (Nat.sub_le _ _) t.isLt) (ix2 q d) := by
  have ho := top2_off t
  have hq4 : q.val < 4096 := q.isLt
  unfold top2_scr
  by_cases h1 : t.val % 4 = 3
  · rw [outsAt2_C V c t h0 h1]
    dsimp only
    by_cases hb : q.val / 2048 = t.val % 2
    · rw [if_pos hb]
      have hr : q.val - t.val % 2 * 2048 < 2048 := by omega
      refine (top2_soutC_in c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2 ⟨q.val - t.val % 2 * 2048, hr⟩ d q (by rw [ho.1]; show q.val = t.val % 2 * 2048 + (q.val - t.val % 2 * 2048); omega) ho.2).trans ?_
      refine congrArg (_ + ·) ?_
      refine (top2_tile V c t ⟨q.val - t.val % 2 * 2048, hr⟩ d (iblk2 V c 0 t) (iblk2 V c 1 t) rfl rfl).trans ?_
      show top2_P V c (t.val / 4) (t.val / 2 % 2) (t.val % 2 * 2048 + (q.val - t.val % 2 * 2048)) d.val = _
      have e : t.val % 2 * 2048 + (q.val - t.val % 2 * 2048) = q.val := by omega
      rw [e]
    · rw [if_neg hb]
      exact top2_soutC_out c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2 q d (by rw [ho.1]; omega)
  · rw [outsAt2_B V c t h0 h1]
    dsimp only
    by_cases hb : q.val / 2048 = t.val % 2
    · rw [if_pos hb]
      have hr : q.val - t.val % 2 * 2048 < 2048 := by omega
      refine (top2_soutB_in c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2 ⟨q.val - t.val % 2 * 2048, hr⟩ d q (by rw [ho.1]; show q.val = t.val % 2 * 2048 + (q.val - t.val % 2 * 2048); omega) ho.2).trans ?_
      refine congrArg (_ + ·) ?_
      refine (top2_tile V c t ⟨q.val - t.val % 2 * 2048, hr⟩ d (iblk2 V c 0 t) (iblk2 V c 1 t) rfl rfl).trans ?_
      show top2_P V c (t.val / 4) (t.val / 2 % 2) (t.val % 2 * 2048 + (q.val - t.val % 2 * 2048)) d.val = _
      have e : t.val % 2 * 2048 + (q.val - t.val % 2 * 2048) = q.val := by omega
      rw [e]
    · rw [if_neg hb]
      exact top2_soutB_out c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2 q d (by rw [ho.1]; omega)

end

end Cert.KernelIdeal.Hand

end
-- ==== Proof.Val2TopB.lean ====
/-
  One propagation layer's item-side product: the result array. By induction on the position, after position n the first
  accumulator holds, at row q (band b = q / 2048) and column d, the first row tile's partial sum if b ≤ n % 4 plus the
  second row tile's if b + 2 ≤ n % 4 (a half's first position zeroes it and fills band 0; every later position adds one
  tile's partial sum into one band). After a half's last position both partial sums are there in both bands, and their
  sum is the sum over all 4096 rows u of weight(u, h*4096 + q) * table(u, d). That position copies the accumulator into
  the output block, which is written back as rows h*4096.. of the result; the two halves' blocks cover the result, so
  the result at row q, column d is the sum over u of weight(u, q) * table(u, d).
-/
import proofs.«142347_j15487652069895_2_alg».proof.Proof.Val2TopA
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section
variable (V : (c : Dev nD) → (b : Ref sig .tc) → Buf (Elt Ideal) ((c : Thread nD τ).loc b))

/-! ## The accumulator after position n, in closed form -/

theorem top2_inv (c : Dev nD) : ∀ (n : ℕ) (hn : n < cfg2.N) (q : Fin 4096) (d : Fin 64),
    top2_scr V c n hn (ix2 q d)
      = (if q.val / 2048 ≤ n % 4 then top2_P V c (n / 4) 0 q.val d.val else 0)
        + (if q.val / 2048 + 2 ≤ n % 4 then top2_P V c (n / 4) 1 q.val d.val else 0)
  | 0, hn, q, d => by
    refine (top2_stepA V c ⟨0, hn⟩ rfl q d).trans ?_
    have hq : q.val < 4096 := q.isLt
    show (if q.val / 2048 = 0 then top2_P V c (0 / 4) 0 q.val d.val else 0) = _
    by_cases hb : q.val / 2048 = 0
    · rw [if_pos hb, if_pos (by omega), if_neg (by omega), add_zero]
    · rw [if_neg hb, if_neg (by omega), if_neg (by omega), add_zero]
  | n + 1, hn, q, d => by
    have hN : n + 1 < 8 := lt_of_lt_of_eq hn (show cfg2.N = 8 from N_2)
    have hq : q.val < 4096 := q.isLt
    by_cases h0 : (n + 1) % 4 = 0
    · refine (top2_stepA V c ⟨n + 1, hn⟩ h0 q d).trans ?_
      show (if q.val / 2048 = 0 then top2_P V c ((n + 1) / 4) 0 q.val d.val else 0) = _
      by_cases hb : q.val / 2048 = 0
      · rw [if_pos hb, if_pos (by omega), if_neg (by omega), add_zero]
      · rw [if_neg hb, if_neg (by omega), if_neg (by omega), add_zero]
    · refine (top2_stepBC V c ⟨n + 1, hn⟩ h0 q d).trans ?_
      show (if q.val / 2048 = (n + 1) % 2 then
          top2_scr V c n _ (ix2 q d) + top2_P V c ((n + 1) / 4) ((n + 1) / 2 % 2) q.val d.val
        else top2_scr V c n _ (ix2 q d)) = _
      rw [top2_inv c n (Nat.lt_of_succ_lt hn) q d]
      have hh : (n + 1) / 4 = n / 4 := by omega
      have e1 : n % 4 = (n + 1) % 4 - 1 := by omega
      have e2 : (n + 1) % 2 = (n + 1) % 4 % 2 := by omega
      have e3 : (n + 1) / 2 % 2 = (n + 1) % 4 / 2 := by omega
      have hb : q.val / 2048 = 0 ∨ q.val / 2048 = 1 := by omega
      have hp : (n + 1) % 4 = 1 ∨ (n + 1) % 4 = 2 ∨ (n + 1) % 4 = 3 := by omega
      rw [hh, e1, e2, e3]
      rcases hb with hb | hb <;> rcases hp with hp | hp | hp <;> rw [hb, hp] <;> simp

/-- After a half's last position: the sum over all 4096 rows. -/
theorem top2_full (c : Dev nD) (t : Fin cfg2.N) (h3 : t.val % 4 = 3) (q : Fin 4096) (d : Fin 64) :
    top2_scr V c t.val t.isLt (ix2 q d)
      = ∑ u : Fin 4096, top2_wN V c u.val (t.val / 4 * 4096 + q.val) * top2_xN V c u.val d.val := by
  have hq : q.val < 4096 := q.isLt
  rw [top2_inv V c t.val t.isLt q d, if_pos (by omega), if_pos (by omega)]
  unfold top2_P
  exact (Cert.Spec.sum4096_halves (fun u : Fin 4096 => top2_wN V c u.val (t.val / 4 * 4096 + q.val) * top2_xN V c u.val d.val)
    (fun i k => ⟨i.val * 2048 + k.val, by have := i.isLt; have := k.isLt; omega⟩) (fun _ _ => rfl)).symm

/-- At such a position the output block is the accumulator. -/
theorem top2_out_eq_scr (c : Dev nD) (t : Fin cfg2.N) (h3 : t.val % 4 = 3) :
    (outsAt2 V c t.val t.isLt).1 = top2_scr V c t.val t.isLt := by
  have h0 : ¬t.val % 4 = 0 := by omega
  unfold top2_scr
  rw [outsAt2_C V c t h0 h3]
  dsimp only
  exact top2_outC_eq c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 (fun h => h0 ((hcond2_0 t).mp h)) ((hcond2_1 t).mpr h3) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2

/-! ## The result array -/

/-- The item-side product: at row q, column d, the sum over the 4096 rows u of weight(u, q) * table(u, d). -/
def top2_G (c : Dev nD) : Buf (Elt Ideal) ((c : Thread nD τ).loc main_v10_0) :=
  fun p : S8192x64.Idx => (∑ u : Fin 4096, top2_wAt V c u (p 0) * top2_xAt V c u (p 1) : EReal)

theorem top2_G_apply (c : Dev nD) (q : Fin 8192) (d : Fin 64) :
    (top2_G V c : S8192x64.Idx → EReal) (ix2 q d) = ∑ u : Fin 4096, top2_wAt V c u q * top2_xAt V c u d := rfl

theorem top2_G_nat (c : Dev nD) (p : S8192x64.Idx) :
    (top2_G V c : S8192x64.Idx → EReal) p = ∑ u : Fin 4096, top2_wN V c u.val (p 0).val * top2_xN V c u.val (p 1).val := by
  show (∑ u : Fin 4096, top2_wAt V c u (p 0) * top2_xAt V c u (p 1)) = _
  refine Finset.sum_congr rfl fun u _ => ?_
  unfold top2_wN top2_xN
  rw [dif_pos ⟨u.isLt, idx2_lt0 p⟩, dif_pos ⟨u.isLt, idx2_lt1 p⟩]
  rfl

theorem top2_idx3 : ∀ t : Fin cfg2.N, win2_3.index t (0 : Fin 2) = t.val / 4 ∧ win2_3.index t (1 : Fin 2) = 0 :=
  (by decide +kernel : ∀ t : Fin grid2.N, win2_3.index t (0 : Fin 2) = t.val / 4 ∧ win2_3.index t (1 : Fin 2) = 0)

/-- What a half's last position writes back is its block of the product. -/
theorem top2_flushed_eq (c : Dev nD) (t : Fin cfg2.N) (hf : (cfg2.win 3).flush t = true) :
    (dat2 V c).flushed 3 t = ((cfg2.win 3).blk t).view.read (Elt Ideal) (top2_G V c) := by
  have hN : t.val < 8 := lt_of_lt_of_eq t.isLt (show cfg2.N = 8 from N_2)
  have h3 : t.val % 4 = 3 := (flush2_3 t).mp hf
  have hi := top2_idx3 t
  show (cfg2.win 3).cut (grid2.coords t) ((dat2 V c).after 3 t) = _
  rw [after2_3, top2_out_eq_scr V c t h3]
  funext y
  obtain ⟨q, d, rfl⟩ : ∃ (q : Fin 4096) (d : Fin 64), y = ix2 q d := ⟨y 0, y 1, eq_ix2 (n0 := 4096) (n1 := 64) y⟩
  show top2_scr V c t.val t.isLt (ix2 q d) = (top2_G V c : S8192x64.Idx → EReal) (((cfg2.win 3).blk t).view.emb (ix2 q d))
  rw [top2_full V c t h3 q d, top2_G_nat]
  have e0 : ((((cfg2.win 3).blk t).view.emb (ix2 q d) : S8192x64.Idx) 0).val = t.val / 4 * 4096 + q.val := by
    show win2_3.index t (0 : Fin 2) * 4096 + 1 * q.val = _
    rw [hi.1]; omega
  have e1 : ((((cfg2.win 3).blk t).view.emb (ix2 q d) : S8192x64.Idx) 1).val = d.val := by
    show win2_3.index t (1 : Fin 2) * 64 + 1 * d.val = _
    rw [hi.2]; omega
  rw [e0, e1]

/-- An index of the result is in a point's block iff each coordinate is in the block's range on its axis. -/
theorem top2_mem_blk (t : Fin cfg2.N) (i : S8192x64.Idx) :
    i ∈ ((cfg2.win 3).blk t).view.set ↔ ∀ a : Fin 2, win2_3.index t a * S4096x64.size a ≤ (i a).val ∧ (i a).val < win2_3.index t a * S4096x64.size a + S4096x64.size a := by
  show i ∈ ((View.whole main_v10_0).slice (win2_3.rect t)).set ↔ _
  rw [View.set_slice_whole, Rect.mem_set_unit]
  exact Iff.rfl

/-- Row q of the result is in the block of half q / 4096, written back at that half's last position. -/
theorem top2_cover (i : S8192x64.Idx) : ∃ t : Fin cfg2.N, (cfg2.win 3).flush t = true ∧ i ∈ ((cfg2.win 3).blk t).view.set := by
  have hN : cfg2.N = 8 := N_2
  have h0 : (i 0).val < 8192 := idx2_lt0 i
  have h1 : (i 1).val < 64 := idx2_lt1 i
  obtain ⟨t, ht⟩ : ∃ t : Fin cfg2.N, t.val = 4 * ((i 0).val / 4096) + 3 := ⟨⟨4 * ((i 0).val / 4096) + 3, by omega⟩, rfl⟩
  have hi := top2_idx3 t
  refine ⟨t, (flush2_3 t).mpr (by omega), ?_⟩
  rw [top2_mem_blk]
  intro a
  match a with
  | ⟨0, _⟩ =>
    show win2_3.index t (0 : Fin 2) * 4096 ≤ (i 0).val ∧ (i 0).val < win2_3.index t (0 : Fin 2) * 4096 + 4096
    rw [hi.1]; omega
  | ⟨1, _⟩ =>
    show win2_3.index t (1 : Fin 2) * 64 ≤ (i 1).val ∧ (i 1).val < win2_3.index t (1 : Fin 2) * 64 + 64
    rw [hi.2]; omega

/-- The result array after the run is the item-side product. -/
theorem top2_final (c : Dev nD) : (dat2 (F := Ideal) V c).arrAt 3 cfg2.N = top2_G V c :=
  (dat2 V c).arrAt_eq_of_cover 3 (top2_G V c) (top2_flushed_eq V c) top2_cover

end

end Cert.KernelIdeal.Hand

end
-- ==== Proof.Val2BotA.lean ====
/-
  One propagation layer's user-side accumulator: the arithmetic of its three stored values, read at an index at the
  ideal float values (an extended real per float, every operation exact).

  The value stored into a 2048-row band of the accumulator is, at row r and column d, what the band held there
  plus the sum over the 2048 contracted positions k of weights-tile(r, k) * table-block(k, d): the narrowing of the
  table block to the short float format is the identity on extended reals, the tile product goes into a zero
  accumulator, and the shape casts are to the same shape. The value the accumulator is reset to is zero everywhere.
  The value copied into the output block is the accumulator under a leading unit axis.
-/
import proofs.«142347_j15487652069895_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-- The product's left operand index at output (r, d), contraction position q: row r … -/
theorem botLhs2_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
/-- … column q; -/
theorem botLhs2_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
/-- the right operand's: row q … -/
theorem botRhs2_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
/-- … column d. -/
theorem botRhs2_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The tile product into a zero accumulator, at output (r, d): the sum over the 2048 contracted positions of
    the left operand's row r times the right operand's column d. -/
theorem botMat2 (x0 : FVec Ideal S2048x2048 .bf16) (x2 : FVec Ideal S2048x64 .bf16) (r : Fin 2048) (d : Fin 64) :
    FloatOps.matmul dot_S2048x2048_S2048x64_S2048x64_1_0_0_1_n_n none x0 x2 (constant S2048x64 .f32 0x00000000#32) (ix2 r d)
      = ∑ k : Fin 2048, x0 (ix2 r k) * x2 (ix2 k d) := by
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 r d) ((contrEquiv1 dot_S2048x2048_S2048x64_S2048x64_1_0_0_1_n_n 2048 rfl rfl).symm k) = ix2 r k := funext fun a => Fin.ext (by
    match a with
    | ⟨0, _⟩ => exact botLhs2_0 _ _
    | ⟨1, _⟩ => exact (botLhs2_1 _ _).trans hk)
  have er : dot_S2048x2048_S2048x64_S2048x64_1_0_0_1_n_n.rhsIdx (ix2 r d) ((contrEquiv1 dot_S2048x2048_S2048x64_S2048x64_1_0_0_1_n_n 2048 rfl rfl).symm k) = ix2 k d := funext fun a => Fin.ext (by
    match a with
    | ⟨0, _⟩ => exact (botRhs2_0 _ _).trans hk
    | ⟨1, _⟩ => exact botRhs2_1 _ _)
  rw [el, er]

/-- The band's new contents at row r, column d: what the band held there plus the tile product of the weights
    tile's row r with the table block's column d (the change of float format before the product is the identity
    on the extended reals, and the product goes into a zero accumulator). -/
theorem botPay2 (x0 : Vec Ideal S2048x2048 .bf16) (x2 : Vec Ideal S2048x64 .f32) (acc : Vec Ideal S2048x64 .f32) (r : Fin 2048) (d : Fin 64) :
    k2_pay5 (F := Ideal) x0 x2 acc (ix2 r d) = acc (ix2 r d) + ∑ k : Fin 2048, x0 (ix2 r k) * x2 (ix2 k d) := by
  unfold k2_pay5 k2_pay4
  simp only [shapeCast_self]
  exact congrArg (acc (ix2 r d) + ·) (botMat2 x0 (truncf .bf16 x2 bitsLt_bf16_f32) r d)

/-- The block the accumulator is reset to is zero everywhere. -/
theorem botZero2 (y : S4096x64.Idx) : k2_pay3 (F := Ideal) y = 0 := by
  unfold k2_pay3
  simp only [shapeCast_self]
  exact Ideal.ofBits_zero_f32

/-- The copy into the output block only adds a leading unit axis: entry (0, u, d) is the accumulator's (u, d). -/
theorem botCopy2 (v : Vec Ideal S4096x64 .f32) (h : Fin 1) (u : Fin 4096) (d : Fin 64) :
    k2_pay1 (F := Ideal) v (ix3 h u d) = v (ix2 u d) := by
  unfold k2_pay1
  refine (shapeCast_addUnit_apply ![4096, 64] v shapeCasts_S4096x64_S1x4096x64 (ix3 h u d)).trans (congrArg v ?_)
  funext a
  match a with
  | ⟨0, _⟩ => rfl
  | ⟨1, _⟩ => rfl

end Cert.KernelIdeal.Hand

end
-- ==== Proof.Val2BotB.lean ====
/-
  One propagation layer's user-side accumulator: what each of the body's three cases leaves in it, and what the last
  case copies into the output block, read at an index at the ideal float values.

  Every point rewrites one band of 2048 rows of the accumulator, rows [o, o + 2048) with o the band's first row:
  inside the band the new entry at (o + r, d) is the old entry plus the tile product of the weights tile's row r with
  the table block's column d; outside the band the entry stays. A point that resets first has zero as the old entry
  everywhere. The last point of a column half also copies the whole accumulator, as that point leaves it, into the
  output block under a leading unit axis.
-/
import proofs.«142347_j15487652069895_2_alg».proof.Proof.K2Frame
import proofs.«142347_j15487652069895_2_alg».proof.Proof.Val2BotA
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem botHz2 : (![0, 0] : Fin 2 → Nat) = fun _ => 0 := funext fun a => by fin_cases a <;> rfl
theorem botHz2' : (![0, 0, 0] : Fin 3 → Nat) = fun _ => 0 := funext fun a => by fin_cases a <;> rfl

/-- A whole-buffer load of the weights tile's staging buffer reads its contents; -/
theorem botLdW2 (M : Memref sig .tc .vmem S2048x2048 .bf16) (hM : M.IsWhole) (x : Vec Ideal S2048x2048 .bf16) :
    View.readAt (Elt Ideal) M.view (Rect.unit (s := S2048x2048) ![0, 0] S2048x2048.size inb_S2048x2048_S2048x2048_0_0).toLoadRect (hM.unread x) = x := by
  rw [View.readAt_eq_ld, hM.read_unread, View.ld_unit_zero (S := S2048x2048) botHz2]
/-- of a table block's staging buffer likewise; -/
theorem botLdX2 (M : Memref sig .tc .vmem S2048x64 .f32) (hM : M.IsWhole) (x : Vec Ideal S2048x64 .f32) :
    View.readAt (Elt Ideal) M.view (Rect.unit (s := S2048x64) ![0, 0] S2048x64.size inb_S2048x64_S2048x64_0_0).toLoadRect (hM.unread x) = x := by
  rw [View.readAt_eq_ld, hM.read_unread, View.ld_unit_zero (S := S2048x64) botHz2]
/-- of an accumulator, of whatever it holds. -/
theorem botLdS2 (M : Memref sig .tc .vmem S4096x64 .f32) (f : M.view.ty.Contents (Elt Ideal)) :
    View.readAt (Elt Ideal) M.view (Rect.unit (s := S4096x64) ![0, 0] S4096x64.size inb_S4096x64_S4096x64_0_0).toLoadRect f = M.view.read (Elt Ideal) f := by
  rw [View.readAt_eq_ld, View.ld_unit_zero (S := S4096x64) botHz2]

/-- A load of rows [o, o + 2048) of an accumulator holding xs reads, at (r, d), xs at (o + r, d). -/
theorem botBandLd2 (M : Memref sig .tc .vmem S4096x64 .f32) (hM : M.IsWhole) (xs : Vec Ideal S4096x64 .f32)
    (off : Fin 2 → ℕ) (inb : ∀ a, off a + S2048x64.size a ≤ S4096x64.size a) (o : ℕ) (ho : off = ![o, 0])
    (u : Fin 4096) (r : Fin 2048) (d : Fin 64) (hu : u.val = o + r.val) :
    View.readAt (Elt Ideal) M.view (Rect.unit (s := S4096x64) off S2048x64.size inb).toLoadRect (hM.unread xs) (ix2 r d) = xs (ix2 u d) := by
  subst ho
  rw [View.readAt_eq_ld, hM.read_unread]
  show xs _ = xs _
  refine congrArg xs (funext fun a => Fin.ext ?_)
  match a with
  | ⟨0, _⟩ => show o + 1 * r.val = u.val; omega
  | ⟨1, _⟩ => show 0 + 1 * d.val = d.val; omega

/-- The same load right after the accumulator was reset reads zero. -/
theorem botBandZero2 (M : Memref sig .tc .vmem S4096x64 .f32) (off : Fin 2 → ℕ) (inb : ∀ a, off a + S2048x64.size a ≤ S4096x64.size a)
    (x : S2048x64.Idx) :
    View.readAt (Elt Ideal) M.view (Rect.unit (s := S4096x64) off S2048x64.size inb).toLoadRect
      (M.view.writes (Elt Ideal) M.view.junk
        [⟨Rect.unit (s := S4096x64) ![0, 0] S4096x64.size inb_S4096x64_S4096x64_0_0, k2_pay3 (F := Ideal)⟩]) x = 0 := by
  rw [View.readAt_writes_junk_eq_canon, View.canon_unit_zero botHz2]
  exact botZero2 _

/-- A point that adds without resetting, inside the band it rewrites (rows [o, o + 2048)): the accumulator's entry
    grows by the tile product; -/
theorem botStepB2_in (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k2_off1 i = ![o, 0]) (u : Fin 4096) (r : Fin 2048) (d : Fin 64) (hu : u.val = o + r.val) :
    sout2_B_1 (F := Ideal) c i arg3 harg3 arg4 harg4 arg5 harg5 arg6 harg6 arg7 harg7 arg8 harg8 arg9 harg9 hc0 hc1 x0 x1 x2 xs0 xs1 (ix2 u d)
      = xs1 (ix2 u d) + ∑ k : Fin 2048, x0 (ix2 r k) * x2 (ix2 k d) := by
  unfold sout2_B_1 kernelRun2_B
  dsimp only
  rw [botLdW2 arg3 harg3 x0, botLdX2 arg5 harg5 x2]
  refine (View.read_writes_cons_rows_of_mem arg9.view (harg9.unread xs1) (k2_off1_inb i) _ [] (ix2 u d) (ix2 r d) ho hu rfl).trans ?_
  refine (botPay2 x0 x2 _ r d).trans ?_
  rw [botBandLd2 arg9 harg9 xs1 (k2_off1 i) (k2_off1_inb i) o ho u r d hu]

/-- outside that band the entry is what it was. -/
theorem botStepB2_out (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : ¬cond2_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k2_off1 i = ![o, 0]) (u : Fin 4096) (d : Fin 64) (hu : u.val < o ∨ o + 2048 ≤ u.val) :
    sout2_B_1 (F := Ideal) c i arg3 harg3 arg4 harg4 arg5 harg5 arg6 harg6 arg7 harg7 arg8 harg8 arg9 harg9 hc0 hc1 x0 x1 x2 xs0 xs1 (ix2 u d) = xs1 (ix2 u d) := by
  unfold sout2_B_1 kernelRun2_B
  dsimp only
  refine (View.read_writes_cons_rows_of_not_mem arg9.view (harg9.unread xs1) (k2_off1_inb i) _ [] (ix2 u d) ho rfl hu).trans ?_
  rw [View.writes_nil, harg9.read_unread]

/-- The last point of a half adds in the same way: inside the band … -/
theorem botStepC2_in (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k2_off1 i = ![o, 0]) (u : Fin 4096) (r : Fin 2048) (d : Fin 64) (hu : u.val = o + r.val) :
    sout2_C_1 (F := Ideal) c i arg3 harg3 arg4 harg4 arg5 harg5 arg6 harg6 arg7 harg7 arg8 harg8 arg9 harg9 hc0 hc1 x0 x1 x2 xs0 xs1 (ix2 u d)
      = xs1 (ix2 u d) + ∑ k : Fin 2048, x0 (ix2 r k) * x2 (ix2 k d) := by
  unfold sout2_C_1 kernelRun2_C
  dsimp only
  sl_unfold_run_names
  rw [botLdW2 arg3 harg3 x0, botLdX2 arg5 harg5 x2]
  refine (View.read_writes_cons_rows_of_mem arg9.view (harg9.unread xs1) (k2_off1_inb i) _ [] (ix2 u d) (ix2 r d) ho hu rfl).trans ?_
  refine (botPay2 x0 x2 _ r d).trans ?_
  rw [botBandLd2 arg9 harg9 xs1 (k2_off1 i) (k2_off1_inb i) o ho u r d hu]

/-- … and outside it. -/
theorem botStepC2_out (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k2_off1 i = ![o, 0]) (u : Fin 4096) (d : Fin 64) (hu : u.val < o ∨ o + 2048 ≤ u.val) :
    sout2_C_1 (F := Ideal) c i arg3 harg3 arg4 harg4 arg5 harg5 arg6 harg6 arg7 harg7 arg8 harg8 arg9 harg9 hc0 hc1 x0 x1 x2 xs0 xs1 (ix2 u d) = xs1 (ix2 u d) := by
  unfold sout2_C_1 kernelRun2_C
  dsimp only
  sl_unfold_run_names
  refine (View.read_writes_cons_rows_of_not_mem arg9.view (harg9.unread xs1) (k2_off1_inb i) _ [] (ix2 u d) ho rfl hu).trans ?_
  rw [View.writes_nil, harg9.read_unread]

/-- There the output block receives the accumulator as that point leaves it, under a leading unit axis. -/
theorem botOutC2 (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond2_0 i) (hc1 : cond2_1 i) (x0 : Vec Ideal S2048x2048 .bf16) (x1 : Vec Ideal S2048x64 .f32) (x2 : Vec Ideal S2048x64 .f32) (xs0 : Vec Ideal S4096x64 .f32) (xs1 : Vec Ideal S4096x64 .f32)
    (h : Fin 1) (u : Fin 4096) (d : Fin 64) :
    out2_C_4 (F := Ideal) c i arg3 harg3 arg4 harg4 arg5 harg5 arg6 harg6 arg7 harg7 arg8 harg8 arg9 harg9 hc0 hc1 x0 x1 x2 xs0 xs1 (ix3 h u d)
      = sout2_C_1 (F := Ideal) c i arg3 harg3 arg4 harg4 arg5 harg5 arg6 harg6 arg7 harg7 arg8 harg8 arg9 harg9 hc0 hc1 x0 x1 x2 xs0 xs1 (ix2 u d) := by
  unfold out2_C_4 sout2_C_1 kernelRun2_C
  dsimp only
  sl_unfold_run_names
  rw [View.read_writes_junk_apply_eq_canon, View.canon_unit_zero botHz2']
  refine (botCopy2 _ h u d).trans ?_
  rw [botLdS2]

/-- A point that resets first, inside the band it then rewrites: zero plus the tile product; -/
theorem botStepA2_in (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec Ideal S2048x2048 .bf16) (x1 : Vec Ideal S2048x64 .f32) (x2 : Vec Ideal S2048x64 .f32)
    (o : ℕ) (ho : k2_off1 i = ![o, 0]) (u : Fin 4096) (r : Fin 2048) (d : Fin 64) (hu : u.val = o + r.val) :
    sout2_A_1 (F := Ideal) c i arg3 harg3 arg4 harg4 arg5 harg5 arg6 harg6 arg7 harg7 arg8 harg8 arg9 harg9 hc0 hc1 x0 x1 x2 (ix2 u d)
      = 0 + ∑ k : Fin 2048, x0 (ix2 r k) * x2 (ix2 k d) := by
  unfold sout2_A_1 kernelRun2_A
  dsimp only
  sl_unfold_run_names
  rw [botLdW2 arg3 harg3 x0, botLdX2 arg5 harg5 x2]
  refine (View.read_writes_cons_rows_of_mem _ _ (k2_off1_inb i) _ _ (ix2 u d) (ix2 r d) ho hu rfl).trans ?_
  refine (botPay2 x0 x2 _ r d).trans ?_
  rw [botBandZero2]

/-- outside it, zero. -/
theorem botStepA2_out (c : Dev nD) (i : grid2.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond2_0 i) (hc1 : ¬cond2_1 i) (x0 : Vec Ideal S2048x2048 .bf16) (x1 : Vec Ideal S2048x64 .f32) (x2 : Vec Ideal S2048x64 .f32)
    (o : ℕ) (ho : k2_off1 i = ![o, 0]) (u : Fin 4096) (d : Fin 64) (hu : u.val < o ∨ o + 2048 ≤ u.val) :
    sout2_A_1 (F := Ideal) c i arg3 harg3 arg4 harg4 arg5 harg5 arg6 harg6 arg7 harg7 arg8 harg8 arg9 harg9 hc0 hc1 x0 x1 x2 (ix2 u d) = 0 := by
  unfold sout2_A_1 kernelRun2_A
  dsimp only
  sl_unfold_run_names
  refine (View.read_writes_cons_rows_of_not_mem _ _ (k2_off1_inb i) _ _ (ix2 u d) ho rfl hu).trans ?_
  rw [View.read_writes_junk_apply_eq_canon, View.canon_unit_zero botHz2]
  exact botZero2 _

end Cert.KernelIdeal.Hand

end
-- ==== Proof.Val2BotC.lean ====
/-
  One propagation layer's user-side accumulator after every grid position, in closed form over the arrays as the
  region finds them.

  The grid position n = 4·h + 2·i + j names the column half h of the weights, the row tile i and the column tile j
  of the half; the point loads the weights tile (i, 2h + j), whose 2048 columns are columns (2h + j)·2048 + k of the
  weights array, and the table block of the same 2048 rows. Writing T q (u, d) for the sum over k < 2048 of
  weights(u, q·2048 + k) · table(q·2048 + k, d), the accumulator's entry (u, d) after position n is zero, 0 + T (2h),
  or (0 + T (2h)) + T (2h + 1) according to how many of the half's two tiles row u's band has received: the band
  u / 2048 is rewritten at the two positions of row tile i = u / 2048, and the whole accumulator is reset at the
  half's first position before that position's own tile is added.
-/
import proofs.«142347_j15487652069895_2_alg».proof.Proof.Val2BotB

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable (V : (c : Dev nD) → (b : Ref sig .tc) → Buf (Elt Ideal) ((c : Thread nD τ).loc b))

/-- The weights array and the table whose rows the products contract, as the region finds them. -/
abbrev botW2 (c : Dev nD) : S4096x8192.Idx → EReal := V c (Pipeline.arrRef spec2 0)
abbrev botX2 (c : Dev nD) : S8192x64.Idx → EReal := V c (Pipeline.arrRef spec2 2)

/-- The grid position t = 4·(column half) + 2·(row tile) + (column tile of the half): the block indices of the
    weights tile, of the table block and of the output block, and the band's first row, in closed form. -/
theorem botIdx2 : ∀ t : Fin cfg2.N,
    win2_0.index t 0 = (t.val / 2) % 2 ∧ win2_0.index t 1 = 2 * (t.val / 4) + t.val % 2
      ∧ win2_2.index t 0 = 2 * (t.val / 4) + t.val % 2 ∧ win2_2.index t 1 = 0 :=
  (by decide +kernel : ∀ t : Fin grid2.N,
    win2_0.index t 0 = (t.val / 2) % 2 ∧ win2_0.index t 1 = 2 * (t.val / 4) + t.val % 2
      ∧ win2_2.index t 0 = 2 * (t.val / 4) + t.val % 2 ∧ win2_2.index t 1 = 0)

theorem botOff2 : ∀ t : Fin cfg2.N, k2_off1 (grid2.coords t) = ![2048 * ((t.val / 2) % 2), 0] :=
  (by decide +kernel : ∀ t : Fin grid2.N, k2_off1 (grid2.coords t) = ![2048 * ((t.val / 2) % 2), 0])

/-- Column k of column tile q (of four tiles of 2048 columns). -/
def botCol2 (q : ℕ) (k : Fin 2048) : Fin 8192 := ⟨(q * 2048 + k.val) % 8192, Nat.mod_lt _ (by decide)⟩

/-- The weights tile and the table block a point's body loads. -/
abbrev botBW2 (c : Dev nD) (t : Fin cfg2.N) : S2048x2048.Idx → EReal := iblk2 V c 0 t
abbrev botBX2 (c : Dev nD) (t : Fin cfg2.N) : S2048x64.Idx → EReal := iblk2 V c 2 t

/-- The weights tile at a point, read off the weights array: row tile (t / 2) % 2, column tile 2·(t / 4) + t % 2. -/
theorem botBlkW2 (c : Dev nD) (t : Fin cfg2.N) (r k : Fin 2048) (u : Fin 4096)
    (hu : u.val = 2048 * ((t.val / 2) % 2) + r.val) :
    botBW2 V c t (ix2 r k) = botW2 V c (ix2 u (botCol2 (2 * (t.val / 4) + t.val % 2) k)) := by
  obtain ⟨h0, h1, -, -⟩ := botIdx2 t
  have ht : t.val < 8 := lt_of_lt_of_eq t.isLt (show cfg2.N = 8 from N_2)
  show (iblk2 V c _ t) _ = _
  unfold iblk2
  rw [View.read_apply]
  show (V c (Pipeline.arrRef spec2 0) : S4096x8192.Idx → EReal) _ = (V c (Pipeline.arrRef spec2 0) : S4096x8192.Idx → EReal) _
  refine congrArg (V c (Pipeline.arrRef spec2 0) : S4096x8192.Idx → EReal) (funext fun a => Fin.ext ?_)
  match a with
  | ⟨0, _⟩ => show win2_0.index t 0 * 2048 + 1 * r.val = u.val; rw [h0, hu]; omega
  | ⟨1, _⟩ =>
    show win2_0.index t 1 * 2048 + 1 * k.val = ((2 * (t.val / 4) + t.val % 2) * 2048 + k.val) % 8192
    rw [h1]; have := k.isLt; omega

/-- The table block at a point: rows of column tile 2·(t / 4) + t % 2. -/
theorem botBlkX2 (c : Dev nD) (t : Fin cfg2.N) (k : Fin 2048) (d : Fin 64) :
    botBX2 V c t (ix2 k d) = botX2 V c (ix2 (botCol2 (2 * (t.val / 4) + t.val % 2) k) d) := by
  obtain ⟨-, -, h0, h1⟩ := botIdx2 t
  have ht : t.val < 8 := lt_of_lt_of_eq t.isLt (show cfg2.N = 8 from N_2)
  show (iblk2 V c _ t) _ = _
  unfold iblk2
  rw [View.read_apply]
  show (V c (Pipeline.arrRef spec2 2) : S8192x64.Idx → EReal) _ = (V c (Pipeline.arrRef spec2 2) : S8192x64.Idx → EReal) _
  refine congrArg (V c (Pipeline.arrRef spec2 2) : S8192x64.Idx → EReal) (funext fun a => Fin.ext ?_)
  match a with
  | ⟨0, _⟩ =>
    show win2_2.index t 0 * 2048 + 1 * k.val = ((2 * (t.val / 4) + t.val % 2) * 2048 + k.val) % 8192
    rw [h0]; have := k.isLt; omega
  | ⟨1, _⟩ => show win2_2.index t 1 * 64 + 1 * d.val = d.val; rw [h1]; omega

/-- Column tile q's share of entry (u, d) of the product of the weights with the table. -/
def botTile2 (c : Dev nD) (q : ℕ) (u : Fin 4096) (d : Fin 64) : EReal :=
  ∑ k : Fin 2048, botW2 V c (ix2 u (botCol2 q k)) * botX2 V c (ix2 (botCol2 q k) d)

/-- The tile product a point adds at row r of its band is that share, for the point's column tile. -/
theorem botTileBlk2 (c : Dev nD) (t : Fin cfg2.N) (u : Fin 4096) (r : Fin 2048) (d : Fin 64)
    (hu : u.val = 2048 * ((t.val / 2) % 2) + r.val) :
    ∑ k : Fin 2048, botBW2 V c t (ix2 r k) * botBX2 V c t (ix2 k d)
      = botTile2 V c (2 * (t.val / 4) + t.val % 2) u d :=
  Finset.sum_congr rfl fun k _ => by rw [botBlkW2 V c t r k u hu, botBlkX2 V c t k d]

/-- What entry (u, d) of the accumulator holds once m of column half hh's two tiles have been added to it. -/
def botAcc2 (c : Dev nD) (hh : ℕ) (m : ℕ) (u : Fin 4096) (d : Fin 64) : EReal :=
  match m with
  | 0 => 0
  | 1 => 0 + botTile2 V c (2 * hh) u d
  | _ => (0 + botTile2 V c (2 * hh) u d) + botTile2 V c (2 * hh + 1) u d

/-- How many tiles of the current half row u has received after position n: its band (u / 2048) is rewritten at the
    two points of row tile (n / 2) % 2. -/
def botCnt2 (n : ℕ) (u : Fin 4096) : ℕ :=
  if u.val / 2048 < (n / 2) % 2 then 2 else if u.val / 2048 = (n / 2) % 2 then n % 2 + 1 else 0

/-- Arithmetic of the count: a resetting position leaves one tile in its own band, … -/
theorem botAccA2_in (c : Dev nD) (m : ℕ) (h0 : m % 4 = 0) (u : Fin 4096) (d : Fin 64) (hb : u.val / 2048 = (m / 2) % 2) :
    0 + botTile2 V c (2 * (m / 4) + m % 2) u d = botAcc2 V c (m / 4) (botCnt2 m u) u d := by
  have hu := u.isLt
  have hc : botCnt2 m u = 1 := by unfold botCnt2; split_ifs <;> omega
  have hq : 2 * (m / 4) + m % 2 = 2 * (m / 4) := by omega
  rw [hc, hq]; rfl
/-- … none elsewhere; -/
theorem botAccA2_out (c : Dev nD) (m : ℕ) (h0 : m % 4 = 0) (u : Fin 4096) (d : Fin 64) (hb : ¬ u.val / 2048 = (m / 2) % 2) :
    0 = botAcc2 V c (m / 4) (botCnt2 m u) u d := by
  have hu := u.isLt
  have hc : botCnt2 m u = 0 := by unfold botCnt2; split_ifs <;> omega
  rw [hc]; rfl
/-- a later position of the half adds its tile to its own band, … -/
theorem botAccIn2 (c : Dev nD) (n : ℕ) (h0 : ¬ n % 4 = 0) (u : Fin 4096) (d : Fin 64) (hb : u.val / 2048 = (n / 2) % 2) :
    botAcc2 V c ((n - 1) / 4) (botCnt2 (n - 1) u) u d + botTile2 V c (2 * (n / 4) + n % 2) u d
      = botAcc2 V c (n / 4) (botCnt2 n u) u d := by
  have hu := u.isLt
  have h4 : (n - 1) / 4 = n / 4 := by omega
  rcases (show n % 4 = 1 ∨ n % 4 = 2 ∨ n % 4 = 3 by omega) with h | h | h
  · have hc1 : botCnt2 (n - 1) u = 1 := by unfold botCnt2; split_ifs <;> omega
    have hc2 : botCnt2 n u = 2 := by unfold botCnt2; split_ifs <;> omega
    have hq : 2 * (n / 4) + n % 2 = 2 * (n / 4) + 1 := by omega
    rw [hc1, hc2, hq, h4]; rfl
  · have hc1 : botCnt2 (n - 1) u = 0 := by unfold botCnt2; split_ifs <;> omega
    have hc2 : botCnt2 n u = 1 := by unfold botCnt2; split_ifs <;> omega
    have hq : 2 * (n / 4) + n % 2 = 2 * (n / 4) := by omega
    rw [hc1, hc2, hq, h4]; rfl
  · have hc1 : botCnt2 (n - 1) u = 1 := by unfold botCnt2; split_ifs <;> omega
    have hc2 : botCnt2 n u = 2 := by unfold botCnt2; split_ifs <;> omega
    have hq : 2 * (n / 4) + n % 2 = 2 * (n / 4) + 1 := by omega
    rw [hc1, hc2, hq, h4]; rfl
/-- … and leaves the other band's count. -/
theorem botAccOut2 (c : Dev nD) (n : ℕ) (h0 : ¬ n % 4 = 0) (u : Fin 4096) (d : Fin 64) (hb : ¬ u.val / 2048 = (n / 2) % 2) :
    botAcc2 V c ((n - 1) / 4) (botCnt2 (n - 1) u) u d = botAcc2 V c (n / 4) (botCnt2 n u) u d := by
  have hu := u.isLt
  have hc : botCnt2 (n - 1) u = botCnt2 n u := by unfold botCnt2; split_ifs <;> omega
  rw [hc, show (n - 1) / 4 = n / 4 by omega]

/-- THE ACCUMULATOR AFTER EVERY POSITION: entry (u, d) holds the tiles of the current column half added so far into
    row u's band, in the order zero, first tile, second tile. By induction on the position; each position is in one
    of the three cases by its remainder modulo 4, and row u is inside or outside the band the position rewrites. -/
theorem botInv2 (c : Dev nD) : ∀ (n : ℕ) (hn : n < cfg2.N) (u : Fin 4096) (d : Fin 64),
    (outsAt2 V c n hn).2.2.2 (ix2 u d) = botAcc2 V c (n / 4) (botCnt2 n u) u d := by
  intro n
  induction n using Nat.strong_induction_on with
  | _ n ih =>
    intro hn u d
    have hu4 := u.isLt
    have hN : n < 8 := lt_of_lt_of_eq hn (show cfg2.N = 8 from N_2)
    by_cases hb : u.val / 2048 = (n / 2) % 2
    · have hr : u.val - 2048 * ((n / 2) % 2) < 2048 := by omega
      have hu : u.val = 2048 * ((n / 2) % 2) + (⟨u.val - 2048 * ((n / 2) % 2), hr⟩ : Fin 2048).val := by
        show u.val = 2048 * ((n / 2) % 2) + (u.val - 2048 * ((n / 2) % 2)); omega
      by_cases h0 : n % 4 = 0
      · have h1 : ¬ n % 4 = 3 := by omega
        rw [outsAt2_A V c ⟨n, hn⟩ h0 h1]
        dsimp only
        refine (botStepA2_in c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) scM2_0 hsc2_0 scM2_1 hsc2_1 _ _ (iblk2 V c 0 ⟨n, hn⟩) (iblk2 V c 1 ⟨n, hn⟩) (iblk2 V c 2 ⟨n, hn⟩)
          (2048 * ((n / 2) % 2)) (botOff2 ⟨n, hn⟩) u ⟨u.val - 2048 * ((n / 2) % 2), hr⟩ d hu).trans ?_
        exact (congrArg (fun x : EReal => 0 + x) (botTileBlk2 V c ⟨n, hn⟩ u ⟨u.val - 2048 * ((n / 2) % 2), hr⟩ d hu)).trans (botAccA2_in V c n h0 u d hb)
      · have hprev := ih (n - 1) (by omega) (Nat.lt_of_le_of_lt (Nat.sub_le _ _) hn) u d
        by_cases h1 : n % 4 = 3
        · rw [outsAt2_C V c ⟨n, hn⟩ h0 h1]
          dsimp only
          refine (botStepC2_in c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) scM2_0 hsc2_0 scM2_1 hsc2_1 _ _ (iblk2 V c 0 ⟨n, hn⟩) (iblk2 V c 1 ⟨n, hn⟩) (iblk2 V c 2 ⟨n, hn⟩) _ _
            (2048 * ((n / 2) % 2)) (botOff2 ⟨n, hn⟩) u ⟨u.val - 2048 * ((n / 2) % 2), hr⟩ d hu).trans ?_
          exact (congrArg₂ (fun x y : EReal => x + y) hprev (botTileBlk2 V c ⟨n, hn⟩ u ⟨u.val - 2048 * ((n / 2) % 2), hr⟩ d hu)).trans (botAccIn2 V c n h0 u d hb)
        · rw [outsAt2_B V c ⟨n, hn⟩ h0 h1]
          dsimp only
          refine (botStepB2_in c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) scM2_0 hsc2_0 scM2_1 hsc2_1 _ _ (iblk2 V c 0 ⟨n, hn⟩) (iblk2 V c 1 ⟨n, hn⟩) (iblk2 V c 2 ⟨n, hn⟩) _ _
            (2048 * ((n / 2) % 2)) (botOff2 ⟨n, hn⟩) u ⟨u.val - 2048 * ((n / 2) % 2), hr⟩ d hu).trans ?_
          exact (congrArg₂ (fun x y : EReal => x + y) hprev (botTileBlk2 V c ⟨n, hn⟩ u ⟨u.val - 2048 * ((n / 2) % 2), hr⟩ d hu)).trans (botAccIn2 V c n h0 u d hb)
    · have hout : u.val < 2048 * ((n / 2) % 2) ∨ 2048 * ((n / 2) % 2) + 2048 ≤ u.val := by omega
      by_cases h0 : n % 4 = 0
      · have h1 : ¬ n % 4 = 3 := by omega
        rw [outsAt2_A V c ⟨n, hn⟩ h0 h1]
        dsimp only
        refine (botStepA2_out c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) scM2_0 hsc2_0 scM2_1 hsc2_1 _ _ (iblk2 V c 0 ⟨n, hn⟩) (iblk2 V c 1 ⟨n, hn⟩) (iblk2 V c 2 ⟨n, hn⟩)
          (2048 * ((n / 2) % 2)) (botOff2 ⟨n, hn⟩) u d hout).trans ?_
        exact botAccA2_out V c n h0 u d hb
      · have hprev := ih (n - 1) (by omega) (Nat.lt_of_le_of_lt (Nat.sub_le _ _) hn) u d
        by_cases h1 : n % 4 = 3
        · rw [outsAt2_C V c ⟨n, hn⟩ h0 h1]
          dsimp only
          refine (botStepC2_out c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) scM2_0 hsc2_0 scM2_1 hsc2_1 _ _ (iblk2 V c 0 ⟨n, hn⟩) (iblk2 V c 1 ⟨n, hn⟩) (iblk2 V c 2 ⟨n, hn⟩) _ _
            (2048 * ((n / 2) % 2)) (botOff2 ⟨n, hn⟩) u d hout).trans ?_
          exact hprev.trans (botAccOut2 V c n h0 u d hb)
        · rw [outsAt2_B V c ⟨n, hn⟩ h0 h1]
          dsimp only
          refine (botStepB2_out c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) scM2_0 hsc2_0 scM2_1 hsc2_1 _ _ (iblk2 V c 0 ⟨n, hn⟩) (iblk2 V c 1 ⟨n, hn⟩) (iblk2 V c 2 ⟨n, hn⟩) _ _
            (2048 * ((n / 2) % 2)) (botOff2 ⟨n, hn⟩) u d hout).trans ?_
          exact hprev.trans (botAccOut2 V c n h0 u d hb)
end

end Cert.KernelIdeal.Hand

end
-- ==== Proof.Val2BotD.lean ====
/-
  One propagation layer's user-side output array after the region, at the ideal float values.

  The output array has two slices of 4096 rows, one per column half of the weights. Slice h is written back once, at
  the last position of half h (position 4·h + 3), from the output block, which there holds the accumulator: every row
  has received both tiles of the half, so entry (h, u, d) is (0 + T (2h)) + T (2h + 1), with T q (u, d) the sum over
  k < 2048 of weights(u, q·2048 + k) · table(q·2048 + k, d). The two slices' blocks cover the array. Regrouping the
  two tile sums (only the order and grouping of the terms change, so no finiteness is needed on the extended reals),
  entry (h, u, d) is the sum over the 4096 columns k of half h of weights(u, 4096·h + k) · table(4096·h + k, d).
-/
import proofs.«142347_j15487652069895_2_alg».proof.Proof.Val2BotC
import proofs.«142347_j15487652069895_2_alg».proof.Proof.SumLaws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable (V : (c : Dev nD) → (b : Ref sig .tc) → Buf (Elt Ideal) ((c : Thread nD τ).loc b))

/-- The output block of position t is block (t / 4, 0, 0) of the output array. -/
theorem botIdxO2 : ∀ t : Fin cfg2.N, win2_4.index t 0 = t.val / 4 ∧ win2_4.index t 1 = 0 ∧ win2_4.index t 2 = 0 :=
  (by decide +kernel : ∀ t : Fin grid2.N, win2_4.index t 0 = t.val / 4 ∧ win2_4.index t 1 = 0 ∧ win2_4.index t 2 = 0)

/-- What the output array ends holding: slice h is column half h's two tiles accumulated from zero. -/
def botG2 (c : Dev nD) : S2x4096x64.Idx → EReal := fun p => botAcc2 V c (p 0).val 2 (p 1) (p 2)

theorem botG2_apply (c : Dev nD) (a : Fin 2) (u : Fin 4096) (d : Fin 64) :
    botG2 V c (ix3 a u d) = botAcc2 V c a.val 2 u d := rfl

theorem botAccCongr2 (c : Dev nD) {a a' : ℕ} {u u' : Fin 4096} {d d' : Fin 64} (ha : a = a') (hu : u.val = u'.val)
    (hd : d.val = d'.val) : botAcc2 V c a 2 u d = botAcc2 V c a' 2 u' d' := by
  obtain rfl := ha; obtain rfl := Fin.ext hu; obtain rfl := Fin.ext hd; rfl

/-- What the output block holds after the last position of a column half: both tiles of the half, in every row. -/
theorem botOut2 (c : Dev nD) (t : Fin cfg2.N) (h0 : ¬ t.val % 4 = 0) (h3 : t.val % 4 = 3) :
    (outsAt2 V c t.val t.isLt).2.1 = fun y : S1x4096x64.Idx => botAcc2 V c (t.val / 4) 2 (y 1) (y 2) := by
  funext y
  obtain ⟨h, u, d, rfl⟩ : ∃ (h : Fin 1) (u : Fin 4096) (d : Fin 64), y = ix3 h u d := ⟨y 0, y 1, y 2, eq_ix3 y⟩
  have hc : botCnt2 t.val u = 2 := by unfold botCnt2; have := u.isLt; split_ifs <;> omega
  have hinv := botInv2 V c t.val t.isLt u d
  rw [hc] at hinv
  rw [outsAt2_C V c t h0 h3] at hinv ⊢
  dsimp only at hinv ⊢
  exact (botOutC2 c (grid2.coords t) (ms2_0 t) (hs2_0 t) (ms2_1 t) (hs2_1 t) (ms2_2 t) (hs2_2 t) (ms2_3 t) (hs2_3 t) (ms2_4 t) (hs2_4 t) scM2_0 hsc2_0 scM2_1 hsc2_1 _ _ (iblk2 V c 0 t) (iblk2 V c 1 t) (iblk2 V c 2 t) _ _ h u d).trans hinv

/-- The write-back at the last position of a column half writes that half's slice. -/
theorem botFlushed2 (c : Dev nD) (t : Fin cfg2.N) (hf : (cfg2.win 4).flush t = true) :
    (dat2 V c).flushed 4 t = ((cfg2.win 4).blk t).view.read (Elt Ideal) (botG2 V c) := by
  have h3 : t.val % 4 = 3 := (flush2_4 t).mp hf
  have h0 : ¬ t.val % 4 = 0 := by omega
  obtain ⟨e0, e1, e2⟩ := botIdxO2 t
  show (cfg2.win 4).cut (grid2.coords t) ((dat2 V c).after 4 t) = _
  rw [after2_4, botOut2 V c t h0 h3]
  funext y
  rw [View.read_apply]
  have hy0 : (y 0).val < 1 := (y 0).isLt
  show botAcc2 V c (t.val / 4) 2 _ _ = botG2 V c (((cfg2.win 4).blk t).view.emb y)
  unfold botG2
  refine botAccCongr2 V c ?_ ?_ ?_
  · show t.val / 4 = win2_4.index t 0 * 1 + 1 * (y 0).val; rw [e0]; omega
  · show (y 1).val = win2_4.index t 1 * 4096 + 1 * (y 1).val; rw [e1]; omega
  · show (y 2).val = win2_4.index t 2 * 64 + 1 * (y 2).val; rw [e2]; omega

/-- An index of the output array is in position t's block iff each coordinate is in the block's range. -/
theorem botMemBlk2 (t : Fin cfg2.N) (i : S2x4096x64.Idx) :
    Iff (i ∈ ((cfg2.win 4).blk t).view.set) (∀ a : Fin 3, win2_4.index t a * S1x4096x64.size a ≤ (i a).val ∧ (i a).val < win2_4.index t a * S1x4096x64.size a + S1x4096x64.size a) := by
  show Iff (i ∈ ((View.whole (Pipeline.arrRef spec2 4)).slice (win2_4.rect t)).set) _
  rw [View.set_slice_whole, Rect.mem_set_unit]
  exact Iff.rfl
/-- Slice h of the output array is written back at position 4·h + 3. -/
theorem botCover2 (i : S2x4096x64.Idx) : ∃ t : Fin cfg2.N, (cfg2.win 4).flush t = true ∧ i ∈ ((cfg2.win 4).blk t).view.set := by
  have hN : cfg2.N = 8 := N_2
  have h0 : (i 0).val < 2 := (i 0).isLt
  have h1 : (i 1).val < 4096 := (i 1).isLt
  have h2 : (i 2).val < 64 := (i 2).isLt
  have hlt : 4 * (i 0).val + 3 < cfg2.N := by rw [hN]; omega
  obtain ⟨e0, e1, e2⟩ := botIdxO2 ⟨4 * (i 0).val + 3, hlt⟩
  have e0' : win2_4.index ⟨4 * (i 0).val + 3, hlt⟩ 0 = (4 * (i 0).val + 3) / 4 := e0
  refine ⟨⟨4 * (i 0).val + 3, hlt⟩, (flush2_4 _).mpr (by show (4 * (i 0).val + 3) % 4 = 3; omega), ?_⟩
  rw [botMemBlk2]
  intro a
  match a with
  | ⟨0, _⟩ => show win2_4.index ⟨4 * (i 0).val + 3, hlt⟩ 0 * 1 ≤ (i 0).val ∧ (i 0).val < win2_4.index ⟨4 * (i 0).val + 3, hlt⟩ 0 * 1 + 1; rw [e0']; omega
  | ⟨1, _⟩ => show win2_4.index ⟨4 * (i 0).val + 3, hlt⟩ 1 * 4096 ≤ (i 1).val ∧ (i 1).val < win2_4.index ⟨4 * (i 0).val + 3, hlt⟩ 1 * 4096 + 4096; rw [e1]; omega
  | ⟨2, _⟩ => show win2_4.index ⟨4 * (i 0).val + 3, hlt⟩ 2 * 64 ≤ (i 2).val ∧ (i 2).val < win2_4.index ⟨4 * (i 0).val + 3, hlt⟩ 2 * 64 + 64; rw [e2]; omega

/-- So the output array ends holding, in slice h, column half h's two tiles accumulated from zero. -/
theorem botArr2 (c : Dev nD) : (dat2 V c).arrAt 4 cfg2.N = botG2 V c :=
  (dat2 V c).arrAt_eq_of_cover 4 (botG2 V c) (botFlushed2 V c) botCover2

/-- THE USER-SIDE OUTPUT: slice h, entry (u, d) is the partial product over column half h. -/
theorem botFinal2 (c : Dev nD) (h : Fin 2) (u : Fin 4096) (d : Fin 64) :
    ((dat2 V c).arrAt 4 cfg2.N : S2x4096x64.Idx → EReal) (ix3 h u d)
      = ∑ k : Fin 4096,
          botW2 V c (ix2 u (⟨h.val * 4096 + k.val, by have := h.isLt; have := k.isLt; omega⟩ : Fin 8192))
            * botX2 V c (ix2 (⟨h.val * 4096 + k.val, by have := h.isLt; have := k.isLt; omega⟩ : Fin 8192) d) := by
  rw [botArr2 V c, botG2_apply]
  show (0 + botTile2 V c (2 * h.val) u d) + botTile2 V c (2 * h.val + 1) u d = _
  have hh := h.isLt
  rw [Cert.Spec.sum4096_acc2
    (fun k : Fin 4096 => botW2 V c (ix2 u (⟨h.val * 4096 + k.val, by have := k.isLt; omega⟩ : Fin 8192))
            * botX2 V c (ix2 (⟨h.val * 4096 + k.val, by have := k.isLt; omega⟩ : Fin 8192) d))
    (fun j r => ⟨j.val * 2048 + r.val, by have := j.isLt; have := r.isLt; omega⟩) (fun _ _ => rfl)]
  have hcol : ∀ (j : Fin 2) (r : Fin 2048) (hb : h.val * 4096 + (j.val * 2048 + r.val) < 8192),
      botCol2 (2 * h.val + j.val) r = ⟨h.val * 4096 + (j.val * 2048 + r.val), hb⟩ := fun j r hb => Fin.ext (by
    show ((2 * h.val + j.val) * 2048 + r.val) % 8192 = h.val * 4096 + (j.val * 2048 + r.val)
    have := j.isLt; have := r.isLt; omega)
  unfold botTile2
  refine congrArg₂ (fun x y : EReal => x + y) (congrArg (fun x : EReal => 0 + x) (Finset.sum_congr rfl fun r _ => ?_)) (Finset.sum_congr rfl fun r _ => ?_)
  · rw [show 2 * h.val = 2 * h.val + (0 : Fin 2).val from rfl, hcol 0 r (by have := r.isLt; show h.val * 4096 + (0 * 2048 + r.val) < 8192; omega)]
  · rw [show 2 * h.val + 1 = 2 * h.val + (1 : Fin 2).val from rfl, hcol 1 r (by have := r.isLt; show h.val * 4096 + (1 * 2048 + r.val) < 8192; omega)]
end

end Cert.KernelIdeal.Hand

end
-- ==== Proof.Val3Top.lean ====
/-
  One propagation layer's item-side product, piece by piece. The body adds, into one band of 2048 rows of the first
  accumulator (4096 rows of 64), the product of the transposed weight tile with the block of the table's first rows:
  at row r of the band and column d it adds the sum over the tile's 2048 rows k of tile(k, r) * block(k, d) to what the
  band held. This module reads that at an index, at the ideal float values (where narrowing to sixteen bits changes
  nothing and the product into a zero accumulator is the plain sum): inside the band the accumulator gains the sum,
  outside it keeps what it held; at a point that first zeroes the accumulator, what it held is zero; at a point that
  copies the accumulator out, the output block is the accumulator.
-/
import proofs.«142347_j15487652069895_2_alg».proof.Proof.K3Frame
import proofs.«142347_j15487652069895_2_alg».proof.Proof.SumLaws
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem top3_hz : (![0, 0] : Fin 2 → Nat) = fun _ => 0 := funext fun a => by fin_cases a <;> rfl

/-! ## The contraction: over the tile's rows, for both operands -/

theorem top3_lhs0 (j : S2048x64.Idx) (q : dot_S2048x2048_S2048x64_S2048x64_0_0_1_1_n_n.contr.Idx) :
    (dot_S2048x2048_S2048x64_S2048x64_0_0_1_1_n_n.lhsIdx j q 0).val = (q ⟨0, by decide⟩).val :=
  dot_S2048x2048_S2048x64_S2048x64_0_0_1_1_n_n.lhsIdx_val_of_single rfl j q
theorem top3_lhs1 (j : S2048x64.Idx) (q : dot_S2048x2048_S2048x64_S2048x64_0_0_1_1_n_n.contr.Idx) :
    (dot_S2048x2048_S2048x64_S2048x64_0_0_1_1_n_n.lhsIdx j q 1).val = (j 0).val := by
  unfold DotDims.lhsIdx
  rw [dif_neg (show ¬(1 : Fin S2048x2048.rank) ∈ dot_S2048x2048_S2048x64_S2048x64_0_0_1_1_n_n.lhsBatch by decide), dif_pos (show (1 : Fin S2048x2048.rank) ∈ dot_S2048x2048_S2048x64_S2048x64_0_0_1_1_n_n.lhsNonContracting by decide)]
  rfl
theorem top3_rhs0 (j : S2048x64.Idx) (q : dot_S2048x2048_S2048x64_S2048x64_0_0_1_1_n_n.contr.Idx) :
    (dot_S2048x2048_S2048x64_S2048x64_0_0_1_1_n_n.rhsIdx j q 0).val = (q ⟨0, by decide⟩).val :=
  dot_S2048x2048_S2048x64_S2048x64_0_0_1_1_n_n.rhsIdx_val_of_single rfl j q
theorem top3_rhs1 (j : S2048x64.Idx) (q : dot_S2048x2048_S2048x64_S2048x64_0_0_1_1_n_n.contr.Idx) :
    (dot_S2048x2048_S2048x64_S2048x64_0_0_1_1_n_n.rhsIdx j q 1).val = (j 1).val := by
  unfold DotDims.rhsIdx
  rw [dif_neg (show ¬(1 : Fin S2048x64.rank) ∈ dot_S2048x2048_S2048x64_S2048x64_0_0_1_1_n_n.rhsBatch by decide), dif_pos (show (1 : Fin S2048x64.rank) ∈ dot_S2048x2048_S2048x64_S2048x64_0_0_1_1_n_n.rhsNonContracting by decide)]
  rfl

/-- The band's new contents at row r, column d: what it held plus the sum over the tile's rows k of
    tile(k, r) * block(k, d). -/
theorem top3_pay6_apply (x0 : FVec Ideal S2048x2048 .bf16) (x1 : FVec Ideal S2048x64 .f32) (v27 : FVec Ideal S2048x64 .f32)
    (r : Fin 2048) (d : Fin 64) :
    k3_pay6 (F := Ideal) x0 x1 v27 (ix2 r d) = v27 (ix2 r d) + ∑ k : Fin 2048, x0 (ix2 k r) * x1 (ix2 k d) := by
  unfold k3_pay6 k3_pay4
  simp only [shapeCast_self]
  refine congrArg (v27 (ix2 r d) + ·) ?_
  refine (Ideal.matmul_constant_zero_apply dot_S2048x2048_S2048x64_S2048x64_0_0_1_1_n_n none x0 _ (ix2 r d)).trans ?_
  rw [← Equiv.sum_comp (contrEquiv1 dot_S2048x2048_S2048x64_S2048x64_0_0_1_1_n_n 2048 rfl rfl).symm]
  refine Finset.sum_congr rfl fun k _ => ?_
  have hk := contrEquiv1_symm_val dot_S2048x2048_S2048x64_S2048x64_0_0_1_1_n_n 2048 rfl rfl k
  have el : dot_S2048x2048_S2048x64_S2048x64_0_0_1_1_n_n.lhsIdx (ix2 r d) ((contrEquiv1 dot_S2048x2048_S2048x64_S2048x64_0_0_1_1_n_n 2048 rfl rfl).symm k) = ix2 k r := funext fun a => Fin.ext (by
    match a with
    | ⟨0, _⟩ => exact (top3_lhs0 _ _).trans hk
    | ⟨1, _⟩ => exact top3_lhs1 _ _)
  have er : dot_S2048x2048_S2048x64_S2048x64_0_0_1_1_n_n.rhsIdx (ix2 r d) ((contrEquiv1 dot_S2048x2048_S2048x64_S2048x64_0_0_1_1_n_n 2048 rfl rfl).symm k) = ix2 k d := funext fun a => Fin.ext (by
    match a with
    | ⟨0, _⟩ => exact (top3_rhs0 _ _).trans hk
    | ⟨1, _⟩ => exact top3_rhs1 _ _)
  rw [el, er]
  rfl

/-! ## A row of the accumulator inside or outside the band a point rewrites -/

/-- Row q of the accumulator, column d, is the band's row r, column d, when q is the band's first row plus r. -/
theorem top3_band_emb (i : grid3.Coords) (r : Fin 2048) (d : Fin 64) (q : Fin 4096) (hq : q.val = k3_off2 i 0 + r.val)
    (h1 : k3_off2 i 1 = 0) : (ix2 q d : S4096x64.Idx) = (Rect.unit (s := S4096x64) (k3_off2 i) S2048x64.size (k3_off2_inb i)).emb (ix2 r d) :=
  funext fun a => Fin.ext (by
    match a with
    | ⟨0, _⟩ => show q.val = k3_off2 i 0 + 1 * r.val; omega
    | ⟨1, _⟩ => show d.val = k3_off2 i 1 + 1 * d.val; omega)

/-- A row before the band's first or from its last on is not in the band. -/
theorem top3_band_not_mem (i : grid3.Coords) (q : Fin 4096) (d : Fin 64)
    (hq : q.val < k3_off2 i 0 ∨ k3_off2 i 0 + 2048 ≤ q.val) : (ix2 q d : S4096x64.Idx) ∉ (Rect.unit (s := S4096x64) (k3_off2 i) S2048x64.size (k3_off2_inb i)).set := by
  rw [Rect.mem_set_unit]
  intro h
  have h0 := h 0
  have e : ((ix2 q d : S4096x64.Idx) 0).val = q.val := rfl
  have s0 : S2048x64.size 0 = 2048 := rfl
  rw [e, s0] at h0
  omega

/-! ## A point that only adds (positions 1, 2, 5, 6) -/

theorem top3_soutB_in (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i) (x0 : Vec Ideal S2048x2048 .bf16) (x1 : Vec Ideal S2048x64 .f32) (x2 : Vec Ideal S2048x64 .f32)
    (xs0 xs1 : Vec Ideal S4096x64 .f32) (r : Fin 2048) (d : Fin 64) (q : Fin 4096) (hq : q.val = k3_off2 i 0 + r.val) (h1 : k3_off2 i 1 = 0) :
    sout3_B_0 c i arg3 harg3 arg4 harg4 arg5 harg5 arg6 harg6 arg7 harg7 arg8 harg8 arg9 harg9 hc0 hc1 x0 x1 x2 xs0 xs1 (ix2 q d)
      = xs0 (ix2 q d) + ∑ k : Fin 2048, x0 (ix2 k r) * x1 (ix2 k d) := by
  rw [top3_band_emb i r d q hq h1]
  unfold sout3_B_0 kernelRun3_B
  dsimp only
  rw [View.read_writes_cons_emb]
  simp only [View.readAt_eq_ld, harg3.read_unread, harg4.read_unread, harg8.read_unread, View.ld_unit_zero (S := S2048x2048) top3_hz, View.ld_unit_zero (S := S2048x64) top3_hz]
  exact top3_pay6_apply x0 x1 _ r d

theorem top3_soutB_out (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i) (x0 : Vec Ideal S2048x2048 .bf16) (x1 : Vec Ideal S2048x64 .f32) (x2 : Vec Ideal S2048x64 .f32)
    (xs0 xs1 : Vec Ideal S4096x64 .f32) (q : Fin 4096) (d : Fin 64) (hq : q.val < k3_off2 i 0 ∨ k3_off2 i 0 + 2048 ≤ q.val) :
    sout3_B_0 c i arg3 harg3 arg4 harg4 arg5 harg5 arg6 harg6 arg7 harg7 arg8 harg8 arg9 harg9 hc0 hc1 x0 x1 x2 xs0 xs1 (ix2 q d) = xs0 (ix2 q d) := by
  unfold sout3_B_0 kernelRun3_B
  dsimp only
  rw [View.read_writes_apply_of_forall_not_mem _ _ _ _ (fun p hp => by
    obtain rfl := List.mem_singleton.mp hp
    exact top3_band_not_mem i q d hq), harg8.read_unread]

/-! ## A point that adds and then copies out (positions 3, 7) -/

theorem top3_soutC_in (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec Ideal S2048x2048 .bf16) (x1 : Vec Ideal S2048x64 .f32) (x2 : Vec Ideal S2048x64 .f32)
    (xs0 xs1 : Vec Ideal S4096x64 .f32) (r : Fin 2048) (d : Fin 64) (q : Fin 4096) (hq : q.val = k3_off2 i 0 + r.val) (h1 : k3_off2 i 1 = 0) :
    sout3_C_0 c i arg3 harg3 arg4 harg4 arg5 harg5 arg6 harg6 arg7 harg7 arg8 harg8 arg9 harg9 hc0 hc1 x0 x1 x2 xs0 xs1 (ix2 q d)
      = xs0 (ix2 q d) + ∑ k : Fin 2048, x0 (ix2 k r) * x1 (ix2 k d) := by
  rw [top3_band_emb i r d q hq h1]
  unfold sout3_C_0 kernelRun3_C
  dsimp only
  sl_unfold_run_names
  rw [View.read_writes_cons_emb]
  simp only [View.readAt_eq_ld, harg3.read_unread, harg4.read_unread, harg8.read_unread, View.ld_unit_zero (S := S2048x2048) top3_hz, View.ld_unit_zero (S := S2048x64) top3_hz]
  exact top3_pay6_apply x0 x1 _ r d

theorem top3_soutC_out (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec Ideal S2048x2048 .bf16) (x1 : Vec Ideal S2048x64 .f32) (x2 : Vec Ideal S2048x64 .f32)
    (xs0 xs1 : Vec Ideal S4096x64 .f32) (q : Fin 4096) (d : Fin 64) (hq : q.val < k3_off2 i 0 ∨ k3_off2 i 0 + 2048 ≤ q.val) :
    sout3_C_0 c i arg3 harg3 arg4 harg4 arg5 harg5 arg6 harg6 arg7 harg7 arg8 harg8 arg9 harg9 hc0 hc1 x0 x1 x2 xs0 xs1 (ix2 q d) = xs0 (ix2 q d) := by
  unfold sout3_C_0 kernelRun3_C
  dsimp only
  sl_unfold_run_names
  rw [View.read_writes_apply_of_forall_not_mem _ _ _ _ (fun p hp => by
    obtain rfl := List.mem_singleton.mp hp
    exact top3_band_not_mem i q d hq), harg8.read_unread]

/-- The output block is the accumulator, copied whole. -/
theorem top3_outC_eq (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec Ideal S2048x2048 .bf16) (x1 : Vec Ideal S2048x64 .f32) (x2 : Vec Ideal S2048x64 .f32)
    (xs0 xs1 : Vec Ideal S4096x64 .f32) :
    out3_C_3 c i arg3 harg3 arg4 harg4 arg5 harg5 arg6 harg6 arg7 harg7 arg8 harg8 arg9 harg9 hc0 hc1 x0 x1 x2 xs0 xs1 = sout3_C_0 c i arg3 harg3 arg4 harg4 arg5 harg5 arg6 harg6 arg7 harg7 arg8 harg8 arg9 harg9 hc0 hc1 x0 x1 x2 xs0 xs1 := by
  unfold out3_C_3 sout3_C_0
  rw [View.read_writes_eq_canon _ _ _ (cover3_C_3 c i arg3 harg3 arg4 harg4 arg5 harg5 arg6 harg6 arg7 harg7 arg8 harg8 arg9 harg9 hc0 hc1 x0 x1 x2 xs0 xs1)]
  unfold kernelRun3_C
  dsimp only
  rw [View.canon_unit_zero top3_hz]
  simp only [View.readAt_eq_ld, View.ld_unit_zero (S := S4096x64) top3_hz]

/-! ## A point that first zeroes the accumulator (positions 0, 4) -/

/-- The zero block. -/
theorem top3_pay2_apply (y : S4096x64.Idx) : k3_pay2 (F := Ideal) y = 0 := by
  unfold k3_pay2
  simp only [shapeCast_self]
  exact Ideal.ofBits_zero_f32

/-- A read outside the last write's rectangle reads what the earlier writes left. -/
theorem top3_read_cons_not_mem {sg : RefSig} {κ : Kind} {sp : Space} {s : Shape} {e : EltTy} {Val : EltTy → Type}
    (v : View sg κ sp s e) (f : v.ty.Contents Val) (r : Rect s) (w : r.shape.Idx → Val e) (L : List (View.Piece Val s e))
    (y : s.Idx) (h : y ∉ r.set) : v.read Val (v.writes Val f (⟨r, w⟩ :: L)) y = v.read Val (v.writes Val f L) y := by
  rw [View.writes_cons, View.read_slice_write_of_not_mem r _ _ _ (by rwa [Rect.map_emb_univ])]

theorem top3_soutA_in (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec Ideal S2048x2048 .bf16) (x1 : Vec Ideal S2048x64 .f32) (x2 : Vec Ideal S2048x64 .f32)
    (r : Fin 2048) (d : Fin 64) (q : Fin 4096) (hq : q.val = k3_off2 i 0 + r.val) (h1 : k3_off2 i 1 = 0) :
    sout3_A_0 c i arg3 harg3 arg4 harg4 arg5 harg5 arg6 harg6 arg7 harg7 arg8 harg8 arg9 harg9 hc0 hc1 x0 x1 x2 (ix2 q d) = ∑ k : Fin 2048, x0 (ix2 k r) * x1 (ix2 k d) := by
  rw [top3_band_emb i r d q hq h1]
  unfold sout3_A_0 kernelRun3_A
  dsimp only
  sl_unfold_run_names
  rw [View.read_writes_cons_emb]
  simp only [View.readAt_eq_ld, harg3.read_unread, harg4.read_unread, View.ld_unit_zero (S := S2048x2048) top3_hz, View.ld_unit_zero (S := S2048x64) top3_hz]
  refine (top3_pay6_apply x0 x1 _ r d).trans ?_
  rw [View.read_writes_junk_eq_canon, View.canon_unit_zero top3_hz]
  show k3_pay2 (F := Ideal) _ + _ = _
  rw [top3_pay2_apply, zero_add]

theorem top3_soutA_out (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec Ideal S2048x2048 .bf16) (x1 : Vec Ideal S2048x64 .f32) (x2 : Vec Ideal S2048x64 .f32)
    (q : Fin 4096) (d : Fin 64) (hq : q.val < k3_off2 i 0 ∨ k3_off2 i 0 + 2048 ≤ q.val) :
    sout3_A_0 c i arg3 harg3 arg4 harg4 arg5 harg5 arg6 harg6 arg7 harg7 arg8 harg8 arg9 harg9 hc0 hc1 x0 x1 x2 (ix2 q d) = 0 := by
  unfold sout3_A_0 kernelRun3_A
  dsimp only
  sl_unfold_run_names
  rw [top3_read_cons_not_mem _ _ (Rect.unit (s := S4096x64) (k3_off2 i) S2048x64.size (k3_off2_inb i)) _ _ _ (top3_band_not_mem i q d hq), View.read_writes_junk_eq_canon, View.canon_unit_zero top3_hz]
  exact top3_pay2_apply _

end Cert.KernelIdeal.Hand

end
-- ==== Proof.Val3TopA.lean ====
/-
  One propagation layer's item-side product, over the grid. The grid's eight points are (column half h, row tile i,
  column tile j) at position 4h + 2i + j. At a point the weight tile is rows i*2048.. of columns (2h + j)*2048.., the
  table block is rows i*2048.., and band j of the accumulator gains the tile product. So after position n of half h
  = n / 4, with p = n % 4, row q of the accumulator (band b = q / 2048) holds the partial sum over the first row tile
  if b ≤ p, plus the partial sum over the second row tile if b + 2 ≤ p, of weight(u, h*4096 + q) * table(u, d); after
  the half's last position both are present and their sum is the sum over all 4096 rows u.
-/
import proofs.«142347_j15487652069895_2_alg».proof.Proof.Val3Top
import proofs.«142347_j15487652069895_2_alg».proof.Proof.SumLaws
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section
variable (V : (c : Dev nD) → (b : Ref sig .tc) → Buf (Elt Ideal) ((c : Thread nD τ).loc b))

/-- The weight at row u, column q, as the region finds it. -/
def top3_wAt (c : Dev nD) (u : Fin 4096) (q : Fin 8192) : EReal := (V c main_v6 : S4096x8192.Idx → Elt Ideal .bf16) (ix2 u q)
/-- The table's entry at row u, column d, as the region finds it. -/
def top3_xAt (c : Dev nD) (u : Fin 4096) (d : Fin 64) : EReal := (V c main_v18 : S4096x64.Idx → Elt Ideal .f32) (ix2 u d)

/-- The same two over natural-number coordinates (zero outside the arrays), so that coordinates can be compared
    by arithmetic. -/
def top3_wN (c : Dev nD) (u q : ℕ) : EReal := if h : u < 4096 ∧ q < 8192 then top3_wAt V c ⟨u, h.1⟩ ⟨q, h.2⟩ else 0
def top3_xN (c : Dev nD) (u d : ℕ) : EReal := if h : u < 4096 ∧ d < 64 then top3_xAt V c ⟨u, h.1⟩ ⟨d, h.2⟩ else 0

/-- The partial sum over row tile i of weight(u, h*4096 + q) * table(u, d). -/
def top3_P (c : Dev nD) (h i q d : ℕ) : EReal :=
  ∑ k : Fin 2048, top3_wN V c (i * 2048 + k.val) (h * 4096 + q) * top3_xN V c (i * 2048 + k.val) d

/-! ## The grid: the band a point rewrites and the blocks it reads -/

theorem top3_off : ∀ t : Fin cfg3.N, k3_off2 (grid3.coords t) 0 = t.val % 2 * 2048 ∧ k3_off2 (grid3.coords t) 1 = 0 :=
  (by decide +kernel : ∀ t : Fin grid3.N, k3_off2 (grid3.coords t) 0 = t.val % 2 * 2048 ∧ k3_off2 (grid3.coords t) 1 = 0)
theorem top3_idx0 : ∀ t : Fin cfg3.N, win3_0.index t (0 : Fin 2) = t.val / 2 % 2 ∧ win3_0.index t (1 : Fin 2) = 2 * (t.val / 4) + t.val % 2 :=
  (by decide +kernel : ∀ t : Fin grid3.N, win3_0.index t (0 : Fin 2) = t.val / 2 % 2 ∧ win3_0.index t (1 : Fin 2) = 2 * (t.val / 4) + t.val % 2)
theorem top3_idx1 : ∀ t : Fin cfg3.N, win3_1.index t (0 : Fin 2) = t.val / 2 % 2 ∧ win3_1.index t (1 : Fin 2) = 0 :=
  (by decide +kernel : ∀ t : Fin grid3.N, win3_1.index t (0 : Fin 2) = t.val / 2 % 2 ∧ win3_1.index t (1 : Fin 2) = 0)

/-- The weight tile at a point: row k, column r of it is the weight at row i*2048 + k, column (2h + j)*2048 + r. -/
theorem top3_iblk0 (c : Dev nD) (t : Fin cfg3.N) (k r : Fin 2048) :
    (iblk3 V c 0 t : Vec Ideal S2048x2048 .bf16) (ix2 k r)
      = top3_wN V c (t.val / 2 % 2 * 2048 + k.val) ((2 * (t.val / 4) + t.val % 2) * 2048 + r.val) := by
  have hN : t.val < 8 := lt_of_lt_of_eq t.isLt (show cfg3.N = 8 from N_3)
  have hi := top3_idx0 t
  unfold top3_wN
  rw [dif_pos ⟨by omega, by omega⟩]
  unfold top3_wAt iblk3
  rw [View.read_apply]
  show V c main_v6 _ = V c main_v6 _
  congr 1
  funext a
  apply Fin.ext
  match a with
  | ⟨0, _⟩ => show win3_0.index t (0 : Fin 2) * 2048 + 1 * k.val = t.val / 2 % 2 * 2048 + k.val; rw [hi.1]; omega
  | ⟨1, _⟩ => show win3_0.index t (1 : Fin 2) * 2048 + 1 * r.val = (2 * (t.val / 4) + t.val % 2) * 2048 + r.val; rw [hi.2]; omega

/-- The table block at a point: row k, column d of it is the table at row i*2048 + k, column d. -/
theorem top3_iblk1 (c : Dev nD) (t : Fin cfg3.N) (k : Fin 2048) (d : Fin 64) :
    (iblk3 V c 1 t : Vec Ideal S2048x64 .f32) (ix2 k d) = top3_xN V c (t.val / 2 % 2 * 2048 + k.val) d.val := by
  have hN : t.val < 8 := lt_of_lt_of_eq t.isLt (show cfg3.N = 8 from N_3)
  have hi := top3_idx1 t
  unfold top3_xN
  rw [dif_pos ⟨by omega, d.isLt⟩]
  unfold top3_xAt iblk3
  rw [View.read_apply]
  show V c main_v18 _ = V c main_v18 _
  congr 1
  funext a
  apply Fin.ext
  match a with
  | ⟨0, _⟩ => show win3_1.index t (0 : Fin 2) * 2048 + 1 * k.val = t.val / 2 % 2 * 2048 + k.val; rw [hi.1]; omega
  | ⟨1, _⟩ => show win3_1.index t (1 : Fin 2) * 64 + 1 * d.val = d.val; rw [hi.2]; omega

/-- The tile product at a point, at row r of the band and column d, is the partial sum over the point's row tile at
    the accumulator's row j*2048 + r. -/
theorem top3_tile (c : Dev nD) (t : Fin cfg3.N) (r : Fin 2048) (d : Fin 64)
    (x0 : Vec Ideal S2048x2048 .bf16) (x1 : Vec Ideal S2048x64 .f32) (e0 : x0 = iblk3 V c 0 t) (e1 : x1 = iblk3 V c 1 t) :
    ∑ k : Fin 2048, x0 (ix2 k r) * x1 (ix2 k d)
      = top3_P V c (t.val / 4) (t.val / 2 % 2) (t.val % 2 * 2048 + r.val) d.val := by
  subst e0 e1
  unfold top3_P
  refine Finset.sum_congr rfl fun k _ => ?_
  rw [top3_iblk0, top3_iblk1]
  have e : (2 * (t.val / 4) + t.val % 2) * 2048 + r.val = t.val / 4 * 4096 + (t.val % 2 * 2048 + r.val) := by omega
  rw [e]

/-! ## The accumulator after each position -/

/-- The first accumulator after position n. -/
abbrev top3_scr (c : Dev nD) (n : ℕ) (hn : n < cfg3.N) : Vec Ideal S4096x64 .f32 := (outsAt3 V c n hn).2.2.1

/-- A half's first position: band 0 holds the first row tile's partial sum, the rest is zero. -/
theorem top3_stepA (c : Dev nD) (t : Fin cfg3.N) (h0 : t.val % 4 = 0) (q : Fin 4096) (d : Fin 64) :
    top3_scr V c t.val t.isLt (ix2 q d) = if q.val / 2048 = 0 then top3_P V c (t.val / 4) 0 q.val d.val else 0 := by
  have h1 : ¬t.val % 4 = 3 := by omega
  have ho := top3_off t
  have hq4 : q.val < 4096 := q.isLt
  unfold top3_scr
  rw [outsAt3_A V c t h0 h1]
  dsimp only
  by_cases hb : q.val / 2048 = 0
  · rw [if_pos hb]
    have hq : q.val < 2048 := by omega
    refine (top3_soutA_in c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 ((hcond3_0 t).mpr h0) (fun h => h1 ((hcond3_1 t).mp h)) (iblk3 V c 0 t) (iblk3 V c 1 t) (iblk3 V c 2 t) ⟨q.val, hq⟩ d q (by rw [ho.1]; show q.val = t.val % 2 * 2048 + q.val; omega) ho.2).trans ?_
    refine (top3_tile V c t ⟨q.val, hq⟩ d (iblk3 V c 0 t) (iblk3 V c 1 t) rfl rfl).trans ?_
    show top3_P V c (t.val / 4) (t.val / 2 % 2) (t.val % 2 * 2048 + q.val) d.val = _
    have e1 : t.val / 2 % 2 = 0 := by omega
    have e2 : t.val % 2 * 2048 + q.val = q.val := by omega
    rw [e1, e2]
  · rw [if_neg hb]
    exact top3_soutA_out c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 ((hcond3_0 t).mpr h0) (fun h => h1 ((hcond3_1 t).mp h)) (iblk3 V c 0 t) (iblk3 V c 1 t) (iblk3 V c 2 t) q d (by rw [ho.1]; omega)

/-- Any other position: band j gains the point's partial sum over what the position before left; the other band keeps it. -/
theorem top3_stepBC (c : Dev nD) (t : Fin cfg3.N) (h0 : ¬t.val % 4 = 0) (q : Fin 4096) (d : Fin 64) :
    top3_scr V c t.val t.isLt (ix2 q d)
      = if q.val / 2048 = t.val % 2 then
          top3_scr V c (t.val - 1) (Nat.lt_of_le_of_lt (Nat.sub_le _ _) t.isLt) (ix2 q d) + top3_P V c (t.val / 4) (t.val / 2 % 2) q.val d.val
        else top3_scr V c (t.val - 1) (Nat.lt_of_le_of_lt (Nat.sub_le _ _) t.isLt) (ix2 q d) := by
  have ho := top3_off t
  have hq4 : q.val < 4096 := q.isLt
  unfold top3_scr
  by_cases h1 : t.val % 4 = 3
  · rw [outsAt3_C V c t h0 h1]
    dsimp only
    by_cases hb : q.val / 2048 = t.val % 2
    · rw [if_pos hb]
      have hr : q.val - t.val % 2 * 2048 < 2048 := by omega
      refine (top3_soutC_in c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2 ⟨q.val - t.val % 2 * 2048, hr⟩ d q (by rw [ho.1]; show q.val = t.val % 2 * 2048 + (q.val - t.val % 2 * 2048); omega) ho.2).trans ?_
      refine congrArg (_ + ·) ?_
      refine (top3_tile V c t ⟨q.val - t.val % 2 * 2048, hr⟩ d (iblk3 V c 0 t) (iblk3 V c 1 t) rfl rfl).trans ?_
      show top3_P V c (t.val / 4) (t.val / 2 % 2) (t.val % 2 * 2048 + (q.val - t.val % 2 * 2048)) d.val = _
      have e : t.val % 2 * 2048 + (q.val - t.val % 2 * 2048) = q.val := by omega
      rw [e]
    · rw [if_neg hb]
      exact top3_soutC_out c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2 q d (by rw [ho.1]; omega)
  · rw [outsAt3_B V c t h0 h1]
    dsimp only
    by_cases hb : q.val / 2048 = t.val % 2
    · rw [if_pos hb]
      have hr : q.val - t.val % 2 * 2048 < 2048 := by omega
      refine (top3_soutB_in c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2 ⟨q.val - t.val % 2 * 2048, hr⟩ d q (by rw [ho.1]; show q.val = t.val % 2 * 2048 + (q.val - t.val % 2 * 2048); omega) ho.2).trans ?_
      refine congrArg (_ + ·) ?_
      refine (top3_tile V c t ⟨q.val - t.val % 2 * 2048, hr⟩ d (iblk3 V c 0 t) (iblk3 V c 1 t) rfl rfl).trans ?_
      show top3_P V c (t.val / 4) (t.val / 2 % 2) (t.val % 2 * 2048 + (q.val - t.val % 2 * 2048)) d.val = _
      have e : t.val % 2 * 2048 + (q.val - t.val % 2 * 2048) = q.val := by omega
      rw [e]
    · rw [if_neg hb]
      exact top3_soutB_out c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2 q d (by rw [ho.1]; omega)

end

end Cert.KernelIdeal.Hand

end
-- ==== Proof.Val3TopB.lean ====
/-
  One propagation layer's item-side product: the result array. By induction on the position, after position n the first
  accumulator holds, at row q (band b = q / 2048) and column d, the first row tile's partial sum if b ≤ n % 4 plus the
  second row tile's if b + 2 ≤ n % 4 (a half's first position zeroes it and fills band 0; every later position adds one
  tile's partial sum into one band). After a half's last position both partial sums are there in both bands, and their
  sum is the sum over all 4096 rows u of weight(u, h*4096 + q) * table(u, d). That position copies the accumulator into
  the output block, which is written back as rows h*4096.. of the result; the two halves' blocks cover the result, so
  the result at row q, column d is the sum over u of weight(u, q) * table(u, d).
-/
import proofs.«142347_j15487652069895_2_alg».proof.Proof.Val3TopA
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section
variable (V : (c : Dev nD) → (b : Ref sig .tc) → Buf (Elt Ideal) ((c : Thread nD τ).loc b))

/-! ## The accumulator after position n, in closed form -/

theorem top3_inv (c : Dev nD) : ∀ (n : ℕ) (hn : n < cfg3.N) (q : Fin 4096) (d : Fin 64),
    top3_scr V c n hn (ix2 q d)
      = (if q.val / 2048 ≤ n % 4 then top3_P V c (n / 4) 0 q.val d.val else 0)
        + (if q.val / 2048 + 2 ≤ n % 4 then top3_P V c (n / 4) 1 q.val d.val else 0)
  | 0, hn, q, d => by
    refine (top3_stepA V c ⟨0, hn⟩ rfl q d).trans ?_
    have hq : q.val < 4096 := q.isLt
    show (if q.val / 2048 = 0 then top3_P V c (0 / 4) 0 q.val d.val else 0) = _
    by_cases hb : q.val / 2048 = 0
    · rw [if_pos hb, if_pos (by omega), if_neg (by omega), add_zero]
    · rw [if_neg hb, if_neg (by omega), if_neg (by omega), add_zero]
  | n + 1, hn, q, d => by
    have hN : n + 1 < 8 := lt_of_lt_of_eq hn (show cfg3.N = 8 from N_3)
    have hq : q.val < 4096 := q.isLt
    by_cases h0 : (n + 1) % 4 = 0
    · refine (top3_stepA V c ⟨n + 1, hn⟩ h0 q d).trans ?_
      show (if q.val / 2048 = 0 then top3_P V c ((n + 1) / 4) 0 q.val d.val else 0) = _
      by_cases hb : q.val / 2048 = 0
      · rw [if_pos hb, if_pos (by omega), if_neg (by omega), add_zero]
      · rw [if_neg hb, if_neg (by omega), if_neg (by omega), add_zero]
    · refine (top3_stepBC V c ⟨n + 1, hn⟩ h0 q d).trans ?_
      show (if q.val / 2048 = (n + 1) % 2 then
          top3_scr V c n _ (ix2 q d) + top3_P V c ((n + 1) / 4) ((n + 1) / 2 % 2) q.val d.val
        else top3_scr V c n _ (ix2 q d)) = _
      rw [top3_inv c n (Nat.lt_of_succ_lt hn) q d]
      have hh : (n + 1) / 4 = n / 4 := by omega
      have e1 : n % 4 = (n + 1) % 4 - 1 := by omega
      have e2 : (n + 1) % 2 = (n + 1) % 4 % 2 := by omega
      have e3 : (n + 1) / 2 % 2 = (n + 1) % 4 / 2 := by omega
      have hb : q.val / 2048 = 0 ∨ q.val / 2048 = 1 := by omega
      have hp : (n + 1) % 4 = 1 ∨ (n + 1) % 4 = 2 ∨ (n + 1) % 4 = 3 := by omega
      rw [hh, e1, e2, e3]
      rcases hb with hb | hb <;> rcases hp with hp | hp | hp <;> rw [hb, hp] <;> simp

/-- After a half's last position: the sum over all 4096 rows. -/
theorem top3_full (c : Dev nD) (t : Fin cfg3.N) (h3 : t.val % 4 = 3) (q : Fin 4096) (d : Fin 64) :
    top3_scr V c t.val t.isLt (ix2 q d)
      = ∑ u : Fin 4096, top3_wN V c u.val (t.val / 4 * 4096 + q.val) * top3_xN V c u.val d.val := by
  have hq : q.val < 4096 := q.isLt
  rw [top3_inv V c t.val t.isLt q d, if_pos (by omega), if_pos (by omega)]
  unfold top3_P
  exact (Cert.Spec.sum4096_halves (fun u : Fin 4096 => top3_wN V c u.val (t.val / 4 * 4096 + q.val) * top3_xN V c u.val d.val)
    (fun i k => ⟨i.val * 2048 + k.val, by have := i.isLt; have := k.isLt; omega⟩) (fun _ _ => rfl)).symm

/-- At such a position the output block is the accumulator. -/
theorem top3_out_eq_scr (c : Dev nD) (t : Fin cfg3.N) (h3 : t.val % 4 = 3) :
    (outsAt3 V c t.val t.isLt).1 = top3_scr V c t.val t.isLt := by
  have h0 : ¬t.val % 4 = 0 := by omega
  unfold top3_scr
  rw [outsAt3_C V c t h0 h3]
  dsimp only
  exact top3_outC_eq c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 (fun h => h0 ((hcond3_0 t).mp h)) ((hcond3_1 t).mpr h3) (iblk3 V c 0 t) (iblk3 V c 1 t) (iblk3 V c 2 t) (outsAt3 V c (t.val - 1) (Nat.lt_of_le_of_lt (Nat.sub_le _ _) t.isLt)).2.2.1 (outsAt3 V c (t.val - 1) (Nat.lt_of_le_of_lt (Nat.sub_le _ _) t.isLt)).2.2.2

/-! ## The result array -/

/-- The item-side product: at row q, column d, the sum over the 4096 rows u of weight(u, q) * table(u, d). -/
def top3_G (c : Dev nD) : Buf (Elt Ideal) ((c : Thread nD τ).loc main_v20_0) :=
  fun p : S8192x64.Idx => (∑ u : Fin 4096, top3_wAt V c u (p 0) * top3_xAt V c u (p 1) : EReal)

theorem top3_G_apply (c : Dev nD) (q : Fin 8192) (d : Fin 64) :
    (top3_G V c : S8192x64.Idx → EReal) (ix2 q d) = ∑ u : Fin 4096, top3_wAt V c u q * top3_xAt V c u d := rfl

theorem top3_G_nat (c : Dev nD) (p : S8192x64.Idx) :
    (top3_G V c : S8192x64.Idx → EReal) p = ∑ u : Fin 4096, top3_wN V c u.val (p 0).val * top3_xN V c u.val (p 1).val := by
  show (∑ u : Fin 4096, top3_wAt V c u (p 0) * top3_xAt V c u (p 1)) = _
  refine Finset.sum_congr rfl fun u _ => ?_
  unfold top3_wN top3_xN
  rw [dif_pos ⟨u.isLt, idx2_lt0 p⟩, dif_pos ⟨u.isLt, idx2_lt1 p⟩]
  rfl

theorem top3_idx3 : ∀ t : Fin cfg3.N, win3_3.index t (0 : Fin 2) = t.val / 4 ∧ win3_3.index t (1 : Fin 2) = 0 :=
  (by decide +kernel : ∀ t : Fin grid3.N, win3_3.index t (0 : Fin 2) = t.val / 4 ∧ win3_3.index t (1 : Fin 2) = 0)

/-- What a half's last position writes back is its block of the product. -/
theorem top3_flushed_eq (c : Dev nD) (t : Fin cfg3.N) (hf : (cfg3.win 3).flush t = true) :
    (dat3 V c).flushed 3 t = ((cfg3.win 3).blk t).view.read (Elt Ideal) (top3_G V c) := by
  have hN : t.val < 8 := lt_of_lt_of_eq t.isLt (show cfg3.N = 8 from N_3)
  have h3 : t.val % 4 = 3 := (flush3_3 t).mp hf
  have hi := top3_idx3 t
  show (cfg3.win 3).cut (grid3.coords t) ((dat3 V c).after 3 t) = _
  rw [after3_3, top3_out_eq_scr V c t h3]
  funext y
  obtain ⟨q, d, rfl⟩ : ∃ (q : Fin 4096) (d : Fin 64), y = ix2 q d := ⟨y 0, y 1, eq_ix2 (n0 := 4096) (n1 := 64) y⟩
  show top3_scr V c t.val t.isLt (ix2 q d) = (top3_G V c : S8192x64.Idx → EReal) (((cfg3.win 3).blk t).view.emb (ix2 q d))
  rw [top3_full V c t h3 q d, top3_G_nat]
  have e0 : ((((cfg3.win 3).blk t).view.emb (ix2 q d) : S8192x64.Idx) 0).val = t.val / 4 * 4096 + q.val := by
    show win3_3.index t (0 : Fin 2) * 4096 + 1 * q.val = _
    rw [hi.1]; omega
  have e1 : ((((cfg3.win 3).blk t).view.emb (ix2 q d) : S8192x64.Idx) 1).val = d.val := by
    show win3_3.index t (1 : Fin 2) * 64 + 1 * d.val = _
    rw [hi.2]; omega
  rw [e0, e1]

/-- An index of the result is in a point's block iff each coordinate is in the block's range on its axis. -/
theorem top3_mem_blk (t : Fin cfg3.N) (i : S8192x64.Idx) :
    i ∈ ((cfg3.win 3).blk t).view.set ↔ ∀ a : Fin 2, win3_3.index t a * S4096x64.size a ≤ (i a).val ∧ (i a).val < win3_3.index t a * S4096x64.size a + S4096x64.size a := by
  show i ∈ ((View.whole main_v20_0).slice (win3_3.rect t)).set ↔ _
  rw [View.set_slice_whole, Rect.mem_set_unit]
  exact Iff.rfl

/-- Row q of the result is in the block of half q / 4096, written back at that half's last position. -/
theorem top3_cover (i : S8192x64.Idx) : ∃ t : Fin cfg3.N, (cfg3.win 3).flush t = true ∧ i ∈ ((cfg3.win 3).blk t).view.set := by
  have hN : cfg3.N = 8 := N_3
  have h0 : (i 0).val < 8192 := idx2_lt0 i
  have h1 : (i 1).val < 64 := idx2_lt1 i
  obtain ⟨t, ht⟩ : ∃ t : Fin cfg3.N, t.val = 4 * ((i 0).val / 4096) + 3 := ⟨⟨4 * ((i 0).val / 4096) + 3, by omega⟩, rfl⟩
  have hi := top3_idx3 t
  refine ⟨t, (flush3_3 t).mpr (by omega), ?_⟩
  rw [top3_mem_blk]
  intro a
  match a with
  | ⟨0, _⟩ =>
    show win3_3.index t (0 : Fin 2) * 4096 ≤ (i 0).val ∧ (i 0).val < win3_3.index t (0 : Fin 2) * 4096 + 4096
    rw [hi.1]; omega
  | ⟨1, _⟩ =>
    show win3_3.index t (1 : Fin 2) * 64 ≤ (i 1).val ∧ (i 1).val < win3_3.index t (1 : Fin 2) * 64 + 64
    rw [hi.2]; omega

/-- The result array after the run is the item-side product. -/
theorem top3_final (c : Dev nD) : (dat3 (F := Ideal) V c).arrAt 3 cfg3.N = top3_G V c :=
  (dat3 V c).arrAt_eq_of_cover 3 (top3_G V c) (top3_flushed_eq V c) top3_cover

end

end Cert.KernelIdeal.Hand

end
-- ==== Proof.Val3BotA.lean ====
/-
  One propagation layer's user-side accumulator: the arithmetic of its three stored values, read at an index at the
  ideal float values (an extended real per float, every operation exact).

  The value stored into a 2048-row band of the accumulator is, at row r and column d, what the band held there
  plus the sum over the 2048 contracted positions k of weights-tile(r, k) * table-block(k, d): the narrowing of the
  table block to the short float format is the identity on extended reals, the tile product goes into a zero
  accumulator, and the shape casts are to the same shape. The value the accumulator is reset to is zero everywhere.
  The value copied into the output block is the accumulator under a leading unit axis.
-/
import proofs.«142347_j15487652069895_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-- The product's left operand index at output (r, d), contraction position q: row r … -/
theorem botLhs3_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
/-- … column q; -/
theorem botLhs3_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
/-- the right operand's: row q … -/
theorem botRhs3_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
/-- … column d. -/
theorem botRhs3_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The tile product into a zero accumulator, at output (r, d): the sum over the 2048 contracted positions of
    the left operand's row r times the right operand's column d. -/
theorem botMat3 (x0 : FVec Ideal S2048x2048 .bf16) (x2 : FVec Ideal S2048x64 .bf16) (r : Fin 2048) (d : Fin 64) :
    FloatOps.matmul dot_S2048x2048_S2048x64_S2048x64_1_0_0_1_n_n none x0 x2 (constant S2048x64 .f32 0x00000000#32) (ix2 r d)
      = ∑ k : Fin 2048, x0 (ix2 r k) * x2 (ix2 k d) := by
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 r d) ((contrEquiv1 dot_S2048x2048_S2048x64_S2048x64_1_0_0_1_n_n 2048 rfl rfl).symm k) = ix2 r k := funext fun a => Fin.ext (by
    match a with
    | ⟨0, _⟩ => exact botLhs3_0 _ _
    | ⟨1, _⟩ => exact (botLhs3_1 _ _).trans hk)
  have er : dot_S2048x2048_S2048x64_S2048x64_1_0_0_1_n_n.rhsIdx (ix2 r d) ((contrEquiv1 dot_S2048x2048_S2048x64_S2048x64_1_0_0_1_n_n 2048 rfl rfl).symm k) = ix2 k d := funext fun a => Fin.ext (by
    match a with
    | ⟨0, _⟩ => exact (botRhs3_0 _ _).trans hk
    | ⟨1, _⟩ => exact botRhs3_1 _ _)
  rw [el, er]

/-- The band's new contents at row r, column d: what the band held there plus the tile product of the weights
    tile's row r with the table block's column d (the change of float format before the product is the identity
    on the extended reals, and the product goes into a zero accumulator). -/
theorem botPay3 (x0 : Vec Ideal S2048x2048 .bf16) (x2 : Vec Ideal S2048x64 .f32) (acc : Vec Ideal S2048x64 .f32) (r : Fin 2048) (d : Fin 64) :
    k3_pay5 (F := Ideal) x0 x2 acc (ix2 r d) = acc (ix2 r d) + ∑ k : Fin 2048, x0 (ix2 r k) * x2 (ix2 k d) := by
  unfold k3_pay5 k3_pay4
  simp only [shapeCast_self]
  exact congrArg (acc (ix2 r d) + ·) (botMat3 x0 (truncf .bf16 x2 bitsLt_bf16_f32) r d)

/-- The block the accumulator is reset to is zero everywhere. -/
theorem botZero3 (y : S4096x64.Idx) : k3_pay3 (F := Ideal) y = 0 := by
  unfold k3_pay3
  simp only [shapeCast_self]
  exact Ideal.ofBits_zero_f32

/-- The copy into the output block only adds a leading unit axis: entry (0, u, d) is the accumulator's (u, d). -/
theorem botCopy3 (v : Vec Ideal S4096x64 .f32) (h : Fin 1) (u : Fin 4096) (d : Fin 64) :
    k3_pay1 (F := Ideal) v (ix3 h u d) = v (ix2 u d) := by
  unfold k3_pay1
  refine (shapeCast_addUnit_apply ![4096, 64] v shapeCasts_S4096x64_S1x4096x64 (ix3 h u d)).trans (congrArg v ?_)
  funext a
  match a with
  | ⟨0, _⟩ => rfl
  | ⟨1, _⟩ => rfl

end Cert.KernelIdeal.Hand

end
-- ==== Proof.Val3BotB.lean ====
/-
  One propagation layer's user-side accumulator: what each of the body's three cases leaves in it, and what the last
  case copies into the output block, read at an index at the ideal float values.

  Every point rewrites one band of 2048 rows of the accumulator, rows [o, o + 2048) with o the band's first row:
  inside the band the new entry at (o + r, d) is the old entry plus the tile product of the weights tile's row r with
  the table block's column d; outside the band the entry stays. A point that resets first has zero as the old entry
  everywhere. The last point of a column half also copies the whole accumulator, as that point leaves it, into the
  output block under a leading unit axis.
-/
import proofs.«142347_j15487652069895_2_alg».proof.Proof.K3Frame
import proofs.«142347_j15487652069895_2_alg».proof.Proof.Val3BotA
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem botHz3 : (![0, 0] : Fin 2 → Nat) = fun _ => 0 := funext fun a => by fin_cases a <;> rfl
theorem botHz3' : (![0, 0, 0] : Fin 3 → Nat) = fun _ => 0 := funext fun a => by fin_cases a <;> rfl

/-- A whole-buffer load of the weights tile's staging buffer reads its contents; -/
theorem botLdW3 (M : Memref sig .tc .vmem S2048x2048 .bf16) (hM : M.IsWhole) (x : Vec Ideal S2048x2048 .bf16) :
    View.readAt (Elt Ideal) M.view (Rect.unit (s := S2048x2048) ![0, 0] S2048x2048.size inb_S2048x2048_S2048x2048_0_0).toLoadRect (hM.unread x) = x := by
  rw [View.readAt_eq_ld, hM.read_unread, View.ld_unit_zero (S := S2048x2048) botHz3]
/-- of a table block's staging buffer likewise; -/
theorem botLdX3 (M : Memref sig .tc .vmem S2048x64 .f32) (hM : M.IsWhole) (x : Vec Ideal S2048x64 .f32) :
    View.readAt (Elt Ideal) M.view (Rect.unit (s := S2048x64) ![0, 0] S2048x64.size inb_S2048x64_S2048x64_0_0).toLoadRect (hM.unread x) = x := by
  rw [View.readAt_eq_ld, hM.read_unread, View.ld_unit_zero (S := S2048x64) botHz3]
/-- of an accumulator, of whatever it holds. -/
theorem botLdS3 (M : Memref sig .tc .vmem S4096x64 .f32) (f : M.view.ty.Contents (Elt Ideal)) :
    View.readAt (Elt Ideal) M.view (Rect.unit (s := S4096x64) ![0, 0] S4096x64.size inb_S4096x64_S4096x64_0_0).toLoadRect f = M.view.read (Elt Ideal) f := by
  rw [View.readAt_eq_ld, View.ld_unit_zero (S := S4096x64) botHz3]

/-- A load of rows [o, o + 2048) of an accumulator holding xs reads, at (r, d), xs at (o + r, d). -/
theorem botBandLd3 (M : Memref sig .tc .vmem S4096x64 .f32) (hM : M.IsWhole) (xs : Vec Ideal S4096x64 .f32)
    (off : Fin 2 → ℕ) (inb : ∀ a, off a + S2048x64.size a ≤ S4096x64.size a) (o : ℕ) (ho : off = ![o, 0])
    (u : Fin 4096) (r : Fin 2048) (d : Fin 64) (hu : u.val = o + r.val) :
    View.readAt (Elt Ideal) M.view (Rect.unit (s := S4096x64) off S2048x64.size inb).toLoadRect (hM.unread xs) (ix2 r d) = xs (ix2 u d) := by
  subst ho
  rw [View.readAt_eq_ld, hM.read_unread]
  show xs _ = xs _
  refine congrArg xs (funext fun a => Fin.ext ?_)
  match a with
  | ⟨0, _⟩ => show o + 1 * r.val = u.val; omega
  | ⟨1, _⟩ => show 0 + 1 * d.val = d.val; omega

/-- The same load right after the accumulator was reset reads zero. -/
theorem botBandZero3 (M : Memref sig .tc .vmem S4096x64 .f32) (off : Fin 2 → ℕ) (inb : ∀ a, off a + S2048x64.size a ≤ S4096x64.size a)
    (x : S2048x64.Idx) :
    View.readAt (Elt Ideal) M.view (Rect.unit (s := S4096x64) off S2048x64.size inb).toLoadRect
      (M.view.writes (Elt Ideal) M.view.junk
        [⟨Rect.unit (s := S4096x64) ![0, 0] S4096x64.size inb_S4096x64_S4096x64_0_0, k3_pay3 (F := Ideal)⟩]) x = 0 := by
  rw [View.readAt_writes_junk_eq_canon, View.canon_unit_zero botHz3]
  exact botZero3 _

/-- A point that adds without resetting, inside the band it rewrites (rows [o, o + 2048)): the accumulator's entry
    grows by the tile product; -/
theorem botStepB3_in (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k3_off1 i = ![o, 0]) (u : Fin 4096) (r : Fin 2048) (d : Fin 64) (hu : u.val = o + r.val) :
    sout3_B_1 (F := Ideal) c i arg3 harg3 arg4 harg4 arg5 harg5 arg6 harg6 arg7 harg7 arg8 harg8 arg9 harg9 hc0 hc1 x0 x1 x2 xs0 xs1 (ix2 u d)
      = xs1 (ix2 u d) + ∑ k : Fin 2048, x0 (ix2 r k) * x2 (ix2 k d) := by
  unfold sout3_B_1 kernelRun3_B
  dsimp only
  rw [botLdW3 arg3 harg3 x0, botLdX3 arg5 harg5 x2]
  refine (View.read_writes_cons_rows_of_mem arg9.view (harg9.unread xs1) (k3_off1_inb i) _ [] (ix2 u d) (ix2 r d) ho hu rfl).trans ?_
  refine (botPay3 x0 x2 _ r d).trans ?_
  rw [botBandLd3 arg9 harg9 xs1 (k3_off1 i) (k3_off1_inb i) o ho u r d hu]

/-- outside that band the entry is what it was. -/
theorem botStepB3_out (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : ¬cond3_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k3_off1 i = ![o, 0]) (u : Fin 4096) (d : Fin 64) (hu : u.val < o ∨ o + 2048 ≤ u.val) :
    sout3_B_1 (F := Ideal) c i arg3 harg3 arg4 harg4 arg5 harg5 arg6 harg6 arg7 harg7 arg8 harg8 arg9 harg9 hc0 hc1 x0 x1 x2 xs0 xs1 (ix2 u d) = xs1 (ix2 u d) := by
  unfold sout3_B_1 kernelRun3_B
  dsimp only
  refine (View.read_writes_cons_rows_of_not_mem arg9.view (harg9.unread xs1) (k3_off1_inb i) _ [] (ix2 u d) ho rfl hu).trans ?_
  rw [View.writes_nil, harg9.read_unread]

/-- The last point of a half adds in the same way: inside the band … -/
theorem botStepC3_in (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k3_off1 i = ![o, 0]) (u : Fin 4096) (r : Fin 2048) (d : Fin 64) (hu : u.val = o + r.val) :
    sout3_C_1 (F := Ideal) c i arg3 harg3 arg4 harg4 arg5 harg5 arg6 harg6 arg7 harg7 arg8 harg8 arg9 harg9 hc0 hc1 x0 x1 x2 xs0 xs1 (ix2 u d)
      = xs1 (ix2 u d) + ∑ k : Fin 2048, x0 (ix2 r k) * x2 (ix2 k d) := by
  unfold sout3_C_1 kernelRun3_C
  dsimp only
  sl_unfold_run_names
  rw [botLdW3 arg3 harg3 x0, botLdX3 arg5 harg5 x2]
  refine (View.read_writes_cons_rows_of_mem arg9.view (harg9.unread xs1) (k3_off1_inb i) _ [] (ix2 u d) (ix2 r d) ho hu rfl).trans ?_
  refine (botPay3 x0 x2 _ r d).trans ?_
  rw [botBandLd3 arg9 harg9 xs1 (k3_off1 i) (k3_off1_inb i) o ho u r d hu]

/-- … and outside it. -/
theorem botStepC3_out (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k3_off1 i = ![o, 0]) (u : Fin 4096) (d : Fin 64) (hu : u.val < o ∨ o + 2048 ≤ u.val) :
    sout3_C_1 (F := Ideal) c i arg3 harg3 arg4 harg4 arg5 harg5 arg6 harg6 arg7 harg7 arg8 harg8 arg9 harg9 hc0 hc1 x0 x1 x2 xs0 xs1 (ix2 u d) = xs1 (ix2 u d) := by
  unfold sout3_C_1 kernelRun3_C
  dsimp only
  sl_unfold_run_names
  refine (View.read_writes_cons_rows_of_not_mem arg9.view (harg9.unread xs1) (k3_off1_inb i) _ [] (ix2 u d) ho rfl hu).trans ?_
  rw [View.writes_nil, harg9.read_unread]

/-- There the output block receives the accumulator as that point leaves it, under a leading unit axis. -/
theorem botOutC3 (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond3_0 i) (hc1 : cond3_1 i) (x0 : Vec Ideal S2048x2048 .bf16) (x1 : Vec Ideal S2048x64 .f32) (x2 : Vec Ideal S2048x64 .f32) (xs0 : Vec Ideal S4096x64 .f32) (xs1 : Vec Ideal S4096x64 .f32)
    (h : Fin 1) (u : Fin 4096) (d : Fin 64) :
    out3_C_4 (F := Ideal) c i arg3 harg3 arg4 harg4 arg5 harg5 arg6 harg6 arg7 harg7 arg8 harg8 arg9 harg9 hc0 hc1 x0 x1 x2 xs0 xs1 (ix3 h u d)
      = sout3_C_1 (F := Ideal) c i arg3 harg3 arg4 harg4 arg5 harg5 arg6 harg6 arg7 harg7 arg8 harg8 arg9 harg9 hc0 hc1 x0 x1 x2 xs0 xs1 (ix2 u d) := by
  unfold out3_C_4 sout3_C_1 kernelRun3_C
  dsimp only
  sl_unfold_run_names
  rw [View.read_writes_junk_apply_eq_canon, View.canon_unit_zero botHz3']
  refine (botCopy3 _ h u d).trans ?_
  rw [botLdS3]

/-- A point that resets first, inside the band it then rewrites: zero plus the tile product; -/
theorem botStepA3_in (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec Ideal S2048x2048 .bf16) (x1 : Vec Ideal S2048x64 .f32) (x2 : Vec Ideal S2048x64 .f32)
    (o : ℕ) (ho : k3_off1 i = ![o, 0]) (u : Fin 4096) (r : Fin 2048) (d : Fin 64) (hu : u.val = o + r.val) :
    sout3_A_1 (F := Ideal) c i arg3 harg3 arg4 harg4 arg5 harg5 arg6 harg6 arg7 harg7 arg8 harg8 arg9 harg9 hc0 hc1 x0 x1 x2 (ix2 u d)
      = 0 + ∑ k : Fin 2048, x0 (ix2 r k) * x2 (ix2 k d) := by
  unfold sout3_A_1 kernelRun3_A
  dsimp only
  sl_unfold_run_names
  rw [botLdW3 arg3 harg3 x0, botLdX3 arg5 harg5 x2]
  refine (View.read_writes_cons_rows_of_mem _ _ (k3_off1_inb i) _ _ (ix2 u d) (ix2 r d) ho hu rfl).trans ?_
  refine (botPay3 x0 x2 _ r d).trans ?_
  rw [botBandZero3]

/-- outside it, zero. -/
theorem botStepA3_out (c : Dev nD) (i : grid3.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond3_0 i) (hc1 : ¬cond3_1 i) (x0 : Vec Ideal S2048x2048 .bf16) (x1 : Vec Ideal S2048x64 .f32) (x2 : Vec Ideal S2048x64 .f32)
    (o : ℕ) (ho : k3_off1 i = ![o, 0]) (u : Fin 4096) (d : Fin 64) (hu : u.val < o ∨ o + 2048 ≤ u.val) :
    sout3_A_1 (F := Ideal) c i arg3 harg3 arg4 harg4 arg5 harg5 arg6 harg6 arg7 harg7 arg8 harg8 arg9 harg9 hc0 hc1 x0 x1 x2 (ix2 u d) = 0 := by
  unfold sout3_A_1 kernelRun3_A
  dsimp only
  sl_unfold_run_names
  refine (View.read_writes_cons_rows_of_not_mem _ _ (k3_off1_inb i) _ _ (ix2 u d) ho rfl hu).trans ?_
  rw [View.read_writes_junk_apply_eq_canon, View.canon_unit_zero botHz3]
  exact botZero3 _

end Cert.KernelIdeal.Hand

end
-- ==== Proof.Val3BotC.lean ====
/-
  One propagation layer's user-side accumulator after every grid position, in closed form over the arrays as the
  region finds them.

  The grid position n = 4·h + 2·i + j names the column half h of the weights, the row tile i and the column tile j
  of the half; the point loads the weights tile (i, 2h + j), whose 2048 columns are columns (2h + j)·2048 + k of the
  weights array, and the table block of the same 2048 rows. Writing T q (u, d) for the sum over k < 2048 of
  weights(u, q·2048 + k) · table(q·2048 + k, d), the accumulator's entry (u, d) after position n is zero, 0 + T (2h),
  or (0 + T (2h)) + T (2h + 1) according to how many of the half's two tiles row u's band has received: the band
  u / 2048 is rewritten at the two positions of row tile i = u / 2048, and the whole accumulator is reset at the
  half's first position before that position's own tile is added.
-/
import proofs.«142347_j15487652069895_2_alg».proof.Proof.Val3BotB

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable (V : (c : Dev nD) → (b : Ref sig .tc) → Buf (Elt Ideal) ((c : Thread nD τ).loc b))

/-- The weights array and the table whose rows the products contract, as the region finds them. -/
abbrev botW3 (c : Dev nD) : S4096x8192.Idx → EReal := V c (Pipeline.arrRef spec3 0)
abbrev botX3 (c : Dev nD) : S8192x64.Idx → EReal := V c (Pipeline.arrRef spec3 2)

/-- The grid position t = 4·(column half) + 2·(row tile) + (column tile of the half): the block indices of the
    weights tile, of the table block and of the output block, and the band's first row, in closed form. -/
theorem botIdx3 : ∀ t : Fin cfg3.N,
    win3_0.index t 0 = (t.val / 2) % 2 ∧ win3_0.index t 1 = 2 * (t.val / 4) + t.val % 2
      ∧ win3_2.index t 0 = 2 * (t.val / 4) + t.val % 2 ∧ win3_2.index t 1 = 0 :=
  (by decide +kernel : ∀ t : Fin grid3.N,
    win3_0.index t 0 = (t.val / 2) % 2 ∧ win3_0.index t 1 = 2 * (t.val / 4) + t.val % 2
      ∧ win3_2.index t 0 = 2 * (t.val / 4) + t.val % 2 ∧ win3_2.index t 1 = 0)

theorem botOff3 : ∀ t : Fin cfg3.N, k3_off1 (grid3.coords t) = ![2048 * ((t.val / 2) % 2), 0] :=
  (by decide +kernel : ∀ t : Fin grid3.N, k3_off1 (grid3.coords t) = ![2048 * ((t.val / 2) % 2), 0])

/-- Column k of column tile q (of four tiles of 2048 columns). -/
def botCol3 (q : ℕ) (k : Fin 2048) : Fin 8192 := ⟨(q * 2048 + k.val) % 8192, Nat.mod_lt _ (by decide)⟩

/-- The weights tile and the table block a point's body loads. -/
abbrev botBW3 (c : Dev nD) (t : Fin cfg3.N) : S2048x2048.Idx → EReal := iblk3 V c 0 t
abbrev botBX3 (c : Dev nD) (t : Fin cfg3.N) : S2048x64.Idx → EReal := iblk3 V c 2 t

/-- The weights tile at a point, read off the weights array: row tile (t / 2) % 2, column tile 2·(t / 4) + t % 2. -/
theorem botBlkW3 (c : Dev nD) (t : Fin cfg3.N) (r k : Fin 2048) (u : Fin 4096)
    (hu : u.val = 2048 * ((t.val / 2) % 2) + r.val) :
    botBW3 V c t (ix2 r k) = botW3 V c (ix2 u (botCol3 (2 * (t.val / 4) + t.val % 2) k)) := by
  obtain ⟨h0, h1, -, -⟩ := botIdx3 t
  have ht : t.val < 8 := lt_of_lt_of_eq t.isLt (show cfg3.N = 8 from N_3)
  show (iblk3 V c _ t) _ = _
  unfold iblk3
  rw [View.read_apply]
  show (V c (Pipeline.arrRef spec3 0) : S4096x8192.Idx → EReal) _ = (V c (Pipeline.arrRef spec3 0) : S4096x8192.Idx → EReal) _
  refine congrArg (V c (Pipeline.arrRef spec3 0) : S4096x8192.Idx → EReal) (funext fun a => Fin.ext ?_)
  match a with
  | ⟨0, _⟩ => show win3_0.index t 0 * 2048 + 1 * r.val = u.val; rw [h0, hu]; omega
  | ⟨1, _⟩ =>
    show win3_0.index t 1 * 2048 + 1 * k.val = ((2 * (t.val / 4) + t.val % 2) * 2048 + k.val) % 8192
    rw [h1]; have := k.isLt; omega

/-- The table block at a point: rows of column tile 2·(t / 4) + t % 2. -/
theorem botBlkX3 (c : Dev nD) (t : Fin cfg3.N) (k : Fin 2048) (d : Fin 64) :
    botBX3 V c t (ix2 k d) = botX3 V c (ix2 (botCol3 (2 * (t.val / 4) + t.val % 2) k) d) := by
  obtain ⟨-, -, h0, h1⟩ := botIdx3 t
  have ht : t.val < 8 := lt_of_lt_of_eq t.isLt (show cfg3.N = 8 from N_3)
  show (iblk3 V c _ t) _ = _
  unfold iblk3
  rw [View.read_apply]
  show (V c (Pipeline.arrRef spec3 2) : S8192x64.Idx → EReal) _ = (V c (Pipeline.arrRef spec3 2) : S8192x64.Idx → EReal) _
  refine congrArg (V c (Pipeline.arrRef spec3 2) : S8192x64.Idx → EReal) (funext fun a => Fin.ext ?_)
  match a with
  | ⟨0, _⟩ =>
    show win3_2.index t 0 * 2048 + 1 * k.val = ((2 * (t.val / 4) + t.val % 2) * 2048 + k.val) % 8192
    rw [h0]; have := k.isLt; omega
  | ⟨1, _⟩ => show win3_2.index t 1 * 64 + 1 * d.val = d.val; rw [h1]; omega

/-- Column tile q's share of entry (u, d) of the product of the weights with the table. -/
def botTile3 (c : Dev nD) (q : ℕ) (u : Fin 4096) (d : Fin 64) : EReal :=
  ∑ k : Fin 2048, botW3 V c (ix2 u (botCol3 q k)) * botX3 V c (ix2 (botCol3 q k) d)

/-- The tile product a point adds at row r of its band is that share, for the point's column tile. -/
theorem botTileBlk3 (c : Dev nD) (t : Fin cfg3.N) (u : Fin 4096) (r : Fin 2048) (d : Fin 64)
    (hu : u.val = 2048 * ((t.val / 2) % 2) + r.val) :
    ∑ k : Fin 2048, botBW3 V c t (ix2 r k) * botBX3 V c t (ix2 k d)
      = botTile3 V c (2 * (t.val / 4) + t.val % 2) u d :=
  Finset.sum_congr rfl fun k _ => by rw [botBlkW3 V c t r k u hu, botBlkX3 V c t k d]

/-- What entry (u, d) of the accumulator holds once m of column half hh's two tiles have been added to it. -/
def botAcc3 (c : Dev nD) (hh : ℕ) (m : ℕ) (u : Fin 4096) (d : Fin 64) : EReal :=
  match m with
  | 0 => 0
  | 1 => 0 + botTile3 V c (2 * hh) u d
  | _ => (0 + botTile3 V c (2 * hh) u d) + botTile3 V c (2 * hh + 1) u d

/-- How many tiles of the current half row u has received after position n: its band (u / 2048) is rewritten at the
    two points of row tile (n / 2) % 2. -/
def botCnt3 (n : ℕ) (u : Fin 4096) : ℕ :=
  if u.val / 2048 < (n / 2) % 2 then 2 else if u.val / 2048 = (n / 2) % 2 then n % 2 + 1 else 0

/-- Arithmetic of the count: a resetting position leaves one tile in its own band, … -/
theorem botAccA3_in (c : Dev nD) (m : ℕ) (h0 : m % 4 = 0) (u : Fin 4096) (d : Fin 64) (hb : u.val / 2048 = (m / 2) % 2) :
    0 + botTile3 V c (2 * (m / 4) + m % 2) u d = botAcc3 V c (m / 4) (botCnt3 m u) u d := by
  have hu := u.isLt
  have hc : botCnt3 m u = 1 := by unfold botCnt3; split_ifs <;> omega
  have hq : 2 * (m / 4) + m % 2 = 2 * (m / 4) := by omega
  rw [hc, hq]; rfl
/-- … none elsewhere; -/
theorem botAccA3_out (c : Dev nD) (m : ℕ) (h0 : m % 4 = 0) (u : Fin 4096) (d : Fin 64) (hb : ¬ u.val / 2048 = (m / 2) % 2) :
    0 = botAcc3 V c (m / 4) (botCnt3 m u) u d := by
  have hu := u.isLt
  have hc : botCnt3 m u = 0 := by unfold botCnt3; split_ifs <;> omega
  rw [hc]; rfl
/-- a later position of the half adds its tile to its own band, … -/
theorem botAccIn3 (c : Dev nD) (n : ℕ) (h0 : ¬ n % 4 = 0) (u : Fin 4096) (d : Fin 64) (hb : u.val / 2048 = (n / 2) % 2) :
    botAcc3 V c ((n - 1) / 4) (botCnt3 (n - 1) u) u d + botTile3 V c (2 * (n / 4) + n % 2) u d
      = botAcc3 V c (n / 4) (botCnt3 n u) u d := by
  have hu := u.isLt
  have h4 : (n - 1) / 4 = n / 4 := by omega
  rcases (show n % 4 = 1 ∨ n % 4 = 2 ∨ n % 4 = 3 by omega) with h | h | h
  · have hc1 : botCnt3 (n - 1) u = 1 := by unfold botCnt3; split_ifs <;> omega
    have hc2 : botCnt3 n u = 2 := by unfold botCnt3; split_ifs <;> omega
    have hq : 2 * (n / 4) + n % 2 = 2 * (n / 4) + 1 := by omega
    rw [hc1, hc2, hq, h4]; rfl
  · have hc1 : botCnt3 (n - 1) u = 0 := by unfold botCnt3; split_ifs <;> omega
    have hc2 : botCnt3 n u = 1 := by unfold botCnt3; split_ifs <;> omega
    have hq : 2 * (n / 4) + n % 2 = 2 * (n / 4) := by omega
    rw [hc1, hc2, hq, h4]; rfl
  · have hc1 : botCnt3 (n - 1) u = 1 := by unfold botCnt3; split_ifs <;> omega
    have hc2 : botCnt3 n u = 2 := by unfold botCnt3; split_ifs <;> omega
    have hq : 2 * (n / 4) + n % 2 = 2 * (n / 4) + 1 := by omega
    rw [hc1, hc2, hq, h4]; rfl
/-- … and leaves the other band's count. -/
theorem botAccOut3 (c : Dev nD) (n : ℕ) (h0 : ¬ n % 4 = 0) (u : Fin 4096) (d : Fin 64) (hb : ¬ u.val / 2048 = (n / 2) % 2) :
    botAcc3 V c ((n - 1) / 4) (botCnt3 (n - 1) u) u d = botAcc3 V c (n / 4) (botCnt3 n u) u d := by
  have hu := u.isLt
  have hc : botCnt3 (n - 1) u = botCnt3 n u := by unfold botCnt3; split_ifs <;> omega
  rw [hc, show (n - 1) / 4 = n / 4 by omega]

/-- THE ACCUMULATOR AFTER EVERY POSITION: entry (u, d) holds the tiles of the current column half added so far into
    row u's band, in the order zero, first tile, second tile. By induction on the position; each position is in one
    of the three cases by its remainder modulo 4, and row u is inside or outside the band the position rewrites. -/
theorem botInv3 (c : Dev nD) : ∀ (n : ℕ) (hn : n < cfg3.N) (u : Fin 4096) (d : Fin 64),
    (outsAt3 V c n hn).2.2.2 (ix2 u d) = botAcc3 V c (n / 4) (botCnt3 n u) u d := by
  intro n
  induction n using Nat.strong_induction_on with
  | _ n ih =>
    intro hn u d
    have hu4 := u.isLt
    have hN : n < 8 := lt_of_lt_of_eq hn (show cfg3.N = 8 from N_3)
    by_cases hb : u.val / 2048 = (n / 2) % 2
    · have hr : u.val - 2048 * ((n / 2) % 2) < 2048 := by omega
      have hu : u.val = 2048 * ((n / 2) % 2) + (⟨u.val - 2048 * ((n / 2) % 2), hr⟩ : Fin 2048).val := by
        show u.val = 2048 * ((n / 2) % 2) + (u.val - 2048 * ((n / 2) % 2)); omega
      by_cases h0 : n % 4 = 0
      · have h1 : ¬ n % 4 = 3 := by omega
        rw [outsAt3_A V c ⟨n, hn⟩ h0 h1]
        dsimp only
        refine (botStepA3_in c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) (ms3_4 ⟨n, hn⟩) (hs3_4 ⟨n, hn⟩) scM3_0 hsc3_0 scM3_1 hsc3_1 _ _ (iblk3 V c 0 ⟨n, hn⟩) (iblk3 V c 1 ⟨n, hn⟩) (iblk3 V c 2 ⟨n, hn⟩)
          (2048 * ((n / 2) % 2)) (botOff3 ⟨n, hn⟩) u ⟨u.val - 2048 * ((n / 2) % 2), hr⟩ d hu).trans ?_
        exact (congrArg (fun x : EReal => 0 + x) (botTileBlk3 V c ⟨n, hn⟩ u ⟨u.val - 2048 * ((n / 2) % 2), hr⟩ d hu)).trans (botAccA3_in V c n h0 u d hb)
      · have hprev := ih (n - 1) (by omega) (Nat.lt_of_le_of_lt (Nat.sub_le _ _) hn) u d
        by_cases h1 : n % 4 = 3
        · rw [outsAt3_C V c ⟨n, hn⟩ h0 h1]
          dsimp only
          refine (botStepC3_in c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) (ms3_4 ⟨n, hn⟩) (hs3_4 ⟨n, hn⟩) scM3_0 hsc3_0 scM3_1 hsc3_1 _ _ (iblk3 V c 0 ⟨n, hn⟩) (iblk3 V c 1 ⟨n, hn⟩) (iblk3 V c 2 ⟨n, hn⟩) _ _
            (2048 * ((n / 2) % 2)) (botOff3 ⟨n, hn⟩) u ⟨u.val - 2048 * ((n / 2) % 2), hr⟩ d hu).trans ?_
          exact (congrArg₂ (fun x y : EReal => x + y) hprev (botTileBlk3 V c ⟨n, hn⟩ u ⟨u.val - 2048 * ((n / 2) % 2), hr⟩ d hu)).trans (botAccIn3 V c n h0 u d hb)
        · rw [outsAt3_B V c ⟨n, hn⟩ h0 h1]
          dsimp only
          refine (botStepB3_in c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) (ms3_4 ⟨n, hn⟩) (hs3_4 ⟨n, hn⟩) scM3_0 hsc3_0 scM3_1 hsc3_1 _ _ (iblk3 V c 0 ⟨n, hn⟩) (iblk3 V c 1 ⟨n, hn⟩) (iblk3 V c 2 ⟨n, hn⟩) _ _
            (2048 * ((n / 2) % 2)) (botOff3 ⟨n, hn⟩) u ⟨u.val - 2048 * ((n / 2) % 2), hr⟩ d hu).trans ?_
          exact (congrArg₂ (fun x y : EReal => x + y) hprev (botTileBlk3 V c ⟨n, hn⟩ u ⟨u.val - 2048 * ((n / 2) % 2), hr⟩ d hu)).trans (botAccIn3 V c n h0 u d hb)
    · have hout : u.val < 2048 * ((n / 2) % 2) ∨ 2048 * ((n / 2) % 2) + 2048 ≤ u.val := by omega
      by_cases h0 : n % 4 = 0
      · have h1 : ¬ n % 4 = 3 := by omega
        rw [outsAt3_A V c ⟨n, hn⟩ h0 h1]
        dsimp only
        refine (botStepA3_out c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) (ms3_4 ⟨n, hn⟩) (hs3_4 ⟨n, hn⟩) scM3_0 hsc3_0 scM3_1 hsc3_1 _ _ (iblk3 V c 0 ⟨n, hn⟩) (iblk3 V c 1 ⟨n, hn⟩) (iblk3 V c 2 ⟨n, hn⟩)
          (2048 * ((n / 2) % 2)) (botOff3 ⟨n, hn⟩) u d hout).trans ?_
        exact botAccA3_out V c n h0 u d hb
      · have hprev := ih (n - 1) (by omega) (Nat.lt_of_le_of_lt (Nat.sub_le _ _) hn) u d
        by_cases h1 : n % 4 = 3
        · rw [outsAt3_C V c ⟨n, hn⟩ h0 h1]
          dsimp only
          refine (botStepC3_out c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) (ms3_4 ⟨n, hn⟩) (hs3_4 ⟨n, hn⟩) scM3_0 hsc3_0 scM3_1 hsc3_1 _ _ (iblk3 V c 0 ⟨n, hn⟩) (iblk3 V c 1 ⟨n, hn⟩) (iblk3 V c 2 ⟨n, hn⟩) _ _
            (2048 * ((n / 2) % 2)) (botOff3 ⟨n, hn⟩) u d hout).trans ?_
          exact hprev.trans (botAccOut3 V c n h0 u d hb)
        · rw [outsAt3_B V c ⟨n, hn⟩ h0 h1]
          dsimp only
          refine (botStepB3_out c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) (ms3_4 ⟨n, hn⟩) (hs3_4 ⟨n, hn⟩) scM3_0 hsc3_0 scM3_1 hsc3_1 _ _ (iblk3 V c 0 ⟨n, hn⟩) (iblk3 V c 1 ⟨n, hn⟩) (iblk3 V c 2 ⟨n, hn⟩) _ _
            (2048 * ((n / 2) % 2)) (botOff3 ⟨n, hn⟩) u d hout).trans ?_
          exact hprev.trans (botAccOut3 V c n h0 u d hb)
end

end Cert.KernelIdeal.Hand

end
-- ==== Proof.Val3BotD.lean ====
/-
  One propagation layer's user-side output array after the region, at the ideal float values.

  The output array has two slices of 4096 rows, one per column half of the weights. Slice h is written back once, at
  the last position of half h (position 4·h + 3), from the output block, which there holds the accumulator: every row
  has received both tiles of the half, so entry (h, u, d) is (0 + T (2h)) + T (2h + 1), with T q (u, d) the sum over
  k < 2048 of weights(u, q·2048 + k) · table(q·2048 + k, d). The two slices' blocks cover the array. Regrouping the
  two tile sums (only the order and grouping of the terms change, so no finiteness is needed on the extended reals),
  entry (h, u, d) is the sum over the 4096 columns k of half h of weights(u, 4096·h + k) · table(4096·h + k, d).
-/
import proofs.«142347_j15487652069895_2_alg».proof.Proof.Val3BotC
import proofs.«142347_j15487652069895_2_alg».proof.Proof.SumLaws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable (V : (c : Dev nD) → (b : Ref sig .tc) → Buf (Elt Ideal) ((c : Thread nD τ).loc b))

/-- The output block of position t is block (t / 4, 0, 0) of the output array. -/
theorem botIdxO3 : ∀ t : Fin cfg3.N, win3_4.index t 0 = t.val / 4 ∧ win3_4.index t 1 = 0 ∧ win3_4.index t 2 = 0 :=
  (by decide +kernel : ∀ t : Fin grid3.N, win3_4.index t 0 = t.val / 4 ∧ win3_4.index t 1 = 0 ∧ win3_4.index t 2 = 0)

/-- What the output array ends holding: slice h is column half h's two tiles accumulated from zero. -/
def botG3 (c : Dev nD) : S2x4096x64.Idx → EReal := fun p => botAcc3 V c (p 0).val 2 (p 1) (p 2)

theorem botG3_apply (c : Dev nD) (a : Fin 2) (u : Fin 4096) (d : Fin 64) :
    botG3 V c (ix3 a u d) = botAcc3 V c a.val 2 u d := rfl

theorem botAccCongr3 (c : Dev nD) {a a' : ℕ} {u u' : Fin 4096} {d d' : Fin 64} (ha : a = a') (hu : u.val = u'.val)
    (hd : d.val = d'.val) : botAcc3 V c a 2 u d = botAcc3 V c a' 2 u' d' := by
  obtain rfl := ha; obtain rfl := Fin.ext hu; obtain rfl := Fin.ext hd; rfl

/-- What the output block holds after the last position of a column half: both tiles of the half, in every row. -/
theorem botOut3 (c : Dev nD) (t : Fin cfg3.N) (h0 : ¬ t.val % 4 = 0) (h3 : t.val % 4 = 3) :
    (outsAt3 V c t.val t.isLt).2.1 = fun y : S1x4096x64.Idx => botAcc3 V c (t.val / 4) 2 (y 1) (y 2) := by
  funext y
  obtain ⟨h, u, d, rfl⟩ : ∃ (h : Fin 1) (u : Fin 4096) (d : Fin 64), y = ix3 h u d := ⟨y 0, y 1, y 2, eq_ix3 y⟩
  have hc : botCnt3 t.val u = 2 := by unfold botCnt3; have := u.isLt; split_ifs <;> omega
  have hinv := botInv3 V c t.val t.isLt u d
  rw [hc] at hinv
  rw [outsAt3_C V c t h0 h3] at hinv ⊢
  dsimp only at hinv ⊢
  exact (botOutC3 c (grid3.coords t) (ms3_0 t) (hs3_0 t) (ms3_1 t) (hs3_1 t) (ms3_2 t) (hs3_2 t) (ms3_3 t) (hs3_3 t) (ms3_4 t) (hs3_4 t) scM3_0 hsc3_0 scM3_1 hsc3_1 _ _ (iblk3 V c 0 t) (iblk3 V c 1 t) (iblk3 V c 2 t) _ _ h u d).trans hinv

/-- The write-back at the last position of a column half writes that half's slice. -/
theorem botFlushed3 (c : Dev nD) (t : Fin cfg3.N) (hf : (cfg3.win 4).flush t = true) :
    (dat3 V c).flushed 4 t = ((cfg3.win 4).blk t).view.read (Elt Ideal) (botG3 V c) := by
  have h3 : t.val % 4 = 3 := (flush3_4 t).mp hf
  have h0 : ¬ t.val % 4 = 0 := by omega
  obtain ⟨e0, e1, e2⟩ := botIdxO3 t
  show (cfg3.win 4).cut (grid3.coords t) ((dat3 V c).after 4 t) = _
  rw [after3_4, botOut3 V c t h0 h3]
  funext y
  rw [View.read_apply]
  have hy0 : (y 0).val < 1 := (y 0).isLt
  show botAcc3 V c (t.val / 4) 2 _ _ = botG3 V c (((cfg3.win 4).blk t).view.emb y)
  unfold botG3
  refine botAccCongr3 V c ?_ ?_ ?_
  · show t.val / 4 = win3_4.index t 0 * 1 + 1 * (y 0).val; rw [e0]; omega
  · show (y 1).val = win3_4.index t 1 * 4096 + 1 * (y 1).val; rw [e1]; omega
  · show (y 2).val = win3_4.index t 2 * 64 + 1 * (y 2).val; rw [e2]; omega

/-- An index of the output array is in position t's block iff each coordinate is in the block's range. -/
theorem botMemBlk3 (t : Fin cfg3.N) (i : S2x4096x64.Idx) :
    Iff (i ∈ ((cfg3.win 4).blk t).view.set) (∀ a : Fin 3, win3_4.index t a * S1x4096x64.size a ≤ (i a).val ∧ (i a).val < win3_4.index t a * S1x4096x64.size a + S1x4096x64.size a) := by
  show Iff (i ∈ ((View.whole (Pipeline.arrRef spec3 4)).slice (win3_4.rect t)).set) _
  rw [View.set_slice_whole, Rect.mem_set_unit]
  exact Iff.rfl
/-- Slice h of the output array is written back at position 4·h + 3. -/
theorem botCover3 (i : S2x4096x64.Idx) : ∃ t : Fin cfg3.N, (cfg3.win 4).flush t = true ∧ i ∈ ((cfg3.win 4).blk t).view.set := by
  have hN : cfg3.N = 8 := N_3
  have h0 : (i 0).val < 2 := (i 0).isLt
  have h1 : (i 1).val < 4096 := (i 1).isLt
  have h2 : (i 2).val < 64 := (i 2).isLt
  have hlt : 4 * (i 0).val + 3 < cfg3.N := by rw [hN]; omega
  obtain ⟨e0, e1, e2⟩ := botIdxO3 ⟨4 * (i 0).val + 3, hlt⟩
  have e0' : win3_4.index ⟨4 * (i 0).val + 3, hlt⟩ 0 = (4 * (i 0).val + 3) / 4 := e0
  refine ⟨⟨4 * (i 0).val + 3, hlt⟩, (flush3_4 _).mpr (by show (4 * (i 0).val + 3) % 4 = 3; omega), ?_⟩
  rw [botMemBlk3]
  intro a
  match a with
  | ⟨0, _⟩ => show win3_4.index ⟨4 * (i 0).val + 3, hlt⟩ 0 * 1 ≤ (i 0).val ∧ (i 0).val < win3_4.index ⟨4 * (i 0).val + 3, hlt⟩ 0 * 1 + 1; rw [e0']; omega
  | ⟨1, _⟩ => show win3_4.index ⟨4 * (i 0).val + 3, hlt⟩ 1 * 4096 ≤ (i 1).val ∧ (i 1).val < win3_4.index ⟨4 * (i 0).val + 3, hlt⟩ 1 * 4096 + 4096; rw [e1]; omega
  | ⟨2, _⟩ => show win3_4.index ⟨4 * (i 0).val + 3, hlt⟩ 2 * 64 ≤ (i 2).val ∧ (i 2).val < win3_4.index ⟨4 * (i 0).val + 3, hlt⟩ 2 * 64 + 64; rw [e2]; omega

/-- So the output array ends holding, in slice h, column half h's two tiles accumulated from zero. -/
theorem botArr3 (c : Dev nD) : (dat3 V c).arrAt 4 cfg3.N = botG3 V c :=
  (dat3 V c).arrAt_eq_of_cover 4 (botG3 V c) (botFlushed3 V c) botCover3

/-- THE USER-SIDE OUTPUT: slice h, entry (u, d) is the partial product over column half h. -/
theorem botFinal3 (c : Dev nD) (h : Fin 2) (u : Fin 4096) (d : Fin 64) :
    ((dat3 V c).arrAt 4 cfg3.N : S2x4096x64.Idx → EReal) (ix3 h u d)
      = ∑ k : Fin 4096,
          botW3 V c (ix2 u (⟨h.val * 4096 + k.val, by have := h.isLt; have := k.isLt; omega⟩ : Fin 8192))
            * botX3 V c (ix2 (⟨h.val * 4096 + k.val, by have := h.isLt; have := k.isLt; omega⟩ : Fin 8192) d) := by
  rw [botArr3 V c, botG3_apply]
  show (0 + botTile3 V c (2 * h.val) u d) + botTile3 V c (2 * h.val + 1) u d = _
  have hh := h.isLt
  rw [Cert.Spec.sum4096_acc2
    (fun k : Fin 4096 => botW3 V c (ix2 u (⟨h.val * 4096 + k.val, by have := k.isLt; omega⟩ : Fin 8192))
            * botX3 V c (ix2 (⟨h.val * 4096 + k.val, by have := k.isLt; omega⟩ : Fin 8192) d))
    (fun j r => ⟨j.val * 2048 + r.val, by have := j.isLt; have := r.isLt; omega⟩) (fun _ _ => rfl)]
  have hcol : ∀ (j : Fin 2) (r : Fin 2048) (hb : h.val * 4096 + (j.val * 2048 + r.val) < 8192),
      botCol3 (2 * h.val + j.val) r = ⟨h.val * 4096 + (j.val * 2048 + r.val), hb⟩ := fun j r hb => Fin.ext (by
    show ((2 * h.val + j.val) * 2048 + r.val) % 8192 = h.val * 4096 + (j.val * 2048 + r.val)
    have := j.isLt; have := r.isLt; omega)
  unfold botTile3
  refine congrArg₂ (fun x y : EReal => x + y) (congrArg (fun x : EReal => 0 + x) (Finset.sum_congr rfl fun r _ => ?_)) (Finset.sum_congr rfl fun r _ => ?_)
  · rw [show 2 * h.val = 2 * h.val + (0 : Fin 2).val from rfl, hcol 0 r (by have := r.isLt; show h.val * 4096 + (0 * 2048 + r.val) < 8192; omega)]
  · rw [show 2 * h.val + 1 = 2 * h.val + (1 : Fin 2).val from rfl, hcol 1 r (by have := r.isLt; show h.val * 4096 + (1 * 2048 + r.val) < 8192; omega)]
end

end Cert.KernelIdeal.Hand

end
-- ==== Proof.Val4Top.lean ====
/-
  One propagation layer's item-side product, piece by piece. The body adds, into one band of 2048 rows of the first
  accumulator (4096 rows of 64), the product of the transposed weight tile with the block of the table's first rows:
  at row r of the band and column d it adds the sum over the tile's 2048 rows k of tile(k, r) * block(k, d) to what the
  band held. This module reads that at an index, at the ideal float values (where narrowing to sixteen bits changes
  nothing and the product into a zero accumulator is the plain sum): inside the band the accumulator gains the sum,
  outside it keeps what it held; at a point that first zeroes the accumulator, what it held is zero; at a point that
  copies the accumulator out, the output block is the accumulator.
-/
import proofs.«142347_j15487652069895_2_alg».proof.Proof.K4Frame
import proofs.«142347_j15487652069895_2_alg».proof.Proof.SumLaws
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem top4_hz : (![0, 0] : Fin 2 → Nat) = fun _ => 0 := funext fun a => by fin_cases a <;> rfl

/-! ## The contraction: over the tile's rows, for both operands -/

theorem top4_lhs0 (j : S2048x64.Idx) (q : dot_S2048x2048_S2048x64_S2048x64_0_0_1_1_n_n.contr.Idx) :
    (dot_S2048x2048_S2048x64_S2048x64_0_0_1_1_n_n.lhsIdx j q 0).val = (q ⟨0, by decide⟩).val :=
  dot_S2048x2048_S2048x64_S2048x64_0_0_1_1_n_n.lhsIdx_val_of_single rfl j q
theorem top4_lhs1 (j : S2048x64.Idx) (q : dot_S2048x2048_S2048x64_S2048x64_0_0_1_1_n_n.contr.Idx) :
    (dot_S2048x2048_S2048x64_S2048x64_0_0_1_1_n_n.lhsIdx j q 1).val = (j 0).val := by
  unfold DotDims.lhsIdx
  rw [dif_neg (show ¬(1 : Fin S2048x2048.rank) ∈ dot_S2048x2048_S2048x64_S2048x64_0_0_1_1_n_n.lhsBatch by decide), dif_pos (show (1 : Fin S2048x2048.rank) ∈ dot_S2048x2048_S2048x64_S2048x64_0_0_1_1_n_n.lhsNonContracting by decide)]
  rfl
theorem top4_rhs0 (j : S2048x64.Idx) (q : dot_S2048x2048_S2048x64_S2048x64_0_0_1_1_n_n.contr.Idx) :
    (dot_S2048x2048_S2048x64_S2048x64_0_0_1_1_n_n.rhsIdx j q 0).val = (q ⟨0, by decide⟩).val :=
  dot_S2048x2048_S2048x64_S2048x64_0_0_1_1_n_n.rhsIdx_val_of_single rfl j q
theorem top4_rhs1 (j : S2048x64.Idx) (q : dot_S2048x2048_S2048x64_S2048x64_0_0_1_1_n_n.contr.Idx) :
    (dot_S2048x2048_S2048x64_S2048x64_0_0_1_1_n_n.rhsIdx j q 1).val = (j 1).val := by
  unfold DotDims.rhsIdx
  rw [dif_neg (show ¬(1 : Fin S2048x64.rank) ∈ dot_S2048x2048_S2048x64_S2048x64_0_0_1_1_n_n.rhsBatch by decide), dif_pos (show (1 : Fin S2048x64.rank) ∈ dot_S2048x2048_S2048x64_S2048x64_0_0_1_1_n_n.rhsNonContracting by decide)]
  rfl

/-- The band's new contents at row r, column d: what it held plus the sum over the tile's rows k of
    tile(k, r) * block(k, d). -/
theorem top4_pay6_apply (x0 : FVec Ideal S2048x2048 .bf16) (x1 : FVec Ideal S2048x64 .f32) (v27 : FVec Ideal S2048x64 .f32)
    (r : Fin 2048) (d : Fin 64) :
    k4_pay6 (F := Ideal) x0 x1 v27 (ix2 r d) = v27 (ix2 r d) + ∑ k : Fin 2048, x0 (ix2 k r) * x1 (ix2 k d) := by
  unfold k4_pay6 k4_pay4
  simp only [shapeCast_self]
  refine congrArg (v27 (ix2 r d) + ·) ?_
  refine (Ideal.matmul_constant_zero_apply dot_S2048x2048_S2048x64_S2048x64_0_0_1_1_n_n none x0 _ (ix2 r d)).trans ?_
  rw [← Equiv.sum_comp (contrEquiv1 dot_S2048x2048_S2048x64_S2048x64_0_0_1_1_n_n 2048 rfl rfl).symm]
  refine Finset.sum_congr rfl fun k _ => ?_
  have hk := contrEquiv1_symm_val dot_S2048x2048_S2048x64_S2048x64_0_0_1_1_n_n 2048 rfl rfl k
  have el : dot_S2048x2048_S2048x64_S2048x64_0_0_1_1_n_n.lhsIdx (ix2 r d) ((contrEquiv1 dot_S2048x2048_S2048x64_S2048x64_0_0_1_1_n_n 2048 rfl rfl).symm k) = ix2 k r := funext fun a => Fin.ext (by
    match a with
    | ⟨0, _⟩ => exact (top4_lhs0 _ _).trans hk
    | ⟨1, _⟩ => exact top4_lhs1 _ _)
  have er : dot_S2048x2048_S2048x64_S2048x64_0_0_1_1_n_n.rhsIdx (ix2 r d) ((contrEquiv1 dot_S2048x2048_S2048x64_S2048x64_0_0_1_1_n_n 2048 rfl rfl).symm k) = ix2 k d := funext fun a => Fin.ext (by
    match a with
    | ⟨0, _⟩ => exact (top4_rhs0 _ _).trans hk
    | ⟨1, _⟩ => exact top4_rhs1 _ _)
  rw [el, er]
  rfl

/-! ## A row of the accumulator inside or outside the band a point rewrites -/

/-- Row q of the accumulator, column d, is the band's row r, column d, when q is the band's first row plus r. -/
theorem top4_band_emb (i : grid4.Coords) (r : Fin 2048) (d : Fin 64) (q : Fin 4096) (hq : q.val = k4_off2 i 0 + r.val)
    (h1 : k4_off2 i 1 = 0) : (ix2 q d : S4096x64.Idx) = (Rect.unit (s := S4096x64) (k4_off2 i) S2048x64.size (k4_off2_inb i)).emb (ix2 r d) :=
  funext fun a => Fin.ext (by
    match a with
    | ⟨0, _⟩ => show q.val = k4_off2 i 0 + 1 * r.val; omega
    | ⟨1, _⟩ => show d.val = k4_off2 i 1 + 1 * d.val; omega)

/-- A row before the band's first or from its last on is not in the band. -/
theorem top4_band_not_mem (i : grid4.Coords) (q : Fin 4096) (d : Fin 64)
    (hq : q.val < k4_off2 i 0 ∨ k4_off2 i 0 + 2048 ≤ q.val) : (ix2 q d : S4096x64.Idx) ∉ (Rect.unit (s := S4096x64) (k4_off2 i) S2048x64.size (k4_off2_inb i)).set := by
  rw [Rect.mem_set_unit]
  intro h
  have h0 := h 0
  have e : ((ix2 q d : S4096x64.Idx) 0).val = q.val := rfl
  have s0 : S2048x64.size 0 = 2048 := rfl
  rw [e, s0] at h0
  omega

/-! ## A point that only adds (positions 1, 2, 5, 6) -/

theorem top4_soutB_in (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i) (x0 : Vec Ideal S2048x2048 .bf16) (x1 : Vec Ideal S2048x64 .f32) (x2 : Vec Ideal S2048x64 .f32)
    (xs0 xs1 : Vec Ideal S4096x64 .f32) (r : Fin 2048) (d : Fin 64) (q : Fin 4096) (hq : q.val = k4_off2 i 0 + r.val) (h1 : k4_off2 i 1 = 0) :
    sout4_B_0 c i arg3 harg3 arg4 harg4 arg5 harg5 arg6 harg6 arg7 harg7 arg8 harg8 arg9 harg9 hc0 hc1 x0 x1 x2 xs0 xs1 (ix2 q d)
      = xs0 (ix2 q d) + ∑ k : Fin 2048, x0 (ix2 k r) * x1 (ix2 k d) := by
  rw [top4_band_emb i r d q hq h1]
  unfold sout4_B_0 kernelRun4_B
  dsimp only
  rw [View.read_writes_cons_emb]
  simp only [View.readAt_eq_ld, harg3.read_unread, harg4.read_unread, harg8.read_unread, View.ld_unit_zero (S := S2048x2048) top4_hz, View.ld_unit_zero (S := S2048x64) top4_hz]
  exact top4_pay6_apply x0 x1 _ r d

theorem top4_soutB_out (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i) (x0 : Vec Ideal S2048x2048 .bf16) (x1 : Vec Ideal S2048x64 .f32) (x2 : Vec Ideal S2048x64 .f32)
    (xs0 xs1 : Vec Ideal S4096x64 .f32) (q : Fin 4096) (d : Fin 64) (hq : q.val < k4_off2 i 0 ∨ k4_off2 i 0 + 2048 ≤ q.val) :
    sout4_B_0 c i arg3 harg3 arg4 harg4 arg5 harg5 arg6 harg6 arg7 harg7 arg8 harg8 arg9 harg9 hc0 hc1 x0 x1 x2 xs0 xs1 (ix2 q d) = xs0 (ix2 q d) := by
  unfold sout4_B_0 kernelRun4_B
  dsimp only
  rw [View.read_writes_apply_of_forall_not_mem _ _ _ _ (fun p hp => by
    obtain rfl := List.mem_singleton.mp hp
    exact top4_band_not_mem i q d hq), harg8.read_unread]

/-! ## A point that adds and then copies out (positions 3, 7) -/

theorem top4_soutC_in (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec Ideal S2048x2048 .bf16) (x1 : Vec Ideal S2048x64 .f32) (x2 : Vec Ideal S2048x64 .f32)
    (xs0 xs1 : Vec Ideal S4096x64 .f32) (r : Fin 2048) (d : Fin 64) (q : Fin 4096) (hq : q.val = k4_off2 i 0 + r.val) (h1 : k4_off2 i 1 = 0) :
    sout4_C_0 c i arg3 harg3 arg4 harg4 arg5 harg5 arg6 harg6 arg7 harg7 arg8 harg8 arg9 harg9 hc0 hc1 x0 x1 x2 xs0 xs1 (ix2 q d)
      = xs0 (ix2 q d) + ∑ k : Fin 2048, x0 (ix2 k r) * x1 (ix2 k d) := by
  rw [top4_band_emb i r d q hq h1]
  unfold sout4_C_0 kernelRun4_C
  dsimp only
  sl_unfold_run_names
  rw [View.read_writes_cons_emb]
  simp only [View.readAt_eq_ld, harg3.read_unread, harg4.read_unread, harg8.read_unread, View.ld_unit_zero (S := S2048x2048) top4_hz, View.ld_unit_zero (S := S2048x64) top4_hz]
  exact top4_pay6_apply x0 x1 _ r d

theorem top4_soutC_out (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec Ideal S2048x2048 .bf16) (x1 : Vec Ideal S2048x64 .f32) (x2 : Vec Ideal S2048x64 .f32)
    (xs0 xs1 : Vec Ideal S4096x64 .f32) (q : Fin 4096) (d : Fin 64) (hq : q.val < k4_off2 i 0 ∨ k4_off2 i 0 + 2048 ≤ q.val) :
    sout4_C_0 c i arg3 harg3 arg4 harg4 arg5 harg5 arg6 harg6 arg7 harg7 arg8 harg8 arg9 harg9 hc0 hc1 x0 x1 x2 xs0 xs1 (ix2 q d) = xs0 (ix2 q d) := by
  unfold sout4_C_0 kernelRun4_C
  dsimp only
  sl_unfold_run_names
  rw [View.read_writes_apply_of_forall_not_mem _ _ _ _ (fun p hp => by
    obtain rfl := List.mem_singleton.mp hp
    exact top4_band_not_mem i q d hq), harg8.read_unread]

/-- The output block is the accumulator, copied whole. -/
theorem top4_outC_eq (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec Ideal S2048x2048 .bf16) (x1 : Vec Ideal S2048x64 .f32) (x2 : Vec Ideal S2048x64 .f32)
    (xs0 xs1 : Vec Ideal S4096x64 .f32) :
    out4_C_3 c i arg3 harg3 arg4 harg4 arg5 harg5 arg6 harg6 arg7 harg7 arg8 harg8 arg9 harg9 hc0 hc1 x0 x1 x2 xs0 xs1 = sout4_C_0 c i arg3 harg3 arg4 harg4 arg5 harg5 arg6 harg6 arg7 harg7 arg8 harg8 arg9 harg9 hc0 hc1 x0 x1 x2 xs0 xs1 := by
  unfold out4_C_3 sout4_C_0
  rw [View.read_writes_eq_canon _ _ _ (cover4_C_3 c i arg3 harg3 arg4 harg4 arg5 harg5 arg6 harg6 arg7 harg7 arg8 harg8 arg9 harg9 hc0 hc1 x0 x1 x2 xs0 xs1)]
  unfold kernelRun4_C
  dsimp only
  rw [View.canon_unit_zero top4_hz]
  simp only [View.readAt_eq_ld, View.ld_unit_zero (S := S4096x64) top4_hz]

/-! ## A point that first zeroes the accumulator (positions 0, 4) -/

/-- The zero block. -/
theorem top4_pay2_apply (y : S4096x64.Idx) : k4_pay2 (F := Ideal) y = 0 := by
  unfold k4_pay2
  simp only [shapeCast_self]
  exact Ideal.ofBits_zero_f32

/-- A read outside the last write's rectangle reads what the earlier writes left. -/
theorem top4_read_cons_not_mem {sg : RefSig} {κ : Kind} {sp : Space} {s : Shape} {e : EltTy} {Val : EltTy → Type}
    (v : View sg κ sp s e) (f : v.ty.Contents Val) (r : Rect s) (w : r.shape.Idx → Val e) (L : List (View.Piece Val s e))
    (y : s.Idx) (h : y ∉ r.set) : v.read Val (v.writes Val f (⟨r, w⟩ :: L)) y = v.read Val (v.writes Val f L) y := by
  rw [View.writes_cons, View.read_slice_write_of_not_mem r _ _ _ (by rwa [Rect.map_emb_univ])]

theorem top4_soutA_in (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec Ideal S2048x2048 .bf16) (x1 : Vec Ideal S2048x64 .f32) (x2 : Vec Ideal S2048x64 .f32)
    (r : Fin 2048) (d : Fin 64) (q : Fin 4096) (hq : q.val = k4_off2 i 0 + r.val) (h1 : k4_off2 i 1 = 0) :
    sout4_A_0 c i arg3 harg3 arg4 harg4 arg5 harg5 arg6 harg6 arg7 harg7 arg8 harg8 arg9 harg9 hc0 hc1 x0 x1 x2 (ix2 q d) = ∑ k : Fin 2048, x0 (ix2 k r) * x1 (ix2 k d) := by
  rw [top4_band_emb i r d q hq h1]
  unfold sout4_A_0 kernelRun4_A
  dsimp only
  sl_unfold_run_names
  rw [View.read_writes_cons_emb]
  simp only [View.readAt_eq_ld, harg3.read_unread, harg4.read_unread, View.ld_unit_zero (S := S2048x2048) top4_hz, View.ld_unit_zero (S := S2048x64) top4_hz]
  refine (top4_pay6_apply x0 x1 _ r d).trans ?_
  rw [View.read_writes_junk_eq_canon, View.canon_unit_zero top4_hz]
  show k4_pay2 (F := Ideal) _ + _ = _
  rw [top4_pay2_apply, zero_add]

theorem top4_soutA_out (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec Ideal S2048x2048 .bf16) (x1 : Vec Ideal S2048x64 .f32) (x2 : Vec Ideal S2048x64 .f32)
    (q : Fin 4096) (d : Fin 64) (hq : q.val < k4_off2 i 0 ∨ k4_off2 i 0 + 2048 ≤ q.val) :
    sout4_A_0 c i arg3 harg3 arg4 harg4 arg5 harg5 arg6 harg6 arg7 harg7 arg8 harg8 arg9 harg9 hc0 hc1 x0 x1 x2 (ix2 q d) = 0 := by
  unfold sout4_A_0 kernelRun4_A
  dsimp only
  sl_unfold_run_names
  rw [top4_read_cons_not_mem _ _ (Rect.unit (s := S4096x64) (k4_off2 i) S2048x64.size (k4_off2_inb i)) _ _ _ (top4_band_not_mem i q d hq), View.read_writes_junk_eq_canon, View.canon_unit_zero top4_hz]
  exact top4_pay2_apply _

end Cert.KernelIdeal.Hand

end
-- ==== Proof.Val4TopA.lean ====
/-
  One propagation layer's item-side product, over the grid. The grid's eight points are (column half h, row tile i,
  column tile j) at position 4h + 2i + j. At a point the weight tile is rows i*2048.. of columns (2h + j)*2048.., the
  table block is rows i*2048.., and band j of the accumulator gains the tile product. So after position n of half h
  = n / 4, with p = n % 4, row q of the accumulator (band b = q / 2048) holds the partial sum over the first row tile
  if b ≤ p, plus the partial sum over the second row tile if b + 2 ≤ p, of weight(u, h*4096 + q) * table(u, d); after
  the half's last position both are present and their sum is the sum over all 4096 rows u.
-/
import proofs.«142347_j15487652069895_2_alg».proof.Proof.Val4Top
import proofs.«142347_j15487652069895_2_alg».proof.Proof.SumLaws
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section
variable (V : (c : Dev nD) → (b : Ref sig .tc) → Buf (Elt Ideal) ((c : Thread nD τ).loc b))

/-- The weight at row u, column q, as the region finds it. -/
def top4_wAt (c : Dev nD) (u : Fin 4096) (q : Fin 8192) : EReal := (V c main_v6 : S4096x8192.Idx → Elt Ideal .bf16) (ix2 u q)
/-- The table's entry at row u, column d, as the region finds it. -/
def top4_xAt (c : Dev nD) (u : Fin 4096) (d : Fin 64) : EReal := (V c main_v28 : S4096x64.Idx → Elt Ideal .f32) (ix2 u d)

/-- The same two over natural-number coordinates (zero outside the arrays), so that coordinates can be compared
    by arithmetic. -/
def top4_wN (c : Dev nD) (u q : ℕ) : EReal := if h : u < 4096 ∧ q < 8192 then top4_wAt V c ⟨u, h.1⟩ ⟨q, h.2⟩ else 0
def top4_xN (c : Dev nD) (u d : ℕ) : EReal := if h : u < 4096 ∧ d < 64 then top4_xAt V c ⟨u, h.1⟩ ⟨d, h.2⟩ else 0

/-- The partial sum over row tile i of weight(u, h*4096 + q) * table(u, d). -/
def top4_P (c : Dev nD) (h i q d : ℕ) : EReal :=
  ∑ k : Fin 2048, top4_wN V c (i * 2048 + k.val) (h * 4096 + q) * top4_xN V c (i * 2048 + k.val) d

/-! ## The grid: the band a point rewrites and the blocks it reads -/

theorem top4_off : ∀ t : Fin cfg4.N, k4_off2 (grid4.coords t) 0 = t.val % 2 * 2048 ∧ k4_off2 (grid4.coords t) 1 = 0 :=
  (by decide +kernel : ∀ t : Fin grid4.N, k4_off2 (grid4.coords t) 0 = t.val % 2 * 2048 ∧ k4_off2 (grid4.coords t) 1 = 0)
theorem top4_idx0 : ∀ t : Fin cfg4.N, win4_0.index t (0 : Fin 2) = t.val / 2 % 2 ∧ win4_0.index t (1 : Fin 2) = 2 * (t.val / 4) + t.val % 2 :=
  (by decide +kernel : ∀ t : Fin grid4.N, win4_0.index t (0 : Fin 2) = t.val / 2 % 2 ∧ win4_0.index t (1 : Fin 2) = 2 * (t.val / 4) + t.val % 2)
theorem top4_idx1 : ∀ t : Fin cfg4.N, win4_1.index t (0 : Fin 2) = t.val / 2 % 2 ∧ win4_1.index t (1 : Fin 2) = 0 :=
  (by decide +kernel : ∀ t : Fin grid4.N, win4_1.index t (0 : Fin 2) = t.val / 2 % 2 ∧ win4_1.index t (1 : Fin 2) = 0)

/-- The weight tile at a point: row k, column r of it is the weight at row i*2048 + k, column (2h + j)*2048 + r. -/
theorem top4_iblk0 (c : Dev nD) (t : Fin cfg4.N) (k r : Fin 2048) :
    (iblk4 V c 0 t : Vec Ideal S2048x2048 .bf16) (ix2 k r)
      = top4_wN V c (t.val / 2 % 2 * 2048 + k.val) ((2 * (t.val / 4) + t.val % 2) * 2048 + r.val) := by
  have hN : t.val < 8 := lt_of_lt_of_eq t.isLt (show cfg4.N = 8 from N_4)
  have hi := top4_idx0 t
  unfold top4_wN
  rw [dif_pos ⟨by omega, by omega⟩]
  unfold top4_wAt iblk4
  rw [View.read_apply]
  show V c main_v6 _ = V c main_v6 _
  congr 1
  funext a
  apply Fin.ext
  match a with
  | ⟨0, _⟩ => show win4_0.index t (0 : Fin 2) * 2048 + 1 * k.val = t.val / 2 % 2 * 2048 + k.val; rw [hi.1]; omega
  | ⟨1, _⟩ => show win4_0.index t (1 : Fin 2) * 2048 + 1 * r.val = (2 * (t.val / 4) + t.val % 2) * 2048 + r.val; rw [hi.2]; omega

/-- The table block at a point: row k, column d of it is the table at row i*2048 + k, column d. -/
theorem top4_iblk1 (c : Dev nD) (t : Fin cfg4.N) (k : Fin 2048) (d : Fin 64) :
    (iblk4 V c 1 t : Vec Ideal S2048x64 .f32) (ix2 k d) = top4_xN V c (t.val / 2 % 2 * 2048 + k.val) d.val := by
  have hN : t.val < 8 := lt_of_lt_of_eq t.isLt (show cfg4.N = 8 from N_4)
  have hi := top4_idx1 t
  unfold top4_xN
  rw [dif_pos ⟨by omega, d.isLt⟩]
  unfold top4_xAt iblk4
  rw [View.read_apply]
  show V c main_v28 _ = V c main_v28 _
  congr 1
  funext a
  apply Fin.ext
  match a with
  | ⟨0, _⟩ => show win4_1.index t (0 : Fin 2) * 2048 + 1 * k.val = t.val / 2 % 2 * 2048 + k.val; rw [hi.1]; omega
  | ⟨1, _⟩ => show win4_1.index t (1 : Fin 2) * 64 + 1 * d.val = d.val; rw [hi.2]; omega

/-- The tile product at a point, at row r of the band and column d, is the partial sum over the point's row tile at
    the accumulator's row j*2048 + r. -/
theorem top4_tile (c : Dev nD) (t : Fin cfg4.N) (r : Fin 2048) (d : Fin 64)
    (x0 : Vec Ideal S2048x2048 .bf16) (x1 : Vec Ideal S2048x64 .f32) (e0 : x0 = iblk4 V c 0 t) (e1 : x1 = iblk4 V c 1 t) :
    ∑ k : Fin 2048, x0 (ix2 k r) * x1 (ix2 k d)
      = top4_P V c (t.val / 4) (t.val / 2 % 2) (t.val % 2 * 2048 + r.val) d.val := by
  subst e0 e1
  unfold top4_P
  refine Finset.sum_congr rfl fun k _ => ?_
  rw [top4_iblk0, top4_iblk1]
  have e : (2 * (t.val / 4) + t.val % 2) * 2048 + r.val = t.val / 4 * 4096 + (t.val % 2 * 2048 + r.val) := by omega
  rw [e]

/-! ## The accumulator after each position -/

/-- The first accumulator after position n. -/
abbrev top4_scr (c : Dev nD) (n : ℕ) (hn : n < cfg4.N) : Vec Ideal S4096x64 .f32 := (outsAt4 V c n hn).2.2.1

/-- A half's first position: band 0 holds the first row tile's partial sum, the rest is zero. -/
theorem top4_stepA (c : Dev nD) (t : Fin cfg4.N) (h0 : t.val % 4 = 0) (q : Fin 4096) (d : Fin 64) :
    top4_scr V c t.val t.isLt (ix2 q d) = if q.val / 2048 = 0 then top4_P V c (t.val / 4) 0 q.val d.val else 0 := by
  have h1 : ¬t.val % 4 = 3 := by omega
  have ho := top4_off t
  have hq4 : q.val < 4096 := q.isLt
  unfold top4_scr
  rw [outsAt4_A V c t h0 h1]
  dsimp only
  by_cases hb : q.val / 2048 = 0
  · rw [if_pos hb]
    have hq : q.val < 2048 := by omega
    refine (top4_soutA_in c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 ((hcond4_0 t).mpr h0) (fun h => h1 ((hcond4_1 t).mp h)) (iblk4 V c 0 t) (iblk4 V c 1 t) (iblk4 V c 2 t) ⟨q.val, hq⟩ d q (by rw [ho.1]; show q.val = t.val % 2 * 2048 + q.val; omega) ho.2).trans ?_
    refine (top4_tile V c t ⟨q.val, hq⟩ d (iblk4 V c 0 t) (iblk4 V c 1 t) rfl rfl).trans ?_
    show top4_P V c (t.val / 4) (t.val / 2 % 2) (t.val % 2 * 2048 + q.val) d.val = _
    have e1 : t.val / 2 % 2 = 0 := by omega
    have e2 : t.val % 2 * 2048 + q.val = q.val := by omega
    rw [e1, e2]
  · rw [if_neg hb]
    exact top4_soutA_out c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 ((hcond4_0 t).mpr h0) (fun h => h1 ((hcond4_1 t).mp h)) (iblk4 V c 0 t) (iblk4 V c 1 t) (iblk4 V c 2 t) q d (by rw [ho.1]; omega)

/-- Any other position: band j gains the point's partial sum over what the position before left; the other band keeps it. -/
theorem top4_stepBC (c : Dev nD) (t : Fin cfg4.N) (h0 : ¬t.val % 4 = 0) (q : Fin 4096) (d : Fin 64) :
    top4_scr V c t.val t.isLt (ix2 q d)
      = if q.val / 2048 = t.val % 2 then
          top4_scr V c (t.val - 1) (Nat.lt_of_le_of_lt (Nat.sub_le _ _) t.isLt) (ix2 q d) + top4_P V c (t.val / 4) (t.val / 2 % 2) q.val d.val
        else top4_scr V c (t.val - 1) (Nat.lt_of_le_of_lt (Nat.sub_le _ _) t.isLt) (ix2 q d) := by
  have ho := top4_off t
  have hq4 : q.val < 4096 := q.isLt
  unfold top4_scr
  by_cases h1 : t.val % 4 = 3
  · rw [outsAt4_C V c t h0 h1]
    dsimp only
    by_cases hb : q.val / 2048 = t.val % 2
    · rw [if_pos hb]
      have hr : q.val - t.val % 2 * 2048 < 2048 := by omega
      refine (top4_soutC_in c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2 ⟨q.val - t.val % 2 * 2048, hr⟩ d q (by rw [ho.1]; show q.val = t.val % 2 * 2048 + (q.val - t.val % 2 * 2048); omega) ho.2).trans ?_
      refine congrArg (_ + ·) ?_
      refine (top4_tile V c t ⟨q.val - t.val % 2 * 2048, hr⟩ d (iblk4 V c 0 t) (iblk4 V c 1 t) rfl rfl).trans ?_
      show top4_P V c (t.val / 4) (t.val / 2 % 2) (t.val % 2 * 2048 + (q.val - t.val % 2 * 2048)) d.val = _
      have e : t.val % 2 * 2048 + (q.val - t.val % 2 * 2048) = q.val := by omega
      rw [e]
    · rw [if_neg hb]
      exact top4_soutC_out c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2 q d (by rw [ho.1]; omega)
  · rw [outsAt4_B V c t h0 h1]
    dsimp only
    by_cases hb : q.val / 2048 = t.val % 2
    · rw [if_pos hb]
      have hr : q.val - t.val % 2 * 2048 < 2048 := by omega
      refine (top4_soutB_in c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2 ⟨q.val - t.val % 2 * 2048, hr⟩ d q (by rw [ho.1]; show q.val = t.val % 2 * 2048 + (q.val - t.val % 2 * 2048); omega) ho.2).trans ?_
      refine congrArg (_ + ·) ?_
      refine (top4_tile V c t ⟨q.val - t.val % 2 * 2048, hr⟩ d (iblk4 V c 0 t) (iblk4 V c 1 t) rfl rfl).trans ?_
      show top4_P V c (t.val / 4) (t.val / 2 % 2) (t.val % 2 * 2048 + (q.val - t.val % 2 * 2048)) d.val = _
      have e : t.val % 2 * 2048 + (q.val - t.val % 2 * 2048) = q.val := by omega
      rw [e]
    · rw [if_neg hb]
      exact top4_soutB_out c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2 q d (by rw [ho.1]; omega)

end

end Cert.KernelIdeal.Hand

end
-- ==== Proof.Val4TopB.lean ====
/-
  One propagation layer's item-side product: the result array. By induction on the position, after position n the first
  accumulator holds, at row q (band b = q / 2048) and column d, the first row tile's partial sum if b ≤ n % 4 plus the
  second row tile's if b + 2 ≤ n % 4 (a half's first position zeroes it and fills band 0; every later position adds one
  tile's partial sum into one band). After a half's last position both partial sums are there in both bands, and their
  sum is the sum over all 4096 rows u of weight(u, h*4096 + q) * table(u, d). That position copies the accumulator into
  the output block, which is written back as rows h*4096.. of the result; the two halves' blocks cover the result, so
  the result at row q, column d is the sum over u of weight(u, q) * table(u, d).
-/
import proofs.«142347_j15487652069895_2_alg».proof.Proof.Val4TopA
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section
variable (V : (c : Dev nD) → (b : Ref sig .tc) → Buf (Elt Ideal) ((c : Thread nD τ).loc b))

/-! ## The accumulator after position n, in closed form -/

theorem top4_inv (c : Dev nD) : ∀ (n : ℕ) (hn : n < cfg4.N) (q : Fin 4096) (d : Fin 64),
    top4_scr V c n hn (ix2 q d)
      = (if q.val / 2048 ≤ n % 4 then top4_P V c (n / 4) 0 q.val d.val else 0)
        + (if q.val / 2048 + 2 ≤ n % 4 then top4_P V c (n / 4) 1 q.val d.val else 0)
  | 0, hn, q, d => by
    refine (top4_stepA V c ⟨0, hn⟩ rfl q d).trans ?_
    have hq : q.val < 4096 := q.isLt
    show (if q.val / 2048 = 0 then top4_P V c (0 / 4) 0 q.val d.val else 0) = _
    by_cases hb : q.val / 2048 = 0
    · rw [if_pos hb, if_pos (by omega), if_neg (by omega), add_zero]
    · rw [if_neg hb, if_neg (by omega), if_neg (by omega), add_zero]
  | n + 1, hn, q, d => by
    have hN : n + 1 < 8 := lt_of_lt_of_eq hn (show cfg4.N = 8 from N_4)
    have hq : q.val < 4096 := q.isLt
    by_cases h0 : (n + 1) % 4 = 0
    · refine (top4_stepA V c ⟨n + 1, hn⟩ h0 q d).trans ?_
      show (if q.val / 2048 = 0 then top4_P V c ((n + 1) / 4) 0 q.val d.val else 0) = _
      by_cases hb : q.val / 2048 = 0
      · rw [if_pos hb, if_pos (by omega), if_neg (by omega), add_zero]
      · rw [if_neg hb, if_neg (by omega), if_neg (by omega), add_zero]
    · refine (top4_stepBC V c ⟨n + 1, hn⟩ h0 q d).trans ?_
      show (if q.val / 2048 = (n + 1) % 2 then
          top4_scr V c n _ (ix2 q d) + top4_P V c ((n + 1) / 4) ((n + 1) / 2 % 2) q.val d.val
        else top4_scr V c n _ (ix2 q d)) = _
      rw [top4_inv c n (Nat.lt_of_succ_lt hn) q d]
      have hh : (n + 1) / 4 = n / 4 := by omega
      have e1 : n % 4 = (n + 1) % 4 - 1 := by omega
      have e2 : (n + 1) % 2 = (n + 1) % 4 % 2 := by omega
      have e3 : (n + 1) / 2 % 2 = (n + 1) % 4 / 2 := by omega
      have hb : q.val / 2048 = 0 ∨ q.val / 2048 = 1 := by omega
      have hp : (n + 1) % 4 = 1 ∨ (n + 1) % 4 = 2 ∨ (n + 1) % 4 = 3 := by omega
      rw [hh, e1, e2, e3]
      rcases hb with hb | hb <;> rcases hp with hp | hp | hp <;> rw [hb, hp] <;> simp

/-- After a half's last position: the sum over all 4096 rows. -/
theorem top4_full (c : Dev nD) (t : Fin cfg4.N) (h3 : t.val % 4 = 3) (q : Fin 4096) (d : Fin 64) :
    top4_scr V c t.val t.isLt (ix2 q d)
      = ∑ u : Fin 4096, top4_wN V c u.val (t.val / 4 * 4096 + q.val) * top4_xN V c u.val d.val := by
  have hq : q.val < 4096 := q.isLt
  rw [top4_inv V c t.val t.isLt q d, if_pos (by omega), if_pos (by omega)]
  unfold top4_P
  exact (Cert.Spec.sum4096_halves (fun u : Fin 4096 => top4_wN V c u.val (t.val / 4 * 4096 + q.val) * top4_xN V c u.val d.val)
    (fun i k => ⟨i.val * 2048 + k.val, by have := i.isLt; have := k.isLt; omega⟩) (fun _ _ => rfl)).symm

/-- At such a position the output block is the accumulator. -/
theorem top4_out_eq_scr (c : Dev nD) (t : Fin cfg4.N) (h3 : t.val % 4 = 3) :
    (outsAt4 V c t.val t.isLt).1 = top4_scr V c t.val t.isLt := by
  have h0 : ¬t.val % 4 = 0 := by omega
  unfold top4_scr
  rw [outsAt4_C V c t h0 h3]
  dsimp only
  exact top4_outC_eq c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 (fun h => h0 ((hcond4_0 t).mp h)) ((hcond4_1 t).mpr h3) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2

/-! ## The result array -/

/-- The item-side product: at row q, column d, the sum over the 4096 rows u of weight(u, q) * table(u, d). -/
def top4_G (c : Dev nD) : Buf (Elt Ideal) ((c : Thread nD τ).loc main_v30_0) :=
  fun p : S8192x64.Idx => (∑ u : Fin 4096, top4_wAt V c u (p 0) * top4_xAt V c u (p 1) : EReal)

theorem top4_G_apply (c : Dev nD) (q : Fin 8192) (d : Fin 64) :
    (top4_G V c : S8192x64.Idx → EReal) (ix2 q d) = ∑ u : Fin 4096, top4_wAt V c u q * top4_xAt V c u d := rfl

theorem top4_G_nat (c : Dev nD) (p : S8192x64.Idx) :
    (top4_G V c : S8192x64.Idx → EReal) p = ∑ u : Fin 4096, top4_wN V c u.val (p 0).val * top4_xN V c u.val (p 1).val := by
  show (∑ u : Fin 4096, top4_wAt V c u (p 0) * top4_xAt V c u (p 1)) = _
  refine Finset.sum_congr rfl fun u _ => ?_
  unfold top4_wN top4_xN
  rw [dif_pos ⟨u.isLt, idx2_lt0 p⟩, dif_pos ⟨u.isLt, idx2_lt1 p⟩]
  rfl

theorem top4_idx3 : ∀ t : Fin cfg4.N, win4_3.index t (0 : Fin 2) = t.val / 4 ∧ win4_3.index t (1 : Fin 2) = 0 :=
  (by decide +kernel : ∀ t : Fin grid4.N, win4_3.index t (0 : Fin 2) = t.val / 4 ∧ win4_3.index t (1 : Fin 2) = 0)

/-- What a half's last position writes back is its block of the product. -/
theorem top4_flushed_eq (c : Dev nD) (t : Fin cfg4.N) (hf : (cfg4.win 3).flush t = true) :
    (dat4 V c).flushed 3 t = ((cfg4.win 3).blk t).view.read (Elt Ideal) (top4_G V c) := by
  have hN : t.val < 8 := lt_of_lt_of_eq t.isLt (show cfg4.N = 8 from N_4)
  have h3 : t.val % 4 = 3 := (flush4_3 t).mp hf
  have hi := top4_idx3 t
  show (cfg4.win 3).cut (grid4.coords t) ((dat4 V c).after 3 t) = _
  rw [after4_3, top4_out_eq_scr V c t h3]
  funext y
  obtain ⟨q, d, rfl⟩ : ∃ (q : Fin 4096) (d : Fin 64), y = ix2 q d := ⟨y 0, y 1, eq_ix2 (n0 := 4096) (n1 := 64) y⟩
  show top4_scr V c t.val t.isLt (ix2 q d) = (top4_G V c : S8192x64.Idx → EReal) (((cfg4.win 3).blk t).view.emb (ix2 q d))
  rw [top4_full V c t h3 q d, top4_G_nat]
  have e0 : ((((cfg4.win 3).blk t).view.emb (ix2 q d) : S8192x64.Idx) 0).val = t.val / 4 * 4096 + q.val := by
    show win4_3.index t (0 : Fin 2) * 4096 + 1 * q.val = _
    rw [hi.1]; omega
  have e1 : ((((cfg4.win 3).blk t).view.emb (ix2 q d) : S8192x64.Idx) 1).val = d.val := by
    show win4_3.index t (1 : Fin 2) * 64 + 1 * d.val = _
    rw [hi.2]; omega
  rw [e0, e1]

/-- An index of the result is in a point's block iff each coordinate is in the block's range on its axis. -/
theorem top4_mem_blk (t : Fin cfg4.N) (i : S8192x64.Idx) :
    i ∈ ((cfg4.win 3).blk t).view.set ↔ ∀ a : Fin 2, win4_3.index t a * S4096x64.size a ≤ (i a).val ∧ (i a).val < win4_3.index t a * S4096x64.size a + S4096x64.size a := by
  show i ∈ ((View.whole main_v30_0).slice (win4_3.rect t)).set ↔ _
  rw [View.set_slice_whole, Rect.mem_set_unit]
  exact Iff.rfl

/-- Row q of the result is in the block of half q / 4096, written back at that half's last position. -/
theorem top4_cover (i : S8192x64.Idx) : ∃ t : Fin cfg4.N, (cfg4.win 3).flush t = true ∧ i ∈ ((cfg4.win 3).blk t).view.set := by
  have hN : cfg4.N = 8 := N_4
  have h0 : (i 0).val < 8192 := idx2_lt0 i
  have h1 : (i 1).val < 64 := idx2_lt1 i
  obtain ⟨t, ht⟩ : ∃ t : Fin cfg4.N, t.val = 4 * ((i 0).val / 4096) + 3 := ⟨⟨4 * ((i 0).val / 4096) + 3, by omega⟩, rfl⟩
  have hi := top4_idx3 t
  refine ⟨t, (flush4_3 t).mpr (by omega), ?_⟩
  rw [top4_mem_blk]
  intro a
  match a with
  | ⟨0, _⟩ =>
    show win4_3.index t (0 : Fin 2) * 4096 ≤ (i 0).val ∧ (i 0).val < win4_3.index t (0 : Fin 2) * 4096 + 4096
    rw [hi.1]; omega
  | ⟨1, _⟩ =>
    show win4_3.index t (1 : Fin 2) * 64 ≤ (i 1).val ∧ (i 1).val < win4_3.index t (1 : Fin 2) * 64 + 64
    rw [hi.2]; omega

/-- The result array after the run is the item-side product. -/
theorem top4_final (c : Dev nD) : (dat4 (F := Ideal) V c).arrAt 3 cfg4.N = top4_G V c :=
  (dat4 V c).arrAt_eq_of_cover 3 (top4_G V c) (top4_flushed_eq V c) top4_cover

end

end Cert.KernelIdeal.Hand

end
-- ==== Proof.Val4BotA.lean ====
/-
  One propagation layer's user-side accumulator: the arithmetic of its three stored values, read at an index at the
  ideal float values (an extended real per float, every operation exact).

  The value stored into a 2048-row band of the accumulator is, at row r and column d, what the band held there
  plus the sum over the 2048 contracted positions k of weights-tile(r, k) * table-block(k, d): the narrowing of the
  table block to the short float format is the identity on extended reals, the tile product goes into a zero
  accumulator, and the shape casts are to the same shape. The value the accumulator is reset to is zero everywhere.
  The value copied into the output block is the accumulator under a leading unit axis.
-/
import proofs.«142347_j15487652069895_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-- The product's left operand index at output (r, d), contraction position q: row r … -/
theorem botLhs4_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
/-- … column q; -/
theorem botLhs4_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
/-- the right operand's: row q … -/
theorem botRhs4_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
/-- … column d. -/
theorem botRhs4_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The tile product into a zero accumulator, at output (r, d): the sum over the 2048 contracted positions of
    the left operand's row r times the right operand's column d. -/
theorem botMat4 (x0 : FVec Ideal S2048x2048 .bf16) (x2 : FVec Ideal S2048x64 .bf16) (r : Fin 2048) (d : Fin 64) :
    FloatOps.matmul dot_S2048x2048_S2048x64_S2048x64_1_0_0_1_n_n none x0 x2 (constant S2048x64 .f32 0x00000000#32) (ix2 r d)
      = ∑ k : Fin 2048, x0 (ix2 r k) * x2 (ix2 k d) := by
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 r d) ((contrEquiv1 dot_S2048x2048_S2048x64_S2048x64_1_0_0_1_n_n 2048 rfl rfl).symm k) = ix2 r k := funext fun a => Fin.ext (by
    match a with
    | ⟨0, _⟩ => exact botLhs4_0 _ _
    | ⟨1, _⟩ => exact (botLhs4_1 _ _).trans hk)
  have er : dot_S2048x2048_S2048x64_S2048x64_1_0_0_1_n_n.rhsIdx (ix2 r d) ((contrEquiv1 dot_S2048x2048_S2048x64_S2048x64_1_0_0_1_n_n 2048 rfl rfl).symm k) = ix2 k d := funext fun a => Fin.ext (by
    match a with
    | ⟨0, _⟩ => exact (botRhs4_0 _ _).trans hk
    | ⟨1, _⟩ => exact botRhs4_1 _ _)
  rw [el, er]

/-- The band's new contents at row r, column d: what the band held there plus the tile product of the weights
    tile's row r with the table block's column d (the change of float format before the product is the identity
    on the extended reals, and the product goes into a zero accumulator). -/
theorem botPay4 (x0 : Vec Ideal S2048x2048 .bf16) (x2 : Vec Ideal S2048x64 .f32) (acc : Vec Ideal S2048x64 .f32) (r : Fin 2048) (d : Fin 64) :
    k4_pay5 (F := Ideal) x0 x2 acc (ix2 r d) = acc (ix2 r d) + ∑ k : Fin 2048, x0 (ix2 r k) * x2 (ix2 k d) := by
  unfold k4_pay5 k4_pay4
  simp only [shapeCast_self]
  exact congrArg (acc (ix2 r d) + ·) (botMat4 x0 (truncf .bf16 x2 bitsLt_bf16_f32) r d)

/-- The block the accumulator is reset to is zero everywhere. -/
theorem botZero4 (y : S4096x64.Idx) : k4_pay3 (F := Ideal) y = 0 := by
  unfold k4_pay3
  simp only [shapeCast_self]
  exact Ideal.ofBits_zero_f32

/-- The copy into the output block only adds a leading unit axis: entry (0, u, d) is the accumulator's (u, d). -/
theorem botCopy4 (v : Vec Ideal S4096x64 .f32) (h : Fin 1) (u : Fin 4096) (d : Fin 64) :
    k4_pay1 (F := Ideal) v (ix3 h u d) = v (ix2 u d) := by
  unfold k4_pay1
  refine (shapeCast_addUnit_apply ![4096, 64] v shapeCasts_S4096x64_S1x4096x64 (ix3 h u d)).trans (congrArg v ?_)
  funext a
  match a with
  | ⟨0, _⟩ => rfl
  | ⟨1, _⟩ => rfl

end Cert.KernelIdeal.Hand

end
-- ==== Proof.Val4BotB.lean ====
/-
  One propagation layer's user-side accumulator: what each of the body's three cases leaves in it, and what the last
  case copies into the output block, read at an index at the ideal float values.

  Every point rewrites one band of 2048 rows of the accumulator, rows [o, o + 2048) with o the band's first row:
  inside the band the new entry at (o + r, d) is the old entry plus the tile product of the weights tile's row r with
  the table block's column d; outside the band the entry stays. A point that resets first has zero as the old entry
  everywhere. The last point of a column half also copies the whole accumulator, as that point leaves it, into the
  output block under a leading unit axis.
-/
import proofs.«142347_j15487652069895_2_alg».proof.Proof.K4Frame
import proofs.«142347_j15487652069895_2_alg».proof.Proof.Val4BotA
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

theorem botHz4 : (![0, 0] : Fin 2 → Nat) = fun _ => 0 := funext fun a => by fin_cases a <;> rfl
theorem botHz4' : (![0, 0, 0] : Fin 3 → Nat) = fun _ => 0 := funext fun a => by fin_cases a <;> rfl

/-- A whole-buffer load of the weights tile's staging buffer reads its contents; -/
theorem botLdW4 (M : Memref sig .tc .vmem S2048x2048 .bf16) (hM : M.IsWhole) (x : Vec Ideal S2048x2048 .bf16) :
    View.readAt (Elt Ideal) M.view (Rect.unit (s := S2048x2048) ![0, 0] S2048x2048.size inb_S2048x2048_S2048x2048_0_0).toLoadRect (hM.unread x) = x := by
  rw [View.readAt_eq_ld, hM.read_unread, View.ld_unit_zero (S := S2048x2048) botHz4]
/-- of a table block's staging buffer likewise; -/
theorem botLdX4 (M : Memref sig .tc .vmem S2048x64 .f32) (hM : M.IsWhole) (x : Vec Ideal S2048x64 .f32) :
    View.readAt (Elt Ideal) M.view (Rect.unit (s := S2048x64) ![0, 0] S2048x64.size inb_S2048x64_S2048x64_0_0).toLoadRect (hM.unread x) = x := by
  rw [View.readAt_eq_ld, hM.read_unread, View.ld_unit_zero (S := S2048x64) botHz4]
/-- of an accumulator, of whatever it holds. -/
theorem botLdS4 (M : Memref sig .tc .vmem S4096x64 .f32) (f : M.view.ty.Contents (Elt Ideal)) :
    View.readAt (Elt Ideal) M.view (Rect.unit (s := S4096x64) ![0, 0] S4096x64.size inb_S4096x64_S4096x64_0_0).toLoadRect f = M.view.read (Elt Ideal) f := by
  rw [View.readAt_eq_ld, View.ld_unit_zero (S := S4096x64) botHz4]

/-- A load of rows [o, o + 2048) of an accumulator holding xs reads, at (r, d), xs at (o + r, d). -/
theorem botBandLd4 (M : Memref sig .tc .vmem S4096x64 .f32) (hM : M.IsWhole) (xs : Vec Ideal S4096x64 .f32)
    (off : Fin 2 → ℕ) (inb : ∀ a, off a + S2048x64.size a ≤ S4096x64.size a) (o : ℕ) (ho : off = ![o, 0])
    (u : Fin 4096) (r : Fin 2048) (d : Fin 64) (hu : u.val = o + r.val) :
    View.readAt (Elt Ideal) M.view (Rect.unit (s := S4096x64) off S2048x64.size inb).toLoadRect (hM.unread xs) (ix2 r d) = xs (ix2 u d) := by
  subst ho
  rw [View.readAt_eq_ld, hM.read_unread]
  show xs _ = xs _
  refine congrArg xs (funext fun a => Fin.ext ?_)
  match a with
  | ⟨0, _⟩ => show o + 1 * r.val = u.val; omega
  | ⟨1, _⟩ => show 0 + 1 * d.val = d.val; omega

/-- The same load right after the accumulator was reset reads zero. -/
theorem botBandZero4 (M : Memref sig .tc .vmem S4096x64 .f32) (off : Fin 2 → ℕ) (inb : ∀ a, off a + S2048x64.size a ≤ S4096x64.size a)
    (x : S2048x64.Idx) :
    View.readAt (Elt Ideal) M.view (Rect.unit (s := S4096x64) off S2048x64.size inb).toLoadRect
      (M.view.writes (Elt Ideal) M.view.junk
        [⟨Rect.unit (s := S4096x64) ![0, 0] S4096x64.size inb_S4096x64_S4096x64_0_0, k4_pay3 (F := Ideal)⟩]) x = 0 := by
  rw [View.readAt_writes_junk_eq_canon, View.canon_unit_zero botHz4]
  exact botZero4 _

/-- A point that adds without resetting, inside the band it rewrites (rows [o, o + 2048)): the accumulator's entry
    grows by the tile product; -/
theorem botStepB4_in (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k4_off1 i = ![o, 0]) (u : Fin 4096) (r : Fin 2048) (d : Fin 64) (hu : u.val = o + r.val) :
    sout4_B_1 (F := Ideal) c i arg3 harg3 arg4 harg4 arg5 harg5 arg6 harg6 arg7 harg7 arg8 harg8 arg9 harg9 hc0 hc1 x0 x1 x2 xs0 xs1 (ix2 u d)
      = xs1 (ix2 u d) + ∑ k : Fin 2048, x0 (ix2 r k) * x2 (ix2 k d) := by
  unfold sout4_B_1 kernelRun4_B
  dsimp only
  rw [botLdW4 arg3 harg3 x0, botLdX4 arg5 harg5 x2]
  refine (View.read_writes_cons_rows_of_mem arg9.view (harg9.unread xs1) (k4_off1_inb i) _ [] (ix2 u d) (ix2 r d) ho hu rfl).trans ?_
  refine (botPay4 x0 x2 _ r d).trans ?_
  rw [botBandLd4 arg9 harg9 xs1 (k4_off1 i) (k4_off1_inb i) o ho u r d hu]

/-- outside that band the entry is what it was. -/
theorem botStepB4_out (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : ¬cond4_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k4_off1 i = ![o, 0]) (u : Fin 4096) (d : Fin 64) (hu : u.val < o ∨ o + 2048 ≤ u.val) :
    sout4_B_1 (F := Ideal) c i arg3 harg3 arg4 harg4 arg5 harg5 arg6 harg6 arg7 harg7 arg8 harg8 arg9 harg9 hc0 hc1 x0 x1 x2 xs0 xs1 (ix2 u d) = xs1 (ix2 u d) := by
  unfold sout4_B_1 kernelRun4_B
  dsimp only
  refine (View.read_writes_cons_rows_of_not_mem arg9.view (harg9.unread xs1) (k4_off1_inb i) _ [] (ix2 u d) ho rfl hu).trans ?_
  rw [View.writes_nil, harg9.read_unread]

/-- The last point of a half adds in the same way: inside the band … -/
theorem botStepC4_in (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k4_off1 i = ![o, 0]) (u : Fin 4096) (r : Fin 2048) (d : Fin 64) (hu : u.val = o + r.val) :
    sout4_C_1 (F := Ideal) c i arg3 harg3 arg4 harg4 arg5 harg5 arg6 harg6 arg7 harg7 arg8 harg8 arg9 harg9 hc0 hc1 x0 x1 x2 xs0 xs1 (ix2 u d)
      = xs1 (ix2 u d) + ∑ k : Fin 2048, x0 (ix2 r k) * x2 (ix2 k d) := by
  unfold sout4_C_1 kernelRun4_C
  dsimp only
  sl_unfold_run_names
  rw [botLdW4 arg3 harg3 x0, botLdX4 arg5 harg5 x2]
  refine (View.read_writes_cons_rows_of_mem arg9.view (harg9.unread xs1) (k4_off1_inb i) _ [] (ix2 u d) (ix2 r d) ho hu rfl).trans ?_
  refine (botPay4 x0 x2 _ r d).trans ?_
  rw [botBandLd4 arg9 harg9 xs1 (k4_off1 i) (k4_off1_inb i) o ho u r d hu]

/-- … and outside it. -/
theorem botStepC4_out (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec Ideal S2048x2048 .bf16) (x1 : Vec Ideal S2048x64 .f32) (x2 : Vec Ideal S2048x64 .f32) (xs0 : Vec Ideal S4096x64 .f32) (xs1 : Vec Ideal S4096x64 .f32)
    (o : ℕ) (ho : k4_off1 i = ![o, 0]) (u : Fin 4096) (d : Fin 64) (hu : u.val < o ∨ o + 2048 ≤ u.val) :
    sout4_C_1 (F := Ideal) c i arg3 harg3 arg4 harg4 arg5 harg5 arg6 harg6 arg7 harg7 arg8 harg8 arg9 harg9 hc0 hc1 x0 x1 x2 xs0 xs1 (ix2 u d) = xs1 (ix2 u d) := by
  unfold sout4_C_1 kernelRun4_C
  dsimp only
  sl_unfold_run_names
  refine (View.read_writes_cons_rows_of_not_mem arg9.view (harg9.unread xs1) (k4_off1_inb i) _ [] (ix2 u d) ho rfl hu).trans ?_
  rw [View.writes_nil, harg9.read_unread]

/-- There the output block receives the accumulator as that point leaves it, under a leading unit axis. -/
theorem botOutC4 (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : ¬cond4_0 i) (hc1 : cond4_1 i) (x0 : Vec Ideal S2048x2048 .bf16) (x1 : Vec Ideal S2048x64 .f32) (x2 : Vec Ideal S2048x64 .f32) (xs0 : Vec Ideal S4096x64 .f32) (xs1 : Vec Ideal S4096x64 .f32)
    (h : Fin 1) (u : Fin 4096) (d : Fin 64) :
    out4_C_4 (F := Ideal) c i arg3 harg3 arg4 harg4 arg5 harg5 arg6 harg6 arg7 harg7 arg8 harg8 arg9 harg9 hc0 hc1 x0 x1 x2 xs0 xs1 (ix3 h u d)
      = sout4_C_1 (F := Ideal) c i arg3 harg3 arg4 harg4 arg5 harg5 arg6 harg6 arg7 harg7 arg8 harg8 arg9 harg9 hc0 hc1 x0 x1 x2 xs0 xs1 (ix2 u d) := by
  unfold out4_C_4 sout4_C_1 kernelRun4_C
  dsimp only
  sl_unfold_run_names
  rw [View.read_writes_junk_apply_eq_canon, View.canon_unit_zero botHz4']
  refine (botCopy4 _ h u d).trans ?_
  rw [botLdS4]

/-- A point that resets first, inside the band it then rewrites: zero plus the tile product; -/
theorem botStepA4_in (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec Ideal S2048x2048 .bf16) (x1 : Vec Ideal S2048x64 .f32) (x2 : Vec Ideal S2048x64 .f32)
    (o : ℕ) (ho : k4_off1 i = ![o, 0]) (u : Fin 4096) (r : Fin 2048) (d : Fin 64) (hu : u.val = o + r.val) :
    sout4_A_1 (F := Ideal) c i arg3 harg3 arg4 harg4 arg5 harg5 arg6 harg6 arg7 harg7 arg8 harg8 arg9 harg9 hc0 hc1 x0 x1 x2 (ix2 u d)
      = 0 + ∑ k : Fin 2048, x0 (ix2 r k) * x2 (ix2 k d) := by
  unfold sout4_A_1 kernelRun4_A
  dsimp only
  sl_unfold_run_names
  rw [botLdW4 arg3 harg3 x0, botLdX4 arg5 harg5 x2]
  refine (View.read_writes_cons_rows_of_mem _ _ (k4_off1_inb i) _ _ (ix2 u d) (ix2 r d) ho hu rfl).trans ?_
  refine (botPay4 x0 x2 _ r d).trans ?_
  rw [botBandZero4]

/-- outside it, zero. -/
theorem botStepA4_out (c : Dev nD) (i : grid4.Coords) (arg3 : Memref sig .tc .vmem S2048x2048 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S4096x64 .f32) (harg6 : arg6.IsWhole) (arg7 : Memref sig .tc .vmem S1x4096x64 .f32) (harg7 : arg7.IsWhole) (arg8 : Memref sig .tc .vmem S4096x64 .f32) (harg8 : arg8.IsWhole) (arg9 : Memref sig .tc .vmem S4096x64 .f32) (harg9 : arg9.IsWhole) (hc0 : cond4_0 i) (hc1 : ¬cond4_1 i) (x0 : Vec Ideal S2048x2048 .bf16) (x1 : Vec Ideal S2048x64 .f32) (x2 : Vec Ideal S2048x64 .f32)
    (o : ℕ) (ho : k4_off1 i = ![o, 0]) (u : Fin 4096) (d : Fin 64) (hu : u.val < o ∨ o + 2048 ≤ u.val) :
    sout4_A_1 (F := Ideal) c i arg3 harg3 arg4 harg4 arg5 harg5 arg6 harg6 arg7 harg7 arg8 harg8 arg9 harg9 hc0 hc1 x0 x1 x2 (ix2 u d) = 0 := by
  unfold sout4_A_1 kernelRun4_A
  dsimp only
  sl_unfold_run_names
  refine (View.read_writes_cons_rows_of_not_mem _ _ (k4_off1_inb i) _ _ (ix2 u d) ho rfl hu).trans ?_
  rw [View.read_writes_junk_apply_eq_canon, View.canon_unit_zero botHz4]
  exact botZero4 _

end Cert.KernelIdeal.Hand

end
-- ==== Proof.Val4BotC.lean ====
/-
  One propagation layer's user-side accumulator after every grid position, in closed form over the arrays as the
  region finds them.

  The grid position n = 4·h + 2·i + j names the column half h of the weights, the row tile i and the column tile j
  of the half; the point loads the weights tile (i, 2h + j), whose 2048 columns are columns (2h + j)·2048 + k of the
  weights array, and the table block of the same 2048 rows. Writing T q (u, d) for the sum over k < 2048 of
  weights(u, q·2048 + k) · table(q·2048 + k, d), the accumulator's entry (u, d) after position n is zero, 0 + T (2h),
  or (0 + T (2h)) + T (2h + 1) according to how many of the half's two tiles row u's band has received: the band
  u / 2048 is rewritten at the two positions of row tile i = u / 2048, and the whole accumulator is reset at the
  half's first position before that position's own tile is added.
-/
import proofs.«142347_j15487652069895_2_alg».proof.Proof.Val4BotB

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable (V : (c : Dev nD) → (b : Ref sig .tc) → Buf (Elt Ideal) ((c : Thread nD τ).loc b))

/-- The weights array and the table whose rows the products contract, as the region finds them. -/
abbrev botW4 (c : Dev nD) : S4096x8192.Idx → EReal := V c (Pipeline.arrRef spec4 0)
abbrev botX4 (c : Dev nD) : S8192x64.Idx → EReal := V c (Pipeline.arrRef spec4 2)

/-- The grid position t = 4·(column half) + 2·(row tile) + (column tile of the half): the block indices of the
    weights tile, of the table block and of the output block, and the band's first row, in closed form. -/
theorem botIdx4 : ∀ t : Fin cfg4.N,
    win4_0.index t 0 = (t.val / 2) % 2 ∧ win4_0.index t 1 = 2 * (t.val / 4) + t.val % 2
      ∧ win4_2.index t 0 = 2 * (t.val / 4) + t.val % 2 ∧ win4_2.index t 1 = 0 :=
  (by decide +kernel : ∀ t : Fin grid4.N,
    win4_0.index t 0 = (t.val / 2) % 2 ∧ win4_0.index t 1 = 2 * (t.val / 4) + t.val % 2
      ∧ win4_2.index t 0 = 2 * (t.val / 4) + t.val % 2 ∧ win4_2.index t 1 = 0)

theorem botOff4 : ∀ t : Fin cfg4.N, k4_off1 (grid4.coords t) = ![2048 * ((t.val / 2) % 2), 0] :=
  (by decide +kernel : ∀ t : Fin grid4.N, k4_off1 (grid4.coords t) = ![2048 * ((t.val / 2) % 2), 0])

/-- Column k of column tile q (of four tiles of 2048 columns). -/
def botCol4 (q : ℕ) (k : Fin 2048) : Fin 8192 := ⟨(q * 2048 + k.val) % 8192, Nat.mod_lt _ (by decide)⟩

/-- The weights tile and the table block a point's body loads. -/
abbrev botBW4 (c : Dev nD) (t : Fin cfg4.N) : S2048x2048.Idx → EReal := iblk4 V c 0 t
abbrev botBX4 (c : Dev nD) (t : Fin cfg4.N) : S2048x64.Idx → EReal := iblk4 V c 2 t

/-- The weights tile at a point, read off the weights array: row tile (t / 2) % 2, column tile 2·(t / 4) + t % 2. -/
theorem botBlkW4 (c : Dev nD) (t : Fin cfg4.N) (r k : Fin 2048) (u : Fin 4096)
    (hu : u.val = 2048 * ((t.val / 2) % 2) + r.val) :
    botBW4 V c t (ix2 r k) = botW4 V c (ix2 u (botCol4 (2 * (t.val / 4) + t.val % 2) k)) := by
  obtain ⟨h0, h1, -, -⟩ := botIdx4 t
  have ht : t.val < 8 := lt_of_lt_of_eq t.isLt (show cfg4.N = 8 from N_4)
  show (iblk4 V c _ t) _ = _
  unfold iblk4
  rw [View.read_apply]
  show (V c (Pipeline.arrRef spec4 0) : S4096x8192.Idx → EReal) _ = (V c (Pipeline.arrRef spec4 0) : S4096x8192.Idx → EReal) _
  refine congrArg (V c (Pipeline.arrRef spec4 0) : S4096x8192.Idx → EReal) (funext fun a => Fin.ext ?_)
  match a with
  | ⟨0, _⟩ => show win4_0.index t 0 * 2048 + 1 * r.val = u.val; rw [h0, hu]; omega
  | ⟨1, _⟩ =>
    show win4_0.index t 1 * 2048 + 1 * k.val = ((2 * (t.val / 4) + t.val % 2) * 2048 + k.val) % 8192
    rw [h1]; have := k.isLt; omega

/-- The table block at a point: rows of column tile 2·(t / 4) + t % 2. -/
theorem botBlkX4 (c : Dev nD) (t : Fin cfg4.N) (k : Fin 2048) (d : Fin 64) :
    botBX4 V c t (ix2 k d) = botX4 V c (ix2 (botCol4 (2 * (t.val / 4) + t.val % 2) k) d) := by
  obtain ⟨-, -, h0, h1⟩ := botIdx4 t
  have ht : t.val < 8 := lt_of_lt_of_eq t.isLt (show cfg4.N = 8 from N_4)
  show (iblk4 V c _ t) _ = _
  unfold iblk4
  rw [View.read_apply]
  show (V c (Pipeline.arrRef spec4 2) : S8192x64.Idx → EReal) _ = (V c (Pipeline.arrRef spec4 2) : S8192x64.Idx → EReal) _
  refine congrArg (V c (Pipeline.arrRef spec4 2) : S8192x64.Idx → EReal) (funext fun a => Fin.ext ?_)
  match a with
  | ⟨0, _⟩ =>
    show win4_2.index t 0 * 2048 + 1 * k.val = ((2 * (t.val / 4) + t.val % 2) * 2048 + k.val) % 8192
    rw [h0]; have := k.isLt; omega
  | ⟨1, _⟩ => show win4_2.index t 1 * 64 + 1 * d.val = d.val; rw [h1]; omega

/-- Column tile q's share of entry (u, d) of the product of the weights with the table. -/
def botTile4 (c : Dev nD) (q : ℕ) (u : Fin 4096) (d : Fin 64) : EReal :=
  ∑ k : Fin 2048, botW4 V c (ix2 u (botCol4 q k)) * botX4 V c (ix2 (botCol4 q k) d)

/-- The tile product a point adds at row r of its band is that share, for the point's column tile. -/
theorem botTileBlk4 (c : Dev nD) (t : Fin cfg4.N) (u : Fin 4096) (r : Fin 2048) (d : Fin 64)
    (hu : u.val = 2048 * ((t.val / 2) % 2) + r.val) :
    ∑ k : Fin 2048, botBW4 V c t (ix2 r k) * botBX4 V c t (ix2 k d)
      = botTile4 V c (2 * (t.val / 4) + t.val % 2) u d :=
  Finset.sum_congr rfl fun k _ => by rw [botBlkW4 V c t r k u hu, botBlkX4 V c t k d]

/-- What entry (u, d) of the accumulator holds once m of column half hh's two tiles have been added to it. -/
def botAcc4 (c : Dev nD) (hh : ℕ) (m : ℕ) (u : Fin 4096) (d : Fin 64) : EReal :=
  match m with
  | 0 => 0
  | 1 => 0 + botTile4 V c (2 * hh) u d
  | _ => (0 + botTile4 V c (2 * hh) u d) + botTile4 V c (2 * hh + 1) u d

/-- How many tiles of the current half row u has received after position n: its band (u / 2048) is rewritten at the
    two points of row tile (n / 2) % 2. -/
def botCnt4 (n : ℕ) (u : Fin 4096) : ℕ :=
  if u.val / 2048 < (n / 2) % 2 then 2 else if u.val / 2048 = (n / 2) % 2 then n % 2 + 1 else 0

/-- Arithmetic of the count: a resetting position leaves one tile in its own band, … -/
theorem botAccA4_in (c : Dev nD) (m : ℕ) (h0 : m % 4 = 0) (u : Fin 4096) (d : Fin 64) (hb : u.val / 2048 = (m / 2) % 2) :
    0 + botTile4 V c (2 * (m / 4) + m % 2) u d = botAcc4 V c (m / 4) (botCnt4 m u) u d := by
  have hu := u.isLt
  have hc : botCnt4 m u = 1 := by unfold botCnt4; split_ifs <;> omega
  have hq : 2 * (m / 4) + m % 2 = 2 * (m / 4) := by omega
  rw [hc, hq]; rfl
/-- … none elsewhere; -/
theorem botAccA4_out (c : Dev nD) (m : ℕ) (h0 : m % 4 = 0) (u : Fin 4096) (d : Fin 64) (hb : ¬ u.val / 2048 = (m / 2) % 2) :
    0 = botAcc4 V c (m / 4) (botCnt4 m u) u d := by
  have hu := u.isLt
  have hc : botCnt4 m u = 0 := by unfold botCnt4; split_ifs <;> omega
  rw [hc]; rfl
/-- a later position of the half adds its tile to its own band, … -/
theorem botAccIn4 (c : Dev nD) (n : ℕ) (h0 : ¬ n % 4 = 0) (u : Fin 4096) (d : Fin 64) (hb : u.val / 2048 = (n / 2) % 2) :
    botAcc4 V c ((n - 1) / 4) (botCnt4 (n - 1) u) u d + botTile4 V c (2 * (n / 4) + n % 2) u d
      = botAcc4 V c (n / 4) (botCnt4 n u) u d := by
  have hu := u.isLt
  have h4 : (n - 1) / 4 = n / 4 := by omega
  rcases (show n % 4 = 1 ∨ n % 4 = 2 ∨ n % 4 = 3 by omega) with h | h | h
  · have hc1 : botCnt4 (n - 1) u = 1 := by unfold botCnt4; split_ifs <;> omega
    have hc2 : botCnt4 n u = 2 := by unfold botCnt4; split_ifs <;> omega
    have hq : 2 * (n / 4) + n % 2 = 2 * (n / 4) + 1 := by omega
    rw [hc1, hc2, hq, h4]; rfl
  · have hc1 : botCnt4 (n - 1) u = 0 := by unfold botCnt4; split_ifs <;> omega
    have hc2 : botCnt4 n u = 1 := by unfold botCnt4; split_ifs <;> omega
    have hq : 2 * (n / 4) + n % 2 = 2 * (n / 4) := by omega
    rw [hc1, hc2, hq, h4]; rfl
  · have hc1 : botCnt4 (n - 1) u = 1 := by unfold botCnt4; split_ifs <;> omega
    have hc2 : botCnt4 n u = 2 := by unfold botCnt4; split_ifs <;> omega
    have hq : 2 * (n / 4) + n % 2 = 2 * (n / 4) + 1 := by omega
    rw [hc1, hc2, hq, h4]; rfl
/-- … and leaves the other band's count. -/
theorem botAccOut4 (c : Dev nD) (n : ℕ) (h0 : ¬ n % 4 = 0) (u : Fin 4096) (d : Fin 64) (hb : ¬ u.val / 2048 = (n / 2) % 2) :
    botAcc4 V c ((n - 1) / 4) (botCnt4 (n - 1) u) u d = botAcc4 V c (n / 4) (botCnt4 n u) u d := by
  have hu := u.isLt
  have hc : botCnt4 (n - 1) u = botCnt4 n u := by unfold botCnt4; split_ifs <;> omega
  rw [hc, show (n - 1) / 4 = n / 4 by omega]

/-- THE ACCUMULATOR AFTER EVERY POSITION: entry (u, d) holds the tiles of the current column half added so far into
    row u's band, in the order zero, first tile, second tile. By induction on the position; each position is in one
    of the three cases by its remainder modulo 4, and row u is inside or outside the band the position rewrites. -/
theorem botInv4 (c : Dev nD) : ∀ (n : ℕ) (hn : n < cfg4.N) (u : Fin 4096) (d : Fin 64),
    (outsAt4 V c n hn).2.2.2 (ix2 u d) = botAcc4 V c (n / 4) (botCnt4 n u) u d := by
  intro n
  induction n using Nat.strong_induction_on with
  | _ n ih =>
    intro hn u d
    have hu4 := u.isLt
    have hN : n < 8 := lt_of_lt_of_eq hn (show cfg4.N = 8 from N_4)
    by_cases hb : u.val / 2048 = (n / 2) % 2
    · have hr : u.val - 2048 * ((n / 2) % 2) < 2048 := by omega
      have hu : u.val = 2048 * ((n / 2) % 2) + (⟨u.val - 2048 * ((n / 2) % 2), hr⟩ : Fin 2048).val := by
        show u.val = 2048 * ((n / 2) % 2) + (u.val - 2048 * ((n / 2) % 2)); omega
      by_cases h0 : n % 4 = 0
      · have h1 : ¬ n % 4 = 3 := by omega
        rw [outsAt4_A V c ⟨n, hn⟩ h0 h1]
        dsimp only
        refine (botStepA4_in c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) (ms4_4 ⟨n, hn⟩) (hs4_4 ⟨n, hn⟩) scM4_0 hsc4_0 scM4_1 hsc4_1 _ _ (iblk4 V c 0 ⟨n, hn⟩) (iblk4 V c 1 ⟨n, hn⟩) (iblk4 V c 2 ⟨n, hn⟩)
          (2048 * ((n / 2) % 2)) (botOff4 ⟨n, hn⟩) u ⟨u.val - 2048 * ((n / 2) % 2), hr⟩ d hu).trans ?_
        exact (congrArg (fun x : EReal => 0 + x) (botTileBlk4 V c ⟨n, hn⟩ u ⟨u.val - 2048 * ((n / 2) % 2), hr⟩ d hu)).trans (botAccA4_in V c n h0 u d hb)
      · have hprev := ih (n - 1) (by omega) (Nat.lt_of_le_of_lt (Nat.sub_le _ _) hn) u d
        by_cases h1 : n % 4 = 3
        · rw [outsAt4_C V c ⟨n, hn⟩ h0 h1]
          dsimp only
          refine (botStepC4_in c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) (ms4_4 ⟨n, hn⟩) (hs4_4 ⟨n, hn⟩) scM4_0 hsc4_0 scM4_1 hsc4_1 _ _ (iblk4 V c 0 ⟨n, hn⟩) (iblk4 V c 1 ⟨n, hn⟩) (iblk4 V c 2 ⟨n, hn⟩) _ _
            (2048 * ((n / 2) % 2)) (botOff4 ⟨n, hn⟩) u ⟨u.val - 2048 * ((n / 2) % 2), hr⟩ d hu).trans ?_
          exact (congrArg₂ (fun x y : EReal => x + y) hprev (botTileBlk4 V c ⟨n, hn⟩ u ⟨u.val - 2048 * ((n / 2) % 2), hr⟩ d hu)).trans (botAccIn4 V c n h0 u d hb)
        · rw [outsAt4_B V c ⟨n, hn⟩ h0 h1]
          dsimp only
          refine (botStepB4_in c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) (ms4_4 ⟨n, hn⟩) (hs4_4 ⟨n, hn⟩) scM4_0 hsc4_0 scM4_1 hsc4_1 _ _ (iblk4 V c 0 ⟨n, hn⟩) (iblk4 V c 1 ⟨n, hn⟩) (iblk4 V c 2 ⟨n, hn⟩) _ _
            (2048 * ((n / 2) % 2)) (botOff4 ⟨n, hn⟩) u ⟨u.val - 2048 * ((n / 2) % 2), hr⟩ d hu).trans ?_
          exact (congrArg₂ (fun x y : EReal => x + y) hprev (botTileBlk4 V c ⟨n, hn⟩ u ⟨u.val - 2048 * ((n / 2) % 2), hr⟩ d hu)).trans (botAccIn4 V c n h0 u d hb)
    · have hout : u.val < 2048 * ((n / 2) % 2) ∨ 2048 * ((n / 2) % 2) + 2048 ≤ u.val := by omega
      by_cases h0 : n % 4 = 0
      · have h1 : ¬ n % 4 = 3 := by omega
        rw [outsAt4_A V c ⟨n, hn⟩ h0 h1]
        dsimp only
        refine (botStepA4_out c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) (ms4_4 ⟨n, hn⟩) (hs4_4 ⟨n, hn⟩) scM4_0 hsc4_0 scM4_1 hsc4_1 _ _ (iblk4 V c 0 ⟨n, hn⟩) (iblk4 V c 1 ⟨n, hn⟩) (iblk4 V c 2 ⟨n, hn⟩)
          (2048 * ((n / 2) % 2)) (botOff4 ⟨n, hn⟩) u d hout).trans ?_
        exact botAccA4_out V c n h0 u d hb
      · have hprev := ih (n - 1) (by omega) (Nat.lt_of_le_of_lt (Nat.sub_le _ _) hn) u d
        by_cases h1 : n % 4 = 3
        · rw [outsAt4_C V c ⟨n, hn⟩ h0 h1]
          dsimp only
          refine (botStepC4_out c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) (ms4_4 ⟨n, hn⟩) (hs4_4 ⟨n, hn⟩) scM4_0 hsc4_0 scM4_1 hsc4_1 _ _ (iblk4 V c 0 ⟨n, hn⟩) (iblk4 V c 1 ⟨n, hn⟩) (iblk4 V c 2 ⟨n, hn⟩) _ _
            (2048 * ((n / 2) % 2)) (botOff4 ⟨n, hn⟩) u d hout).trans ?_
          exact hprev.trans (botAccOut4 V c n h0 u d hb)
        · rw [outsAt4_B V c ⟨n, hn⟩ h0 h1]
          dsimp only
          refine (botStepB4_out c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) (ms4_4 ⟨n, hn⟩) (hs4_4 ⟨n, hn⟩) scM4_0 hsc4_0 scM4_1 hsc4_1 _ _ (iblk4 V c 0 ⟨n, hn⟩) (iblk4 V c 1 ⟨n, hn⟩) (iblk4 V c 2 ⟨n, hn⟩) _ _
            (2048 * ((n / 2) % 2)) (botOff4 ⟨n, hn⟩) u d hout).trans ?_
          exact hprev.trans (botAccOut4 V c n h0 u d hb)
end

end Cert.KernelIdeal.Hand

end
-- ==== Proof.Val4BotD.lean ====
/-
  One propagation layer's user-side output array after the region, at the ideal float values.

  The output array has two slices of 4096 rows, one per column half of the weights. Slice h is written back once, at
  the last position of half h (position 4·h + 3), from the output block, which there holds the accumulator: every row
  has received both tiles of the half, so entry (h, u, d) is (0 + T (2h)) + T (2h + 1), with T q (u, d) the sum over
  k < 2048 of weights(u, q·2048 + k) · table(q·2048 + k, d). The two slices' blocks cover the array. Regrouping the
  two tile sums (only the order and grouping of the terms change, so no finiteness is needed on the extended reals),
  entry (h, u, d) is the sum over the 4096 columns k of half h of weights(u, 4096·h + k) · table(4096·h + k, d).
-/
import proofs.«142347_j15487652069895_2_alg».proof.Proof.Val4BotC
import proofs.«142347_j15487652069895_2_alg».proof.Proof.SumLaws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section
variable (V : (c : Dev nD) → (b : Ref sig .tc) → Buf (Elt Ideal) ((c : Thread nD τ).loc b))

/-- The output block of position t is block (t / 4, 0, 0) of the output array. -/
theorem botIdxO4 : ∀ t : Fin cfg4.N, win4_4.index t 0 = t.val / 4 ∧ win4_4.index t 1 = 0 ∧ win4_4.index t 2 = 0 :=
  (by decide +kernel : ∀ t : Fin grid4.N, win4_4.index t 0 = t.val / 4 ∧ win4_4.index t 1 = 0 ∧ win4_4.index t 2 = 0)

/-- What the output array ends holding: slice h is column half h's two tiles accumulated from zero. -/
def botG4 (c : Dev nD) : S2x4096x64.Idx → EReal := fun p => botAcc4 V c (p 0).val 2 (p 1) (p 2)

theorem botG4_apply (c : Dev nD) (a : Fin 2) (u : Fin 4096) (d : Fin 64) :
    botG4 V c (ix3 a u d) = botAcc4 V c a.val 2 u d := rfl

theorem botAccCongr4 (c : Dev nD) {a a' : ℕ} {u u' : Fin 4096} {d d' : Fin 64} (ha : a = a') (hu : u.val = u'.val)
    (hd : d.val = d'.val) : botAcc4 V c a 2 u d = botAcc4 V c a' 2 u' d' := by
  obtain rfl := ha; obtain rfl := Fin.ext hu; obtain rfl := Fin.ext hd; rfl

/-- What the output block holds after the last position of a column half: both tiles of the half, in every row. -/
theorem botOut4 (c : Dev nD) (t : Fin cfg4.N) (h0 : ¬ t.val % 4 = 0) (h3 : t.val % 4 = 3) :
    (outsAt4 V c t.val t.isLt).2.1 = fun y : S1x4096x64.Idx => botAcc4 V c (t.val / 4) 2 (y 1) (y 2) := by
  funext y
  obtain ⟨h, u, d, rfl⟩ : ∃ (h : Fin 1) (u : Fin 4096) (d : Fin 64), y = ix3 h u d := ⟨y 0, y 1, y 2, eq_ix3 y⟩
  have hc : botCnt4 t.val u = 2 := by unfold botCnt4; have := u.isLt; split_ifs <;> omega
  have hinv := botInv4 V c t.val t.isLt u d
  rw [hc] at hinv
  rw [outsAt4_C V c t h0 h3] at hinv ⊢
  dsimp only at hinv ⊢
  exact (botOutC4 c (grid4.coords t) (ms4_0 t) (hs4_0 t) (ms4_1 t) (hs4_1 t) (ms4_2 t) (hs4_2 t) (ms4_3 t) (hs4_3 t) (ms4_4 t) (hs4_4 t) scM4_0 hsc4_0 scM4_1 hsc4_1 _ _ (iblk4 V c 0 t) (iblk4 V c 1 t) (iblk4 V c 2 t) _ _ h u d).trans hinv

/-- The write-back at the last position of a column half writes that half's slice. -/
theorem botFlushed4 (c : Dev nD) (t : Fin cfg4.N) (hf : (cfg4.win 4).flush t = true) :
    (dat4 V c).flushed 4 t = ((cfg4.win 4).blk t).view.read (Elt Ideal) (botG4 V c) := by
  have h3 : t.val % 4 = 3 := (flush4_4 t).mp hf
  have h0 : ¬ t.val % 4 = 0 := by omega
  obtain ⟨e0, e1, e2⟩ := botIdxO4 t
  show (cfg4.win 4).cut (grid4.coords t) ((dat4 V c).after 4 t) = _
  rw [after4_4, botOut4 V c t h0 h3]
  funext y
  rw [View.read_apply]
  have hy0 : (y 0).val < 1 := (y 0).isLt
  show botAcc4 V c (t.val / 4) 2 _ _ = botG4 V c (((cfg4.win 4).blk t).view.emb y)
  unfold botG4
  refine botAccCongr4 V c ?_ ?_ ?_
  · show t.val / 4 = win4_4.index t 0 * 1 + 1 * (y 0).val; rw [e0]; omega
  · show (y 1).val = win4_4.index t 1 * 4096 + 1 * (y 1).val; rw [e1]; omega
  · show (y 2).val = win4_4.index t 2 * 64 + 1 * (y 2).val; rw [e2]; omega

/-- An index of the output array is in position t's block iff each coordinate is in the block's range. -/
theorem botMemBlk4 (t : Fin cfg4.N) (i : S2x4096x64.Idx) :
    Iff (i ∈ ((cfg4.win 4).blk t).view.set) (∀ a : Fin 3, win4_4.index t a * S1x4096x64.size a ≤ (i a).val ∧ (i a).val < win4_4.index t a * S1x4096x64.size a + S1x4096x64.size a) := by
  show Iff (i ∈ ((View.whole (Pipeline.arrRef spec4 4)).slice (win4_4.rect t)).set) _
  rw [View.set_slice_whole, Rect.mem_set_unit]
  exact Iff.rfl
/-- Slice h of the output array is written back at position 4·h + 3. -/
theorem botCover4 (i : S2x4096x64.Idx) : ∃ t : Fin cfg4.N, (cfg4.win 4).flush t = true ∧ i ∈ ((cfg4.win 4).blk t).view.set := by
  have hN : cfg4.N = 8 := N_4
  have h0 : (i 0).val < 2 := (i 0).isLt
  have h1 : (i 1).val < 4096 := (i 1).isLt
  have h2 : (i 2).val < 64 := (i 2).isLt
  have hlt : 4 * (i 0).val + 3 < cfg4.N := by rw [hN]; omega
  obtain ⟨e0, e1, e2⟩ := botIdxO4 ⟨4 * (i 0).val + 3, hlt⟩
  have e0' : win4_4.index ⟨4 * (i 0).val + 3, hlt⟩ 0 = (4 * (i 0).val + 3) / 4 := e0
  refine ⟨⟨4 * (i 0).val + 3, hlt⟩, (flush4_4 _).mpr (by show (4 * (i 0).val + 3) % 4 = 3; omega), ?_⟩
  rw [botMemBlk4]
  intro a
  match a with
  | ⟨0, _⟩ => show win4_4.index ⟨4 * (i 0).val + 3, hlt⟩ 0 * 1 ≤ (i 0).val ∧ (i 0).val < win4_4.index ⟨4 * (i 0).val + 3, hlt⟩ 0 * 1 + 1; rw [e0']; omega
  | ⟨1, _⟩ => show win4_4.index ⟨4 * (i 0).val + 3, hlt⟩ 1 * 4096 ≤ (i 1).val ∧ (i 1).val < win4_4.index ⟨4 * (i 0).val + 3, hlt⟩ 1 * 4096 + 4096; rw [e1]; omega
  | ⟨2, _⟩ => show win4_4.index ⟨4 * (i 0).val + 3, hlt⟩ 2 * 64 ≤ (i 2).val ∧ (i 2).val < win4_4.index ⟨4 * (i 0).val + 3, hlt⟩ 2 * 64 + 64; rw [e2]; omega

/-- So the output array ends holding, in slice h, column half h's two tiles accumulated from zero. -/
theorem botArr4 (c : Dev nD) : (dat4 V c).arrAt 4 cfg4.N = botG4 V c :=
  (dat4 V c).arrAt_eq_of_cover 4 (botG4 V c) (botFlushed4 V c) botCover4

/-- THE USER-SIDE OUTPUT: slice h, entry (u, d) is the partial product over column half h. -/
theorem botFinal4 (c : Dev nD) (h : Fin 2) (u : Fin 4096) (d : Fin 64) :
    ((dat4 V c).arrAt 4 cfg4.N : S2x4096x64.Idx → EReal) (ix3 h u d)
      = ∑ k : Fin 4096,
          botW4 V c (ix2 u (⟨h.val * 4096 + k.val, by have := h.isLt; have := k.isLt; omega⟩ : Fin 8192))
            * botX4 V c (ix2 (⟨h.val * 4096 + k.val, by have := h.isLt; have := k.isLt; omega⟩ : Fin 8192) d) := by
  rw [botArr4 V c, botG4_apply]
  show (0 + botTile4 V c (2 * h.val) u d) + botTile4 V c (2 * h.val + 1) u d = _
  have hh := h.isLt
  rw [Cert.Spec.sum4096_acc2
    (fun k : Fin 4096 => botW4 V c (ix2 u (⟨h.val * 4096 + k.val, by have := k.isLt; omega⟩ : Fin 8192))
            * botX4 V c (ix2 (⟨h.val * 4096 + k.val, by have := k.isLt; omega⟩ : Fin 8192) d))
    (fun j r => ⟨j.val * 2048 + r.val, by have := j.isLt; have := r.isLt; omega⟩) (fun _ _ => rfl)]
  have hcol : ∀ (j : Fin 2) (r : Fin 2048) (hb : h.val * 4096 + (j.val * 2048 + r.val) < 8192),
      botCol4 (2 * h.val + j.val) r = ⟨h.val * 4096 + (j.val * 2048 + r.val), hb⟩ := fun j r hb => Fin.ext (by
    show ((2 * h.val + j.val) * 2048 + r.val) % 8192 = h.val * 4096 + (j.val * 2048 + r.val)
    have := j.isLt; have := r.isLt; omega)
  unfold botTile4
  refine congrArg₂ (fun x y : EReal => x + y) (congrArg (fun x : EReal => 0 + x) (Finset.sum_congr rfl fun r _ => ?_)) (Finset.sum_congr rfl fun r _ => ?_)
  · rw [show 2 * h.val = 2 * h.val + (0 : Fin 2).val from rfl, hcol 0 r (by have := r.isLt; show h.val * 4096 + (0 * 2048 + r.val) < 8192; omega)]
  · rw [show 2 * h.val + 1 = 2 * h.val + (1 : Fin 2).val from rfl, hcol 1 r (by have := r.isLt; show h.val * 4096 + (1 * 2048 + r.val) < 8192; omega)]
end

end Cert.KernelIdeal.Hand

end
-- ==== Proof.lean ====
/-
  The certificate's five claims for a three-layer propagation over a degree-normalised 0/1 matrix.

  The kernel program is five pallas_calls among host operations: the row sums of the integer matrix (accumulated
  over eight column tiles per row half) beside the two halves' column sums; the weights w(u,i) — the entry over the
  square root of the product of its row and column sums where that root is positive, zero elsewhere —, one tile
  per grid point; and three times the pair of products wᵀ·(first 4096 rows) and w·(last 8192 rows) of the table
  before, accumulated tile by tile in two scratch blocks and copied out at the last point of each column half,
  the second product's two halves added on the host, the pair concatenated (item side first), added to a running
  total that is finally divided by four. The reference computes the same with whole-array operations.

  Frames: each pallas_call is one region of the program with its own proof data — what every window's block and,
  for the last three, the two scratch accumulators hold after every grid point — and the program's run threads the
  unscoped buffers' contents from the launch through the ten segments; no segment writes an argument array.
  The idealization rewrote nothing, so its claim is trivial.
  Values, on the extended reals: the row and column sums are regroupings of finite sums (true in any additive
  commutative monoid, so no finiteness is used); the weights are the same pointwise function on both sides; each
  product is a finite sum regrouped into the tiles the kernel adds in order; so the kernel's result and the
  reference's are the same function of the two argument arrays, index by index.
-/
import proofs.«142347_j15487652069895_2_alg».proof.Defs
import proofs.«142347_j15487652069895_2_alg».proof.Proof.Gen.Kernel
import proofs.«142347_j15487652069895_2_alg».proof.Proof.Gen.KernelIdeal
import proofs.«142347_j15487652069895_2_alg».proof.Proof.Gen.ReferenceIdeal
import proofs.«142347_j15487652069895_2_alg».proof.Proof.Gen.Pre_finite_inputs
import proofs.«142347_j15487652069895_2_alg».proof.Proof.BridgeL
import proofs.«142347_j15487652069895_2_alg».proof.Proof.BridgeW
import proofs.«142347_j15487652069895_2_alg».proof.Proof.Val0
import proofs.«142347_j15487652069895_2_alg».proof.Proof.Val0Col
import proofs.«142347_j15487652069895_2_alg».proof.Proof.BKArgs
import proofs.«142347_j15487652069895_2_alg».proof.Proof.RefRun
import proofs.«142347_j15487652069895_2_alg».proof.Proof.RefIsSpec
import proofs.«142347_j15487652069895_2_alg».proof.Proof.Val2TopB
import proofs.«142347_j15487652069895_2_alg».proof.Proof.Val2BotD
import proofs.«142347_j15487652069895_2_alg».proof.Proof.Val3TopB
import proofs.«142347_j15487652069895_2_alg».proof.Proof.Val3BotD
import proofs.«142347_j15487652069895_2_alg».proof.Proof.Val4TopB
import proofs.«142347_j15487652069895_2_alg».proof.Proof.Val4BotD

set_option maxRecDepth 16384

noncomputable section

namespace Cert.Proof

open Idealize.ShloMosaic Idealize.ShloMosaic.TcCoe Idealize.SL.Sem
open Cert.KernelIdeal Cert.KernelIdeal.Gen Cert.KernelIdeal.Hand
open Idealize.ShloMosaic.ValueIdx
open scoped BigOperators

/-- The result buffer at the end of the idealized kernel's run is the specification's value of the two argument
    arrays: the weights from the first two pallas_calls, then the three layers. -/
theorem result_buf (m : (ℓ : Loc nD τ sig) → Buf (Elt Ideal) ℓ) (c : Dev nD) :
    W10 m c (Proc.devRef .tc main_v39)
      = Cert.Spec.G (m ((c.tc : Thread nD τ).loc main_arg0)) (m ((c.tc : Thread nD τ).loc main_arg1)) := by
  have h := result_eq m c (weights_eq m c (fun u => degU_arr (V0 m) c u) (fun h i => colsum_arr (V0 m) c h i))
    (fun V q d => by have h := top2_G_apply V c q d; rw [← top2_final V c] at h; exact h)
    (fun V h u d => botFinal2 V c h u d)
    (fun V q d => by have h := top3_G_apply V c q d; rw [← top3_final V c] at h; exact h)
    (fun V h u d => botFinal3 V c h u d)
    (fun V q d => by have h := top4_G_apply V c q d; rw [← top4_final V c] at h; exact h)
    (fun V h u d => botFinal4 V c h u d)
  exact h

theorem frame_k : Cert.frame_Kernel := fun m ρ _ => Cert.Kernel.Hand.frame (F := Bits) m ρ
theorem frame_ki : Cert.frame_KernelIdeal := fun m ρ _ => Cert.KernelIdeal.Hand.frame (F := Ideal) m ρ

/-- Both idealized programs, run from memories that agree on the arguments, end with the specification's value of
    the arguments in their result buffers. -/
theorem algebraic : Cert.algebraic_KernelIdeal_ReferenceIdeal := by
  intro m ρ m' ρ' _ hagree
  refine ⟨fun c => Cert.Spec.G (m ((c.tc : Thread nD τ).loc main_arg0)) (m ((c.tc : Thread nD τ).loc main_arg1)), ?_, ?_⟩
  · refine (θ_run (Cert.KernelIdeal.defs (F := Ideal)) _ _).mono (fun r h c => ⟨?_, ?_, ?_⟩) (run_all (F := Ideal) m ρ)
    · exact (h c _ (mem_uc main_v39 (by decide))).trans (result_buf m c)
    · exact (h c _ (mem_uc main_arg0 (by decide))).trans (W10_main_arg0 m c)
    · exact (h c _ (mem_uc main_arg1 (by decide))).trans (W10_main_arg1 m c)
  · refine (θ_run (Cert.ReferenceIdeal.defs (F := Ideal)) _ _).mono (fun r h c => ?_) (Cert.Spec.ref_run_G m' ρ')
    refine ⟨?_, (h c).2.1, (h c).2.2⟩
    have h' := (h c).1
    rw [(hagree c).1, (hagree c).2] at h'
    exact h'

theorem claim : Cert.Claim := ⟨Cert.Kernel.Gen.facts, Cert.KernelIdeal.Gen.facts, Cert.ReferenceIdeal.Gen.facts, Cert.Pre_finite_inputs.Gen.facts,
  frame_k, frame_ki, Cert.Proof.Ref.frame_ri, trivial, algebraic⟩

end Cert.Proof

end
